-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x200000 : Shape := ⟨2, ![4, 200000]⟩
abbrev S4x250000 : Shape := ⟨2, ![4, 250000]⟩
abbrev S4x50000 : Shape := ⟨2, ![4, 50000]⟩
abbrev S5000000 : Shape := ⟨1, ![5000000]⟩
abbrev S50000x4 : Shape := ⟨2, ![50000, 4]⟩
abbrev S50000 : Shape := ⟨1, ![50000]⟩
abbrev S50000x2 : Shape := ⟨2, ![50000, 2]⟩
abbrev S_ : Shape := ⟨0, ![]⟩

class Facts : Prop where
  bcast_S_S4x200000 : S_.BroadcastsInDim S4x200000 (![] : Fin 0 → Fin S4x200000.rank)
  reducesTo_S4x200000_S_d0_1 : S4x200000.ReducesTo [0, 1] S_
  h_S_ : 0 < S_.numel
  bcast_S_S4x250000 : S_.BroadcastsInDim S4x250000 (![] : Fin 0 → Fin S4x250000.rank)
  reducesTo_S4x250000_S_d0_1 : S4x250000.ReducesTo [0, 1] S_
  bcast_S_S4x50000 : S_.BroadcastsInDim S4x50000 (![] : Fin 0 → Fin S4x50000.rank)
  reducesTo_S4x50000_S_d0_1 : S4x50000.ReducesTo [0, 1] S_
  bcast_S_S5000000 : S_.BroadcastsInDim S5000000 (![] : Fin 0 → Fin S5000000.rank)
  reducesTo_S5000000_S_d0 : S5000000.ReducesTo [0] S_
  bcast_S_S50000x4 : S_.BroadcastsInDim S50000x4 (![] : Fin 0 → Fin S50000x4.rank)
  reducesTo_S50000x4_S_d0_1 : S50000x4.ReducesTo [0, 1] S_
  bcast_S_S50000 : S_.BroadcastsInDim S50000 (![] : Fin 0 → Fin S50000.rank)
  reducesTo_S50000_S_d0 : S50000.ReducesTo [0] S_
  bcast_S_S50000x2 : S_.BroadcastsInDim S50000x2 (![] : Fin 0 → Fin S50000x2.rank)
  reducesTo_S50000x2_S_d0_1 : S50000x2.ReducesTo [0, 1] S_

variable [Facts]

def fn_part6 {F : FTy → Type} [FloatOps F] (main_arg23 : FVec F S50000 .f32) (main_v98 : IVec S_ 1) (main_v101 : IVec S50000 1) (main_c_39 : IVec S_ 1) : IVec S_ 1 :=
  let main_v102 : IVec S_ 1 := (fun x v => Host.reduce IntOp.andi x v reducesTo_S50000_S_d0 h_S_) main_v101 main_c_39
  let main_v103 : IVec S_ 1 := andi main_v98 main_v102
  let main_v104 : FVec F S50000 .f32 := Host.absf main_arg23
  let main_cst_40 : FVec F S_ .f32 := constant S_ .f32 0x7F800000#32
  let main_v105 : FVec F S50000 .f32 := broadcastInDim S50000 ![] bcast_S_S50000 main_cst_40
  let main_v106 : IVec S50000 1 := cmpf .olt main_v104 main_v105
  let main_c_41 : IVec S_ 1 := constantI S_ 1 1#1
  let main_v107 : IVec S_ 1 := (fun x v => Host.reduce IntOp.andi x v reducesTo_S50000_S_d0 h_S_) main_v106 main_c_41
  let main_v108 : IVec S_ 1 := andi main_v103 main_v107
  main_v108

def fn_part5 {F : FTy → Type} [FloatOps F] (main_arg20 : FVec F S50000 .f32) (main_arg21 : FVec F S50000 .f32) (main_arg22 : FVec F S50000 .f32) (main_arg23 : FVec F S50000 .f32) (main_v83 : IVec S_ 1) (main_v84 : FVec F S50000 .f32) (main_cst_32 : FVec F S_ .f32) : IVec S_ 1 :=
  let main_v85 : FVec F S50000 .f32 := broadcastInDim S50000 ![] bcast_S_S50000 main_cst_32
  let main_v86 : IVec S50000 1 := cmpf .olt main_v84 main_v85
  let main_c_33 : IVec S_ 1 := constantI S_ 1 1#1
  let main_v87 : IVec S_ 1 := (fun x v => Host.reduce IntOp.andi x v reducesTo_S50000_S_d0 h_S_) main_v86 main_c_33
  let main_v88 : IVec S_ 1 := andi main_v83 main_v87
  let main_v89 : FVec F S50000 .f32 := Host.absf main_arg20
  let main_cst_34 : FVec F S_ .f32 := constant S_ .f32 0x7F800000#32
  let main_v90 : FVec F S50000 .f32 := broadcastInDim S50000 ![] bcast_S_S50000 main_cst_34
  let main_v91 : IVec S50000 1 := cmpf .olt main_v89 main_v90
  let main_c_35 : IVec S_ 1 := constantI S_ 1 1#1
  let main_v92 : IVec S_ 1 := (fun x v => Host.reduce IntOp.andi x v reducesTo_S50000_S_d0 h_S_) main_v91 main_c_35
  let main_v93 : IVec S_ 1 := andi main_v88 main_v92
  let main_v94 : FVec F S50000 .f32 := Host.absf main_arg21
  let main_cst_36 : FVec F S_ .f32 := constant S_ .f32 0x7F800000#32
  let main_v95 : FVec F S50000 .f32 := broadcastInDim S50000 ![] bcast_S_S50000 main_cst_36
  let main_v96 : IVec S50000 1 := cmpf .olt main_v94 main_v95
  let main_c_37 : IVec S_ 1 := constantI S_ 1 1#1
  let main_v97 : IVec S_ 1 := (fun x v => Host.reduce IntOp.andi x v reducesTo_S50000_S_d0 h_S_) main_v96 main_c_37
  let main_v98 : IVec S_ 1 := andi main_v93 main_v97
  let main_v99 : FVec F S50000 .f32 := Host.absf main_arg22
  let main_cst_38 : FVec F S_ .f32 := constant S_ .f32 0x7F800000#32
  let main_v100 : FVec F S50000 .f32 := broadcastInDim S50000 ![] bcast_S_S50000 main_cst_38
  let main_v101 : IVec S50000 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S50000 .f32) (main_arg17 : FVec F S50000 .f32) (main_arg18 : FVec F S50000 .f32) (main_arg19 : FVec F S50000 .f32) (main_arg20 : FVec F S50000 .f32) (main_arg21 : FVec F S50000 .f32) (main_arg22 : FVec F S50000 .f32) (main_arg23 : FVec F S50000 .f32) (main_v63 : IVec S_ 1) (main_v67 : IVec S_ 1) : IVec S_ 1 :=
  let main_v68 : IVec S_ 1 := andi main_v63 main_v67
  let main_v69 : FVec F S50000 .f32 := Host.absf main_arg16
  let main_cst_26 : FVec F S_ .f32 := constant S_ .f32 0x7F800000#32
  let main_v70 : FVec F S50000 .f32 := broadcastInDim S50000 ![] bcast_S_S50000 main_cst_26
  let main_v71 : IVec S50000 1 := cmpf .olt main_v69 main_v70
  let main_c_27 : IVec S_ 1 := constantI S_ 1 1#1
  let main_v72 : IVec S_ 1 := (fun x v => Host.reduce IntOp.andi x v reducesTo_S50000_S_d0 h_S_) main_v71 main_c_27
  let main_v73 : IVec S_ 1 := andi main_v68 main_v72
  let main_v74 : FVec F S50000 .f32 := Host.absf main_arg17
  let main_cst_28 : FVec F S_ .f32 := constant S_ .f32 0x7F800000#32
  let main_v75 : FVec F S50000 .f32 := broadcastInDim S50000 ![] bcast_S_S50000 main_cst_28
  let main_v76 : IVec S50000 1 := cmpf .olt main_v74 main_v75
  let main_c_29 : IVec S_ 1 := constantI S_ 1 1#1
  let main_v77 : IVec S_ 1 := (fun x v => Host.reduce IntOp.andi x v reducesTo_S50000_S_d0 h_S_) main_v76 main_c_29
  let main_v78 : IVec S_ 1 := andi main_v73 main_v77
  let main_v79 : FVec F S50000 .f32 := Host.absf main_arg18
  let main_cst_30 : FVec F S_ .f32 := constant S_ .f32 0x7F800000#32
  let main_v80 : FVec F S50000 .f32 := broadcastInDim S50000 ![] bcast_S_S50000 main_cst_30
  let main_v81 : IVec S50000 1 := cmpf .olt main_v79 main_v80
  let main_c_31 : IVec S_ 1 := constantI S_ 1 1#1
  let main_v82 : IVec S_ 1 := (fun x v => Host.reduce IntOp.andi x v reducesTo_S50000_S_d0 h_S_) main_v81 main_c_31
  let main_v83 : IVec S_ 1 := andi main_v78 main_v82
  let main_v84 : FVec F S50000 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S50000 .f32) (main_arg14 : FVec F S50000x2 .f32) (main_arg15 : FVec F S50000x2 .f32) (main_arg16 : FVec F S50000 .f32) (main_arg17 : FVec F S50000 .f32) (main_arg18 : FVec F S50000 .f32) (main_arg19 : FVec F S50000 .f32) (main_arg20 : FVec F S50000 .f32) (main_arg21 : FVec F S50000 .f32) (main_arg22 : FVec F S50000 .f32) (main_arg23 : FVec F S50000 .f32) (main_v48 : IVec S_ 1) (main_v49 : FVec F S50000x4 .f32) (main_v50 : FVec F S50000x4 .f32) : IVec S_ 1 :=
  let main_v51 : IVec S50000x4 1 := cmpf .olt main_v49 main_v50
  let main_c_19 : IVec S_ 1 := constantI S_ 1 1#1
  let main_v52 : IVec S_ 1 := (fun x v => Host.reduce IntOp.andi x v reducesTo_S50000x4_S_d0_1 h_S_) main_v51 main_c_19
  let main_v53 : IVec S_ 1 := andi main_v48 main_v52
  let main_v54 : FVec F S50000 .f32 := Host.absf main_arg13
  let main_cst_20 : FVec F S_ .f32 := constant S_ .f32 0x7F800000#32
  let main_v55 : FVec F S50000 .f32 := broadcastInDim S50000 ![] bcast_S_S50000 main_cst_20
  let main_v56 : IVec S50000 1 := cmpf .olt main_v54 main_v55
  let main_c_21 : IVec S_ 1 := constantI S_ 1 1#1
  let main_v57 : IVec S_ 1 := (fun x v => Host.reduce IntOp.andi x v reducesTo_S50000_S_d0 h_S_) main_v56 main_c_21
  let main_v58 : IVec S_ 1 := andi main_v53 main_v57
  let main_v59 : FVec F S50000x2 .f32 := Host.absf main_arg14
  let main_cst_22 : FVec F S_ .f32 := constant S_ .f32 0x7F800000#32
  let main_v60 : FVec F S50000x2 .f32 := broadcastInDim S50000x2 ![] bcast_S_S50000x2 main_cst_22
  let main_v61 : IVec S50000x2 1 := cmpf .olt main_v59 main_v60
  let main_c_23 : IVec S_ 1 := constantI S_ 1 1#1
  let main_v62 : IVec S_ 1 := (fun x v => Host.reduce IntOp.andi x v reducesTo_S50000x2_S_d0_1 h_S_) main_v61 main_c_23
  let main_v63 : IVec S_ 1 := andi main_v58 main_v62
  let main_v64 : FVec F S50000x2 .f32 := Host.absf main_arg15
  let main_cst_24 : FVec F S_ .f32 := constant S_ .f32 0x7F800000#32
  let main_v65 : FVec F S50000x2 .f32 := broadcastInDim S50000x2 ![] bcast_S_S50000x2 main_cst_24
  let main_v66 : IVec S50000x2 1 := cmpf .olt main_v64 main_v65
  let main_c_25 : IVec S_ 1 := constantI S_ 1 1#1
  let main_v67 : IVec S_ 1 := (fun x v => Host.reduce IntOp.andi x v reducesTo_S50000x2_S_d0_1 h_S_) main_v66 main_c_25
  fn_part4 (F := F) main_arg16 main_arg17 main_arg18 main_arg19 main_arg20 main_arg21 main_arg22 main_arg23 main_v63 main_v67

def fn_part2 {F : FTy → Type} [FloatOps F] (main_arg7 : FVec F S4x200000 .f32) (main_arg8 : FVec F S5000000 .f32) (main_arg11 : FVec F S50000x4 .f32) (main_arg12 : FVec F S50000x4 .f32) (main_arg13 : FVec F S50000 .f32) (main_arg14 : FVec F S50000x2 .f32) (main_arg15 : FVec F S50000x2 .f32) (main_arg16 : FVec F S50000 .f32) (main_arg17 : FVec F S50000 .f32) (main_arg18 : FVec F S50000 .f32) (main_arg19 : FVec F S50000 .f32) (main_arg20 : FVec F S50000 .f32) (main_arg21 : FVec F S50000 .f32) (main_arg22 : FVec F S50000 .f32) (main_arg23 : FVec F S50000 .f32) (main_v33 : IVec S_ 1) : IVec S_ 1 :=
  let main_v34 : FVec F S4x200000 .f32 := Host.absf main_arg7
  let main_cst_12 : FVec F S_ .f32 := constant S_ .f32 0x7F800000#32
  let main_v35 : FVec F S4x200000 .f32 := broadcastInDim S4x200000 ![] bcast_S_S4x200000 main_cst_12
  let main_v36 : IVec S4x200000 1 := cmpf .olt main_v34 main_v35
  let main_c_13 : IVec S_ 1 := constantI S_ 1 1#1
  let main_v37 : IVec S_ 1 := (fun x v => Host.reduce IntOp.andi x v reducesTo_S4x200000_S_d0_1 h_S_) main_v36 main_c_13
  let main_v38 : IVec S_ 1 := andi main_v33 main_v37
  let main_v39 : FVec F S5000000 .f32 := Host.absf main_arg8
  let main_cst_14 : FVec F S_ .f32 := constant S_ .f32 0x7F800000#32
  let main_v40 : FVec F S5000000 .f32 := broadcastInDim S5000000 ![] bcast_S_S5000000 main_cst_14
  let main_v41 : IVec S5000000 1 := cmpf .olt main_v39 main_v40
  let main_c_15 : IVec S_ 1 := constantI S_ 1 1#1
  let main_v42 : IVec S_ 1 := (fun x v => Host.reduce IntOp.andi x v reducesTo_S5000000_S_d0 h_S_) main_v41 main_c_15
  let main_v43 : IVec S_ 1 := andi main_v38 main_v42
  let main_v44 : FVec F S50000x4 .f32 := Host.absf main_arg11
  let main_cst_16 : FVec F S_ .f32 := constant S_ .f32 0x7F800000#32
  let main_v45 : FVec F S50000x4 .f32 := broadcastInDim S50000x4 ![] bcast_S_S50000x4 main_cst_16
  let main_v46 : IVec S50000x4 1 := cmpf .olt main_v44 main_v45
  let main_c_17 : IVec S_ 1 := constantI S_ 1 1#1
  let main_v47 : IVec S_ 1 := (fun x v => Host.reduce IntOp.andi x v reducesTo_S50000x4_S_d0_1 h_S_) main_v46 main_c_17
  let main_v48 : IVec S_ 1 := andi main_v43 main_v47
  let main_v49 : FVec F S50000x4 .f32 := Host.absf main_arg12
  let main_cst_18 : FVec F S_ .f32 := constant S_ .f32 0x7F800000#32
  let main_v50 : FVec F S50000x4 .f32 := broadcastInDim S50000x4 ![] bcast_S_S50000x4 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg4 : FVec F S4x50000 .f32) (main_arg5 : FVec F S4x50000 .f32) (main_arg6 : FVec F S4x200000 .f32) (main_arg7 : FVec F S4x200000 .f32) (main_arg8 : FVec F S5000000 .f32) (main_arg11 : FVec F S50000x4 .f32) (main_arg12 : FVec F S50000x4 .f32) (main_arg13 : FVec F S50000 .f32) (main_arg14 : FVec F S50000x2 .f32) (main_arg15 : FVec F S50000x2 .f32) (main_arg16 : FVec F S50000 .f32) (main_arg17 : FVec F S50000 .f32) (main_arg18 : FVec F S50000 .f32) (main_arg19 : FVec F S50000 .f32) (main_arg20 : FVec F S50000 .f32) (main_arg21 : FVec F S50000 .f32) (main_arg22 : FVec F S50000 .f32) (main_arg23 : FVec F S50000 .f32) (main_v13 : IVec S_ 1) (main_v16 : IVec S4x50000 1) : IVec S_ 1 :=
  let main_c_5 : IVec S_ 1 := constantI S_ 1 1#1
  let main_v17 : IVec S_ 1 := (fun x v => Host.reduce IntOp.andi x v reducesTo_S4x50000_S_d0_1 h_S_) main_v16 main_c_5
  let main_v18 : IVec S_ 1 := andi main_v13 main_v17
  let main_v19 : FVec F S4x50000 .f32 := Host.absf main_arg4
  let main_cst_6 : FVec F S_ .f32 := constant S_ .f32 0x7F800000#32
  let main_v20 : FVec F S4x50000 .f32 := broadcastInDim S4x50000 ![] bcast_S_S4x50000 main_cst_6
  let main_v21 : IVec S4x50000 1 := cmpf .olt main_v19 main_v20
  let main_c_7 : IVec S_ 1 := constantI S_ 1 1#1
  let main_v22 : IVec S_ 1 := (fun x v => Host.reduce IntOp.andi x v reducesTo_S4x50000_S_d0_1 h_S_) main_v21 main_c_7
  let main_v23 : IVec S_ 1 := andi main_v18 main_v22
  let main_v24 : FVec F S4x50000 .f32 := Host.absf main_arg5
  let main_cst_8 : FVec F S_ .f32 := constant S_ .f32 0x7F800000#32
  let main_v25 : FVec F S4x50000 .f32 := broadcastInDim S4x50000 ![] bcast_S_S4x50000 main_cst_8
  let main_v26 : IVec S4x50000 1 := cmpf .olt main_v24 main_v25
  let main_c_9 : IVec S_ 1 := constantI S_ 1 1#1
  let main_v27 : IVec S_ 1 := (fun x v => Host.reduce IntOp.andi x v reducesTo_S4x50000_S_d0_1 h_S_) main_v26 main_c_9
  let main_v28 : IVec S_ 1 := andi main_v23 main_v27
  let main_v29 : FVec F S4x200000 .f32 := Host.absf main_arg6
  let main_cst_10 : FVec F S_ .f32 := constant S_ .f32 0x7F800000#32
  let main_v30 : FVec F S4x200000 .f32 := broadcastInDim S4x200000 ![] bcast_S_S4x200000 main_cst_10
  let main_v31 : IVec S4x200000 1 := cmpf .olt main_v29 main_v30
  let main_c_11 : IVec S_ 1 := constantI S_ 1 1#1
  let main_v32 : IVec S_ 1 := (fun x v => Host.reduce IntOp.andi x v reducesTo_S4x200000_S_d0_1 h_S_) main_v31 main_c_11
  let main_v33 : IVec S_ 1 := andi main_v28 main_v32
  fn_part2 (F := F) main_arg7 main_arg8 main_arg11 main_arg12 main_arg13 main_arg14 main_arg15 main_arg16 main_arg17 main_arg18 main_arg19 main_arg20 main_arg21 main_arg22 main_arg23 main_v33

def fn {F : FTy → Type} [FloatOps F] (main_arg0 : FVec F S4x200000 .f32) (main_arg1 : FVec F S4x250000 .f32) (main_arg2 : FVec F S4x50000 .f32) (main_arg3 : FVec F S4x50000 .f32) (main_arg4 : FVec F S4x50000 .f32) (main_arg5 : FVec F S4x50000 .f32) (main_arg6 : FVec F S4x200000 .f32) (main_arg7 : FVec F S4x200000 .f32) (main_arg8 : FVec F S5000000 .f32) (main_arg9 : IVec S5000000 32) (main_arg10 : IVec S5000000 32) (main_arg11 : FVec F S50000x4 .f32) (main_arg12 : FVec F S50000x4 .f32) (main_arg13 : FVec F S50000 .f32) (main_arg14 : FVec F S50000x2 .f32) (main_arg15 : FVec F S50000x2 .f32) (main_arg16 : FVec F S50000 .f32) (main_arg17 : FVec F S50000 .f32) (main_arg18 : FVec F S50000 .f32) (main_arg19 : FVec F S50000 .f32) (main_arg20 : FVec F S50000 .f32) (main_arg21 : FVec F S50000 .f32) (main_arg22 : FVec F S50000 .f32) (main_arg23 : FVec F S50000 .f32) : IVec S_ 1 :=
  let main_v0 : FVec F S4x200000 .f32 := Host.absf main_arg0
  let main_cst : FVec F S_ .f32 := constant S_ .f32 0x7F800000#32
  let main_v1 : FVec F S4x200000 .f32 := broadcastInDim S4x200000 ![] bcast_S_S4x200000 main_cst
  let main_v2 : IVec S4x200000 1 := cmpf .olt main_v0 main_v1
  let main_c : IVec S_ 1 := constantI S_ 1 1#1
  let main_v3 : IVec S_ 1 := (fun x v => Host.reduce IntOp.andi x v reducesTo_S4x200000_S_d0_1 h_S_) main_v2 main_c
  let main_v4 : FVec F S4x250000 .f32 := Host.absf main_arg1
  let main_cst_0 : FVec F S_ .f32 := constant S_ .f32 0x7F800000#32
  let main_v5 : FVec F S4x250000 .f32 := broadcastInDim S4x250000 ![] bcast_S_S4x250000 main_cst_0
  let main_v6 : IVec S4x250000 1 := cmpf .olt main_v4 main_v5
  let main_c_1 : IVec S_ 1 := constantI S_ 1 1#1
  let main_v7 : IVec S_ 1 := (fun x v => Host.reduce IntOp.andi x v reducesTo_S4x250000_S_d0_1 h_S_) main_v6 main_c_1
  let main_v8 : IVec S_ 1 := andi main_v3 main_v7
  let main_v9 : FVec F S4x50000 .f32 := Host.absf main_arg2
  let main_cst_2 : FVec F S_ .f32 := constant S_ .f32 0x7F800000#32
  let main_v10 : FVec F S4x50000 .f32 := broadcastInDim S4x50000 ![] bcast_S_S4x50000 main_cst_2
  let main_v11 : IVec S4x50000 1 := cmpf .olt main_v9 main_v10
  let main_c_3 : IVec S_ 1 := constantI S_ 1 1#1
  let main_v12 : IVec S_ 1 := (fun x v => Host.reduce IntOp.andi x v reducesTo_S4x50000_S_d0_1 h_S_) main_v11 main_c_3
  let main_v13 : IVec S_ 1 := andi main_v8 main_v12
  let main_v14 : FVec F S4x50000 .f32 := Host.absf main_arg3
  let main_cst_4 : FVec F S_ .f32 := constant S_ .f32 0x7F800000#32
  let main_v15 : FVec F S4x50000 .f32 := broadcastInDim S4x50000 ![] bcast_S_S4x50000 main_cst_4
  let main_v16 : IVec S4x50000 1 := cmpf .olt main_v14 main_v15
  fn_part1 (F := F) main_arg4 main_arg5 main_arg6 main_arg7 main_arg8 main_arg11 main_arg12 main_arg13 main_arg14 main_arg15 main_arg16 main_arg17 main_arg18 main_arg19 main_arg20 main_arg21 main_arg22 main_arg23 main_v13 main_v16
-- ==== Kernel.lean ====
abbrev S4x200000 : Shape := ⟨2, ![4, 200000]⟩
abbrev S4x250000 : Shape := ⟨2, ![4, 250000]⟩
abbrev S4x50000 : Shape := ⟨2, ![4, 50000]⟩
abbrev S5000000 : Shape := ⟨1, ![5000000]⟩
abbrev S50000x4 : Shape := ⟨2, ![50000, 4]⟩
abbrev S50000 : Shape := ⟨1, ![50000]⟩
abbrev S50000x2 : Shape := ⟨2, ![50000, 2]⟩
abbrev S250000x4 : Shape := ⟨2, ![250000, 4]⟩
abbrev S_ : Shape := ⟨0, ![]⟩
abbrev S5000000x1 : Shape := ⟨2, ![5000000, 1]⟩
abbrev S5000000x4 : Shape := ⟨2, ![5000000, 4]⟩
abbrev S200000x4 : Shape := ⟨2, ![200000, 4]⟩
abbrev S4x50000x4 : Shape := ⟨3, ![4, 50000, 4]⟩
abbrev S50000x1 : Shape := ⟨2, ![50000, 1]⟩
abbrev S4x5x50000 : Shape := ⟨3, ![4, 5, 50000]⟩
abbrev S4x1x50000 : Shape := ⟨3, ![4, 1, 50000]⟩
abbrev S4x51200 : Shape := ⟨2, ![4, 51200]⟩
abbrev S4x51200x4 : Shape := ⟨3, ![4, 51200, 4]⟩
abbrev S4x204800 : Shape := ⟨2, ![4, 204800]⟩
abbrev S200000 : Shape := ⟨1, ![200000]⟩
abbrev S51200x4 : Shape := ⟨2, ![51200, 4]⟩
abbrev S1x204800 : Shape := ⟨2, ![1, 204800]⟩
abbrev S51200 : Shape := ⟨1, ![51200]⟩
abbrev S1x51200 : Shape := ⟨2, ![1, 51200]⟩
abbrev S4x12800 : Shape := ⟨2, ![4, 12800]⟩
abbrev S1x12800 : Shape := ⟨2, ![1, 12800]⟩
abbrev S4x900000 : Shape := ⟨2, ![4, 900000]⟩

abbrev nBuf : Space → Nat
  | .hbm => 221
  | .vmem => 78
  | .smem => 0
  | _ => 0

abbrev hbmTy0_0 (i : Nat) : BufTy := match i % 128 with
  | 0 => ⟨S4x200000, .f32⟩
  | 1 => ⟨S4x250000, .f32⟩
  | 2 => ⟨S4x50000, .f32⟩
  | 3 => ⟨S4x50000, .f32⟩
  | 4 => ⟨S4x50000, .f32⟩
  | 5 => ⟨S4x50000, .f32⟩
  | 6 => ⟨S4x200000, .f32⟩
  | 7 => ⟨S4x200000, .f32⟩
  | 8 => ⟨S5000000, .f32⟩
  | 9 => ⟨S5000000, .i32⟩
  | 10 => ⟨S5000000, .i32⟩
  | 11 => ⟨S50000x4, .f32⟩
  | 12 => ⟨S50000x4, .f32⟩
  | 13 => ⟨S50000, .f32⟩
  | 14 => ⟨S50000x2, .f32⟩
  | 15 => ⟨S50000x2, .f32⟩
  | 16 => ⟨S50000, .f32⟩
  | 17 => ⟨S50000, .f32⟩
  | 18 => ⟨S50000, .f32⟩
  | 19 => ⟨S50000, .f32⟩
  | 20 => ⟨S50000, .f32⟩
  | 21 => ⟨S50000, .f32⟩
  | 22 => ⟨S50000, .f32⟩
  | 23 => ⟨S50000, .f32⟩
  | 24 => ⟨S250000x4, .f32⟩
  | 25 => ⟨S_, .i32⟩
  | 26 => ⟨S5000000, .i32⟩
  | 27 => ⟨S5000000, .i1⟩
  | 28 => ⟨S_, .i32⟩
  | 29 => ⟨S5000000, .i32⟩
  | 30 => ⟨S5000000, .i32⟩
  | 31 => ⟨S5000000, .i32⟩
  | 32 => ⟨S5000000x1, .i32⟩
  | 33 => ⟨S5000000x4, .f32⟩
  | 34 => ⟨S5000000x1, .f32⟩
  | 35 => ⟨S5000000x4, .f32⟩
  | 36 => ⟨S5000000x4, .f32⟩
  | 37 => ⟨S_, .f32⟩
  | 38 => ⟨S200000x4, .f32⟩
  | 39 => ⟨S5000000x1, .i32⟩
  | 40 => ⟨S200000x4, .f32⟩
  | 41 => ⟨S4x200000, .f32⟩
  | 42 => ⟨S4x200000, .f32⟩
  | 43 => ⟨S4x50000x4, .f32⟩
  | 44 => ⟨S_, .f32⟩
  | 45 => ⟨S4x50000, .f32⟩
  | 46 => ⟨S50000x2, .f32⟩
  | 47 => ⟨S50000x2, .f32⟩
  | 48 => ⟨S_, .f32⟩
  | 49 => ⟨S50000x2, .f32⟩
  | 50 => ⟨S50000x2, .f32⟩
  | 51 => ⟨S_, .f32⟩
  | 52 => ⟨S50000x2, .f32⟩
  | 53 => ⟨S50000x2, .f32⟩
  | 54 => ⟨S50000x1, .f32⟩
  | 55 => ⟨S50000, .f32⟩
  | 56 => ⟨S_, .f32⟩
  | 57 => ⟨S50000, .f32⟩
  | 58 => ⟨S50000, .f32⟩
  | 59 => ⟨S50000, .f32⟩
  | 60 => ⟨S50000x1, .f32⟩
  | 61 => ⟨S50000, .f32⟩
  | 62 => ⟨S_, .f32⟩
  | 63 => ⟨S50000, .f32⟩
  | 64 => ⟨S50000, .f32⟩
  | 65 => ⟨S50000, .f32⟩
  | 66 => ⟨S50000x1, .f32⟩
  | 67 => ⟨S50000, .f32⟩
  | 68 => ⟨S50000x1, .f32⟩
  | 69 => ⟨S50000, .f32⟩
  | 70 => ⟨S4x5x50000, .f32⟩
  | 71 => ⟨S4x1x50000, .f32⟩
  | 72 => ⟨S4x50000, .f32⟩
  | 73 => ⟨S_, .i32⟩
  | 74 => ⟨S_, .f32⟩
  | 75 => ⟨S4x51200, .f32⟩
  | 76 => ⟨S4x1x50000, .f32⟩
  | 77 => ⟨S4x50000, .f32⟩
  | 78 => ⟨S_, .i32⟩
  | 79 => ⟨S_, .f32⟩
  | 80 => ⟨S4x51200, .f32⟩
  | 81 => ⟨S4x1x50000, .f32⟩
  | 82 => ⟨S4x50000, .f32⟩
  | 83 => ⟨S_, .i32⟩
  | 84 => ⟨S_, .f32⟩
  | 85 => ⟨S4x51200, .f32⟩
  | 86 => ⟨S4x1x50000, .f32⟩
  | 87 => ⟨S4x50000, .f32⟩
  | 88 => ⟨S_, .i32⟩
  | 89 => ⟨S_, .f32⟩
  | 90 => ⟨S4x51200, .f32⟩
  | 91 => ⟨S4x50000x4, .f32⟩
  | 92 => ⟨S_, .i32⟩
  | 93 => ⟨S_, .f32⟩
  | 94 => ⟨S4x51200x4, .f32⟩
  | 95 => ⟨S4x204800, .f32⟩
  | 96 => ⟨S4x50000x4, .f32⟩
  | 97 => ⟨S_, .i32⟩
  | 98 => ⟨S_, .f32⟩
  | 99 => ⟨S4x51200x4, .f32⟩
  | 100 => ⟨S4x204800, .f32⟩
  | 101 => ⟨S4x50000x4, .f32⟩
  | 102 => ⟨S_, .i32⟩
  | 103 => ⟨S_, .f32⟩
  | 104 => ⟨S4x51200x4, .f32⟩
  | 105 => ⟨S4x204800, .f32⟩
  | 106 => ⟨S200000, .f32⟩
  | 107 => ⟨S50000x4, .f32⟩
  | 108 => ⟨S_, .i32⟩
  | 109 => ⟨S_, .f32⟩
  | 110 => ⟨S51200x4, .f32⟩
  | 111 => ⟨S1x204800, .f32⟩
  | 112 => ⟨S200000, .f32⟩
  | 113 => ⟨S50000x4, .f32⟩
  | 114 => ⟨S_, .i32⟩
  | 115 => ⟨S_, .f32⟩
  | 116 => ⟨S51200x4, .f32⟩
  | 117 => ⟨S1x204800, .f32⟩
  | 118 => ⟨S_, .i32⟩
  | 119 => ⟨S_, .f32⟩
  | 120 => ⟨S4x51200, .f32⟩
  | 121 => ⟨S_, .i32⟩
  | 122 => ⟨S_, .f32⟩
  | 123 => ⟨S4x51200, .f32⟩
  | 124 => ⟨S_, .i32⟩
  | 125 => ⟨S_, .f32⟩
  | 126 => ⟨S4x51200, .f32⟩
  | 127 => ⟨S_, .i32⟩
  | _ => ⟨S4x200000, .f32⟩

abbrev hbmTy0_1 (i : Nat) : BufTy := match i % 128 with
  | 0 => ⟨S_, .f32⟩
  | 1 => ⟨S4x51200, .f32⟩
  | 2 => ⟨S_, .i32⟩
  | 3 => ⟨S_, .f32⟩
  | 4 => ⟨S4x51200, .f32⟩
  | 5 => ⟨S_, .f32⟩
  | 6 => ⟨S_, .f32⟩
  | 7 => ⟨S51200, .f32⟩
  | 8 => ⟨S1x51200, .f32⟩
  | 9 => ⟨S_, .f32⟩
  | 10 => ⟨S_, .f32⟩
  | 11 => ⟨S51200, .f32⟩
  | 12 => ⟨S1x51200, .f32⟩
  | 13 => ⟨S_, .f32⟩
  | 14 => ⟨S_, .f32⟩
  | 15 => ⟨S51200, .f32⟩
  | 16 => ⟨S1x51200, .f32⟩
  | 17 => ⟨S_, .f32⟩
  | 18 => ⟨S_, .f32⟩
  | 19 => ⟨S51200, .f32⟩
  | 20 => ⟨S1x51200, .f32⟩
  | 21 => ⟨S_, .f32⟩
  | 22 => ⟨S_, .f32⟩
  | 23 => ⟨S51200, .f32⟩
  | 24 => ⟨S1x51200, .f32⟩
  | 25 => ⟨S_, .f32⟩
  | 26 => ⟨S_, .f32⟩
  | 27 => ⟨S51200, .f32⟩
  | 28 => ⟨S1x51200, .f32⟩
  | 29 => ⟨S_, .f32⟩
  | 30 => ⟨S_, .f32⟩
  | 31 => ⟨S51200, .f32⟩
  | 32 => ⟨S1x51200, .f32⟩
  | 33 => ⟨S_, .f32⟩
  | 34 => ⟨S_, .f32⟩
  | 35 => ⟨S51200, .f32⟩
  | 36 => ⟨S1x51200, .f32⟩
  | 37 => ⟨S_, .f32⟩
  | 38 => ⟨S_, .f32⟩
  | 39 => ⟨S51200, .f32⟩
  | 40 => ⟨S1x51200, .f32⟩
  | 41 => ⟨S_, .f32⟩
  | 42 => ⟨S_, .f32⟩
  | 43 => ⟨S51200, .f32⟩
  | 44 => ⟨S1x51200, .f32⟩
  | 45 => ⟨S_, .f32⟩
  | 46 => ⟨S_, .f32⟩
  | 47 => ⟨S51200, .f32⟩
  | 48 => ⟨S1x51200, .f32⟩
  | 49 => ⟨S_, .f32⟩
  | 50 => ⟨S_, .f32⟩
  | 51 => ⟨S51200, .f32⟩
  | 52 => ⟨S1x51200, .f32⟩
  | 53 => ⟨S_, .f32⟩
  | 54 => ⟨S_, .f32⟩
  | 55 => ⟨S51200, .f32⟩
  | 56 => ⟨S1x51200, .f32⟩
  | 57 => ⟨S4x51200, .f32⟩
  | 58 => ⟨S4x51200, .f32⟩
  | 59 => ⟨S4x51200, .f32⟩
  | 60 => ⟨S4x51200, .f32⟩
  | 61 => ⟨S4x51200, .f32⟩
  | 62 => ⟨S4x204800, .f32⟩
  | 63 => ⟨S4x204800, .f32⟩
  | 64 => ⟨S4x51200, .f32⟩
  | 65 => ⟨S4x51200, .f32⟩
  | 66 => ⟨S4x51200, .f32⟩
  | 67 => ⟨S4x51200, .f32⟩
  | 68 => ⟨S4x51200, .f32⟩
  | 69 => ⟨S4x50000, .f32⟩
  | 70 => ⟨S4x50000, .f32⟩
  | 71 => ⟨S4x50000, .f32⟩
  | 72 => ⟨S4x50000, .f32⟩
  | 73 => ⟨S4x50000, .f32⟩
  | 74 => ⟨S4x51200x4, .f32⟩
  | 75 => ⟨S4x50000x4, .f32⟩
  | 76 => ⟨S4x200000, .f32⟩
  | 77 => ⟨S4x51200x4, .f32⟩
  | 78 => ⟨S4x50000x4, .f32⟩
  | 79 => ⟨S4x200000, .f32⟩
  | 80 => ⟨S4x50000, .f32⟩
  | 81 => ⟨S4x50000, .f32⟩
  | 82 => ⟨S4x50000, .f32⟩
  | 83 => ⟨S4x50000, .f32⟩
  | 84 => ⟨S4x50000, .f32⟩
  | 85 => ⟨S4x1x50000, .f32⟩
  | 86 => ⟨S4x1x50000, .f32⟩
  | 87 => ⟨S4x1x50000, .f32⟩
  | 88 => ⟨S4x1x50000, .f32⟩
  | 89 => ⟨S4x1x50000, .f32⟩
  | 90 => ⟨S4x5x50000, .f32⟩
  | 91 => ⟨S4x250000, .f32⟩
  | 92 => ⟨S4x900000, .f32⟩
  | _ => ⟨S4x200000, .f32⟩

abbrev hbmTy (i : Nat) : BufTy := match i / 128 with
  | 0 => hbmTy0_0 i
  | 1 => hbmTy0_1 i
  | _ => ⟨S4x200000, .f32⟩

abbrev bufTy : (tb : Table) → Fin (tcTables nBuf tb) → BufTy
  | .hbm, ⟨i, _⟩ => hbmTy i
  | .local _ .vmem, ⟨0, _⟩ => ⟨S4x12800, .f32⟩
  | .local _ .vmem, ⟨1, _⟩ => ⟨S4x12800, .f32⟩
  | .local _ .vmem, ⟨2, _⟩ => ⟨S4x12800, .f32⟩
  | .local _ .vmem, ⟨3, _⟩ => ⟨S4x12800, .f32⟩
  | .local _ .vmem, ⟨4, _⟩ => ⟨S4x12800, .f32⟩
  | .local _ .vmem, ⟨5, _⟩ => ⟨S4x12800, .f32⟩
  | .local _ .vmem, ⟨6, _⟩ => ⟨S4x12800, .f32⟩
  | .local _ .vmem, ⟨7, _⟩ => ⟨S4x12800, .f32⟩
  | .local _ .vmem, ⟨8, _⟩ => ⟨S4x51200, .f32⟩
  | .local _ .vmem, ⟨9, _⟩ => ⟨S4x51200, .f32⟩
  | .local _ .vmem, ⟨10, _⟩ => ⟨S4x51200, .f32⟩
  | .local _ .vmem, ⟨11, _⟩ => ⟨S4x51200, .f32⟩
  | .local _ .vmem, ⟨12, _⟩ => ⟨S4x51200, .f32⟩
  | .local _ .vmem, ⟨13, _⟩ => ⟨S4x51200, .f32⟩
  | .local _ .vmem, ⟨14, _⟩ => ⟨S1x51200, .f32⟩
  | .local _ .vmem, ⟨15, _⟩ => ⟨S1x51200, .f32⟩
  | .local _ .vmem, ⟨16, _⟩ => ⟨S1x51200, .f32⟩
  | .local _ .vmem, ⟨17, _⟩ => ⟨S1x51200, .f32⟩
  | .local _ .vmem, ⟨18, _⟩ => ⟨S4x12800, .f32⟩
  | .local _ .vmem, ⟨19, _⟩ => ⟨S4x12800, .f32⟩
  | .local _ .vmem, ⟨20, _⟩ => ⟨S4x12800, .f32⟩
  | .local _ .vmem, ⟨21, _⟩ => ⟨S4x12800, .f32⟩
  | .local _ .vmem, ⟨22, _⟩ => ⟨S4x12800, .f32⟩
  | .local _ .vmem, ⟨23, _⟩ => ⟨S4x12800, .f32⟩
  | .local _ .vmem, ⟨24, _⟩ => ⟨S4x12800, .f32⟩
  | .local _ .vmem, ⟨25, _⟩ => ⟨S4x12800, .f32⟩
  | .local _ .vmem, ⟨26, _⟩ => ⟨S4x12800, .f32⟩
  | .local _ .vmem, ⟨27, _⟩ => ⟨S4x12800, .f32⟩
  | .local _ .vmem, ⟨28, _⟩ => ⟨S1x12800, .f32⟩
  | .local _ .vmem, ⟨29, _⟩ => ⟨S1x12800, .f32⟩
  | .local _ .vmem, ⟨30, _⟩ => ⟨S1x12800, .f32⟩
  | .local _ .vmem, ⟨31, _⟩ => ⟨S1x12800, .f32⟩
  | .local _ .vmem, ⟨32, _⟩ => ⟨S1x12800, .f32⟩
  | .local _ .vmem, ⟨33, _⟩ => ⟨S1x12800, .f32⟩
  | .local _ .vmem, ⟨34, _⟩ => ⟨S1x12800, .f32⟩
  | .local _ .vmem, ⟨35, _⟩ => ⟨S1x12800, .f32⟩
  | .local _ .vmem, ⟨36, _⟩ => ⟨S1x12800, .f32⟩
  | .local _ .vmem, ⟨37, _⟩ => ⟨S1x12800, .f32⟩
  | .local _ .vmem, ⟨38, _⟩ => ⟨S1x12800, .f32⟩
  | .local _ .vmem, ⟨39, _⟩ => ⟨S1x12800, .f32⟩
  | .local _ .vmem, ⟨40, _⟩ => ⟨S1x12800, .f32⟩
  | .local _ .vmem, ⟨41, _⟩ => ⟨S1x12800, .f32⟩
  | .local _ .vmem, ⟨42, _⟩ => ⟨S1x12800, .f32⟩
  | .local _ .vmem, ⟨43, _⟩ => ⟨S1x12800, .f32⟩
  | .local _ .vmem, ⟨44, _⟩ => ⟨S1x12800, .f32⟩
  | .local _ .vmem, ⟨45, _⟩ => ⟨S1x12800, .f32⟩
  | .local _ .vmem, ⟨46, _⟩ => ⟨S1x12800, .f32⟩
  | .local _ .vmem, ⟨47, _⟩ => ⟨S1x12800, .f32⟩
  | .local _ .vmem, ⟨48, _⟩ => ⟨S1x12800, .f32⟩
  | .local _ .vmem, ⟨49, _⟩ => ⟨S1x12800, .f32⟩
  | .local _ .vmem, ⟨50, _⟩ => ⟨S1x12800, .f32⟩
  | .local _ .vmem, ⟨51, _⟩ => ⟨S1x12800, .f32⟩
  | .local _ .vmem, ⟨52, _⟩ => ⟨S1x12800, .f32⟩
  | .local _ .vmem, ⟨53, _⟩ => ⟨S1x12800, .f32⟩
  | .local _ .vmem, ⟨54, _⟩ => ⟨S4x12800, .f32⟩
  | .local _ .vmem, ⟨55, _⟩ => ⟨S4x12800, .f32⟩
  | .local _ .vmem, ⟨56, _⟩ => ⟨S4x12800, .f32⟩
  | .local _ .vmem, ⟨57, _⟩ => ⟨S4x12800, .f32⟩
  | .local _ .vmem, ⟨58, _⟩ => ⟨S4x12800, .f32⟩
  | .local _ .vmem, ⟨59, _⟩ => ⟨S4x12800, .f32⟩
  | .local _ .vmem, ⟨60, _⟩ => ⟨S4x12800, .f32⟩
  | .local _ .vmem, ⟨61, _⟩ => ⟨S4x12800, .f32⟩
  | .local _ .vmem, ⟨62, _⟩ => ⟨S4x12800, .f32⟩
  | .local _ .vmem, ⟨63, _⟩ => ⟨S4x12800, .f32⟩
  | .local _ .vmem, ⟨64, _⟩ => ⟨S4x51200, .f32⟩
  | .local _ .vmem, ⟨65, _⟩ => ⟨S4x51200, .f32⟩
  | .local _ .vmem, ⟨66, _⟩ => ⟨S4x51200, .f32⟩
  | .local _ .vmem, ⟨67, _⟩ => ⟨S4x51200, .f32⟩
  | .local _ .vmem, ⟨68, _⟩ => ⟨S4x12800, .f32⟩
  | .local _ .vmem, ⟨69, _⟩ => ⟨S4x12800, .f32⟩
  | .local _ .vmem, ⟨70, _⟩ => ⟨S4x12800, .f32⟩
  | .local _ .vmem, ⟨71, _⟩ => ⟨S4x12800, .f32⟩
  | .local _ .vmem, ⟨72, _⟩ => ⟨S4x12800, .f32⟩
  | .local _ .vmem, ⟨73, _⟩ => ⟨S4x12800, .f32⟩
  | .local _ .vmem, ⟨74, _⟩ => ⟨S4x12800, .f32⟩
  | .local _ .vmem, ⟨75, _⟩ => ⟨S4x12800, .f32⟩
  | .local _ .vmem, ⟨76, _⟩ => ⟨S4x12800, .f32⟩
  | .local _ .vmem, ⟨77, _⟩ => ⟨S4x12800, .f32⟩
  | _, _ => ⟨S4x200000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_1 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_2 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_4 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_6 : Ref sig .tc := ⟨.hbm, 73, rfl⟩
abbrev main_call0_v0 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_7 : Ref sig .tc := ⟨.hbm, 78, rfl⟩
abbrev main_call1_v0 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_8 : Ref sig .tc := ⟨.hbm, 83, rfl⟩
abbrev main_call2_v0 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_9 : Ref sig .tc := ⟨.hbm, 88, rfl⟩
abbrev main_call3_v0 : Ref sig .tc := ⟨.hbm, 89, rfl⟩
abbrev main_v50 : Ref sig .tc := ⟨.hbm, 90, rfl⟩
abbrev main_v51 : Ref sig .tc := ⟨.hbm, 91, rfl⟩
abbrev main_c_10 : Ref sig .tc := ⟨.hbm, 92, rfl⟩
abbrev main_call4_v0 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_c_11 : Ref sig .tc := ⟨.hbm, 97, rfl⟩
abbrev main_call5_v0 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_c_12 : Ref sig .tc := ⟨.hbm, 102, rfl⟩
abbrev main_call6_v0 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_c_13 : Ref sig .tc := ⟨.hbm, 108, rfl⟩
abbrev main_call7_v0 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_c_14 : Ref sig .tc := ⟨.hbm, 114, rfl⟩
abbrev main_call8_v0 : Ref sig .tc := ⟨.hbm, 115, rfl⟩
abbrev main_v66 : Ref sig .tc := ⟨.hbm, 116, rfl⟩
abbrev main_v67 : Ref sig .tc := ⟨.hbm, 117, rfl⟩
abbrev main_c_15 : Ref sig .tc := ⟨.hbm, 118, rfl⟩
abbrev main_call9_v0 : Ref sig .tc := ⟨.hbm, 119, rfl⟩
abbrev main_v68 : Ref sig .tc := ⟨.hbm, 120, rfl⟩
abbrev main_c_16 : Ref sig .tc := ⟨.hbm, 121, rfl⟩
abbrev main_call10_v0 : Ref sig .tc := ⟨.hbm, 122, rfl⟩
abbrev main_v69 : Ref sig .tc := ⟨.hbm, 123, rfl⟩
abbrev main_c_17 : Ref sig .tc := ⟨.hbm, 124, rfl⟩
abbrev main_call11_v0 : Ref sig .tc := ⟨.hbm, 125, rfl⟩
abbrev main_v70 : Ref sig .tc := ⟨.hbm, 126, rfl⟩
abbrev main_c_18 : Ref sig .tc := ⟨.hbm, 127, rfl⟩
abbrev main_call12_v0 : Ref sig .tc := ⟨.hbm, 128, rfl⟩
abbrev main_v71 : Ref sig .tc := ⟨.hbm, 129, rfl⟩
abbrev main_c_19 : Ref sig .tc := ⟨.hbm, 130, rfl⟩
abbrev main_call13_v0 : Ref sig .tc := ⟨.hbm, 131, rfl⟩
abbrev main_v72 : Ref sig .tc := ⟨.hbm, 132, rfl⟩
abbrev main_cst_20 : Ref sig .tc := ⟨.hbm, 133, rfl⟩
abbrev main_call14_v0 : Ref sig .tc := ⟨.hbm, 134, rfl⟩
abbrev main_v73 : Ref sig .tc := ⟨.hbm, 135, rfl⟩
abbrev main_v74 : Ref sig .tc := ⟨.hbm, 136, rfl⟩
abbrev main_cst_21 : Ref sig .tc := ⟨.hbm, 137, rfl⟩
abbrev main_call15_v0 : Ref sig .tc := ⟨.hbm, 138, rfl⟩
abbrev main_v75 : Ref sig .tc := ⟨.hbm, 139, rfl⟩
abbrev main_v76 : Ref sig .tc := ⟨.hbm, 140, rfl⟩
abbrev main_cst_22 : Ref sig .tc := ⟨.hbm, 141, rfl⟩
abbrev main_call16_v0 : Ref sig .tc := ⟨.hbm, 142, rfl⟩
abbrev main_v77 : Ref sig .tc := ⟨.hbm, 143, rfl⟩
abbrev main_v78 : Ref sig .tc := ⟨.hbm, 144, rfl⟩
abbrev main_cst_23 : Ref sig .tc := ⟨.hbm, 145, rfl⟩
abbrev main_call17_v0 : Ref sig .tc := ⟨.hbm, 146, rfl⟩
abbrev main_v79 : Ref sig .tc := ⟨.hbm, 147, rfl⟩
abbrev main_v80 : Ref sig .tc := ⟨.hbm, 148, rfl⟩
abbrev main_cst_24 : Ref sig .tc := ⟨.hbm, 149, rfl⟩
abbrev main_call18_v0 : Ref sig .tc := ⟨.hbm, 150, rfl⟩
abbrev main_v81 : Ref sig .tc := ⟨.hbm, 151, rfl⟩
abbrev main_v82 : Ref sig .tc := ⟨.hbm, 152, rfl⟩
abbrev main_cst_25 : Ref sig .tc := ⟨.hbm, 153, rfl⟩
abbrev main_call19_v0 : Ref sig .tc := ⟨.hbm, 154, rfl⟩
abbrev main_v83 : Ref sig .tc := ⟨.hbm, 155, rfl⟩
abbrev main_v84 : Ref sig .tc := ⟨.hbm, 156, rfl⟩
abbrev main_cst_26 : Ref sig .tc := ⟨.hbm, 157, rfl⟩
abbrev main_call20_v0 : Ref sig .tc := ⟨.hbm, 158, rfl⟩
abbrev main_v85 : Ref sig .tc := ⟨.hbm, 159, rfl⟩
abbrev main_v86 : Ref sig .tc := ⟨.hbm, 160, rfl⟩
abbrev main_cst_27 : Ref sig .tc := ⟨.hbm, 161, rfl⟩
abbrev main_call21_v0 : Ref sig .tc := ⟨.hbm, 162, rfl⟩
abbrev main_v87 : Ref sig .tc := ⟨.hbm, 163, rfl⟩
abbrev main_v88 : Ref sig .tc := ⟨.hbm, 164, rfl⟩
abbrev main_cst_28 : Ref sig .tc := ⟨.hbm, 165, rfl⟩
abbrev main_call22_v0 : Ref sig .tc := ⟨.hbm, 166, rfl⟩
abbrev main_v89 : Ref sig .tc := ⟨.hbm, 167, rfl⟩
abbrev main_v90 : Ref sig .tc := ⟨.hbm, 168, rfl⟩
abbrev main_cst_29 : Ref sig .tc := ⟨.hbm, 169, rfl⟩
abbrev main_call23_v0 : Ref sig .tc := ⟨.hbm, 170, rfl⟩
abbrev main_v91 : Ref sig .tc := ⟨.hbm, 171, rfl⟩
abbrev main_v92 : Ref sig .tc := ⟨.hbm, 172, rfl⟩
abbrev main_cst_30 : Ref sig .tc := ⟨.hbm, 173, rfl⟩
abbrev main_call24_v0 : Ref sig .tc := ⟨.hbm, 174, rfl⟩
abbrev main_v93 : Ref sig .tc := ⟨.hbm, 175, rfl⟩
abbrev main_v94 : Ref sig .tc := ⟨.hbm, 176, rfl⟩
abbrev main_cst_31 : Ref sig .tc := ⟨.hbm, 177, rfl⟩
abbrev main_call25_v0 : Ref sig .tc := ⟨.hbm, 178, rfl⟩
abbrev main_v95 : Ref sig .tc := ⟨.hbm, 179, rfl⟩
abbrev main_v96 : Ref sig .tc := ⟨.hbm, 180, rfl⟩
abbrev main_cst_32 : Ref sig .tc := ⟨.hbm, 181, rfl⟩
abbrev main_call26_v0 : Ref sig .tc := ⟨.hbm, 182, rfl⟩
abbrev main_v97 : Ref sig .tc := ⟨.hbm, 183, rfl⟩
abbrev main_v98 : Ref sig .tc := ⟨.hbm, 184, rfl⟩
abbrev main_v99_0 : Ref sig .tc := ⟨.hbm, 185, rfl⟩
abbrev main_v99_1 : Ref sig .tc := ⟨.hbm, 186, rfl⟩
abbrev main_v99_2 : Ref sig .tc := ⟨.hbm, 187, rfl⟩
abbrev main_v99_3 : Ref sig .tc := ⟨.hbm, 188, rfl⟩
abbrev main_v99_4 : Ref sig .tc := ⟨.hbm, 189, rfl⟩
abbrev main_v99_5 : Ref sig .tc := ⟨.hbm, 190, rfl⟩
abbrev main_v99_6 : Ref sig .tc := ⟨.hbm, 191, rfl⟩
abbrev main_v99_7 : Ref sig .tc := ⟨.hbm, 192, rfl⟩
abbrev main_v99_8 : Ref sig .tc := ⟨.hbm, 193, rfl⟩
abbrev main_v99_9 : Ref sig .tc := ⟨.hbm, 194, rfl⟩
abbrev main_v99_10 : Ref sig .tc := ⟨.hbm, 195, rfl⟩
abbrev main_v99_11 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_28 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_29 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_30 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_31 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_32 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_33 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_34 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_35 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_36 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_37 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_38 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x12800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x12800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x51200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x51200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x51200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x51200 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x51200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x12800 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x12800 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x12800 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x12800 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x12800 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x12800 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x12800 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x12800 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x12800 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x12800 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x12800 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x12800 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x12800 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x12800 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x12800 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x12800 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x12800 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x12800 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S4x12800 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S4x12800 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S4x12800 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S4x12800 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S4x12800 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S4x51200 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S4x51200 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S4x12800 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S4x12800 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S4x12800 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S4x12800 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S4x12800 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

class Facts₀ : Prop where
  transposes_S4x250000_S250000x4_1_0 : S4x250000.Transposes [1, 0] S250000x4
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S5000000x1_S5000000x4_0_1 : S5000000x1.BroadcastsInDim S5000000x4 (![0, 1] : Fin 2 → Fin S5000000x4.rank)
  bcast_S_S200000x4 : S_.BroadcastsInDim S200000x4 (![] : Fin 0 → Fin S200000x4.rank)
  transposes_S200000x4_S4x200000_1_0 : S200000x4.Transposes [1, 0] S4x200000
  shapeCasts_S4x200000_S4x50000x4 : S4x200000.ShapeCasts S4x50000x4
  reducesTo_S4x50000x4_S4x50000_d2 : S4x50000x4.ReducesTo [2] S4x50000
  h_S_ : 0 < S_.numel
  bcast_S_S50000x2 : S_.BroadcastsInDim S50000x2 (![] : Fin 0 → Fin S50000x2.rank)
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  slices_S50000x2_S50000x1_0_1 : S50000x2.Slices ![0, 1] S50000x1
  shapeCasts_S4x250000_S4x5x50000 : S4x250000.ShapeCasts S4x5x50000
  slices_S4x5x50000_S4x1x50000_0_0_0 : S4x5x50000.Slices ![0, 0, 0] S4x1x50000
  shapeCasts_S4x1x50000_S4x50000 : S4x1x50000.ShapeCasts S4x50000
  pads_S4x50000_S4x51200_000_012000 : S4x50000.Pads (![0, 0] : Fin 2 → Nat) ![0, 1200] ![0, 0] S4x51200
  slices_S4x5x50000_S4x1x50000_0_1_0 : S4x5x50000.Slices ![0, 1, 0] S4x1x50000
  slices_S4x5x50000_S4x1x50000_0_2_0 : S4x5x50000.Slices ![0, 2, 0] S4x1x50000
  slices_S4x5x50000_S4x1x50000_0_3_0 : S4x5x50000.Slices ![0, 3, 0] S4x1x50000
  pads_S4x50000x4_S4x51200x4_000_012000_000 : S4x50000x4.Pads (![0, 0, 0] : Fin 3 → Nat) ![0, 1200, 0] ![0, 0, 0] S4x51200x4
  shapeCasts_S4x51200x4_S4x204800 : S4x51200x4.ShapeCasts S4x204800
  shapeCasts_S50000x4_S200000 : S50000x4.ShapeCasts S200000
  shapeCasts_S200000_S50000x4 : S200000.ShapeCasts S50000x4
  pads_S50000x4_S51200x4_012000_000 : S50000x4.Pads (![0, 0] : Fin 2 → Nat) ![1200, 0] ![0, 0] S51200x4
  shapeCasts_S51200x4_S1x204800 : S51200x4.ShapeCasts S1x204800
  pads_S50000_S51200_012000 : S50000.Pads (![0] : Fin 1 → Nat) ![1200] ![0] S51200
  shapeCasts_S51200_S1x51200 : S51200.ShapeCasts S1x51200
  inb_S4x12800_S4x12800_0_0 : ∀ a, (![0, 0] : Fin 2 → Nat) a + S4x12800.size a ≤ S4x12800.size a
  h_S4x12800 : 0 < S4x12800.numel
  shapeCasts_S4x12800_S4x12800 : S4x12800.ShapeCasts S4x12800
  inb_S4x51200_S4x51200_0_0 : ∀ a, (![0, 0] : Fin 2 → Nat) a + S4x51200.size a ≤ S4x51200.size a
  h_S4x51200 : 0 < S4x51200.numel
  shapeCasts_S4x51200_S4x51200 : S4x51200.ShapeCasts S4x51200
  inb_S1x51200_S1x51200_0_0 : ∀ a, (![0, 0] : Fin 2 → Nat) a + S1x51200.size a ≤ S1x51200.size a
  h_S1x51200 : 0 < S1x51200.numel
  shapeCasts_S1x51200_S1x51200 : S1x51200.ShapeCasts S1x51200
  broadcasts_S1x51200_S4x51200 : S1x51200.Broadcasts S4x51200
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  broadcasts_S1x12800_S4x12800 : S1x12800.Broadcasts S4x12800
  natLt_1_32 : 1 < 32
  slices_S4x51200_S4x50000_0_0 : S4x51200.Slices ![0, 0] S4x50000
  shapeCasts_S4x204800_S4x51200x4 : S4x204800.ShapeCasts S4x51200x4
  slices_S4x51200x4_S4x50000x4_0_0_0 : S4x51200x4.Slices ![0, 0, 0] S4x50000x4
  shapeCasts_S4x50000x4_S4x200000 : S4x50000x4.ShapeCasts S4x200000
  bcast_S4x50000_S4x1x50000_0_2 : S4x50000.BroadcastsInDim S4x1x50000 (![0, 2] : Fin 2 → Fin S4x1x50000.rank)
  concatenates_S4x1x50000_S4x1x50000_S4x1x50000_S4x1x50000_S4x1x50000_S4x5x50000_d1 : Shape.Concatenates [S4x1x50000, S4x1x50000, S4x1x50000, S4x1x50000, S4x1x50000] S4x5x50000 1
  shapeCasts_S4x5x50000_S4x250000 : S4x5x50000.ShapeCasts S4x250000
  concatenates_S4x50000_S4x50000_S4x50000_S4x50000_S4x50000_S4x200000_S4x200000_S4x250000_S4x900000_d1 : Shape.Concatenates [S4x50000, S4x50000, S4x50000, S4x50000, S4x50000, S4x200000, S4x200000, S4x250000] S4x900000 1
  gather_S250000x4_S5000000x1_S5000000x4_1_0_n_n_0_1_14_wf : GatherDims.WF S250000x4 S5000000x1 S5000000x4 [1] [0] [] [0] [] 1 ![1, 4]
  scatter_S200000x4_S5000000x1_S5000000x4_1_0_0_1_wf : ScatterDims.WF S200000x4 S5000000x1 S5000000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x12800.size a ≤ S4x51200.size a
  hwx0_0 : ∀ i : grid0.Coords, EltTy.bits .f32 = 32 ∨ (Rect.block (s := S4x51200) S4x12800.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x12800.size a ≤ S4x51200.size a
  hwx0_1 : ∀ i : grid0.Coords, EltTy.bits .f32 = 32 ∨ (Rect.block (s := S4x51200) S4x12800.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x12800.size a ≤ S4x51200.size a
  hwx0_2 : ∀ i : grid0.Coords, EltTy.bits .f32 = 32 ∨ (Rect.block (s := S4x51200) S4x12800.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x12800.size a ≤ S4x51200.size a
  hwx0_3 : ∀ i : grid0.Coords, EltTy.bits .f32 = 32 ∨ (Rect.block (s := S4x51200) S4x12800.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x51200.size a ≤ S4x204800.size a
  hwx0_4 : ∀ i : grid0.Coords, EltTy.bits .f32 = 32 ∨ (Rect.block (s := S4x204800) S4x51200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x51200.size a ≤ S4x204800.size a
  hwx0_5 : ∀ i : grid0.Coords, EltTy.bits .f32 = 32 ∨ (Rect.block (s := S4x204800) S4x51200.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x51200.size a ≤ S4x204800.size a
  hwx0_6 : ∀ i : grid0.Coords, EltTy.bits .f32 = 32 ∨ (Rect.block (s := S4x204800) S4x51200.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x51200.size a ≤ S1x204800.size a
  hwx0_7 : ∀ i : grid0.Coords, EltTy.bits .f32 = 32 ∨ (Rect.block (s := S1x204800) S1x51200.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x51200.size a ≤ S1x204800.size a
  hwx0_8 : ∀ i : grid0.Coords, EltTy.bits .f32 = 32 ∨ (Rect.block (s := S1x204800) S1x51200.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x12800.size a ≤ S4x51200.size a
  hwx0_9 : ∀ i : grid0.Coords, EltTy.bits .f32 = 32 ∨ (Rect.block (s := S4x51200) S4x12800.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x12800.size a ≤ S4x51200.size a
  hwx0_10 : ∀ i : grid0.Coords, EltTy.bits .f32 = 32 ∨ (Rect.block (s := S4x51200) S4x12800.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x12800.size a ≤ S4x51200.size a
  hwx0_11 : ∀ i : grid0.Coords, EltTy.bits .f32 = 32 ∨ (Rect.block (s := S4x51200) S4x12800.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4x12800.size a ≤ S4x51200.size a
  hwx0_12 : ∀ i : grid0.Coords, EltTy.bits .f32 = 32 ∨ (Rect.block (s := S4x51200) S4x12800.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4x12800.size a ≤ S4x51200.size a
  hwx0_13 : ∀ i : grid0.Coords, EltTy.bits .f32 = 32 ∨ (Rect.block (s := S4x51200) S4x12800.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x12800.size a ≤ S1x51200.size a
  hwx0_14 : ∀ i : grid0.Coords, EltTy.bits .f32 = 32 ∨ (Rect.block (s := S1x51200) S1x12800.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x12800.size a ≤ S1x51200.size a
  hwx0_15 : ∀ i : grid0.Coords, EltTy.bits .f32 = 32 ∨ (Rect.block (s := S1x51200) S1x12800.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x12800.size a ≤ S1x51200.size a
  hwx0_16 : ∀ i : grid0.Coords, EltTy.bits .f32 = 32 ∨ (Rect.block (s := S1x51200) S1x12800.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x12800.size a ≤ S1x51200.size a
  hwx0_17 : ∀ i : grid0.Coords, EltTy.bits .f32 = 32 ∨ (Rect.block (s := S1x51200) S1x12800.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x12800.size a ≤ S1x51200.size a
  hwx0_18 : ∀ i : grid0.Coords, EltTy.bits .f32 = 32 ∨ (Rect.block (s := S1x51200) S1x12800.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x12800.size a ≤ S1x51200.size a
  hwx0_19 : ∀ i : grid0.Coords, EltTy.bits .f32 = 32 ∨ (Rect.block (s := S1x51200) S1x12800.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x12800.size a ≤ S1x51200.size a
  hwx0_20 : ∀ i : grid0.Coords, EltTy.bits .f32 = 32 ∨ (Rect.block (s := S1x51200) S1x12800.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1x12800.size a ≤ S1x51200.size a
  hwx0_21 : ∀ i : grid0.Coords, EltTy.bits .f32 = 32 ∨ (Rect.block (s := S1x51200) S1x12800.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1x12800.size a ≤ S1x51200.size a
  hwx0_22 : ∀ i : grid0.Coords, EltTy.bits .f32 = 32 ∨ (Rect.block (s := S1x51200) S1x12800.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1x12800.size a ≤ S1x51200.size a
  hwx0_23 : ∀ i : grid0.Coords, EltTy.bits .f32 = 32 ∨ (Rect.block (s := S1x51200) S1x12800.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1x12800.size a ≤ S1x51200.size a
  hwx0_24 : ∀ i : grid0.Coords, EltTy.bits .f32 = 32 ∨ (Rect.block (s := S1x51200) S1x12800.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1x12800.size a ≤ S1x51200.size a
  hwx0_25 : ∀ i : grid0.Coords, EltTy.bits .f32 = 32 ∨ (Rect.block (s := S1x51200) S1x12800.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1x12800.size a ≤ S1x51200.size a
  hwx0_26 : ∀ i : grid0.Coords, EltTy.bits .f32 = 32 ∨ (Rect.block (s := S1x51200) S1x12800.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S4x12800.size a ≤ S4x51200.size a
  hwx0_27 : ∀ i : grid0.Coords, EltTy.bits .f32 = 32 ∨ (Rect.block (s := S4x51200) S4x12800.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S4x12800.size a ≤ S4x51200.size a
  hwx0_28 : ∀ i : grid0.Coords, EltTy.bits .f32 = 32 ∨ (Rect.block (s := S4x51200) S4x12800.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S4x12800.size a ≤ S4x51200.size a
  hwx0_29 : ∀ i : grid0.Coords, EltTy.bits .f32 = 32 ∨ (Rect.block (s := S4x51200) S4x12800.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S4x12800.size a ≤ S4x51200.size a
  hwx0_30 : ∀ i : grid0.Coords, EltTy.bits .f32 = 32 ∨ (Rect.block (s := S4x51200) S4x12800.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S4x12800.size a ≤ S4x51200.size a
  hwx0_31 : ∀ i : grid0.Coords, EltTy.bits .f32 = 32 ∨ (Rect.block (s := S4x51200) S4x12800.size (cc0_transform_31 i) (hinb0_31 i)).WholeWords (EltTy.packing .f32)
  hstage0_32 : ∀ j, (stage0_32 j).IsWhole
  nbuf0_32 : grid0.bufCount reads0_32 false = 2
  hreads0_32 : ∀ i i' : grid0.Coords, (∀ a, reads0_32 a = true → i a = i' a) → cc0_transform_32 i = cc0_transform_32 i'
  hinb0_32 : ∀ (i : grid0.Coords) a, (cc0_transform_32 i a + 1) * S4x51200.size a ≤ S4x204800.size a
  hwx0_32 : ∀ i : grid0.Coords, EltTy.bits .f32 = 32 ∨ (Rect.block (s := S4x204800) S4x51200.size (cc0_transform_32 i) (hinb0_32 i)).WholeWords (EltTy.packing .f32)
  hstage0_33 : ∀ j, (stage0_33 j).IsWhole
  nbuf0_33 : grid0.bufCount reads0_33 false = 2
  hreads0_33 : ∀ i i' : grid0.Coords, (∀ a, reads0_33 a = true → i a = i' a) → cc0_transform_33 i = cc0_transform_33 i'
  hinb0_33 : ∀ (i : grid0.Coords) a, (cc0_transform_33 i a + 1) * S4x51200.size a ≤ S4x204800.size a
  hwx0_33 : ∀ i : grid0.Coords, EltTy.bits .f32 = 32 ∨ (Rect.block (s := S4x204800) S4x51200.size (cc0_transform_33 i) (hinb0_33 i)).WholeWords (EltTy.packing .f32)
  hstage0_34 : ∀ j, (stage0_34 j).IsWhole
  nbuf0_34 : grid0.bufCount reads0_34 false = 2
  hreads0_34 : ∀ i i' : grid0.Coords, (∀ a, reads0_34 a = true → i a = i' a) → cc0_transform_34 i = cc0_transform_34 i'
  hinb0_34 : ∀ (i : grid0.Coords) a, (cc0_transform_34 i a + 1) * S4x12800.size a ≤ S4x51200.size a
  hwx0_34 : ∀ i : grid0.Coords, EltTy.bits .f32 = 32 ∨ (Rect.block (s := S4x51200) S4x12800.size (cc0_transform_34 i) (hinb0_34 i)).WholeWords (EltTy.packing .f32)
  hstage0_35 : ∀ j, (stage0_35 j).IsWhole
  nbuf0_35 : grid0.bufCount reads0_35 false = 2
  hreads0_35 : ∀ i i' : grid0.Coords, (∀ a, reads0_35 a = true → i a = i' a) → cc0_transform_35 i = cc0_transform_35 i'
  hinb0_35 : ∀ (i : grid0.Coords) a, (cc0_transform_35 i a + 1) * S4x12800.size a ≤ S4x51200.size a
  hwx0_35 : ∀ i : grid0.Coords, EltTy.bits .f32 = 32 ∨ (Rect.block (s := S4x51200) S4x12800.size (cc0_transform_35 i) (hinb0_35 i)).WholeWords (EltTy.packing .f32)
  hstage0_36 : ∀ j, (stage0_36 j).IsWhole
  nbuf0_36 : grid0.bufCount reads0_36 false = 2
  hreads0_36 : ∀ i i' : grid0.Coords, (∀ a, reads0_36 a = true → i a = i' a) → cc0_transform_36 i = cc0_transform_36 i'
  hinb0_36 : ∀ (i : grid0.Coords) a, (cc0_transform_36 i a + 1) * S4x12800.size a ≤ S4x51200.size a
  hwx0_36 : ∀ i : grid0.Coords, EltTy.bits .f32 = 32 ∨ (Rect.block (s := S4x51200) S4x12800.size (cc0_transform_36 i) (hinb0_36 i)).WholeWords (EltTy.packing .f32)
  hstage0_37 : ∀ j, (stage0_37 j).IsWhole
  nbuf0_37 : grid0.bufCount reads0_37 false = 2
  hreads0_37 : ∀ i i' : grid0.Coords, (∀ a, reads0_37 a = true → i a = i' a) → cc0_transform_37 i = cc0_transform_37 i'
  hinb0_37 : ∀ (i : grid0.Coords) a, (cc0_transform_37 i a + 1) * S4x12800.size a ≤ S4x51200.size a
  hwx0_37 : ∀ i : grid0.Coords, EltTy.bits .f32 = 32 ∨ (Rect.block (s := S4x51200) S4x12800.size (cc0_transform_37 i) (hinb0_37 i)).WholeWords (EltTy.packing .f32)
  hstage0_38 : ∀ j, (stage0_38 j).IsWhole
  nbuf0_38 : grid0.bufCount reads0_38 false = 2
  hreads0_38 : ∀ i i' : grid0.Coords, (∀ a, reads0_38 a = true → i a = i' a) → cc0_transform_38 i = cc0_transform_38 i'
  hinb0_38 : ∀ (i : grid0.Coords) a, (cc0_transform_38 i a + 1) * S4x12800.size a ≤ S4x51200.size a
  hwx0_38 : ∀ i : grid0.Coords, EltTy.bits .f32 = 32 ∨ (Rect.block (s := S4x51200) S4x12800.size (cc0_transform_38 i) (hinb0_38 i)).WholeWords (EltTy.packing .f32)

variable [Facts₀]

def gather_S250000x4_S5000000x1_S5000000x4_1_0_n_n_0_1_14 : GatherDims S250000x4 S5000000x1 S5000000x4 where
  offsetDims := [1]
  collapsedSliceDims := [0]
  operandBatchingDims := []
  startIndicesBatchingDims := []
  startIndexMap := [0]
  indexVectorDim := 1
  sliceSizes := ![1, 4]
  wf := gather_S250000x4_S5000000x1_S5000000x4_1_0_n_n_0_1_14_wf
def scatter_S200000x4_S5000000x1_S5000000x4_1_0_0_1 : ScatterDims S200000x4 S5000000x1 S5000000x4 where
  updateWindowDims := [1]
  insertedWindowDims := [0]
  scatterDimsToOperandDims := [0]
  indexVectorDim := 1
  wf := scatter_S200000x4_S5000000x1_S5000000x4_1_0_0_1_wf

abbrev win0_0 : Pipeline.Window sig grid0 :=
  Pipeline.Window.ofSpec (Memref.whole main_v41) S4x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S4x12800.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S4x12800.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S4x12800.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v53) S4x51200.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v56) S4x51200.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v59) S4x51200.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v63) S1x51200.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v67) S1x51200.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v68) S4x12800.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v69) S4x12800.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v70) S4x12800.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v71) S4x12800.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v72) S4x12800.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v74) S1x12800.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v76) S1x12800.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v78) S1x12800.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v80) S1x12800.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v82) S1x12800.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v84) S1x12800.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_v86) S1x12800.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_v88) S1x12800.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_v90) S1x12800.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_v92) S1x12800.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_v94) S1x12800.size cc0_transform_24 reads0_24 false false 2 stage0_24 sem0_24
    hrank0 hreads0_24 hinb0_24 nbuf0_24 (Memref.isWhole_whole _) hwx0_24 hstage0_24

abbrev win0_25 : Pipeline.Window sig grid0 :=
  Pipeline.Window.ofSpec (Memref.whole main_v96) S1x12800.size cc0_transform_25 reads0_25 false false 2 stage0_25 sem0_25
    hrank0 hreads0_25 hinb0_25 nbuf0_25 (Memref.isWhole_whole _) hwx0_25 hstage0_25

abbrev win0_26 : Pipeline.Window sig grid0 :=
  Pipeline.Window.ofSpec (Memref.whole main_v98) S1x12800.size cc0_transform_26 reads0_26 false false 2 stage0_26 sem0_26
    hrank0 hreads0_26 hinb0_26 nbuf0_26 (Memref.isWhole_whole _) hwx0_26 hstage0_26

abbrev win0_27 : Pipeline.Window sig grid0 :=
  Pipeline.Window.ofSpec (Memref.whole main_v99_0) S4x12800.size cc0_transform_27 reads0_27 true false 2 stage0_27 sem0_27
    hrank0 hreads0_27 hinb0_27 nbuf0_27 (Memref.isWhole_whole _) hwx0_27 hstage0_27

abbrev win0_28 : Pipeline.Window sig grid0 :=
  Pipeline.Window.ofSpec (Memref.whole main_v99_1) S4x12800.size cc0_transform_28 reads0_28 true false 2 stage0_28 sem0_28
    hrank0 hreads0_28 hinb0_28 nbuf0_28 (Memref.isWhole_whole _) hwx0_28 hstage0_28

abbrev win0_29 : Pipeline.Window sig grid0 :=
  Pipeline.Window.ofSpec (Memref.whole main_v99_2) S4x12800.size cc0_transform_29 reads0_29 true false 2 stage0_29 sem0_29
    hrank0 hreads0_29 hinb0_29 nbuf0_29 (Memref.isWhole_whole _) hwx0_29 hstage0_29

abbrev win0_30 : Pipeline.Window sig grid0 :=
  Pipeline.Window.ofSpec (Memref.whole main_v99_3) S4x12800.size cc0_transform_30 reads0_30 true false 2 stage0_30 sem0_30
    hrank0 hreads0_30 hinb0_30 nbuf0_30 (Memref.isWhole_whole _) hwx0_30 hstage0_30

abbrev win0_31 : Pipeline.Window sig grid0 :=
  Pipeline.Window.ofSpec (Memref.whole main_v99_4) S4x12800.size cc0_transform_31 reads0_31 true false 2 stage0_31 sem0_31
    hrank0 hreads0_31 hinb0_31 nbuf0_31 (Memref.isWhole_whole _) hwx0_31 hstage0_31

abbrev win0_32 : Pipeline.Window sig grid0 :=
  Pipeline.Window.ofSpec (Memref.whole main_v99_5) S4x51200.size cc0_transform_32 reads0_32 true false 2 stage0_32 sem0_32
    hrank0 hreads0_32 hinb0_32 nbuf0_32 (Memref.isWhole_whole _) hwx0_32 hstage0_32

abbrev win0_33 : Pipeline.Window sig grid0 :=
  Pipeline.Window.ofSpec (Memref.whole main_v99_6) S4x51200.size cc0_transform_33 reads0_33 true false 2 stage0_33 sem0_33
    hrank0 hreads0_33 hinb0_33 nbuf0_33 (Memref.isWhole_whole _) hwx0_33 hstage0_33

abbrev win0_34 : Pipeline.Window sig grid0 :=
  Pipeline.Window.ofSpec (Memref.whole main_v99_7) S4x12800.size cc0_transform_34 reads0_34 true false 2 stage0_34 sem0_34
    hrank0 hreads0_34 hinb0_34 nbuf0_34 (Memref.isWhole_whole _) hwx0_34 hstage0_34

abbrev win0_35 : Pipeline.Window sig grid0 :=
  Pipeline.Window.ofSpec (Memref.whole main_v99_8) S4x12800.size cc0_transform_35 reads0_35 true false 2 stage0_35 sem0_35
    hrank0 hreads0_35 hinb0_35 nbuf0_35 (Memref.isWhole_whole _) hwx0_35 hstage0_35

abbrev win0_36 : Pipeline.Window sig grid0 :=
  Pipeline.Window.ofSpec (Memref.whole main_v99_9) S4x12800.size cc0_transform_36 reads0_36 true false 2 stage0_36 sem0_36
    hrank0 hreads0_36 hinb0_36 nbuf0_36 (Memref.isWhole_whole _) hwx0_36 hstage0_36

abbrev win0_37 : Pipeline.Window sig grid0 :=
  Pipeline.Window.ofSpec (Memref.whole main_v99_10) S4x12800.size cc0_transform_37 reads0_37 true false 2 stage0_37 sem0_37
    hrank0 hreads0_37 hinb0_37 nbuf0_37 (Memref.isWhole_whole _) hwx0_37 hstage0_37

abbrev win0_38 : Pipeline.Window sig grid0 :=
  Pipeline.Window.ofSpec (Memref.whole main_v99_11) S4x12800.size cc0_transform_38 reads0_38 true false 2 stage0_38 sem0_38
    hrank0 hreads0_38 hinb0_38 nbuf0_38 (Memref.isWhole_whole _) hwx0_38 hstage0_38

abbrev win0 : Fin 39 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | 37 => win0_37 | 38 => win0_38 | ⟨_ + 39, h⟩ => absurd h (Nat.not_lt.2 (Nat.le_add_left _ _))
abbrev spec0 : Fin 39 → Pipeline.WinSpec sig grid0.rank := fun w => (win0 w).toWinSpec

class Facts : Prop extends Facts₀ where

variable [Facts]
-- ==== ReferenceIdeal.lean ====
abbrev S4x200000 : Shape := ⟨2, ![4, 200000]⟩
abbrev S4x250000 : Shape := ⟨2, ![4, 250000]⟩
abbrev S4x50000 : Shape := ⟨2, ![4, 50000]⟩
abbrev S5000000 : Shape := ⟨1, ![5000000]⟩
abbrev S50000x4 : Shape := ⟨2, ![50000, 4]⟩
abbrev S50000 : Shape := ⟨1, ![50000]⟩
abbrev S50000x2 : Shape := ⟨2, ![50000, 2]⟩
abbrev S4x5x50000 : Shape := ⟨3, ![4, 5, 50000]⟩
abbrev S4x1x50000 : Shape := ⟨3, ![4, 1, 50000]⟩
abbrev S4x50000x4 : Shape := ⟨3, ![4, 50000, 4]⟩
abbrev S5000000x1 : Shape := ⟨2, ![5000000, 1]⟩
abbrev S250000x4 : Shape := ⟨2, ![250000, 4]⟩
abbrev S_ : Shape := ⟨0, ![]⟩
abbrev S5000000x4 : Shape := ⟨2, ![5000000, 4]⟩
abbrev S200000x4 : Shape := ⟨2, ![200000, 4]⟩
abbrev S1x50000x4 : Shape := ⟨3, ![1, 50000, 4]⟩
abbrev S1x50000 : Shape := ⟨2, ![1, 50000]⟩
abbrev S50000x1 : Shape := ⟨2, ![50000, 1]⟩
abbrev S4x4x50000 : Shape := ⟨3, ![4, 4, 50000]⟩
abbrev S4x900000 : Shape := ⟨2, ![4, 900000]⟩

abbrev nBuf : Space → Nat
  | .hbm => 164
  | .vmem => 0
  | .smem => 0
  | _ => 0

abbrev hbmTy0_0 (i : Nat) : BufTy := match i % 128 with
  | 0 => ⟨S4x200000, .f32⟩
  | 1 => ⟨S4x250000, .f32⟩
  | 2 => ⟨S4x50000, .f32⟩
  | 3 => ⟨S4x50000, .f32⟩
  | 4 => ⟨S4x50000, .f32⟩
  | 5 => ⟨S4x50000, .f32⟩
  | 6 => ⟨S4x200000, .f32⟩
  | 7 => ⟨S4x200000, .f32⟩
  | 8 => ⟨S5000000, .f32⟩
  | 9 => ⟨S5000000, .i32⟩
  | 10 => ⟨S5000000, .i32⟩
  | 11 => ⟨S50000x4, .f32⟩
  | 12 => ⟨S50000x4, .f32⟩
  | 13 => ⟨S50000, .f32⟩
  | 14 => ⟨S50000x2, .f32⟩
  | 15 => ⟨S50000x2, .f32⟩
  | 16 => ⟨S50000, .f32⟩
  | 17 => ⟨S50000, .f32⟩
  | 18 => ⟨S50000, .f32⟩
  | 19 => ⟨S50000, .f32⟩
  | 20 => ⟨S50000, .f32⟩
  | 21 => ⟨S50000, .f32⟩
  | 22 => ⟨S50000, .f32⟩
  | 23 => ⟨S50000, .f32⟩
  | 24 => ⟨S4x5x50000, .f32⟩
  | 25 => ⟨S4x1x50000, .f32⟩
  | 26 => ⟨S4x50000, .f32⟩
  | 27 => ⟨S4x50000x4, .f32⟩
  | 28 => ⟨S4x50000x4, .f32⟩
  | 29 => ⟨S5000000x1, .f32⟩
  | 30 => ⟨S250000x4, .f32⟩
  | 31 => ⟨S_, .i32⟩
  | 32 => ⟨S5000000, .i32⟩
  | 33 => ⟨S5000000, .i1⟩
  | 34 => ⟨S_, .i32⟩
  | 35 => ⟨S5000000, .i32⟩
  | 36 => ⟨S5000000, .i32⟩
  | 37 => ⟨S5000000, .i32⟩
  | 38 => ⟨S5000000x1, .i32⟩
  | 39 => ⟨S5000000x4, .f32⟩
  | 40 => ⟨S5000000x4, .f32⟩
  | 41 => ⟨S5000000x4, .f32⟩
  | 42 => ⟨S_, .f32⟩
  | 43 => ⟨S200000x4, .f32⟩
  | 44 => ⟨S5000000x1, .i32⟩
  | 45 => ⟨S200000x4, .f32⟩
  | 46 => ⟨S4x200000, .f32⟩
  | 47 => ⟨S4x200000, .f32⟩
  | 48 => ⟨S4x50000x4, .f32⟩
  | 49 => ⟨S1x50000x4, .f32⟩
  | 50 => ⟨S4x50000x4, .f32⟩
  | 51 => ⟨S4x50000x4, .f32⟩
  | 52 => ⟨S1x50000x4, .f32⟩
  | 53 => ⟨S4x50000x4, .f32⟩
  | 54 => ⟨S4x50000x4, .f32⟩
  | 55 => ⟨S4x50000x4, .f32⟩
  | 56 => ⟨S1x50000x4, .f32⟩
  | 57 => ⟨S4x50000x4, .f32⟩
  | 58 => ⟨S4x50000x4, .f32⟩
  | 59 => ⟨S_, .f32⟩
  | 60 => ⟨S50000x4, .f32⟩
  | 61 => ⟨S50000x4, .f32⟩
  | 62 => ⟨S1x50000x4, .f32⟩
  | 63 => ⟨S4x50000x4, .f32⟩
  | 64 => ⟨S4x50000x4, .f32⟩
  | 65 => ⟨S4x50000x4, .f32⟩
  | 66 => ⟨S1x50000, .f32⟩
  | 67 => ⟨S4x50000, .f32⟩
  | 68 => ⟨S4x50000, .f32⟩
  | 69 => ⟨S4x50000, .f32⟩
  | 70 => ⟨S_, .f32⟩
  | 71 => ⟨S4x50000, .f32⟩
  | 72 => ⟨S4x50000, .f32⟩
  | 73 => ⟨S_, .f32⟩
  | 74 => ⟨S4x50000, .f32⟩
  | 75 => ⟨S4x50000, .f32⟩
  | 76 => ⟨S50000x2, .f32⟩
  | 77 => ⟨S50000x2, .f32⟩
  | 78 => ⟨S_, .f32⟩
  | 79 => ⟨S50000x2, .f32⟩
  | 80 => ⟨S50000x2, .f32⟩
  | 81 => ⟨S_, .f32⟩
  | 82 => ⟨S50000x2, .f32⟩
  | 83 => ⟨S50000x2, .f32⟩
  | 84 => ⟨S50000x1, .f32⟩
  | 85 => ⟨S50000, .f32⟩
  | 86 => ⟨S_, .f32⟩
  | 87 => ⟨S50000, .f32⟩
  | 88 => ⟨S50000, .f32⟩
  | 89 => ⟨S50000, .f32⟩
  | 90 => ⟨S1x50000, .f32⟩
  | 91 => ⟨S4x50000, .f32⟩
  | 92 => ⟨S4x50000, .f32⟩
  | 93 => ⟨S50000x1, .f32⟩
  | 94 => ⟨S50000, .f32⟩
  | 95 => ⟨S1x50000, .f32⟩
  | 96 => ⟨S4x50000, .f32⟩
  | 97 => ⟨S4x50000, .f32⟩
  | 98 => ⟨S4x50000, .f32⟩
  | 99 => ⟨S50000x1, .f32⟩
  | 100 => ⟨S50000, .f32⟩
  | 101 => ⟨S_, .f32⟩
  | 102 => ⟨S50000, .f32⟩
  | 103 => ⟨S50000, .f32⟩
  | 104 => ⟨S50000, .f32⟩
  | 105 => ⟨S1x50000, .f32⟩
  | 106 => ⟨S4x50000, .f32⟩
  | 107 => ⟨S4x50000, .f32⟩
  | 108 => ⟨S50000x1, .f32⟩
  | 109 => ⟨S50000, .f32⟩
  | 110 => ⟨S1x50000, .f32⟩
  | 111 => ⟨S4x50000, .f32⟩
  | 112 => ⟨S4x50000, .f32⟩
  | 113 => ⟨S4x50000, .f32⟩
  | 114 => ⟨S50000, .f32⟩
  | 115 => ⟨S1x50000, .f32⟩
  | 116 => ⟨S4x50000, .f32⟩
  | 117 => ⟨S4x50000, .f32⟩
  | 118 => ⟨S_, .f32⟩
  | 119 => ⟨S4x50000, .f32⟩
  | 120 => ⟨S4x50000, .f32⟩
  | 121 => ⟨S4x50000, .f32⟩
  | 122 => ⟨S50000, .f32⟩
  | 123 => ⟨S1x50000, .f32⟩
  | 124 => ⟨S4x50000, .f32⟩
  | 125 => ⟨S4x50000, .f32⟩
  | 126 => ⟨S1x50000, .f32⟩
  | 127 => ⟨S4x50000, .f32⟩
  | _ => ⟨S4x200000, .f32⟩

abbrev hbmTy0_1 (i : Nat) : BufTy := match i % 128 with
  | 0 => ⟨S4x50000, .f32⟩
  | 1 => ⟨S1x50000, .f32⟩
  | 2 => ⟨S4x50000, .f32⟩
  | 3 => ⟨S4x50000, .f32⟩
  | 4 => ⟨S4x50000, .f32⟩
  | 5 => ⟨S4x50000, .f32⟩
  | 6 => ⟨S1x50000, .f32⟩
  | 7 => ⟨S4x50000, .f32⟩
  | 8 => ⟨S4x50000, .f32⟩
  | 9 => ⟨S50000, .f32⟩
  | 10 => ⟨S1x50000, .f32⟩
  | 11 => ⟨S4x50000, .f32⟩
  | 12 => ⟨S4x50000, .f32⟩
  | 13 => ⟨S_, .f32⟩
  | 14 => ⟨S4x50000, .f32⟩
  | 15 => ⟨S4x50000, .i1⟩
  | 16 => ⟨S4x50000, .f32⟩
  | 17 => ⟨S_, .f32⟩
  | 18 => ⟨S4x50000, .f32⟩
  | 19 => ⟨S4x50000, .i1⟩
  | 20 => ⟨S_, .f32⟩
  | 21 => ⟨S4x50000, .f32⟩
  | 22 => ⟨S4x50000, .f32⟩
  | 23 => ⟨S4x1x50000, .f32⟩
  | 24 => ⟨S4x4x50000, .f32⟩
  | 25 => ⟨S4x5x50000, .f32⟩
  | 26 => ⟨S1x50000, .f32⟩
  | 27 => ⟨S4x50000, .f32⟩
  | 28 => ⟨S4x50000, .f32⟩
  | 29 => ⟨S1x50000, .f32⟩
  | 30 => ⟨S4x50000, .f32⟩
  | 31 => ⟨S4x50000, .f32⟩
  | 32 => ⟨S4x200000, .f32⟩
  | 33 => ⟨S4x200000, .f32⟩
  | 34 => ⟨S4x250000, .f32⟩
  | 35 => ⟨S4x900000, .f32⟩
  | _ => ⟨S4x200000, .f32⟩

abbrev hbmTy (i : Nat) : BufTy := match i / 128 with
  | 0 => hbmTy0_0 i
  | 1 => hbmTy0_1 i
  | _ => ⟨S4x200000, .f32⟩

abbrev bufTy : (tb : Table) → Fin (tcTables nBuf tb) → BufTy
  | .hbm, ⟨i, _⟩ => hbmTy i
  | _, _ => ⟨S4x200000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c : Ref sig .tc := ⟨.hbm, 31, rfl⟩
abbrev main_v7 : Ref sig .tc := ⟨.hbm, 32, rfl⟩
abbrev main_v8 : Ref sig .tc := ⟨.hbm, 33, rfl⟩
abbrev main_c_0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_1 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_2 : Ref sig .tc := ⟨.hbm, 70, rfl⟩
abbrev main_v42 : Ref sig .tc := ⟨.hbm, 71, rfl⟩
abbrev main_v43 : Ref sig .tc := ⟨.hbm, 72, rfl⟩
abbrev main_call0_cst : Ref sig .tc := ⟨.hbm, 73, rfl⟩
abbrev main_call0_v0 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_3 : Ref sig .tc := ⟨.hbm, 78, rfl⟩
abbrev main_v47 : Ref sig .tc := ⟨.hbm, 79, rfl⟩
abbrev main_v48 : Ref sig .tc := ⟨.hbm, 80, rfl⟩
abbrev main_cst_4 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_5 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_6 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_7 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_8 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_9 : Ref sig .tc := ⟨.hbm, 145, rfl⟩
abbrev main_v108 : Ref sig .tc := ⟨.hbm, 146, rfl⟩
abbrev main_v109 : Ref sig .tc := ⟨.hbm, 147, rfl⟩
abbrev main_cst_10 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩

abbrev nD : Nat := 1
abbrev τ : Topo := Topo.v7x

variable {F : FTy → Type} [FloatOps F]

class Facts₀ : Prop where
  shapeCasts_S4x250000_S4x5x50000 : S4x250000.ShapeCasts S4x5x50000
  slices_S4x5x50000_S4x1x50000_0_0_0 : S4x5x50000.Slices ![0, 0, 0] S4x1x50000
  shapeCasts_S4x1x50000_S4x50000 : S4x1x50000.ShapeCasts S4x50000
  shapeCasts_S4x200000_S4x50000x4 : S4x200000.ShapeCasts S4x50000x4
  bcast_S5000000_S5000000x1_0 : S5000000.BroadcastsInDim S5000000x1 (![0] : Fin 1 → Fin S5000000x1.rank)
  transposes_S4x250000_S250000x4_1_0 : S4x250000.Transposes [1, 0] S250000x4
  bcast_S_S5000000 : S_.BroadcastsInDim S5000000 (![] : Fin 0 → Fin S5000000.rank)
  bcast_S5000000x1_S5000000x4_0_1 : S5000000x1.BroadcastsInDim S5000000x4 (![0, 1] : Fin 2 → Fin S5000000x4.rank)
  bcast_S_S200000x4 : S_.BroadcastsInDim S200000x4 (![] : Fin 0 → Fin S200000x4.rank)
  transposes_S200000x4_S4x200000_1_0 : S200000x4.Transposes [1, 0] S4x200000
  bcast_S50000x4_S1x50000x4_1_2 : S50000x4.BroadcastsInDim S1x50000x4 (![1, 2] : Fin 2 → Fin S1x50000x4.rank)
  bcast_S1x50000x4_S4x50000x4_0_1_2 : S1x50000x4.BroadcastsInDim S4x50000x4 (![0, 1, 2] : Fin 3 → Fin S4x50000x4.rank)
  bcast_S_S50000x4 : S_.BroadcastsInDim S50000x4 (![] : Fin 0 → Fin S50000x4.rank)
  bcast_S50000_S1x50000_1 : S50000.BroadcastsInDim S1x50000 (![1] : Fin 1 → Fin S1x50000.rank)
  bcast_S1x50000_S4x50000_0_1 : S1x50000.BroadcastsInDim S4x50000 (![0, 1] : Fin 2 → Fin S4x50000.rank)
  bcast_S_S4x50000 : S_.BroadcastsInDim S4x50000 (![] : Fin 0 → Fin S4x50000.rank)
  bcast_S_S50000x2 : S_.BroadcastsInDim S50000x2 (![] : Fin 0 → Fin S50000x2.rank)
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  slices_S50000x2_S50000x1_0_1 : S50000x2.Slices ![0, 1] S50000x1
  reducesTo_S4x50000x4_S4x50000_d2 : S4x50000x4.ReducesTo [2] S4x50000
  h_S_ : 0 < S_.numel
  bcast_S4x50000_S4x1x50000_0_2 : S4x50000.BroadcastsInDim S4x1x50000 (![0, 2] : Fin 2 → Fin S4x1x50000.rank)
  slices_S4x5x50000_S4x4x50000_0_0_0 : S4x5x50000.Slices ![0, 0, 0] S4x4x50000
  concatenates_S4x1x50000_S4x4x50000_S4x5x50000_d1 : Shape.Concatenates [S4x1x50000, S4x4x50000] S4x5x50000 1
  shapeCasts_S4x50000x4_S4x200000 : S4x50000x4.ShapeCasts S4x200000
  shapeCasts_S4x5x50000_S4x250000 : S4x5x50000.ShapeCasts S4x250000
  concatenates_S4x50000_S4x50000_S4x50000_S4x50000_S4x50000_S4x200000_S4x200000_S4x250000_S4x900000_d1 : Shape.Concatenates [S4x50000, S4x50000, S4x50000, S4x50000, S4x50000, S4x200000, S4x200000, S4x250000] S4x900000 1
  gather_S250000x4_S5000000x1_S5000000x4_1_0_n_n_0_1_14_wf : GatherDims.WF S250000x4 S5000000x1 S5000000x4 [1] [0] [] [0] [] 1 ![1, 4]
  scatter_S200000x4_S5000000x1_S5000000x4_1_0_0_1_wf : ScatterDims.WF S200000x4 S5000000x1 S5000000x4 [1] [0] [0] 1

variable [Facts₀]

def gather_S250000x4_S5000000x1_S5000000x4_1_0_n_n_0_1_14 : GatherDims S250000x4 S5000000x1 S5000000x4 where
  offsetDims := [1]
  collapsedSliceDims := [0]
  operandBatchingDims := []
  startIndicesBatchingDims := []
  startIndexMap := [0]
  indexVectorDim := 1
  sliceSizes := ![1, 4]
  wf := gather_S250000x4_S5000000x1_S5000000x4_1_0_n_n_0_1_14_wf
def scatter_S200000x4_S5000000x1_S5000000x4_1_0_0_1 : ScatterDims S200000x4 S5000000x1 S5000000x4 where
  updateWindowDims := [1]
  insertedWindowDims := [0]
  scatterDimsToOperandDims := [0]
  indexVectorDim := 1
  wf := scatter_S200000x4_S5000000x1_S5000000x4_1_0_0_1_wf

class Facts : Prop extends Facts₀ where

variable [Facts]
-- ==== Proof.BitsAround.lean ====
/-
  The host side of the program around its one region. @main is fifty-five stretches of host operations, the
  region, and one last stretch. Read here: the contents every buffer has when the region is entered (`V`), the
  fact that no host operation before or after the region writes an argument array (so each argument ends as it
  was launched), each window's block at a grid point as a restriction of its array (`iblk`), the fact that an
  input window's staging buffer holds exactly that block at every point, and the frame claim's post read off
  a run to the library's frame post.
-/
import proofs.«135958_j89670327206508_1_alg».proof.Proof.Gen.Kernel.Launch
import proofs.«135958_j89670327206508_1_alg».proof.Proof.Gen.Kernel.Points
import Idealize.ShloMosaic.Lib.Pipeline.FrameBody
import Idealize.ShloMosaic.Lib.Pipeline.FrameSuffix

set_option maxRecDepth 16384

noncomputable section

namespace Cert.Kernel.Around

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The stretches of host operations before the region, in program order. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54]

/-- Core `c`'s buffer contents when the region is entered: the launch memory after every host operation before the region. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh⟩) main_chain

/-- The operations after the region touch unscoped TensorCore references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
set_option maxHeartbeats 1600000 in
/-- And none of them writes an array a window of the region stages: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals
    intro w
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    apply StableHlo.devRef_ne_of_ne
    revert w
    decide

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 10 ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 11 ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host operation before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 12 ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host operation before the region writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 13 ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host operation before the region writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 14 ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- No host operation before the region writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 15 ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-- No host operation before the region writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 16 ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-- No host operation before the region writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 17 ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

/-- No host operation before the region writes argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 18 ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c

/-- No host operation before the region writes argument 19. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 19 ends as launched. -/
theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c

/-- No host operation before the region writes argument 20. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 20 ends as launched. -/
theorem W_main_arg20 (dats : (p : Fin _) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) := by
  unfold Pipeline.afterTail₀
  rw [StableHlo.after_of_forall_not_mem (b := Proc.devRef .tc main_arg20) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c

/-- No host operation before the region writes argument 21. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 21 ends as launched. -/
theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c

/-- No host operation before the region writes argument 22. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 22 ends as launched. -/
theorem W_main_arg22 (dats : (p : Fin _) → (c : Dev nD) → Dat τ (Elt F) Unit ℕ (UR sig nD τ) ℕ (cfgs p) c) (c : Dev nD) :
    Pipeline.afterTail₀ cfgs dats 0 (V0 m) [hostOps1] c main_arg22 = m ((c : Thread nD τ).loc main_arg22) := by
  unfold Pipeline.afterTail₀
  rw [StableHlo.after_of_forall_not_mem (b := Proc.devRef .tc main_arg22) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg22 (by exact (by decide : ∀ w, Pipeline.arrRef spec0 w ≠ main_arg22))]
  exact V_main_arg22 m c

/-- No host operation before the region writes argument 23. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 23 ends as launched. -/
theorem W_main_arg23 (dats : (p : Fin _) → (c : Dev nD) → Dat τ (Elt F) Unit ℕ (UR sig nD τ) ℕ (cfgs p) c) (c : Dev nD) :
    Pipeline.afterTail₀ cfgs dats 0 (V0 m) [hostOps1] c main_arg23 = m ((c : Thread nD τ).loc main_arg23) := by
  unfold Pipeline.afterTail₀
  rw [StableHlo.after_of_forall_not_mem (b := Proc.devRef .tc main_arg23) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg23 (by exact (by decide : ∀ w, Pipeline.arrRef spec0 w ≠ main_arg23))]
  exact V_main_arg23 m c

/-! ## The windows' blocks -/

/-- Window `w`'s block at grid point `t`: the restriction of its array, as the region finds it, to the block's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 is fetched at every point, so its staging buffer holds its block at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 is fetched at every point, so its staging buffer holds its block at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 is fetched at every point, so its staging buffer holds its block at every point. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 is fetched at every point, so its staging buffer holds its block at every point. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 is fetched at every point, so its staging buffer holds its block at every point. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 is fetched at every point, so its staging buffer holds its block at every point. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6 is fetched at every point, so its staging buffer holds its block at every point. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7 is fetched at every point, so its staging buffer holds its block at every point. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8 is fetched at every point, so its staging buffer holds its block at every point. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9 is fetched at every point, so its staging buffer holds its block at every point. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10 is fetched at every point, so its staging buffer holds its block at every point. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11 is fetched at every point, so its staging buffer holds its block at every point. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12 is fetched at every point, so its staging buffer holds its block at every point. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13 is fetched at every point, so its staging buffer holds its block at every point. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14 is fetched at every point, so its staging buffer holds its block at every point. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15 is fetched at every point, so its staging buffer holds its block at every point. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input window 16 is fetched at every point, so its staging buffer holds its block at every point. -/
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-- Input window 17 is fetched at every point, so its staging buffer holds its block at every point. -/
theorem before17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-- Input window 18 is fetched at every point, so its staging buffer holds its block at every point. -/
theorem before18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-- Input window 19 is fetched at every point, so its staging buffer holds its block at every point. -/
theorem before19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-- Input window 20 is fetched at every point, so its staging buffer holds its block at every point. -/
theorem before20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

/-- Input window 21 is fetched at every point, so its staging buffer holds its block at every point. -/
theorem before21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-- Input window 22 is fetched at every point, so its staging buffer holds its block at every point. -/
theorem before22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

/-- Input window 23 is fetched at every point, so its staging buffer holds its block at every point. -/
theorem before23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-- Input window 24 is fetched at every point, so its staging buffer holds its block at every point. -/
theorem before24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

/-- Input window 25 is fetched at every point, so its staging buffer holds its block at every point. -/
theorem before25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

/-- Input window 26 is fetched at every point, so its staging buffer holds its block at every point. -/
theorem before26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the library's frame post -/

/-- From a run that ends with every array of the region at what the proof data computes and every other unscoped
    buffer as the operations after the region leave it, each argument array ends as launched: no argument is an
    array of the region, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c)),
    (((h c).2 main_arg9 (Pipeline.mem_restRefs_of main_arg9 (by decide) (by decide))).trans (W_main_arg9 m dats c)),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c)),
    (((h c).2 main_arg12 (Pipeline.mem_restRefs_of main_arg12 (by decide) (by decide))).trans (W_main_arg12 m dats c)),
    (((h c).2 main_arg13 (Pipeline.mem_restRefs_of main_arg13 (by decide) (by decide))).trans (W_main_arg13 m dats c)),
    (((h c).2 main_arg14 (Pipeline.mem_restRefs_of main_arg14 (by decide) (by decide))).trans (W_main_arg14 m dats c)),
    (((h c).2 main_arg15 (Pipeline.mem_restRefs_of main_arg15 (by decide) (by decide))).trans (W_main_arg15 m dats c)),
    (((h c).2 main_arg16 (Pipeline.mem_restRefs_of main_arg16 (by decide) (by decide))).trans (W_main_arg16 m dats c)),
    (((h c).2 main_arg17 (Pipeline.mem_restRefs_of main_arg17 (by decide) (by decide))).trans (W_main_arg17 m dats c)),
    (((h c).2 main_arg18 (Pipeline.mem_restRefs_of main_arg18 (by decide) (by decide))).trans (W_main_arg18 m dats c)),
    (((h c).2 main_arg19 (Pipeline.mem_restRefs_of main_arg19 (by decide) (by decide))).trans (W_main_arg19 m dats c)),
    (((h c).2 main_arg20 (Pipeline.mem_restRefs_of main_arg20 (by decide) (by decide))).trans (W_main_arg20 m dats c)),
    (((h c).2 main_arg21 (Pipeline.mem_restRefs_of main_arg21 (by decide) (by decide))).trans (W_main_arg21 m dats c)),
    (((h c).2 main_arg22 (Pipeline.mem_restRefs_of main_arg22 (by decide) (by decide))).trans (W_main_arg22 m dats c)),
    (((h c).2 main_arg23 (Pipeline.mem_restRefs_of main_arg23 (by decide) (by decide))).trans (W_main_arg23 m dats c))⟩) h

end Cert.Kernel.Around

end
-- ==== Proof.BitsBody.lean ====
/-
  The kernel body on one grid point. Every load and every store goes through the whole staging block, so what
  an output's buffer holds after the body is its one store's value: a pointwise expression of the input blocks
  (the synapse update for the two wide outputs; the refractory counter, the two adaptation currents, the
  membrane voltage, the spike indicator and four copied delay rows for the narrow ones). The body also loads
  each output buffer before storing into it; the loaded value is never used, so the buffer's contents before
  the body are arbitrary.
-/
import proofs.«135958_j89670327206508_1_alg».proof.Proof.Gen.Kernel.Launch
import proofs.«135958_j89670327206508_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The whole-block rectangles the body loads and stores through -/

abbrev rA : Rect S4x12800 := Rect.unit (s := S4x12800) ![0, 0] S4x12800.size inb_S4x12800_S4x12800_0_0
abbrev rB : Rect S4x51200 := Rect.unit (s := S4x51200) ![0, 0] S4x51200.size inb_S4x51200_S4x51200_0_0
abbrev rC : Rect S1x51200 := Rect.unit (s := S1x51200) ![0, 0] S1x51200.size inb_S1x51200_S1x51200_0_0
abbrev rD : Rect S1x12800 := Rect.unit (s := S1x12800) ![0, 0] S1x12800.size inb_S1x12800_S1x12800_0_0

/-! ## What the body leaves in each output window's buffer, from the input windows' blocks -/

/-- Output window 27's buffer after the body: its one whole-block store. -/
def out27 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay18 (k0_pay10 (k0_pay1 (View.ld x0 rA)) (k0_pay7 (View.ld x10 rA)) (View.ld x14 rD)) (k0_pay13 (View.ld x19 rD)) (k0_pay14 (View.ld x20 rD)) (k0_pay17 (k0_pay1 (View.ld x0 rA)) (k0_pay6 (View.ld x9 rA)) (k0_pay8 (View.ld x11 rA)) (k0_pay9 (View.ld x12 rA)) (View.ld x19 rD) (View.ld x20 rD) (View.ld x21 rD) (View.ld x22 rD) (View.ld x23 rD) (View.ld x24 rD) (View.ld x13 rA))⟩]

/-- Output window 28's buffer after the body: its one whole-block store. -/
def out28 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay19 (k0_pay15 (View.ld x25 rD)) (k0_pay16 (View.ld x26 rD)) (k0_pay17 (k0_pay1 (View.ld x0 rA)) (k0_pay6 (View.ld x9 rA)) (k0_pay8 (View.ld x11 rA)) (k0_pay9 (View.ld x12 rA)) (View.ld x19 rD) (View.ld x20 rD) (View.ld x21 rD) (View.ld x22 rD) (View.ld x23 rD) (View.ld x24 rD) (View.ld x13 rA))⟩]

/-- Output window 29's buffer after the body: its one whole-block store. -/
def out29 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay10 (k0_pay1 (View.ld x0 rA)) (k0_pay7 (View.ld x10 rA)) (View.ld x14 rD)⟩]

/-- Output window 30's buffer after the body: its one whole-block store. -/
def out30 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay11 (k0_pay1 (View.ld x0 rA)) (k0_pay8 (View.ld x11 rA)) (View.ld x15 rD) (View.ld x17 rD)⟩]

/-- Output window 31's buffer after the body: its one whole-block store. -/
def out31 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay12 (k0_pay1 (View.ld x0 rA)) (View.ld x12 rA) (View.ld x16 rD) (View.ld x18 rD)⟩]

/-- Output window 32's buffer after the body: its one whole-block store. -/
def out32 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x51200 .f32 :=
  View.canon [⟨rB, k0_pay4 (View.ld x4 rB) (View.ld x5 rB) (View.ld x7 rC) (View.ld x8 rC)⟩]

/-- Output window 33's buffer after the body: its one whole-block store. -/
def out33 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x51200 .f32 :=
  View.canon [⟨rB, k0_pay5 (View.ld x5 rB) (View.ld x6 rB) (View.ld x7 rC)⟩]

/-- Output window 34's buffer after the body: its one whole-block store. -/
def out34 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay18 (k0_pay10 (k0_pay1 (View.ld x0 rA)) (k0_pay7 (View.ld x10 rA)) (View.ld x14 rD)) (k0_pay13 (View.ld x19 rD)) (k0_pay14 (View.ld x20 rD)) (k0_pay17 (k0_pay1 (View.ld x0 rA)) (k0_pay6 (View.ld x9 rA)) (k0_pay8 (View.ld x11 rA)) (k0_pay9 (View.ld x12 rA)) (View.ld x19 rD) (View.ld x20 rD) (View.ld x21 rD) (View.ld x22 rD) (View.ld x23 rD) (View.ld x24 rD) (View.ld x13 rA))⟩]

/-- Output window 35's buffer after the body: its one whole-block store. -/
def out35 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay20 (View.ld x0 rA)⟩]

/-- Output window 36's buffer after the body: its one whole-block store. -/
def out36 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay21 (View.ld x1 rA)⟩]

/-- Output window 37's buffer after the body: its one whole-block store. -/
def out37 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay22 (View.ld x2 rA)⟩]

/-- Output window 38's buffer after the body: its one whole-block store. -/
def out38 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay23 (View.ld x3 rA)⟩]

/-- One store through the whole-block rectangle covers a narrow block. -/
theorem coverA (p0 : Vec F S4x12800 .f32) (y : S4x12800.Idx) :
    ∃ pc ∈ ([⟨rA, p0⟩] : List (View.Piece (Elt F) S4x12800 .f32)), y ∈ pc.1.set :=
  View.cover_of_tiled [⟨rA, p0⟩] S4x12800.size (by rfl) y
/-- And a wide one. -/
theorem coverB (p0 : Vec F S4x51200 .f32) (y : S4x51200.Idx) :
    ∃ pc ∈ ([⟨rB, p0⟩] : List (View.Piece (Elt F) S4x51200 .f32)), y ∈ pc.1.set :=
  View.cover_of_tiled [⟨rB, p0⟩] S4x51200.size (by rfl) y

/-! ## The body's triple -/

set_option maxHeartbeats 4000000 in
/-- On whole staging buffers, the inputs' at contents `x·` and the outputs' at anything, the body runs to the
    continuation holding the inputs' as they were and each output's at its store's value of the inputs'. -/
theorem sound_kernel (c : Dev nD) (E : Set ℕ) (i : grid0.Coords)
    (arg1 : Memref sig .tc .vmem S4x12800 .f32) (harg1 : arg1.IsWhole)
    (arg2 : Memref sig .tc .vmem S4x12800 .f32) (harg2 : arg2.IsWhole)
    (arg3 : Memref sig .tc .vmem S4x12800 .f32) (harg3 : arg3.IsWhole)
    (arg4 : Memref sig .tc .vmem S4x12800 .f32) (harg4 : arg4.IsWhole)
    (arg5 : Memref sig .tc .vmem S4x51200 .f32) (harg5 : arg5.IsWhole)
    (arg6 : Memref sig .tc .vmem S4x51200 .f32) (harg6 : arg6.IsWhole)
    (arg7 : Memref sig .tc .vmem S4x51200 .f32) (harg7 : arg7.IsWhole)
    (arg8 : Memref sig .tc .vmem S1x51200 .f32) (harg8 : arg8.IsWhole)
    (arg9 : Memref sig .tc .vmem S1x51200 .f32) (harg9 : arg9.IsWhole)
    (arg10 : Memref sig .tc .vmem S4x12800 .f32) (harg10 : arg10.IsWhole)
    (arg11 : Memref sig .tc .vmem S4x12800 .f32) (harg11 : arg11.IsWhole)
    (arg12 : Memref sig .tc .vmem S4x12800 .f32) (harg12 : arg12.IsWhole)
    (arg13 : Memref sig .tc .vmem S4x12800 .f32) (harg13 : arg13.IsWhole)
    (arg14 : Memref sig .tc .vmem S4x12800 .f32) (harg14 : arg14.IsWhole)
    (arg15 : Memref sig .tc .vmem S1x12800 .f32) (harg15 : arg15.IsWhole)
    (arg16 : Memref sig .tc .vmem S1x12800 .f32) (harg16 : arg16.IsWhole)
    (arg17 : Memref sig .tc .vmem S1x12800 .f32) (harg17 : arg17.IsWhole)
    (arg18 : Memref sig .tc .vmem S1x12800 .f32) (harg18 : arg18.IsWhole)
    (arg19 : Memref sig .tc .vmem S1x12800 .f32) (harg19 : arg19.IsWhole)
    (arg20 : Memref sig .tc .vmem S1x12800 .f32) (harg20 : arg20.IsWhole)
    (arg21 : Memref sig .tc .vmem S1x12800 .f32) (harg21 : arg21.IsWhole)
    (arg22 : Memref sig .tc .vmem S1x12800 .f32) (harg22 : arg22.IsWhole)
    (arg23 : Memref sig .tc .vmem S1x12800 .f32) (harg23 : arg23.IsWhole)
    (arg24 : Memref sig .tc .vmem S1x12800 .f32) (harg24 : arg24.IsWhole)
    (arg25 : Memref sig .tc .vmem S1x12800 .f32) (harg25 : arg25.IsWhole)
    (arg26 : Memref sig .tc .vmem S1x12800 .f32) (harg26 : arg26.IsWhole)
    (arg27 : Memref sig .tc .vmem S1x12800 .f32) (harg27 : arg27.IsWhole)
    (arg28 : Memref sig .tc .vmem S4x12800 .f32) (harg28 : arg28.IsWhole)
    (arg29 : Memref sig .tc .vmem S4x12800 .f32) (harg29 : arg29.IsWhole)
    (arg30 : Memref sig .tc .vmem S4x12800 .f32) (harg30 : arg30.IsWhole)
    (arg31 : Memref sig .tc .vmem S4x12800 .f32) (harg31 : arg31.IsWhole)
    (arg32 : Memref sig .tc .vmem S4x12800 .f32) (harg32 : arg32.IsWhole)
    (arg33 : Memref sig .tc .vmem S4x51200 .f32) (harg33 : arg33.IsWhole)
    (arg34 : Memref sig .tc .vmem S4x51200 .f32) (harg34 : arg34.IsWhole)
    (arg35 : Memref sig .tc .vmem S4x12800 .f32) (harg35 : arg35.IsWhole)
    (arg36 : Memref sig .tc .vmem S4x12800 .f32) (harg36 : arg36.IsWhole)
    (arg37 : Memref sig .tc .vmem S4x12800 .f32) (harg37 : arg37.IsWhole)
    (arg38 : Memref sig .tc .vmem S4x12800 .f32) (harg38 : arg38.IsWhole)
    (arg39 : Memref sig .tc .vmem S4x12800 .f32) (harg39 : arg39.IsWhole)
    (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26
        ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26
            ∗ owns (c : Thread nD τ) arg28 fullShare (out27 x0 x1 x2 x3 x4 x5 x6 x7 x8 x9 x10 x11 x12 x13 x14 x15 x16 x17 x18 x19 x20 x21 x22 x23 x24 x25 x26) ∗ owns (c : Thread nD τ) arg29 fullShare (out28 x0 x1 x2 x3 x4 x5 x6 x7 x8 x9 x10 x11 x12 x13 x14 x15 x16 x17 x18 x19 x20 x21 x22 x23 x24 x25 x26) ∗ owns (c : Thread nD τ) arg30 fullShare (out29 x0 x1 x2 x3 x4 x5 x6 x7 x8 x9 x10 x11 x12 x13 x14 x15 x16 x17 x18 x19 x20 x21 x22 x23 x24 x25 x26) ∗ owns (c : Thread nD τ) arg31 fullShare (out30 x0 x1 x2 x3 x4 x5 x6 x7 x8 x9 x10 x11 x12 x13 x14 x15 x16 x17 x18 x19 x20 x21 x22 x23 x24 x25 x26) ∗ owns (c : Thread nD τ) arg32 fullShare (out31 x0 x1 x2 x3 x4 x5 x6 x7 x8 x9 x10 x11 x12 x13 x14 x15 x16 x17 x18 x19 x20 x21 x22 x23 x24 x25 x26) ∗ owns (c : Thread nD τ) arg33 fullShare (out32 x0 x1 x2 x3 x4 x5 x6 x7 x8 x9 x10 x11 x12 x13 x14 x15 x16 x17 x18 x19 x20 x21 x22 x23 x24 x25 x26) ∗ owns (c : Thread nD τ) arg34 fullShare (out33 x0 x1 x2 x3 x4 x5 x6 x7 x8 x9 x10 x11 x12 x13 x14 x15 x16 x17 x18 x19 x20 x21 x22 x23 x24 x25 x26) ∗ owns (c : Thread nD τ) arg35 fullShare (out34 x0 x1 x2 x3 x4 x5 x6 x7 x8 x9 x10 x11 x12 x13 x14 x15 x16 x17 x18 x19 x20 x21 x22 x23 x24 x25 x26) ∗ owns (c : Thread nD τ) arg36 fullShare (out35 x0 x1 x2 x3 x4 x5 x6 x7 x8 x9 x10 x11 x12 x13 x14 x15 x16 x17 x18 x19 x20 x21 x22 x23 x24 x25 x26) ∗ owns (c : Thread nD τ) arg37 fullShare (out36 x0 x1 x2 x3 x4 x5 x6 x7 x8 x9 x10 x11 x12 x13 x14 x15 x16 x17 x18 x19 x20 x21 x22 x23 x24 x25 x26) ∗ owns (c : Thread nD τ) arg38 fullShare (out37 x0 x1 x2 x3 x4 x5 x6 x7 x8 x9 x10 x11 x12 x13 x14 x15 x16 x17 x18 x19 x20 x21 x22 x23 x24 x25 x26) ∗ owns (c : Thread nD τ) arg39 fullShare (out38 x0 x1 x2 x3 x4 x5 x6 x7 x8 x9 x10 x11 x12 x13 x14 x15 x16 x17 x18 x19 x20 x21 x22 x23 x24 x25 x26)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  simp only [cc0__kernel_eq_skeleton]; unfold cc0__kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23; subst hf24; subst hf25; subst hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists _; isplitr
    swap; · iexact H27
    ipureintro
    exact View.read_writes_eq_canon _ _ _ (coverA _)
  isplitl [H28]
  · iexists _; isplitr
    swap; · iexact H28
    ipureintro
    exact View.read_writes_eq_canon _ _ _ (coverA _)
  isplitl [H29]
  · iexists _; isplitr
    swap; · iexact H29
    ipureintro
    exact View.read_writes_eq_canon _ _ _ (coverA _)
  isplitl [H30]
  · iexists _; isplitr
    swap; · iexact H30
    ipureintro
    exact View.read_writes_eq_canon _ _ _ (coverA _)
  isplitl [H31]
  · iexists _; isplitr
    swap; · iexact H31
    ipureintro
    exact View.read_writes_eq_canon _ _ _ (coverA _)
  isplitl [H32]
  · iexists _; isplitr
    swap; · iexact H32
    ipureintro
    exact View.read_writes_eq_canon _ _ _ (coverB _)
  isplitl [H33]
  · iexists _; isplitr
    swap; · iexact H33
    ipureintro
    exact View.read_writes_eq_canon _ _ _ (coverB _)
  isplitl [H34]
  · iexists _; isplitr
    swap; · iexact H34
    ipureintro
    exact View.read_writes_eq_canon _ _ _ (coverA _)
  isplitl [H35]
  · iexists _; isplitr
    swap; · iexact H35
    ipureintro
    exact View.read_writes_eq_canon _ _ _ (coverA _)
  isplitl [H36]
  · iexists _; isplitr
    swap; · iexact H36
    ipureintro
    exact View.read_writes_eq_canon _ _ _ (coverA _)
  isplitl [H37]
  · iexists _; isplitr
    swap; · iexact H37
    ipureintro
    exact View.read_writes_eq_canon _ _ _ (coverA _)
  iexists _; isplitr
  swap; · iexact H38
  ipureintro
  exact View.read_writes_eq_canon _ _ _ (coverA _)

end Cert.Kernel.Body

end
-- ==== Proof.BitsWhole.lean ====
/-
  The run of the whole program. The proof data of the one region: every array as the region finds it, after the
  body at a grid point each input's staging buffer still at its block and each output's at its store's value of
  the input blocks; nothing is kept between points. With the body's triple at a generic point this gives the
  library's run to its frame post, and from it the frame claim: every argument array ends as launched.
-/
import proofs.«135958_j89670327206508_1_alg».proof.Proof.BitsAround
import proofs.«135958_j89670327206508_1_alg».proof.Proof.BitsBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Around Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => out27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨28, _⟩ => out28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨29, _⟩ => out29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨30, _⟩ => out30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨31, _⟩ => out31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨32, _⟩ => out32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨33, _⟩ => out33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨34, _⟩ => out34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨35, _⟩ => out35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨36, _⟩ => out36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨37, _⟩ => out37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨38, _⟩ => out38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨_ + 39, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = iblk m c 26 t := by dsimp only [dats]
theorem after_27 (c : Dev nD) (t : Fin cfg0.N) : (dats m 0 c).after 27 t = out27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_28 (c : Dev nD) (t : Fin cfg0.N) : (dats m 0 c).after 28 t = out28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_29 (c : Dev nD) (t : Fin cfg0.N) : (dats m 0 c).after 29 t = out29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_30 (c : Dev nD) (t : Fin cfg0.N) : (dats m 0 c).after 30 t = out30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_31 (c : Dev nD) (t : Fin cfg0.N) : (dats m 0 c).after 31 t = out31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_32 (c : Dev nD) (t : Fin cfg0.N) : (dats m 0 c).after 32 t = out32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_33 (c : Dev nD) (t : Fin cfg0.N) : (dats m 0 c).after 33 t = out33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_34 (c : Dev nD) (t : Fin cfg0.N) : (dats m 0 c).after 34 t = out34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_35 (c : Dev nD) (t : Fin cfg0.N) : (dats m 0 c).after 35 t = out35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_36 (c : Dev nD) (t : Fin cfg0.N) : (dats m 0 c).after 36 t = out36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_37 (c : Dev nD) (t : Fin cfg0.N) : (dats m 0 c).after 37 t = out37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_38 (c : Dev nD) (t : Fin cfg0.N) : (dats m 0 c).after 38 t = out38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d
theorem before_5 (c : Dev nD) (t : Fin cfg0.N) (d) : (dats m 0 c).before 5 t d = iblk m c 5 t :=
  before5_of m (dats m 0 c) (A_eq m c 5) (after_5 m c) t d
theorem before_6 (c : Dev nD) (t : Fin cfg0.N) (d) : (dats m 0 c).before 6 t d = iblk m c 6 t :=
  before6_of m (dats m 0 c) (A_eq m c 6) (after_6 m c) t d
theorem before_7 (c : Dev nD) (t : Fin cfg0.N) (d) : (dats m 0 c).before 7 t d = iblk m c 7 t :=
  before7_of m (dats m 0 c) (A_eq m c 7) (after_7 m c) t d
theorem before_8 (c : Dev nD) (t : Fin cfg0.N) (d) : (dats m 0 c).before 8 t d = iblk m c 8 t :=
  before8_of m (dats m 0 c) (A_eq m c 8) (after_8 m c) t d
theorem before_9 (c : Dev nD) (t : Fin cfg0.N) (d) : (dats m 0 c).before 9 t d = iblk m c 9 t :=
  before9_of m (dats m 0 c) (A_eq m c 9) (after_9 m c) t d
theorem before_10 (c : Dev nD) (t : Fin cfg0.N) (d) : (dats m 0 c).before 10 t d = iblk m c 10 t :=
  before10_of m (dats m 0 c) (A_eq m c 10) (after_10 m c) t d
theorem before_11 (c : Dev nD) (t : Fin cfg0.N) (d) : (dats m 0 c).before 11 t d = iblk m c 11 t :=
  before11_of m (dats m 0 c) (A_eq m c 11) (after_11 m c) t d
theorem before_12 (c : Dev nD) (t : Fin cfg0.N) (d) : (dats m 0 c).before 12 t d = iblk m c 12 t :=
  before12_of m (dats m 0 c) (A_eq m c 12) (after_12 m c) t d
theorem before_13 (c : Dev nD) (t : Fin cfg0.N) (d) : (dats m 0 c).before 13 t d = iblk m c 13 t :=
  before13_of m (dats m 0 c) (A_eq m c 13) (after_13 m c) t d
theorem before_14 (c : Dev nD) (t : Fin cfg0.N) (d) : (dats m 0 c).before 14 t d = iblk m c 14 t :=
  before14_of m (dats m 0 c) (A_eq m c 14) (after_14 m c) t d
theorem before_15 (c : Dev nD) (t : Fin cfg0.N) (d) : (dats m 0 c).before 15 t d = iblk m c 15 t :=
  before15_of m (dats m 0 c) (A_eq m c 15) (after_15 m c) t d
theorem before_16 (c : Dev nD) (t : Fin cfg0.N) (d) : (dats m 0 c).before 16 t d = iblk m c 16 t :=
  before16_of m (dats m 0 c) (A_eq m c 16) (after_16 m c) t d
theorem before_17 (c : Dev nD) (t : Fin cfg0.N) (d) : (dats m 0 c).before 17 t d = iblk m c 17 t :=
  before17_of m (dats m 0 c) (A_eq m c 17) (after_17 m c) t d
theorem before_18 (c : Dev nD) (t : Fin cfg0.N) (d) : (dats m 0 c).before 18 t d = iblk m c 18 t :=
  before18_of m (dats m 0 c) (A_eq m c 18) (after_18 m c) t d
theorem before_19 (c : Dev nD) (t : Fin cfg0.N) (d) : (dats m 0 c).before 19 t d = iblk m c 19 t :=
  before19_of m (dats m 0 c) (A_eq m c 19) (after_19 m c) t d
theorem before_20 (c : Dev nD) (t : Fin cfg0.N) (d) : (dats m 0 c).before 20 t d = iblk m c 20 t :=
  before20_of m (dats m 0 c) (A_eq m c 20) (after_20 m c) t d
theorem before_21 (c : Dev nD) (t : Fin cfg0.N) (d) : (dats m 0 c).before 21 t d = iblk m c 21 t :=
  before21_of m (dats m 0 c) (A_eq m c 21) (after_21 m c) t d
theorem before_22 (c : Dev nD) (t : Fin cfg0.N) (d) : (dats m 0 c).before 22 t d = iblk m c 22 t :=
  before22_of m (dats m 0 c) (A_eq m c 22) (after_22 m c) t d
theorem before_23 (c : Dev nD) (t : Fin cfg0.N) (d) : (dats m 0 c).before 23 t d = iblk m c 23 t :=
  before23_of m (dats m 0 c) (A_eq m c 23) (after_23 m c) t d
theorem before_24 (c : Dev nD) (t : Fin cfg0.N) (d) : (dats m 0 c).before 24 t d = iblk m c 24 t :=
  before24_of m (dats m 0 c) (A_eq m c 24) (after_24 m c) t d
theorem before_25 (c : Dev nD) (t : Fin cfg0.N) (d) : (dats m 0 c).before 25 t d = iblk m c 25 t :=
  before25_of m (dats m 0 c) (A_eq m c 25) (after_25 m c) t d
theorem before_26 (c : Dev nD) (t : Fin cfg0.N) (d) : (dats m 0 c).before 26 t d = iblk m c 26 t :=
  before26_of m (dats m 0 c) (A_eq m c 26) (after_26 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t))

set_option maxHeartbeats 4000000 in
/-- The body at any point: the inputs' staging buffers hold their blocks, so the body's triple applies; the
    invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25, before_26]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33, after_34, after_35, after_36, after_37, after_38]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  iexact H38

set_option maxHeartbeats 4000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- From any memory with zero counters every weakly fair execution of @main terminates, and every final state has
    every array of the region at what the proof data computes and every other unscoped buffer as the operations
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

end Cert.Kernel.Whole

end
-- ==== Proof.IdealAround.lean ====
/-
  The host side of the program around its one region. @main is fifty-five stretches of host operations, the
  region, and one last stretch. Read here: the contents every buffer has when the region is entered (`V`), the
  fact that no host operation before or after the region writes an argument array (so each argument ends as it
  was launched), each window's block at a grid point as a restriction of its array (`iblk`), the fact that an
  input window's staging buffer holds exactly that block at every point, and the frame claim's post read off
  a run to the library's frame post.
-/
import proofs.«135958_j89670327206508_1_alg».proof.Proof.Gen.KernelIdeal.Launch
import proofs.«135958_j89670327206508_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Around

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The stretches of host operations before the region, in program order. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54]

/-- Core `c`'s buffer contents when the region is entered: the launch memory after every host operation before the region. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh⟩) main_chain

/-- The operations after the region touch unscoped TensorCore references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
set_option maxHeartbeats 1600000 in
/-- And none of them writes an array a window of the region stages: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals
    intro w
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    apply StableHlo.devRef_ne_of_ne
    revert w
    decide

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 10 ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 11 ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host operation before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 12 ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host operation before the region writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 13 ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host operation before the region writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 14 ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- No host operation before the region writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 15 ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-- No host operation before the region writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 16 ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-- No host operation before the region writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 17 ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

/-- No host operation before the region writes argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 18 ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c

/-- No host operation before the region writes argument 19. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 19 ends as launched. -/
theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c

/-- No host operation before the region writes argument 20. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 20 ends as launched. -/
theorem W_main_arg20 (dats : (p : Fin _) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) := by
  unfold Pipeline.afterTail₀
  rw [StableHlo.after_of_forall_not_mem (b := Proc.devRef .tc main_arg20) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c

/-- No host operation before the region writes argument 21. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 21 ends as launched. -/
theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c

/-- No host operation before the region writes argument 22. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 22 ends as launched. -/
theorem W_main_arg22 (dats : (p : Fin _) → (c : Dev nD) → Dat τ (Elt F) Unit ℕ (UR sig nD τ) ℕ (cfgs p) c) (c : Dev nD) :
    Pipeline.afterTail₀ cfgs dats 0 (V0 m) [hostOps1] c main_arg22 = m ((c : Thread nD τ).loc main_arg22) := by
  unfold Pipeline.afterTail₀
  rw [StableHlo.after_of_forall_not_mem (b := Proc.devRef .tc main_arg22) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg22 (by exact (by decide : ∀ w, Pipeline.arrRef spec0 w ≠ main_arg22))]
  exact V_main_arg22 m c

/-- No host operation before the region writes argument 23. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does any after it: argument 23 ends as launched. -/
theorem W_main_arg23 (dats : (p : Fin _) → (c : Dev nD) → Dat τ (Elt F) Unit ℕ (UR sig nD τ) ℕ (cfgs p) c) (c : Dev nD) :
    Pipeline.afterTail₀ cfgs dats 0 (V0 m) [hostOps1] c main_arg23 = m ((c : Thread nD τ).loc main_arg23) := by
  unfold Pipeline.afterTail₀
  rw [StableHlo.after_of_forall_not_mem (b := Proc.devRef .tc main_arg23) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg23 (by exact (by decide : ∀ w, Pipeline.arrRef spec0 w ≠ main_arg23))]
  exact V_main_arg23 m c

/-! ## The windows' blocks -/

/-- Window `w`'s block at grid point `t`: the restriction of its array, as the region finds it, to the block's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 is fetched at every point, so its staging buffer holds its block at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 is fetched at every point, so its staging buffer holds its block at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 is fetched at every point, so its staging buffer holds its block at every point. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 is fetched at every point, so its staging buffer holds its block at every point. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 is fetched at every point, so its staging buffer holds its block at every point. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 is fetched at every point, so its staging buffer holds its block at every point. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6 is fetched at every point, so its staging buffer holds its block at every point. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7 is fetched at every point, so its staging buffer holds its block at every point. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8 is fetched at every point, so its staging buffer holds its block at every point. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9 is fetched at every point, so its staging buffer holds its block at every point. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10 is fetched at every point, so its staging buffer holds its block at every point. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11 is fetched at every point, so its staging buffer holds its block at every point. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12 is fetched at every point, so its staging buffer holds its block at every point. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13 is fetched at every point, so its staging buffer holds its block at every point. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14 is fetched at every point, so its staging buffer holds its block at every point. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15 is fetched at every point, so its staging buffer holds its block at every point. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input window 16 is fetched at every point, so its staging buffer holds its block at every point. -/
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-- Input window 17 is fetched at every point, so its staging buffer holds its block at every point. -/
theorem before17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-- Input window 18 is fetched at every point, so its staging buffer holds its block at every point. -/
theorem before18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-- Input window 19 is fetched at every point, so its staging buffer holds its block at every point. -/
theorem before19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-- Input window 20 is fetched at every point, so its staging buffer holds its block at every point. -/
theorem before20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

/-- Input window 21 is fetched at every point, so its staging buffer holds its block at every point. -/
theorem before21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-- Input window 22 is fetched at every point, so its staging buffer holds its block at every point. -/
theorem before22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

/-- Input window 23 is fetched at every point, so its staging buffer holds its block at every point. -/
theorem before23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-- Input window 24 is fetched at every point, so its staging buffer holds its block at every point. -/
theorem before24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

/-- Input window 25 is fetched at every point, so its staging buffer holds its block at every point. -/
theorem before25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)

/-- Input window 26 is fetched at every point, so its staging buffer holds its block at every point. -/
theorem before26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the library's frame post -/

/-- From a run that ends with every array of the region at what the proof data computes and every other unscoped
    buffer as the operations after the region leave it, each argument array ends as launched: no argument is an
    array of the region, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c)),
    (((h c).2 main_arg9 (Pipeline.mem_restRefs_of main_arg9 (by decide) (by decide))).trans (W_main_arg9 m dats c)),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c)),
    (((h c).2 main_arg12 (Pipeline.mem_restRefs_of main_arg12 (by decide) (by decide))).trans (W_main_arg12 m dats c)),
    (((h c).2 main_arg13 (Pipeline.mem_restRefs_of main_arg13 (by decide) (by decide))).trans (W_main_arg13 m dats c)),
    (((h c).2 main_arg14 (Pipeline.mem_restRefs_of main_arg14 (by decide) (by decide))).trans (W_main_arg14 m dats c)),
    (((h c).2 main_arg15 (Pipeline.mem_restRefs_of main_arg15 (by decide) (by decide))).trans (W_main_arg15 m dats c)),
    (((h c).2 main_arg16 (Pipeline.mem_restRefs_of main_arg16 (by decide) (by decide))).trans (W_main_arg16 m dats c)),
    (((h c).2 main_arg17 (Pipeline.mem_restRefs_of main_arg17 (by decide) (by decide))).trans (W_main_arg17 m dats c)),
    (((h c).2 main_arg18 (Pipeline.mem_restRefs_of main_arg18 (by decide) (by decide))).trans (W_main_arg18 m dats c)),
    (((h c).2 main_arg19 (Pipeline.mem_restRefs_of main_arg19 (by decide) (by decide))).trans (W_main_arg19 m dats c)),
    (((h c).2 main_arg20 (Pipeline.mem_restRefs_of main_arg20 (by decide) (by decide))).trans (W_main_arg20 m dats c)),
    (((h c).2 main_arg21 (Pipeline.mem_restRefs_of main_arg21 (by decide) (by decide))).trans (W_main_arg21 m dats c)),
    (((h c).2 main_arg22 (Pipeline.mem_restRefs_of main_arg22 (by decide) (by decide))).trans (W_main_arg22 m dats c)),
    (((h c).2 main_arg23 (Pipeline.mem_restRefs_of main_arg23 (by decide) (by decide))).trans (W_main_arg23 m dats c))⟩) h

end Cert.KernelIdeal.Around

end
-- ==== Proof.IdealBody.lean ====
/-
  The kernel body on one grid point. Every load and every store goes through the whole staging block, so what
  an output's buffer holds after the body is its one store's value: a pointwise expression of the input blocks
  (the synapse update for the two wide outputs; the refractory counter, the two adaptation currents, the
  membrane voltage, the spike indicator and four copied delay rows for the narrow ones). The body also loads
  each output buffer before storing into it; the loaded value is never used, so the buffer's contents before
  the body are arbitrary.
-/
import proofs.«135958_j89670327206508_1_alg».proof.Proof.Gen.KernelIdeal.Launch
import proofs.«135958_j89670327206508_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The whole-block rectangles the body loads and stores through -/

abbrev rA : Rect S4x12800 := Rect.unit (s := S4x12800) ![0, 0] S4x12800.size inb_S4x12800_S4x12800_0_0
abbrev rB : Rect S4x51200 := Rect.unit (s := S4x51200) ![0, 0] S4x51200.size inb_S4x51200_S4x51200_0_0
abbrev rC : Rect S1x51200 := Rect.unit (s := S1x51200) ![0, 0] S1x51200.size inb_S1x51200_S1x51200_0_0
abbrev rD : Rect S1x12800 := Rect.unit (s := S1x12800) ![0, 0] S1x12800.size inb_S1x12800_S1x12800_0_0

/-! ## What the body leaves in each output window's buffer, from the input windows' blocks -/

/-- Output window 27's buffer after the body: its one whole-block store. -/
def out27 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay18 (k0_pay10 (k0_pay1 (View.ld x0 rA)) (k0_pay7 (View.ld x10 rA)) (View.ld x14 rD)) (k0_pay13 (View.ld x19 rD)) (k0_pay14 (View.ld x20 rD)) (k0_pay17 (k0_pay1 (View.ld x0 rA)) (k0_pay6 (View.ld x9 rA)) (k0_pay8 (View.ld x11 rA)) (k0_pay9 (View.ld x12 rA)) (View.ld x19 rD) (View.ld x20 rD) (View.ld x21 rD) (View.ld x22 rD) (View.ld x23 rD) (View.ld x24 rD) (View.ld x13 rA))⟩]

/-- Output window 28's buffer after the body: its one whole-block store. -/
def out28 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay19 (k0_pay15 (View.ld x25 rD)) (k0_pay16 (View.ld x26 rD)) (k0_pay17 (k0_pay1 (View.ld x0 rA)) (k0_pay6 (View.ld x9 rA)) (k0_pay8 (View.ld x11 rA)) (k0_pay9 (View.ld x12 rA)) (View.ld x19 rD) (View.ld x20 rD) (View.ld x21 rD) (View.ld x22 rD) (View.ld x23 rD) (View.ld x24 rD) (View.ld x13 rA))⟩]

/-- Output window 29's buffer after the body: its one whole-block store. -/
def out29 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay10 (k0_pay1 (View.ld x0 rA)) (k0_pay7 (View.ld x10 rA)) (View.ld x14 rD)⟩]

/-- Output window 30's buffer after the body: its one whole-block store. -/
def out30 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay11 (k0_pay1 (View.ld x0 rA)) (k0_pay8 (View.ld x11 rA)) (View.ld x15 rD) (View.ld x17 rD)⟩]

/-- Output window 31's buffer after the body: its one whole-block store. -/
def out31 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay12 (k0_pay1 (View.ld x0 rA)) (View.ld x12 rA) (View.ld x16 rD) (View.ld x18 rD)⟩]

/-- Output window 32's buffer after the body: its one whole-block store. -/
def out32 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x51200 .f32 :=
  View.canon [⟨rB, k0_pay4 (View.ld x4 rB) (View.ld x5 rB) (View.ld x7 rC) (View.ld x8 rC)⟩]

/-- Output window 33's buffer after the body: its one whole-block store. -/
def out33 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x51200 .f32 :=
  View.canon [⟨rB, k0_pay5 (View.ld x5 rB) (View.ld x6 rB) (View.ld x7 rC)⟩]

/-- Output window 34's buffer after the body: its one whole-block store. -/
def out34 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay18 (k0_pay10 (k0_pay1 (View.ld x0 rA)) (k0_pay7 (View.ld x10 rA)) (View.ld x14 rD)) (k0_pay13 (View.ld x19 rD)) (k0_pay14 (View.ld x20 rD)) (k0_pay17 (k0_pay1 (View.ld x0 rA)) (k0_pay6 (View.ld x9 rA)) (k0_pay8 (View.ld x11 rA)) (k0_pay9 (View.ld x12 rA)) (View.ld x19 rD) (View.ld x20 rD) (View.ld x21 rD) (View.ld x22 rD) (View.ld x23 rD) (View.ld x24 rD) (View.ld x13 rA))⟩]

/-- Output window 35's buffer after the body: its one whole-block store. -/
def out35 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay20 (View.ld x0 rA)⟩]

/-- Output window 36's buffer after the body: its one whole-block store. -/
def out36 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay21 (View.ld x1 rA)⟩]

/-- Output window 37's buffer after the body: its one whole-block store. -/
def out37 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay22 (View.ld x2 rA)⟩]

/-- Output window 38's buffer after the body: its one whole-block store. -/
def out38 (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) : Vec F S4x12800 .f32 :=
  View.canon [⟨rA, k0_pay23 (View.ld x3 rA)⟩]

/-- One store through the whole-block rectangle covers a narrow block. -/
theorem coverA (p0 : Vec F S4x12800 .f32) (y : S4x12800.Idx) :
    ∃ pc ∈ ([⟨rA, p0⟩] : List (View.Piece (Elt F) S4x12800 .f32)), y ∈ pc.1.set :=
  View.cover_of_tiled [⟨rA, p0⟩] S4x12800.size (by rfl) y
/-- And a wide one. -/
theorem coverB (p0 : Vec F S4x51200 .f32) (y : S4x51200.Idx) :
    ∃ pc ∈ ([⟨rB, p0⟩] : List (View.Piece (Elt F) S4x51200 .f32)), y ∈ pc.1.set :=
  View.cover_of_tiled [⟨rB, p0⟩] S4x51200.size (by rfl) y

/-! ## The body's triple -/

set_option maxHeartbeats 4000000 in
/-- On whole staging buffers, the inputs' at contents `x·` and the outputs' at anything, the body runs to the
    continuation holding the inputs' as they were and each output's at its store's value of the inputs'. -/
theorem sound_kernel (c : Dev nD) (E : Set ℕ) (i : grid0.Coords)
    (arg1 : Memref sig .tc .vmem S4x12800 .f32) (harg1 : arg1.IsWhole)
    (arg2 : Memref sig .tc .vmem S4x12800 .f32) (harg2 : arg2.IsWhole)
    (arg3 : Memref sig .tc .vmem S4x12800 .f32) (harg3 : arg3.IsWhole)
    (arg4 : Memref sig .tc .vmem S4x12800 .f32) (harg4 : arg4.IsWhole)
    (arg5 : Memref sig .tc .vmem S4x51200 .f32) (harg5 : arg5.IsWhole)
    (arg6 : Memref sig .tc .vmem S4x51200 .f32) (harg6 : arg6.IsWhole)
    (arg7 : Memref sig .tc .vmem S4x51200 .f32) (harg7 : arg7.IsWhole)
    (arg8 : Memref sig .tc .vmem S1x51200 .f32) (harg8 : arg8.IsWhole)
    (arg9 : Memref sig .tc .vmem S1x51200 .f32) (harg9 : arg9.IsWhole)
    (arg10 : Memref sig .tc .vmem S4x12800 .f32) (harg10 : arg10.IsWhole)
    (arg11 : Memref sig .tc .vmem S4x12800 .f32) (harg11 : arg11.IsWhole)
    (arg12 : Memref sig .tc .vmem S4x12800 .f32) (harg12 : arg12.IsWhole)
    (arg13 : Memref sig .tc .vmem S4x12800 .f32) (harg13 : arg13.IsWhole)
    (arg14 : Memref sig .tc .vmem S4x12800 .f32) (harg14 : arg14.IsWhole)
    (arg15 : Memref sig .tc .vmem S1x12800 .f32) (harg15 : arg15.IsWhole)
    (arg16 : Memref sig .tc .vmem S1x12800 .f32) (harg16 : arg16.IsWhole)
    (arg17 : Memref sig .tc .vmem S1x12800 .f32) (harg17 : arg17.IsWhole)
    (arg18 : Memref sig .tc .vmem S1x12800 .f32) (harg18 : arg18.IsWhole)
    (arg19 : Memref sig .tc .vmem S1x12800 .f32) (harg19 : arg19.IsWhole)
    (arg20 : Memref sig .tc .vmem S1x12800 .f32) (harg20 : arg20.IsWhole)
    (arg21 : Memref sig .tc .vmem S1x12800 .f32) (harg21 : arg21.IsWhole)
    (arg22 : Memref sig .tc .vmem S1x12800 .f32) (harg22 : arg22.IsWhole)
    (arg23 : Memref sig .tc .vmem S1x12800 .f32) (harg23 : arg23.IsWhole)
    (arg24 : Memref sig .tc .vmem S1x12800 .f32) (harg24 : arg24.IsWhole)
    (arg25 : Memref sig .tc .vmem S1x12800 .f32) (harg25 : arg25.IsWhole)
    (arg26 : Memref sig .tc .vmem S1x12800 .f32) (harg26 : arg26.IsWhole)
    (arg27 : Memref sig .tc .vmem S1x12800 .f32) (harg27 : arg27.IsWhole)
    (arg28 : Memref sig .tc .vmem S4x12800 .f32) (harg28 : arg28.IsWhole)
    (arg29 : Memref sig .tc .vmem S4x12800 .f32) (harg29 : arg29.IsWhole)
    (arg30 : Memref sig .tc .vmem S4x12800 .f32) (harg30 : arg30.IsWhole)
    (arg31 : Memref sig .tc .vmem S4x12800 .f32) (harg31 : arg31.IsWhole)
    (arg32 : Memref sig .tc .vmem S4x12800 .f32) (harg32 : arg32.IsWhole)
    (arg33 : Memref sig .tc .vmem S4x51200 .f32) (harg33 : arg33.IsWhole)
    (arg34 : Memref sig .tc .vmem S4x51200 .f32) (harg34 : arg34.IsWhole)
    (arg35 : Memref sig .tc .vmem S4x12800 .f32) (harg35 : arg35.IsWhole)
    (arg36 : Memref sig .tc .vmem S4x12800 .f32) (harg36 : arg36.IsWhole)
    (arg37 : Memref sig .tc .vmem S4x12800 .f32) (harg37 : arg37.IsWhole)
    (arg38 : Memref sig .tc .vmem S4x12800 .f32) (harg38 : arg38.IsWhole)
    (arg39 : Memref sig .tc .vmem S4x12800 .f32) (harg39 : arg39.IsWhole)
    (x0 : Vec F S4x12800 .f32) (x1 : Vec F S4x12800 .f32) (x2 : Vec F S4x12800 .f32) (x3 : Vec F S4x12800 .f32) (x4 : Vec F S4x51200 .f32) (x5 : Vec F S4x51200 .f32) (x6 : Vec F S4x51200 .f32) (x7 : Vec F S1x51200 .f32) (x8 : Vec F S1x51200 .f32) (x9 : Vec F S4x12800 .f32) (x10 : Vec F S4x12800 .f32) (x11 : Vec F S4x12800 .f32) (x12 : Vec F S4x12800 .f32) (x13 : Vec F S4x12800 .f32) (x14 : Vec F S1x12800 .f32) (x15 : Vec F S1x12800 .f32) (x16 : Vec F S1x12800 .f32) (x17 : Vec F S1x12800 .f32) (x18 : Vec F S1x12800 .f32) (x19 : Vec F S1x12800 .f32) (x20 : Vec F S1x12800 .f32) (x21 : Vec F S1x12800 .f32) (x22 : Vec F S1x12800 .f32) (x23 : Vec F S1x12800 .f32) (x24 : Vec F S1x12800 .f32) (x25 : Vec F S1x12800 .f32) (x26 : Vec F S1x12800 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26
        ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26
            ∗ owns (c : Thread nD τ) arg28 fullShare (out27 x0 x1 x2 x3 x4 x5 x6 x7 x8 x9 x10 x11 x12 x13 x14 x15 x16 x17 x18 x19 x20 x21 x22 x23 x24 x25 x26) ∗ owns (c : Thread nD τ) arg29 fullShare (out28 x0 x1 x2 x3 x4 x5 x6 x7 x8 x9 x10 x11 x12 x13 x14 x15 x16 x17 x18 x19 x20 x21 x22 x23 x24 x25 x26) ∗ owns (c : Thread nD τ) arg30 fullShare (out29 x0 x1 x2 x3 x4 x5 x6 x7 x8 x9 x10 x11 x12 x13 x14 x15 x16 x17 x18 x19 x20 x21 x22 x23 x24 x25 x26) ∗ owns (c : Thread nD τ) arg31 fullShare (out30 x0 x1 x2 x3 x4 x5 x6 x7 x8 x9 x10 x11 x12 x13 x14 x15 x16 x17 x18 x19 x20 x21 x22 x23 x24 x25 x26) ∗ owns (c : Thread nD τ) arg32 fullShare (out31 x0 x1 x2 x3 x4 x5 x6 x7 x8 x9 x10 x11 x12 x13 x14 x15 x16 x17 x18 x19 x20 x21 x22 x23 x24 x25 x26) ∗ owns (c : Thread nD τ) arg33 fullShare (out32 x0 x1 x2 x3 x4 x5 x6 x7 x8 x9 x10 x11 x12 x13 x14 x15 x16 x17 x18 x19 x20 x21 x22 x23 x24 x25 x26) ∗ owns (c : Thread nD τ) arg34 fullShare (out33 x0 x1 x2 x3 x4 x5 x6 x7 x8 x9 x10 x11 x12 x13 x14 x15 x16 x17 x18 x19 x20 x21 x22 x23 x24 x25 x26) ∗ owns (c : Thread nD τ) arg35 fullShare (out34 x0 x1 x2 x3 x4 x5 x6 x7 x8 x9 x10 x11 x12 x13 x14 x15 x16 x17 x18 x19 x20 x21 x22 x23 x24 x25 x26) ∗ owns (c : Thread nD τ) arg36 fullShare (out35 x0 x1 x2 x3 x4 x5 x6 x7 x8 x9 x10 x11 x12 x13 x14 x15 x16 x17 x18 x19 x20 x21 x22 x23 x24 x25 x26) ∗ owns (c : Thread nD τ) arg37 fullShare (out36 x0 x1 x2 x3 x4 x5 x6 x7 x8 x9 x10 x11 x12 x13 x14 x15 x16 x17 x18 x19 x20 x21 x22 x23 x24 x25 x26) ∗ owns (c : Thread nD τ) arg38 fullShare (out37 x0 x1 x2 x3 x4 x5 x6 x7 x8 x9 x10 x11 x12 x13 x14 x15 x16 x17 x18 x19 x20 x21 x22 x23 x24 x25 x26) ∗ owns (c : Thread nD τ) arg39 fullShare (out38 x0 x1 x2 x3 x4 x5 x6 x7 x8 x9 x10 x11 x12 x13 x14 x15 x16 x17 x18 x19 x20 x21 x22 x23 x24 x25 x26)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  simp only [cc0__kernel_eq_skeleton]; unfold cc0__kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23; subst hf24; subst hf25; subst hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists _; isplitr
    swap; · iexact H27
    ipureintro
    exact View.read_writes_eq_canon _ _ _ (coverA _)
  isplitl [H28]
  · iexists _; isplitr
    swap; · iexact H28
    ipureintro
    exact View.read_writes_eq_canon _ _ _ (coverA _)
  isplitl [H29]
  · iexists _; isplitr
    swap; · iexact H29
    ipureintro
    exact View.read_writes_eq_canon _ _ _ (coverA _)
  isplitl [H30]
  · iexists _; isplitr
    swap; · iexact H30
    ipureintro
    exact View.read_writes_eq_canon _ _ _ (coverA _)
  isplitl [H31]
  · iexists _; isplitr
    swap; · iexact H31
    ipureintro
    exact View.read_writes_eq_canon _ _ _ (coverA _)
  isplitl [H32]
  · iexists _; isplitr
    swap; · iexact H32
    ipureintro
    exact View.read_writes_eq_canon _ _ _ (coverB _)
  isplitl [H33]
  · iexists _; isplitr
    swap; · iexact H33
    ipureintro
    exact View.read_writes_eq_canon _ _ _ (coverB _)
  isplitl [H34]
  · iexists _; isplitr
    swap; · iexact H34
    ipureintro
    exact View.read_writes_eq_canon _ _ _ (coverA _)
  isplitl [H35]
  · iexists _; isplitr
    swap; · iexact H35
    ipureintro
    exact View.read_writes_eq_canon _ _ _ (coverA _)
  isplitl [H36]
  · iexists _; isplitr
    swap; · iexact H36
    ipureintro
    exact View.read_writes_eq_canon _ _ _ (coverA _)
  isplitl [H37]
  · iexists _; isplitr
    swap; · iexact H37
    ipureintro
    exact View.read_writes_eq_canon _ _ _ (coverA _)
  iexists _; isplitr
  swap; · iexact H38
  ipureintro
  exact View.read_writes_eq_canon _ _ _ (coverA _)

end Cert.KernelIdeal.Body

end
-- ==== Proof.IdealWhole.lean ====
/-
  The run of the whole program. The proof data of the one region: every array as the region finds it, after the
  body at a grid point each input's staging buffer still at its block and each output's at its store's value of
  the input blocks; nothing is kept between points. With the body's triple at a generic point this gives the
  library's run to its frame post, and from it the frame claim: every argument array ends as launched.
-/
import proofs.«135958_j89670327206508_1_alg».proof.Proof.IdealAround
import proofs.«135958_j89670327206508_1_alg».proof.Proof.IdealBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Around Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => out27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨28, _⟩ => out28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨29, _⟩ => out29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨30, _⟩ => out30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨31, _⟩ => out31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨32, _⟩ => out32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨33, _⟩ => out33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨34, _⟩ => out34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨35, _⟩ => out35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨36, _⟩ => out36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨37, _⟩ => out37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨38, _⟩ => out38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨_ + 39, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = iblk m c 26 t := by dsimp only [dats]
theorem after_27 (c : Dev nD) (t : Fin cfg0.N) : (dats m 0 c).after 27 t = out27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_28 (c : Dev nD) (t : Fin cfg0.N) : (dats m 0 c).after 28 t = out28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_29 (c : Dev nD) (t : Fin cfg0.N) : (dats m 0 c).after 29 t = out29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_30 (c : Dev nD) (t : Fin cfg0.N) : (dats m 0 c).after 30 t = out30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_31 (c : Dev nD) (t : Fin cfg0.N) : (dats m 0 c).after 31 t = out31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_32 (c : Dev nD) (t : Fin cfg0.N) : (dats m 0 c).after 32 t = out32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_33 (c : Dev nD) (t : Fin cfg0.N) : (dats m 0 c).after 33 t = out33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_34 (c : Dev nD) (t : Fin cfg0.N) : (dats m 0 c).after 34 t = out34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_35 (c : Dev nD) (t : Fin cfg0.N) : (dats m 0 c).after 35 t = out35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_36 (c : Dev nD) (t : Fin cfg0.N) : (dats m 0 c).after 36 t = out36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_37 (c : Dev nD) (t : Fin cfg0.N) : (dats m 0 c).after 37 t = out37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]
theorem after_38 (c : Dev nD) (t : Fin cfg0.N) : (dats m 0 c).after 38 t = out38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d
theorem before_5 (c : Dev nD) (t : Fin cfg0.N) (d) : (dats m 0 c).before 5 t d = iblk m c 5 t :=
  before5_of m (dats m 0 c) (A_eq m c 5) (after_5 m c) t d
theorem before_6 (c : Dev nD) (t : Fin cfg0.N) (d) : (dats m 0 c).before 6 t d = iblk m c 6 t :=
  before6_of m (dats m 0 c) (A_eq m c 6) (after_6 m c) t d
theorem before_7 (c : Dev nD) (t : Fin cfg0.N) (d) : (dats m 0 c).before 7 t d = iblk m c 7 t :=
  before7_of m (dats m 0 c) (A_eq m c 7) (after_7 m c) t d
theorem before_8 (c : Dev nD) (t : Fin cfg0.N) (d) : (dats m 0 c).before 8 t d = iblk m c 8 t :=
  before8_of m (dats m 0 c) (A_eq m c 8) (after_8 m c) t d
theorem before_9 (c : Dev nD) (t : Fin cfg0.N) (d) : (dats m 0 c).before 9 t d = iblk m c 9 t :=
  before9_of m (dats m 0 c) (A_eq m c 9) (after_9 m c) t d
theorem before_10 (c : Dev nD) (t : Fin cfg0.N) (d) : (dats m 0 c).before 10 t d = iblk m c 10 t :=
  before10_of m (dats m 0 c) (A_eq m c 10) (after_10 m c) t d
theorem before_11 (c : Dev nD) (t : Fin cfg0.N) (d) : (dats m 0 c).before 11 t d = iblk m c 11 t :=
  before11_of m (dats m 0 c) (A_eq m c 11) (after_11 m c) t d
theorem before_12 (c : Dev nD) (t : Fin cfg0.N) (d) : (dats m 0 c).before 12 t d = iblk m c 12 t :=
  before12_of m (dats m 0 c) (A_eq m c 12) (after_12 m c) t d
theorem before_13 (c : Dev nD) (t : Fin cfg0.N) (d) : (dats m 0 c).before 13 t d = iblk m c 13 t :=
  before13_of m (dats m 0 c) (A_eq m c 13) (after_13 m c) t d
theorem before_14 (c : Dev nD) (t : Fin cfg0.N) (d) : (dats m 0 c).before 14 t d = iblk m c 14 t :=
  before14_of m (dats m 0 c) (A_eq m c 14) (after_14 m c) t d
theorem before_15 (c : Dev nD) (t : Fin cfg0.N) (d) : (dats m 0 c).before 15 t d = iblk m c 15 t :=
  before15_of m (dats m 0 c) (A_eq m c 15) (after_15 m c) t d
theorem before_16 (c : Dev nD) (t : Fin cfg0.N) (d) : (dats m 0 c).before 16 t d = iblk m c 16 t :=
  before16_of m (dats m 0 c) (A_eq m c 16) (after_16 m c) t d
theorem before_17 (c : Dev nD) (t : Fin cfg0.N) (d) : (dats m 0 c).before 17 t d = iblk m c 17 t :=
  before17_of m (dats m 0 c) (A_eq m c 17) (after_17 m c) t d
theorem before_18 (c : Dev nD) (t : Fin cfg0.N) (d) : (dats m 0 c).before 18 t d = iblk m c 18 t :=
  before18_of m (dats m 0 c) (A_eq m c 18) (after_18 m c) t d
theorem before_19 (c : Dev nD) (t : Fin cfg0.N) (d) : (dats m 0 c).before 19 t d = iblk m c 19 t :=
  before19_of m (dats m 0 c) (A_eq m c 19) (after_19 m c) t d
theorem before_20 (c : Dev nD) (t : Fin cfg0.N) (d) : (dats m 0 c).before 20 t d = iblk m c 20 t :=
  before20_of m (dats m 0 c) (A_eq m c 20) (after_20 m c) t d
theorem before_21 (c : Dev nD) (t : Fin cfg0.N) (d) : (dats m 0 c).before 21 t d = iblk m c 21 t :=
  before21_of m (dats m 0 c) (A_eq m c 21) (after_21 m c) t d
theorem before_22 (c : Dev nD) (t : Fin cfg0.N) (d) : (dats m 0 c).before 22 t d = iblk m c 22 t :=
  before22_of m (dats m 0 c) (A_eq m c 22) (after_22 m c) t d
theorem before_23 (c : Dev nD) (t : Fin cfg0.N) (d) : (dats m 0 c).before 23 t d = iblk m c 23 t :=
  before23_of m (dats m 0 c) (A_eq m c 23) (after_23 m c) t d
theorem before_24 (c : Dev nD) (t : Fin cfg0.N) (d) : (dats m 0 c).before 24 t d = iblk m c 24 t :=
  before24_of m (dats m 0 c) (A_eq m c 24) (after_24 m c) t d
theorem before_25 (c : Dev nD) (t : Fin cfg0.N) (d) : (dats m 0 c).before 25 t d = iblk m c 25 t :=
  before25_of m (dats m 0 c) (A_eq m c 25) (after_25 m c) t d
theorem before_26 (c : Dev nD) (t : Fin cfg0.N) (d) : (dats m 0 c).before 26 t d = iblk m c 26 t :=
  before26_of m (dats m 0 c) (A_eq m c 26) (after_26 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t))

set_option maxHeartbeats 4000000 in
/-- The body at any point: the inputs' staging buffers hold their blocks, so the body's triple applies; the
    invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25, before_26]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33, after_34, after_35, after_36, after_37, after_38]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  iexact H38

set_option maxHeartbeats 4000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- From any memory with zero counters every weakly fair execution of @main terminates, and every final state has
    every array of the region at what the proof data computes and every other unscoped buffer as the operations
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

end Cert.KernelIdeal.Whole

end
-- ==== Proof.RefFrame.lean ====
/-
  The reference program is host operations only. Its run, read back, ends with each argument array as launched.
-/
import proofs.«135958_j89670327206508_1_alg».proof.Defs
import proofs.«135958_j89670327206508_1_alg».proof.Proof.Gen.ReferenceIdeal
import proofs.«135958_j89670327206508_1_alg».proof.Proof.Gen.ReferenceIdeal.Run
import proofs.«135958_j89670327206508_1_alg».proof.Proof.Gen.ReferenceIdeal.Read
import proofs.«135958_j89670327206508_1_alg».proof.Proof.Gen.Pre_finite_inputs

noncomputable section

namespace Cert.Proof.RefClaims

open Idealize.ShloMosaic Idealize.ShloMosaic.TcCoe Idealize.SL.Sem

/-- The reference runs to the end without a fault and leaves every argument array as launched. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.IdealPayloads.lean ====
/-
  The kernel's arithmetic on one grid point, read entry by entry. Every stored value is a pointwise expression of
  the loaded blocks; a per-neuron parameter arrives as a one-row block and is repeated down the four batch rows.
  At entry (b, n) of a block:
    synapse rise   sd·pr + ri·pi            synapse        p·sd + (1·sd)·pr
    refractory     max (r + z·tref − 1) 0   adaptation     d·a + z·amp
    voltage        dec·v + cf·(ic + a1 + a2 + g·el) + z·(vreset − vth)
    spike          0 where the refractory counter is positive, else the indicator of (voltage − vth)/(vth − el) > 0
    output voltage voltage·scale + offset
  with z the most recent spike row, and the products and sums those of the extended reals.
-/
import proofs.«135958_j89670327206508_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Neuron

open Idealize.ShloMosaic Idealize.ShloMosaic.ValueIdx Idealize.ShloMosaic.TcCoe
open Cert.KernelIdeal Cert.KernelIdeal.Gen

/-- The literal 1.0. -/
abbrev one : EReal := Ideal.ofBits .f32 0x3F800000#32
/-- The literal 0.0. -/
abbrev zero : EReal := Ideal.ofBits .f32 0x00000000#32

def rise (sd pr ri pi : EReal) : EReal := sd * pr + ri * pi
def syn (p sd pr : EReal) : EReal := p * sd + one * sd * pr
def refr (z r tref : EReal) : EReal := max (r + z * tref - one) zero
def adapt (z a amp d : EReal) : EReal := d * a + z * amp
def volt (z v a1 a2 ic vth el vreset g dec cf : EReal) : EReal :=
  dec * v + cf * (ic + a1 + a2 + g * el) + z * (vreset - vth)
/-- The indicator of a comparison bit as a float, through the 32-bit zero extension and the signed conversion. -/
def bitS (c : BitVec 1) : EReal := (((c.setWidth 32).toInt : ℝ) : EReal)
/-- The same through the unsigned conversion of the bit itself. -/
def bitU (c : BitVec 1) : EReal := ((c.toNat : ℝ) : EReal)
/-- A bit zero-extended to 32 bits is non-negative: both conversions give 0 or 1. -/
theorem bitS_eq_bitU (c : BitVec 1) : bitS c = bitU c := by
  have h : ∀ c : BitVec 1, (c.setWidth 32).toInt = (c.toNat : ℤ) := by decide
  unfold bitS bitU
  rw [h c]; norm_cast
def spike (nr vth el nv : EReal) : EReal :=
  Scalar.select (Ideal.cmp .ogt nr zero) zero (bitS (Ideal.cmp .ogt (Ideal.div (nv - vth) (vth - el)) zero))
def outv (nv vs vo : EReal) : EReal := nv * vs + vo

/-! ## The shape casts to the same shape are identities, the row broadcasts read the one row -/

theorem pay1_eq (x : Vec Ideal S4x12800 .f32) : k0_pay1 x = x := shapeCast_self _ _
theorem pay2_eq (x : Vec Ideal S4x51200 .f32) : k0_pay2 x = x := shapeCast_self _ _
theorem pay6_eq (x : Vec Ideal S4x12800 .f32) : k0_pay6 x = x := shapeCast_self _ _
theorem pay7_eq (x : Vec Ideal S4x12800 .f32) : k0_pay7 x = x := shapeCast_self _ _
theorem pay8_eq (x : Vec Ideal S4x12800 .f32) : k0_pay8 x = x := shapeCast_self _ _
theorem pay9_eq (x : Vec Ideal S4x12800 .f32) : k0_pay9 x = x := shapeCast_self _ _
theorem pay20_eq (x : Vec Ideal S4x12800 .f32) : k0_pay20 x = x := shapeCast_self _ _
theorem pay21_eq (x : Vec Ideal S4x12800 .f32) : k0_pay21 x = x := shapeCast_self _ _
theorem pay22_eq (x : Vec Ideal S4x12800 .f32) : k0_pay22 x = x := shapeCast_self _ _
theorem pay23_eq (x : Vec Ideal S4x12800 .f32) : k0_pay23 x = x := shapeCast_self _ _

/-- A one-row narrow block repeated down the rows, at (b, n). -/
theorem rowA (x : FVec Ideal S1x12800 .f32) (b : Fin 4) (n : Fin 12800) :
    broadcastTo S4x12800 x broadcasts_S1x12800_S4x12800 (ix2 b n) = x (ix2 (0 : Fin 1) n) :=
  broadcastTo_1b_ab_apply x _ b n
/-- A one-row wide block repeated down the rows, at (b, n). -/
theorem rowB (x : FVec Ideal S1x51200 .f32) (b : Fin 4) (n : Fin 51200) :
    broadcastTo S4x51200 x broadcasts_S1x51200_S4x51200 (ix2 b n) = x (ix2 (0 : Fin 1) n) :=
  broadcastTo_1b_ab_apply x _ b n

theorem pay3_at (x8 : Vec Ideal S1x51200 .f32) (b : Fin 4) (n : Fin 51200) : k0_pay3 x8 (ix2 b n) = x8 (ix2 (0 : Fin 1) n) := by
  unfold k0_pay3; simp only [shapeCast_self, rowB]
theorem pay13_at (x : Vec Ideal S1x12800 .f32) (b : Fin 4) (n : Fin 12800) : k0_pay13 x (ix2 b n) = x (ix2 (0 : Fin 1) n) := by
  unfold k0_pay13; simp only [shapeCast_self, rowA]
theorem pay14_at (x : Vec Ideal S1x12800 .f32) (b : Fin 4) (n : Fin 12800) : k0_pay14 x (ix2 b n) = x (ix2 (0 : Fin 1) n) := by
  unfold k0_pay14; simp only [shapeCast_self, rowA]
theorem pay15_at (x : Vec Ideal S1x12800 .f32) (b : Fin 4) (n : Fin 12800) : k0_pay15 x (ix2 b n) = x (ix2 (0 : Fin 1) n) := by
  unfold k0_pay15; simp only [shapeCast_self, rowA]
theorem pay16_at (x : Vec Ideal S1x12800 .f32) (b : Fin 4) (n : Fin 12800) : k0_pay16 x (ix2 b n) = x (ix2 (0 : Fin 1) n) := by
  unfold k0_pay16; simp only [shapeCast_self, rowA]

/-! ## The stored values at an entry -/

theorem pay4_at (x4 x5 : Vec Ideal S4x51200 .f32) (x7 x8 : Vec Ideal S1x51200 .f32) (b : Fin 4) (n : Fin 51200) :
    k0_pay4 x4 x5 x7 x8 (ix2 b n) = rise (x7 (ix2 (0 : Fin 1) n)) (x5 (ix2 b n)) (x4 (ix2 b n)) (x8 (ix2 (0 : Fin 1) n)) := by
  unfold k0_pay4 rise
  simp only [addf_apply, mulf_apply, pay3_at, pay2_eq, rowB, shapeCast_self]

theorem pay5_at (x5 x6 : Vec Ideal S4x51200 .f32) (x7 : Vec Ideal S1x51200 .f32) (b : Fin 4) (n : Fin 51200) :
    k0_pay5 x5 x6 x7 (ix2 b n) = syn (x6 (ix2 b n)) (x7 (ix2 (0 : Fin 1) n)) (x5 (ix2 b n)) := by
  unfold k0_pay5 syn
  simp only [addf_apply, mulf_apply, pay3_at, pay2_eq, shapeCast_self, broadcast_apply]
  rfl

theorem pay10_at (v1 v29 : FVec Ideal S4x12800 .f32) (x14 : Vec Ideal S1x12800 .f32) (b : Fin 4) (n : Fin 12800) :
    k0_pay10 v1 v29 x14 (ix2 b n) = refr (v1 (ix2 b n)) (v29 (ix2 b n)) (x14 (ix2 (0 : Fin 1) n)) := by
  unfold k0_pay10 refr
  simp only [addf_apply, mulf_apply, subf_apply, maximumf_apply, rowA, broadcast_apply, shapeCast_self]
  rfl

theorem pay11_at (v1 v31 : FVec Ideal S4x12800 .f32) (x45 x53 : Vec Ideal S1x12800 .f32) (b : Fin 4) (n : Fin 12800) :
    k0_pay11 v1 v31 x45 x53 (ix2 b n) = adapt (v1 (ix2 b n)) (v31 (ix2 b n)) (x45 (ix2 (0 : Fin 1) n)) (x53 (ix2 (0 : Fin 1) n)) := by
  unfold k0_pay11 adapt
  simp only [addf_apply, mulf_apply, rowA, shapeCast_self]

theorem pay12_at (v1 : FVec Ideal S4x12800 .f32) (x32 : Vec Ideal S4x12800 .f32) (x49 x57 : Vec Ideal S1x12800 .f32) (b : Fin 4) (n : Fin 12800) :
    k0_pay12 v1 x32 x49 x57 (ix2 b n) = adapt (v1 (ix2 b n)) (x32 (ix2 b n)) (x49 (ix2 (0 : Fin 1) n)) (x57 (ix2 (0 : Fin 1) n)) := by
  unfold k0_pay12 adapt
  simp only [addf_apply, mulf_apply, rowA, pay9_eq, shapeCast_self]

theorem pay17_at (v1 v27 v31 v33 : FVec Ideal S4x12800 .f32) (x69 x73 x77 x81 x85 x89 : Vec Ideal S1x12800 .f32) (x101 : Vec Ideal S4x12800 .f32)
    (b : Fin 4) (n : Fin 12800) :
    k0_pay17 v1 v27 v31 v33 x69 x73 x77 x81 x85 x89 x101 (ix2 b n)
      = volt (v1 (ix2 b n)) (v27 (ix2 b n)) (v31 (ix2 b n)) (v33 (ix2 b n)) (x101 (ix2 b n))
          (x69 (ix2 (0 : Fin 1) n)) (x73 (ix2 (0 : Fin 1) n)) (x77 (ix2 (0 : Fin 1) n)) (x81 (ix2 (0 : Fin 1) n)) (x85 (ix2 (0 : Fin 1) n)) (x89 (ix2 (0 : Fin 1) n)) := by
  unfold k0_pay17 volt
  simp only [addf_apply, mulf_apply, subf_apply, rowA, pay13_at, pay14_at, shapeCast_self]

theorem pay18_at (v43 v72 v76 v112 : FVec Ideal S4x12800 .f32) (b : Fin 4) (n : Fin 12800) :
    k0_pay18 v43 v72 v76 v112 (ix2 b n) = spike (v43 (ix2 b n)) (v72 (ix2 b n)) (v76 (ix2 b n)) (v112 (ix2 b n)) := rfl

theorem pay19_at (v96 v100 v112 : FVec Ideal S4x12800 .f32) (b : Fin 4) (n : Fin 12800) :
    k0_pay19 v96 v100 v112 (ix2 b n) = outv (v112 (ix2 b n)) (v96 (ix2 b n)) (v100 (ix2 b n)) := rfl

/-! ## Each output block at an entry, from the input blocks -/

/-- The refractory counter's block. -/
theorem blkRefr (X0 X10 : Vec Ideal S4x12800 .f32) (X14 : Vec Ideal S1x12800 .f32) (b : Fin 4) (n : Fin 12800) :
    k0_pay10 (k0_pay1 X0) (k0_pay7 X10) X14 (ix2 b n) = refr (X0 (ix2 b n)) (X10 (ix2 b n)) (X14 (ix2 (0 : Fin 1) n)) := by
  rw [pay10_at, pay1_eq, pay7_eq]

/-- The voltage at an entry. -/
theorem blkVolt (X0 X9 X11 X12 X13 : Vec Ideal S4x12800 .f32) (X19 X20 X21 X22 X23 X24 : Vec Ideal S1x12800 .f32) (b : Fin 4) (n : Fin 12800) :
    k0_pay17 (k0_pay1 X0) (k0_pay6 X9) (k0_pay8 X11) (k0_pay9 X12) X19 X20 X21 X22 X23 X24 X13 (ix2 b n)
      = volt (X0 (ix2 b n)) (X9 (ix2 b n)) (X11 (ix2 b n)) (X12 (ix2 b n)) (X13 (ix2 b n)) (X19 (ix2 (0 : Fin 1) n)) (X20 (ix2 (0 : Fin 1) n)) (X21 (ix2 (0 : Fin 1) n)) (X22 (ix2 (0 : Fin 1) n)) (X23 (ix2 (0 : Fin 1) n)) (X24 (ix2 (0 : Fin 1) n)) := by
  rw [pay17_at, pay1_eq, pay6_eq, pay8_eq, pay9_eq]

/-- The spike block. -/
theorem blkSpike (X0 X9 X10 X11 X12 X13 : Vec Ideal S4x12800 .f32) (X14 X19 X20 X21 X22 X23 X24 : Vec Ideal S1x12800 .f32) (b : Fin 4) (n : Fin 12800) :
    k0_pay18 (k0_pay10 (k0_pay1 X0) (k0_pay7 X10) X14) (k0_pay13 X19) (k0_pay14 X20)
        (k0_pay17 (k0_pay1 X0) (k0_pay6 X9) (k0_pay8 X11) (k0_pay9 X12) X19 X20 X21 X22 X23 X24 X13) (ix2 b n)
      = spike (refr (X0 (ix2 b n)) (X10 (ix2 b n)) (X14 (ix2 (0 : Fin 1) n))) (X19 (ix2 (0 : Fin 1) n)) (X20 (ix2 (0 : Fin 1) n))
          (volt (X0 (ix2 b n)) (X9 (ix2 b n)) (X11 (ix2 b n)) (X12 (ix2 b n)) (X13 (ix2 b n)) (X19 (ix2 (0 : Fin 1) n)) (X20 (ix2 (0 : Fin 1) n)) (X21 (ix2 (0 : Fin 1) n)) (X22 (ix2 (0 : Fin 1) n)) (X23 (ix2 (0 : Fin 1) n)) (X24 (ix2 (0 : Fin 1) n))) := by
  rw [pay18_at, blkRefr, blkVolt, pay13_at, pay14_at]

/-- The output voltage's block. -/
theorem blkOut (X0 X9 X11 X12 X13 : Vec Ideal S4x12800 .f32) (X19 X20 X21 X22 X23 X24 X25 X26 : Vec Ideal S1x12800 .f32) (b : Fin 4) (n : Fin 12800) :
    k0_pay19 (k0_pay15 X25) (k0_pay16 X26)
        (k0_pay17 (k0_pay1 X0) (k0_pay6 X9) (k0_pay8 X11) (k0_pay9 X12) X19 X20 X21 X22 X23 X24 X13) (ix2 b n)
      = outv (volt (X0 (ix2 b n)) (X9 (ix2 b n)) (X11 (ix2 b n)) (X12 (ix2 b n)) (X13 (ix2 b n)) (X19 (ix2 (0 : Fin 1) n)) (X20 (ix2 (0 : Fin 1) n)) (X21 (ix2 (0 : Fin 1) n)) (X22 (ix2 (0 : Fin 1) n)) (X23 (ix2 (0 : Fin 1) n)) (X24 (ix2 (0 : Fin 1) n)))
          (X25 (ix2 (0 : Fin 1) n)) (X26 (ix2 (0 : Fin 1) n)) := by
  rw [pay19_at, blkVolt, pay15_at, pay16_at]

/-- The first adaptation current's block. -/
theorem blkAdapt1 (X0 X11 : Vec Ideal S4x12800 .f32) (X15 X17 : Vec Ideal S1x12800 .f32) (b : Fin 4) (n : Fin 12800) :
    k0_pay11 (k0_pay1 X0) (k0_pay8 X11) X15 X17 (ix2 b n) = adapt (X0 (ix2 b n)) (X11 (ix2 b n)) (X15 (ix2 (0 : Fin 1) n)) (X17 (ix2 (0 : Fin 1) n)) := by
  rw [pay11_at, pay1_eq, pay8_eq]

/-- The second adaptation current's block. -/
theorem blkAdapt2 (X0 X12 : Vec Ideal S4x12800 .f32) (X16 X18 : Vec Ideal S1x12800 .f32) (b : Fin 4) (n : Fin 12800) :
    k0_pay12 (k0_pay1 X0) X12 X16 X18 (ix2 b n) = adapt (X0 (ix2 b n)) (X12 (ix2 b n)) (X16 (ix2 (0 : Fin 1) n)) (X18 (ix2 (0 : Fin 1) n)) := by
  rw [pay12_at, pay1_eq]

/-- The spike block at an entry, from the input blocks' entries given by name. -/
theorem blkSpike_of (X0 X9 X10 X11 X12 X13 : Vec Ideal S4x12800 .f32) (X14 X19 X20 X21 X22 X23 X24 : Vec Ideal S1x12800 .f32) (b : Fin 4) (n : Fin 12800)
    (v0 v9 v10 v11 v12 v13 v14 v19 v20 v21 v22 v23 v24 : EReal)
    (h0 : X0 (ix2 b n) = v0) (h9 : X9 (ix2 b n) = v9) (h10 : X10 (ix2 b n) = v10) (h11 : X11 (ix2 b n) = v11) (h12 : X12 (ix2 b n) = v12) (h13 : X13 (ix2 b n) = v13)
    (h14 : X14 (ix2 (0 : Fin 1) n) = v14) (h19 : X19 (ix2 (0 : Fin 1) n) = v19) (h20 : X20 (ix2 (0 : Fin 1) n) = v20) (h21 : X21 (ix2 (0 : Fin 1) n) = v21)
    (h22 : X22 (ix2 (0 : Fin 1) n) = v22) (h23 : X23 (ix2 (0 : Fin 1) n) = v23) (h24 : X24 (ix2 (0 : Fin 1) n) = v24) :
    k0_pay18 (k0_pay10 (k0_pay1 X0) (k0_pay7 X10) X14) (k0_pay13 X19) (k0_pay14 X20)
        (k0_pay17 (k0_pay1 X0) (k0_pay6 X9) (k0_pay8 X11) (k0_pay9 X12) X19 X20 X21 X22 X23 X24 X13) (ix2 b n)
      = spike (refr v0 v10 v14) v19 v20 (volt v0 v9 v11 v12 v13 v19 v20 v21 v22 v23 v24) := by
  rw [blkSpike, h0, h9, h10, h11, h12, h13, h14, h19, h20, h21, h22, h23, h24]

/-- The output voltage block at an entry, likewise. -/
theorem blkOut_of (X0 X9 X11 X12 X13 : Vec Ideal S4x12800 .f32) (X19 X20 X21 X22 X23 X24 X25 X26 : Vec Ideal S1x12800 .f32) (b : Fin 4) (n : Fin 12800)
    (v0 v9 v11 v12 v13 v19 v20 v21 v22 v23 v24 v25 v26 : EReal)
    (h0 : X0 (ix2 b n) = v0) (h9 : X9 (ix2 b n) = v9) (h11 : X11 (ix2 b n) = v11) (h12 : X12 (ix2 b n) = v12) (h13 : X13 (ix2 b n) = v13)
    (h19 : X19 (ix2 (0 : Fin 1) n) = v19) (h20 : X20 (ix2 (0 : Fin 1) n) = v20) (h21 : X21 (ix2 (0 : Fin 1) n) = v21)
    (h22 : X22 (ix2 (0 : Fin 1) n) = v22) (h23 : X23 (ix2 (0 : Fin 1) n) = v23) (h24 : X24 (ix2 (0 : Fin 1) n) = v24)
    (h25 : X25 (ix2 (0 : Fin 1) n) = v25) (h26 : X26 (ix2 (0 : Fin 1) n) = v26) :
    k0_pay19 (k0_pay15 X25) (k0_pay16 X26)
        (k0_pay17 (k0_pay1 X0) (k0_pay6 X9) (k0_pay8 X11) (k0_pay9 X12) X19 X20 X21 X22 X23 X24 X13) (ix2 b n)
      = outv (volt v0 v9 v11 v12 v13 v19 v20 v21 v22 v23 v24) v25 v26 := by
  rw [blkOut, h0, h9, h11, h12, h13, h19, h20, h21, h22, h23, h24, h25, h26]

end Cert.KernelIdeal.Neuron

end
-- ==== Proof.IdealIndex.lean ====
/-
  Where a block's entry sits in its array. Every window's block at grid point t is all the rows and the t-th
  stretch of columns (12800 columns of a narrow array's 51200, 51200 of a wide one's 204800): entry (b, n) of the
  block is entry (b, t·width + n) of the array.
-/
import proofs.«135958_j89670327206508_1_alg».proof.Proof.Gen.KernelIdeal.Launch
import proofs.«135958_j89670327206508_1_alg».proof.Proof.Gen.KernelIdeal.Points
import Idealize.ShloMosaic.Lib.ValueIdx
import Idealize.ShloMosaic.Lib.Pipeline.Value

set_option maxRecDepth 16384

noncomputable section

namespace Cert.KernelIdeal.Index

open Idealize.ShloMosaic Idealize.ShloMosaic.TcCoe Idealize.ShloMosaic.ValueIdx
open Idealize.SL Idealize.SL.Sem
open Cert.KernelIdeal Cert.KernelIdeal.Gen

/-- The grid has four points. -/
theorem tlt (t : Fin cfg0.N) : t.val < 4 := by
  have h : t.val < grid0.N := t.isLt
  rw [N_0] at h; exact h

def posA (t : Fin cfg0.N) (b : Fin 4) (n : Fin 12800) : S4x51200.Idx :=
  ix2 b (⟨t.val * 12800 + n.val, by have := tlt t; have := n.isLt; omega⟩ : Fin 51200)
def posD (t : Fin cfg0.N) (n : Fin 12800) : S1x51200.Idx :=
  ix2 (0 : Fin 1) (⟨t.val * 12800 + n.val, by have := tlt t; have := n.isLt; omega⟩ : Fin 51200)
def posB (t : Fin cfg0.N) (b : Fin 4) (n : Fin 51200) : S4x204800.Idx :=
  ix2 b (⟨t.val * 51200 + n.val, by have := tlt t; have := n.isLt; omega⟩ : Fin 204800)
def posC (t : Fin cfg0.N) (n : Fin 51200) : S1x204800.Idx :=
  ix2 (0 : Fin 1) (⟨t.val * 51200 + n.val, by have := tlt t; have := n.isLt; omega⟩ : Fin 204800)

/-! ## The index maps, decided over the grid: block 0 on the rows, block t on the columns -/

theorem idx_0 : ∀ t : Fin cfg0.N, win0_0.index t (0 : Fin 2) = 0 ∧ win0_0.index t (1 : Fin 2) = t.val :=
  (by decide +kernel : ∀ t : Fin grid0.N, _)
theorem idx_1 : ∀ t : Fin cfg0.N, win0_1.index t (0 : Fin 2) = 0 ∧ win0_1.index t (1 : Fin 2) = t.val :=
  (by decide +kernel : ∀ t : Fin grid0.N, _)
theorem idx_2 : ∀ t : Fin cfg0.N, win0_2.index t (0 : Fin 2) = 0 ∧ win0_2.index t (1 : Fin 2) = t.val :=
  (by decide +kernel : ∀ t : Fin grid0.N, _)
theorem idx_3 : ∀ t : Fin cfg0.N, win0_3.index t (0 : Fin 2) = 0 ∧ win0_3.index t (1 : Fin 2) = t.val :=
  (by decide +kernel : ∀ t : Fin grid0.N, _)
theorem idx_4 : ∀ t : Fin cfg0.N, win0_4.index t (0 : Fin 2) = 0 ∧ win0_4.index t (1 : Fin 2) = t.val :=
  (by decide +kernel : ∀ t : Fin grid0.N, _)
theorem idx_5 : ∀ t : Fin cfg0.N, win0_5.index t (0 : Fin 2) = 0 ∧ win0_5.index t (1 : Fin 2) = t.val :=
  (by decide +kernel : ∀ t : Fin grid0.N, _)
theorem idx_6 : ∀ t : Fin cfg0.N, win0_6.index t (0 : Fin 2) = 0 ∧ win0_6.index t (1 : Fin 2) = t.val :=
  (by decide +kernel : ∀ t : Fin grid0.N, _)
theorem idx_7 : ∀ t : Fin cfg0.N, win0_7.index t (0 : Fin 2) = 0 ∧ win0_7.index t (1 : Fin 2) = t.val :=
  (by decide +kernel : ∀ t : Fin grid0.N, _)
theorem idx_8 : ∀ t : Fin cfg0.N, win0_8.index t (0 : Fin 2) = 0 ∧ win0_8.index t (1 : Fin 2) = t.val :=
  (by decide +kernel : ∀ t : Fin grid0.N, _)
theorem idx_9 : ∀ t : Fin cfg0.N, win0_9.index t (0 : Fin 2) = 0 ∧ win0_9.index t (1 : Fin 2) = t.val :=
  (by decide +kernel : ∀ t : Fin grid0.N, _)
theorem idx_10 : ∀ t : Fin cfg0.N, win0_10.index t (0 : Fin 2) = 0 ∧ win0_10.index t (1 : Fin 2) = t.val :=
  (by decide +kernel : ∀ t : Fin grid0.N, _)
theorem idx_11 : ∀ t : Fin cfg0.N, win0_11.index t (0 : Fin 2) = 0 ∧ win0_11.index t (1 : Fin 2) = t.val :=
  (by decide +kernel : ∀ t : Fin grid0.N, _)
theorem idx_12 : ∀ t : Fin cfg0.N, win0_12.index t (0 : Fin 2) = 0 ∧ win0_12.index t (1 : Fin 2) = t.val :=
  (by decide +kernel : ∀ t : Fin grid0.N, _)
theorem idx_13 : ∀ t : Fin cfg0.N, win0_13.index t (0 : Fin 2) = 0 ∧ win0_13.index t (1 : Fin 2) = t.val :=
  (by decide +kernel : ∀ t : Fin grid0.N, _)
theorem idx_14 : ∀ t : Fin cfg0.N, win0_14.index t (0 : Fin 2) = 0 ∧ win0_14.index t (1 : Fin 2) = t.val :=
  (by decide +kernel : ∀ t : Fin grid0.N, _)
theorem idx_15 : ∀ t : Fin cfg0.N, win0_15.index t (0 : Fin 2) = 0 ∧ win0_15.index t (1 : Fin 2) = t.val :=
  (by decide +kernel : ∀ t : Fin grid0.N, _)
theorem idx_16 : ∀ t : Fin cfg0.N, win0_16.index t (0 : Fin 2) = 0 ∧ win0_16.index t (1 : Fin 2) = t.val :=
  (by decide +kernel : ∀ t : Fin grid0.N, _)
theorem idx_17 : ∀ t : Fin cfg0.N, win0_17.index t (0 : Fin 2) = 0 ∧ win0_17.index t (1 : Fin 2) = t.val :=
  (by decide +kernel : ∀ t : Fin grid0.N, _)
theorem idx_18 : ∀ t : Fin cfg0.N, win0_18.index t (0 : Fin 2) = 0 ∧ win0_18.index t (1 : Fin 2) = t.val :=
  (by decide +kernel : ∀ t : Fin grid0.N, _)
theorem idx_19 : ∀ t : Fin cfg0.N, win0_19.index t (0 : Fin 2) = 0 ∧ win0_19.index t (1 : Fin 2) = t.val :=
  (by decide +kernel : ∀ t : Fin grid0.N, _)
theorem idx_20 : ∀ t : Fin cfg0.N, win0_20.index t (0 : Fin 2) = 0 ∧ win0_20.index t (1 : Fin 2) = t.val :=
  (by decide +kernel : ∀ t : Fin grid0.N, _)
theorem idx_21 : ∀ t : Fin cfg0.N, win0_21.index t (0 : Fin 2) = 0 ∧ win0_21.index t (1 : Fin 2) = t.val :=
  (by decide +kernel : ∀ t : Fin grid0.N, _)
theorem idx_22 : ∀ t : Fin cfg0.N, win0_22.index t (0 : Fin 2) = 0 ∧ win0_22.index t (1 : Fin 2) = t.val :=
  (by decide +kernel : ∀ t : Fin grid0.N, _)
theorem idx_23 : ∀ t : Fin cfg0.N, win0_23.index t (0 : Fin 2) = 0 ∧ win0_23.index t (1 : Fin 2) = t.val :=
  (by decide +kernel : ∀ t : Fin grid0.N, _)
theorem idx_24 : ∀ t : Fin cfg0.N, win0_24.index t (0 : Fin 2) = 0 ∧ win0_24.index t (1 : Fin 2) = t.val :=
  (by decide +kernel : ∀ t : Fin grid0.N, _)
theorem idx_25 : ∀ t : Fin cfg0.N, win0_25.index t (0 : Fin 2) = 0 ∧ win0_25.index t (1 : Fin 2) = t.val :=
  (by decide +kernel : ∀ t : Fin grid0.N, _)
theorem idx_26 : ∀ t : Fin cfg0.N, win0_26.index t (0 : Fin 2) = 0 ∧ win0_26.index t (1 : Fin 2) = t.val :=
  (by decide +kernel : ∀ t : Fin grid0.N, _)
theorem idx_27 : ∀ t : Fin cfg0.N, win0_27.index t (0 : Fin 2) = 0 ∧ win0_27.index t (1 : Fin 2) = t.val :=
  (by decide +kernel : ∀ t : Fin grid0.N, _)
theorem idx_28 : ∀ t : Fin cfg0.N, win0_28.index t (0 : Fin 2) = 0 ∧ win0_28.index t (1 : Fin 2) = t.val :=
  (by decide +kernel : ∀ t : Fin grid0.N, _)
theorem idx_29 : ∀ t : Fin cfg0.N, win0_29.index t (0 : Fin 2) = 0 ∧ win0_29.index t (1 : Fin 2) = t.val :=
  (by decide +kernel : ∀ t : Fin grid0.N, _)
theorem idx_30 : ∀ t : Fin cfg0.N, win0_30.index t (0 : Fin 2) = 0 ∧ win0_30.index t (1 : Fin 2) = t.val :=
  (by decide +kernel : ∀ t : Fin grid0.N, _)
theorem idx_31 : ∀ t : Fin cfg0.N, win0_31.index t (0 : Fin 2) = 0 ∧ win0_31.index t (1 : Fin 2) = t.val :=
  (by decide +kernel : ∀ t : Fin grid0.N, _)
theorem idx_32 : ∀ t : Fin cfg0.N, win0_32.index t (0 : Fin 2) = 0 ∧ win0_32.index t (1 : Fin 2) = t.val :=
  (by decide +kernel : ∀ t : Fin grid0.N, _)
theorem idx_33 : ∀ t : Fin cfg0.N, win0_33.index t (0 : Fin 2) = 0 ∧ win0_33.index t (1 : Fin 2) = t.val :=
  (by decide +kernel : ∀ t : Fin grid0.N, _)
theorem idx_34 : ∀ t : Fin cfg0.N, win0_34.index t (0 : Fin 2) = 0 ∧ win0_34.index t (1 : Fin 2) = t.val :=
  (by decide +kernel : ∀ t : Fin grid0.N, _)
theorem idx_35 : ∀ t : Fin cfg0.N, win0_35.index t (0 : Fin 2) = 0 ∧ win0_35.index t (1 : Fin 2) = t.val :=
  (by decide +kernel : ∀ t : Fin grid0.N, _)
theorem idx_36 : ∀ t : Fin cfg0.N, win0_36.index t (0 : Fin 2) = 0 ∧ win0_36.index t (1 : Fin 2) = t.val :=
  (by decide +kernel : ∀ t : Fin grid0.N, _)
theorem idx_37 : ∀ t : Fin cfg0.N, win0_37.index t (0 : Fin 2) = 0 ∧ win0_37.index t (1 : Fin 2) = t.val :=
  (by decide +kernel : ∀ t : Fin grid0.N, _)
theorem idx_38 : ∀ t : Fin cfg0.N, win0_38.index t (0 : Fin 2) = 0 ∧ win0_38.index t (1 : Fin 2) = t.val :=
  (by decide +kernel : ∀ t : Fin grid0.N, _)

/-! ## A block's entry in its array -/

theorem emb_0 (t : Fin cfg0.N) (b : Fin 4) (n : Fin 12800) :
    ((cfg0.win 0).blk t).view.emb (ix2 b n) = posA t b n := by
  obtain ⟨e0, e1⟩ := idx_0 t
  refine funext fun a => Fin.ext ?_
  match a with
  | ⟨0, _⟩ => show win0_0.index t (0 : Fin 2) * 4 + 1 * b.val = b.val; omega
  | ⟨1, _⟩ => show win0_0.index t (1 : Fin 2) * 12800 + 1 * n.val = t.val * 12800 + n.val; omega
theorem emb_1 (t : Fin cfg0.N) (b : Fin 4) (n : Fin 12800) :
    ((cfg0.win 1).blk t).view.emb (ix2 b n) = posA t b n := by
  obtain ⟨e0, e1⟩ := idx_1 t
  refine funext fun a => Fin.ext ?_
  match a with
  | ⟨0, _⟩ => show win0_1.index t (0 : Fin 2) * 4 + 1 * b.val = b.val; omega
  | ⟨1, _⟩ => show win0_1.index t (1 : Fin 2) * 12800 + 1 * n.val = t.val * 12800 + n.val; omega
theorem emb_2 (t : Fin cfg0.N) (b : Fin 4) (n : Fin 12800) :
    ((cfg0.win 2).blk t).view.emb (ix2 b n) = posA t b n := by
  obtain ⟨e0, e1⟩ := idx_2 t
  refine funext fun a => Fin.ext ?_
  match a with
  | ⟨0, _⟩ => show win0_2.index t (0 : Fin 2) * 4 + 1 * b.val = b.val; omega
  | ⟨1, _⟩ => show win0_2.index t (1 : Fin 2) * 12800 + 1 * n.val = t.val * 12800 + n.val; omega
theorem emb_3 (t : Fin cfg0.N) (b : Fin 4) (n : Fin 12800) :
    ((cfg0.win 3).blk t).view.emb (ix2 b n) = posA t b n := by
  obtain ⟨e0, e1⟩ := idx_3 t
  refine funext fun a => Fin.ext ?_
  match a with
  | ⟨0, _⟩ => show win0_3.index t (0 : Fin 2) * 4 + 1 * b.val = b.val; omega
  | ⟨1, _⟩ => show win0_3.index t (1 : Fin 2) * 12800 + 1 * n.val = t.val * 12800 + n.val; omega
theorem emb_9 (t : Fin cfg0.N) (b : Fin 4) (n : Fin 12800) :
    ((cfg0.win 9).blk t).view.emb (ix2 b n) = posA t b n := by
  obtain ⟨e0, e1⟩ := idx_9 t
  refine funext fun a => Fin.ext ?_
  match a with
  | ⟨0, _⟩ => show win0_9.index t (0 : Fin 2) * 4 + 1 * b.val = b.val; omega
  | ⟨1, _⟩ => show win0_9.index t (1 : Fin 2) * 12800 + 1 * n.val = t.val * 12800 + n.val; omega
theorem emb_10 (t : Fin cfg0.N) (b : Fin 4) (n : Fin 12800) :
    ((cfg0.win 10).blk t).view.emb (ix2 b n) = posA t b n := by
  obtain ⟨e0, e1⟩ := idx_10 t
  refine funext fun a => Fin.ext ?_
  match a with
  | ⟨0, _⟩ => show win0_10.index t (0 : Fin 2) * 4 + 1 * b.val = b.val; omega
  | ⟨1, _⟩ => show win0_10.index t (1 : Fin 2) * 12800 + 1 * n.val = t.val * 12800 + n.val; omega
theorem emb_11 (t : Fin cfg0.N) (b : Fin 4) (n : Fin 12800) :
    ((cfg0.win 11).blk t).view.emb (ix2 b n) = posA t b n := by
  obtain ⟨e0, e1⟩ := idx_11 t
  refine funext fun a => Fin.ext ?_
  match a with
  | ⟨0, _⟩ => show win0_11.index t (0 : Fin 2) * 4 + 1 * b.val = b.val; omega
  | ⟨1, _⟩ => show win0_11.index t (1 : Fin 2) * 12800 + 1 * n.val = t.val * 12800 + n.val; omega
theorem emb_12 (t : Fin cfg0.N) (b : Fin 4) (n : Fin 12800) :
    ((cfg0.win 12).blk t).view.emb (ix2 b n) = posA t b n := by
  obtain ⟨e0, e1⟩ := idx_12 t
  refine funext fun a => Fin.ext ?_
  match a with
  | ⟨0, _⟩ => show win0_12.index t (0 : Fin 2) * 4 + 1 * b.val = b.val; omega
  | ⟨1, _⟩ => show win0_12.index t (1 : Fin 2) * 12800 + 1 * n.val = t.val * 12800 + n.val; omega
theorem emb_13 (t : Fin cfg0.N) (b : Fin 4) (n : Fin 12800) :
    ((cfg0.win 13).blk t).view.emb (ix2 b n) = posA t b n := by
  obtain ⟨e0, e1⟩ := idx_13 t
  refine funext fun a => Fin.ext ?_
  match a with
  | ⟨0, _⟩ => show win0_13.index t (0 : Fin 2) * 4 + 1 * b.val = b.val; omega
  | ⟨1, _⟩ => show win0_13.index t (1 : Fin 2) * 12800 + 1 * n.val = t.val * 12800 + n.val; omega
theorem emb_27 (t : Fin cfg0.N) (b : Fin 4) (n : Fin 12800) :
    ((cfg0.win 27).blk t).view.emb (ix2 b n) = posA t b n := by
  obtain ⟨e0, e1⟩ := idx_27 t
  refine funext fun a => Fin.ext ?_
  match a with
  | ⟨0, _⟩ => show win0_27.index t (0 : Fin 2) * 4 + 1 * b.val = b.val; omega
  | ⟨1, _⟩ => show win0_27.index t (1 : Fin 2) * 12800 + 1 * n.val = t.val * 12800 + n.val; omega
theorem emb_28 (t : Fin cfg0.N) (b : Fin 4) (n : Fin 12800) :
    ((cfg0.win 28).blk t).view.emb (ix2 b n) = posA t b n := by
  obtain ⟨e0, e1⟩ := idx_28 t
  refine funext fun a => Fin.ext ?_
  match a with
  | ⟨0, _⟩ => show win0_28.index t (0 : Fin 2) * 4 + 1 * b.val = b.val; omega
  | ⟨1, _⟩ => show win0_28.index t (1 : Fin 2) * 12800 + 1 * n.val = t.val * 12800 + n.val; omega
theorem emb_29 (t : Fin cfg0.N) (b : Fin 4) (n : Fin 12800) :
    ((cfg0.win 29).blk t).view.emb (ix2 b n) = posA t b n := by
  obtain ⟨e0, e1⟩ := idx_29 t
  refine funext fun a => Fin.ext ?_
  match a with
  | ⟨0, _⟩ => show win0_29.index t (0 : Fin 2) * 4 + 1 * b.val = b.val; omega
  | ⟨1, _⟩ => show win0_29.index t (1 : Fin 2) * 12800 + 1 * n.val = t.val * 12800 + n.val; omega
theorem emb_30 (t : Fin cfg0.N) (b : Fin 4) (n : Fin 12800) :
    ((cfg0.win 30).blk t).view.emb (ix2 b n) = posA t b n := by
  obtain ⟨e0, e1⟩ := idx_30 t
  refine funext fun a => Fin.ext ?_
  match a with
  | ⟨0, _⟩ => show win0_30.index t (0 : Fin 2) * 4 + 1 * b.val = b.val; omega
  | ⟨1, _⟩ => show win0_30.index t (1 : Fin 2) * 12800 + 1 * n.val = t.val * 12800 + n.val; omega
theorem emb_31 (t : Fin cfg0.N) (b : Fin 4) (n : Fin 12800) :
    ((cfg0.win 31).blk t).view.emb (ix2 b n) = posA t b n := by
  obtain ⟨e0, e1⟩ := idx_31 t
  refine funext fun a => Fin.ext ?_
  match a with
  | ⟨0, _⟩ => show win0_31.index t (0 : Fin 2) * 4 + 1 * b.val = b.val; omega
  | ⟨1, _⟩ => show win0_31.index t (1 : Fin 2) * 12800 + 1 * n.val = t.val * 12800 + n.val; omega
theorem emb_34 (t : Fin cfg0.N) (b : Fin 4) (n : Fin 12800) :
    ((cfg0.win 34).blk t).view.emb (ix2 b n) = posA t b n := by
  obtain ⟨e0, e1⟩ := idx_34 t
  refine funext fun a => Fin.ext ?_
  match a with
  | ⟨0, _⟩ => show win0_34.index t (0 : Fin 2) * 4 + 1 * b.val = b.val; omega
  | ⟨1, _⟩ => show win0_34.index t (1 : Fin 2) * 12800 + 1 * n.val = t.val * 12800 + n.val; omega
theorem emb_35 (t : Fin cfg0.N) (b : Fin 4) (n : Fin 12800) :
    ((cfg0.win 35).blk t).view.emb (ix2 b n) = posA t b n := by
  obtain ⟨e0, e1⟩ := idx_35 t
  refine funext fun a => Fin.ext ?_
  match a with
  | ⟨0, _⟩ => show win0_35.index t (0 : Fin 2) * 4 + 1 * b.val = b.val; omega
  | ⟨1, _⟩ => show win0_35.index t (1 : Fin 2) * 12800 + 1 * n.val = t.val * 12800 + n.val; omega
theorem emb_36 (t : Fin cfg0.N) (b : Fin 4) (n : Fin 12800) :
    ((cfg0.win 36).blk t).view.emb (ix2 b n) = posA t b n := by
  obtain ⟨e0, e1⟩ := idx_36 t
  refine funext fun a => Fin.ext ?_
  match a with
  | ⟨0, _⟩ => show win0_36.index t (0 : Fin 2) * 4 + 1 * b.val = b.val; omega
  | ⟨1, _⟩ => show win0_36.index t (1 : Fin 2) * 12800 + 1 * n.val = t.val * 12800 + n.val; omega
theorem emb_37 (t : Fin cfg0.N) (b : Fin 4) (n : Fin 12800) :
    ((cfg0.win 37).blk t).view.emb (ix2 b n) = posA t b n := by
  obtain ⟨e0, e1⟩ := idx_37 t
  refine funext fun a => Fin.ext ?_
  match a with
  | ⟨0, _⟩ => show win0_37.index t (0 : Fin 2) * 4 + 1 * b.val = b.val; omega
  | ⟨1, _⟩ => show win0_37.index t (1 : Fin 2) * 12800 + 1 * n.val = t.val * 12800 + n.val; omega
theorem emb_38 (t : Fin cfg0.N) (b : Fin 4) (n : Fin 12800) :
    ((cfg0.win 38).blk t).view.emb (ix2 b n) = posA t b n := by
  obtain ⟨e0, e1⟩ := idx_38 t
  refine funext fun a => Fin.ext ?_
  match a with
  | ⟨0, _⟩ => show win0_38.index t (0 : Fin 2) * 4 + 1 * b.val = b.val; omega
  | ⟨1, _⟩ => show win0_38.index t (1 : Fin 2) * 12800 + 1 * n.val = t.val * 12800 + n.val; omega
theorem emb_14 (t : Fin cfg0.N) (n : Fin 12800) :
    ((cfg0.win 14).blk t).view.emb (ix2 (0 : Fin 1) n) = posD t n := by
  obtain ⟨e0, e1⟩ := idx_14 t
  refine funext fun a => Fin.ext ?_
  match a with
  | ⟨0, _⟩ => show win0_14.index t (0 : Fin 2) * 1 + 1 * 0 = 0; omega
  | ⟨1, _⟩ => show win0_14.index t (1 : Fin 2) * 12800 + 1 * n.val = t.val * 12800 + n.val; omega
theorem emb_15 (t : Fin cfg0.N) (n : Fin 12800) :
    ((cfg0.win 15).blk t).view.emb (ix2 (0 : Fin 1) n) = posD t n := by
  obtain ⟨e0, e1⟩ := idx_15 t
  refine funext fun a => Fin.ext ?_
  match a with
  | ⟨0, _⟩ => show win0_15.index t (0 : Fin 2) * 1 + 1 * 0 = 0; omega
  | ⟨1, _⟩ => show win0_15.index t (1 : Fin 2) * 12800 + 1 * n.val = t.val * 12800 + n.val; omega
theorem emb_16 (t : Fin cfg0.N) (n : Fin 12800) :
    ((cfg0.win 16).blk t).view.emb (ix2 (0 : Fin 1) n) = posD t n := by
  obtain ⟨e0, e1⟩ := idx_16 t
  refine funext fun a => Fin.ext ?_
  match a with
  | ⟨0, _⟩ => show win0_16.index t (0 : Fin 2) * 1 + 1 * 0 = 0; omega
  | ⟨1, _⟩ => show win0_16.index t (1 : Fin 2) * 12800 + 1 * n.val = t.val * 12800 + n.val; omega
theorem emb_17 (t : Fin cfg0.N) (n : Fin 12800) :
    ((cfg0.win 17).blk t).view.emb (ix2 (0 : Fin 1) n) = posD t n := by
  obtain ⟨e0, e1⟩ := idx_17 t
  refine funext fun a => Fin.ext ?_
  match a with
  | ⟨0, _⟩ => show win0_17.index t (0 : Fin 2) * 1 + 1 * 0 = 0; omega
  | ⟨1, _⟩ => show win0_17.index t (1 : Fin 2) * 12800 + 1 * n.val = t.val * 12800 + n.val; omega
theorem emb_18 (t : Fin cfg0.N) (n : Fin 12800) :
    ((cfg0.win 18).blk t).view.emb (ix2 (0 : Fin 1) n) = posD t n := by
  obtain ⟨e0, e1⟩ := idx_18 t
  refine funext fun a => Fin.ext ?_
  match a with
  | ⟨0, _⟩ => show win0_18.index t (0 : Fin 2) * 1 + 1 * 0 = 0; omega
  | ⟨1, _⟩ => show win0_18.index t (1 : Fin 2) * 12800 + 1 * n.val = t.val * 12800 + n.val; omega
theorem emb_19 (t : Fin cfg0.N) (n : Fin 12800) :
    ((cfg0.win 19).blk t).view.emb (ix2 (0 : Fin 1) n) = posD t n := by
  obtain ⟨e0, e1⟩ := idx_19 t
  refine funext fun a => Fin.ext ?_
  match a with
  | ⟨0, _⟩ => show win0_19.index t (0 : Fin 2) * 1 + 1 * 0 = 0; omega
  | ⟨1, _⟩ => show win0_19.index t (1 : Fin 2) * 12800 + 1 * n.val = t.val * 12800 + n.val; omega
theorem emb_20 (t : Fin cfg0.N) (n : Fin 12800) :
    ((cfg0.win 20).blk t).view.emb (ix2 (0 : Fin 1) n) = posD t n := by
  obtain ⟨e0, e1⟩ := idx_20 t
  refine funext fun a => Fin.ext ?_
  match a with
  | ⟨0, _⟩ => show win0_20.index t (0 : Fin 2) * 1 + 1 * 0 = 0; omega
  | ⟨1, _⟩ => show win0_20.index t (1 : Fin 2) * 12800 + 1 * n.val = t.val * 12800 + n.val; omega
theorem emb_21 (t : Fin cfg0.N) (n : Fin 12800) :
    ((cfg0.win 21).blk t).view.emb (ix2 (0 : Fin 1) n) = posD t n := by
  obtain ⟨e0, e1⟩ := idx_21 t
  refine funext fun a => Fin.ext ?_
  match a with
  | ⟨0, _⟩ => show win0_21.index t (0 : Fin 2) * 1 + 1 * 0 = 0; omega
  | ⟨1, _⟩ => show win0_21.index t (1 : Fin 2) * 12800 + 1 * n.val = t.val * 12800 + n.val; omega
theorem emb_22 (t : Fin cfg0.N) (n : Fin 12800) :
    ((cfg0.win 22).blk t).view.emb (ix2 (0 : Fin 1) n) = posD t n := by
  obtain ⟨e0, e1⟩ := idx_22 t
  refine funext fun a => Fin.ext ?_
  match a with
  | ⟨0, _⟩ => show win0_22.index t (0 : Fin 2) * 1 + 1 * 0 = 0; omega
  | ⟨1, _⟩ => show win0_22.index t (1 : Fin 2) * 12800 + 1 * n.val = t.val * 12800 + n.val; omega
theorem emb_23 (t : Fin cfg0.N) (n : Fin 12800) :
    ((cfg0.win 23).blk t).view.emb (ix2 (0 : Fin 1) n) = posD t n := by
  obtain ⟨e0, e1⟩ := idx_23 t
  refine funext fun a => Fin.ext ?_
  match a with
  | ⟨0, _⟩ => show win0_23.index t (0 : Fin 2) * 1 + 1 * 0 = 0; omega
  | ⟨1, _⟩ => show win0_23.index t (1 : Fin 2) * 12800 + 1 * n.val = t.val * 12800 + n.val; omega
theorem emb_24 (t : Fin cfg0.N) (n : Fin 12800) :
    ((cfg0.win 24).blk t).view.emb (ix2 (0 : Fin 1) n) = posD t n := by
  obtain ⟨e0, e1⟩ := idx_24 t
  refine funext fun a => Fin.ext ?_
  match a with
  | ⟨0, _⟩ => show win0_24.index t (0 : Fin 2) * 1 + 1 * 0 = 0; omega
  | ⟨1, _⟩ => show win0_24.index t (1 : Fin 2) * 12800 + 1 * n.val = t.val * 12800 + n.val; omega
theorem emb_25 (t : Fin cfg0.N) (n : Fin 12800) :
    ((cfg0.win 25).blk t).view.emb (ix2 (0 : Fin 1) n) = posD t n := by
  obtain ⟨e0, e1⟩ := idx_25 t
  refine funext fun a => Fin.ext ?_
  match a with
  | ⟨0, _⟩ => show win0_25.index t (0 : Fin 2) * 1 + 1 * 0 = 0; omega
  | ⟨1, _⟩ => show win0_25.index t (1 : Fin 2) * 12800 + 1 * n.val = t.val * 12800 + n.val; omega
theorem emb_26 (t : Fin cfg0.N) (n : Fin 12800) :
    ((cfg0.win 26).blk t).view.emb (ix2 (0 : Fin 1) n) = posD t n := by
  obtain ⟨e0, e1⟩ := idx_26 t
  refine funext fun a => Fin.ext ?_
  match a with
  | ⟨0, _⟩ => show win0_26.index t (0 : Fin 2) * 1 + 1 * 0 = 0; omega
  | ⟨1, _⟩ => show win0_26.index t (1 : Fin 2) * 12800 + 1 * n.val = t.val * 12800 + n.val; omega
theorem emb_4 (t : Fin cfg0.N) (b : Fin 4) (n : Fin 51200) :
    ((cfg0.win 4).blk t).view.emb (ix2 b n) = posB t b n := by
  obtain ⟨e0, e1⟩ := idx_4 t
  refine funext fun a => Fin.ext ?_
  match a with
  | ⟨0, _⟩ => show win0_4.index t (0 : Fin 2) * 4 + 1 * b.val = b.val; omega
  | ⟨1, _⟩ => show win0_4.index t (1 : Fin 2) * 51200 + 1 * n.val = t.val * 51200 + n.val; omega
theorem emb_5 (t : Fin cfg0.N) (b : Fin 4) (n : Fin 51200) :
    ((cfg0.win 5).blk t).view.emb (ix2 b n) = posB t b n := by
  obtain ⟨e0, e1⟩ := idx_5 t
  refine funext fun a => Fin.ext ?_
  match a with
  | ⟨0, _⟩ => show win0_5.index t (0 : Fin 2) * 4 + 1 * b.val = b.val; omega
  | ⟨1, _⟩ => show win0_5.index t (1 : Fin 2) * 51200 + 1 * n.val = t.val * 51200 + n.val; omega
theorem emb_6 (t : Fin cfg0.N) (b : Fin 4) (n : Fin 51200) :
    ((cfg0.win 6).blk t).view.emb (ix2 b n) = posB t b n := by
  obtain ⟨e0, e1⟩ := idx_6 t
  refine funext fun a => Fin.ext ?_
  match a with
  | ⟨0, _⟩ => show win0_6.index t (0 : Fin 2) * 4 + 1 * b.val = b.val; omega
  | ⟨1, _⟩ => show win0_6.index t (1 : Fin 2) * 51200 + 1 * n.val = t.val * 51200 + n.val; omega
theorem emb_32 (t : Fin cfg0.N) (b : Fin 4) (n : Fin 51200) :
    ((cfg0.win 32).blk t).view.emb (ix2 b n) = posB t b n := by
  obtain ⟨e0, e1⟩ := idx_32 t
  refine funext fun a => Fin.ext ?_
  match a with
  | ⟨0, _⟩ => show win0_32.index t (0 : Fin 2) * 4 + 1 * b.val = b.val; omega
  | ⟨1, _⟩ => show win0_32.index t (1 : Fin 2) * 51200 + 1 * n.val = t.val * 51200 + n.val; omega
theorem emb_33 (t : Fin cfg0.N) (b : Fin 4) (n : Fin 51200) :
    ((cfg0.win 33).blk t).view.emb (ix2 b n) = posB t b n := by
  obtain ⟨e0, e1⟩ := idx_33 t
  refine funext fun a => Fin.ext ?_
  match a with
  | ⟨0, _⟩ => show win0_33.index t (0 : Fin 2) * 4 + 1 * b.val = b.val; omega
  | ⟨1, _⟩ => show win0_33.index t (1 : Fin 2) * 51200 + 1 * n.val = t.val * 51200 + n.val; omega
theorem emb_7 (t : Fin cfg0.N) (n : Fin 51200) :
    ((cfg0.win 7).blk t).view.emb (ix2 (0 : Fin 1) n) = posC t n := by
  obtain ⟨e0, e1⟩ := idx_7 t
  refine funext fun a => Fin.ext ?_
  match a with
  | ⟨0, _⟩ => show win0_7.index t (0 : Fin 2) * 1 + 1 * 0 = 0; omega
  | ⟨1, _⟩ => show win0_7.index t (1 : Fin 2) * 51200 + 1 * n.val = t.val * 51200 + n.val; omega
theorem emb_8 (t : Fin cfg0.N) (n : Fin 51200) :
    ((cfg0.win 8).blk t).view.emb (ix2 (0 : Fin 1) n) = posC t n := by
  obtain ⟨e0, e1⟩ := idx_8 t
  refine funext fun a => Fin.ext ?_
  match a with
  | ⟨0, _⟩ => show win0_8.index t (0 : Fin 2) * 1 + 1 * 0 = 0; omega
  | ⟨1, _⟩ => show win0_8.index t (1 : Fin 2) * 51200 + 1 * n.val = t.val * 51200 + n.val; omega

/-! ## The four points' blocks cover each output array -/

theorem mem_blk_27 (t : Fin cfg0.N) (i : S4x51200.Idx) :
    i ∈ ((cfg0.win 27).blk t).view.set ↔ ∀ a : Fin 2, win0_27.index t a * S4x12800.size a ≤ (i a).val ∧ (i a).val < win0_27.index t a * S4x12800.size a + S4x12800.size a := by
  show i ∈ ((View.whole main_v99_0).slice (win0_27.rect t)).set ↔ _
  rw [View.set_slice_whole, Rect.mem_set_unit]
  exact Iff.rfl

theorem cover_27 (i : S4x51200.Idx) : ∃ t : Fin cfg0.N, (cfg0.win 27).flush t = true ∧ i ∈ ((cfg0.win 27).blk t).view.set := by
  have hi0 : (i 0).val < 4 := (i 0).isLt
  have hi1 : (i 1).val < 51200 := (i 1).isLt
  have ht : (i 1).val / 12800 < grid0.N := by rw [N_0]; omega
  obtain ⟨e0, e1⟩ := idx_27 ⟨(i 1).val / 12800, ht⟩
  refine ⟨⟨(i 1).val / 12800, ht⟩, flush0_27 _, ?_⟩
  rw [mem_blk_27]
  intro a
  match a with
  | ⟨0, _⟩ => show win0_27.index ⟨(i 1).val / 12800, ht⟩ (0 : Fin 2) * 4 ≤ (i 0).val ∧ (i 0).val < win0_27.index ⟨(i 1).val / 12800, ht⟩ (0 : Fin 2) * 4 + 4; omega
  | ⟨1, _⟩ => show win0_27.index ⟨(i 1).val / 12800, ht⟩ (1 : Fin 2) * 12800 ≤ (i 1).val ∧ (i 1).val < win0_27.index ⟨(i 1).val / 12800, ht⟩ (1 : Fin 2) * 12800 + 12800; simp only at e1; omega

theorem mem_blk_28 (t : Fin cfg0.N) (i : S4x51200.Idx) :
    i ∈ ((cfg0.win 28).blk t).view.set ↔ ∀ a : Fin 2, win0_28.index t a * S4x12800.size a ≤ (i a).val ∧ (i a).val < win0_28.index t a * S4x12800.size a + S4x12800.size a := by
  show i ∈ ((View.whole main_v99_1).slice (win0_28.rect t)).set ↔ _
  rw [View.set_slice_whole, Rect.mem_set_unit]
  exact Iff.rfl

theorem cover_28 (i : S4x51200.Idx) : ∃ t : Fin cfg0.N, (cfg0.win 28).flush t = true ∧ i ∈ ((cfg0.win 28).blk t).view.set := by
  have hi0 : (i 0).val < 4 := (i 0).isLt
  have hi1 : (i 1).val < 51200 := (i 1).isLt
  have ht : (i 1).val / 12800 < grid0.N := by rw [N_0]; omega
  obtain ⟨e0, e1⟩ := idx_28 ⟨(i 1).val / 12800, ht⟩
  refine ⟨⟨(i 1).val / 12800, ht⟩, flush0_28 _, ?_⟩
  rw [mem_blk_28]
  intro a
  match a with
  | ⟨0, _⟩ => show win0_28.index ⟨(i 1).val / 12800, ht⟩ (0 : Fin 2) * 4 ≤ (i 0).val ∧ (i 0).val < win0_28.index ⟨(i 1).val / 12800, ht⟩ (0 : Fin 2) * 4 + 4; omega
  | ⟨1, _⟩ => show win0_28.index ⟨(i 1).val / 12800, ht⟩ (1 : Fin 2) * 12800 ≤ (i 1).val ∧ (i 1).val < win0_28.index ⟨(i 1).val / 12800, ht⟩ (1 : Fin 2) * 12800 + 12800; simp only at e1; omega

theorem mem_blk_29 (t : Fin cfg0.N) (i : S4x51200.Idx) :
    i ∈ ((cfg0.win 29).blk t).view.set ↔ ∀ a : Fin 2, win0_29.index t a * S4x12800.size a ≤ (i a).val ∧ (i a).val < win0_29.index t a * S4x12800.size a + S4x12800.size a := by
  show i ∈ ((View.whole main_v99_2).slice (win0_29.rect t)).set ↔ _
  rw [View.set_slice_whole, Rect.mem_set_unit]
  exact Iff.rfl

theorem cover_29 (i : S4x51200.Idx) : ∃ t : Fin cfg0.N, (cfg0.win 29).flush t = true ∧ i ∈ ((cfg0.win 29).blk t).view.set := by
  have hi0 : (i 0).val < 4 := (i 0).isLt
  have hi1 : (i 1).val < 51200 := (i 1).isLt
  have ht : (i 1).val / 12800 < grid0.N := by rw [N_0]; omega
  obtain ⟨e0, e1⟩ := idx_29 ⟨(i 1).val / 12800, ht⟩
  refine ⟨⟨(i 1).val / 12800, ht⟩, flush0_29 _, ?_⟩
  rw [mem_blk_29]
  intro a
  match a with
  | ⟨0, _⟩ => show win0_29.index ⟨(i 1).val / 12800, ht⟩ (0 : Fin 2) * 4 ≤ (i 0).val ∧ (i 0).val < win0_29.index ⟨(i 1).val / 12800, ht⟩ (0 : Fin 2) * 4 + 4; omega
  | ⟨1, _⟩ => show win0_29.index ⟨(i 1).val / 12800, ht⟩ (1 : Fin 2) * 12800 ≤ (i 1).val ∧ (i 1).val < win0_29.index ⟨(i 1).val / 12800, ht⟩ (1 : Fin 2) * 12800 + 12800; simp only at e1; omega

theorem mem_blk_30 (t : Fin cfg0.N) (i : S4x51200.Idx) :
    i ∈ ((cfg0.win 30).blk t).view.set ↔ ∀ a : Fin 2, win0_30.index t a * S4x12800.size a ≤ (i a).val ∧ (i a).val < win0_30.index t a * S4x12800.size a + S4x12800.size a := by
  show i ∈ ((View.whole main_v99_3).slice (win0_30.rect t)).set ↔ _
  rw [View.set_slice_whole, Rect.mem_set_unit]
  exact Iff.rfl

theorem cover_30 (i : S4x51200.Idx) : ∃ t : Fin cfg0.N, (cfg0.win 30).flush t = true ∧ i ∈ ((cfg0.win 30).blk t).view.set := by
  have hi0 : (i 0).val < 4 := (i 0).isLt
  have hi1 : (i 1).val < 51200 := (i 1).isLt
  have ht : (i 1).val / 12800 < grid0.N := by rw [N_0]; omega
  obtain ⟨e0, e1⟩ := idx_30 ⟨(i 1).val / 12800, ht⟩
  refine ⟨⟨(i 1).val / 12800, ht⟩, flush0_30 _, ?_⟩
  rw [mem_blk_30]
  intro a
  match a with
  | ⟨0, _⟩ => show win0_30.index ⟨(i 1).val / 12800, ht⟩ (0 : Fin 2) * 4 ≤ (i 0).val ∧ (i 0).val < win0_30.index ⟨(i 1).val / 12800, ht⟩ (0 : Fin 2) * 4 + 4; omega
  | ⟨1, _⟩ => show win0_30.index ⟨(i 1).val / 12800, ht⟩ (1 : Fin 2) * 12800 ≤ (i 1).val ∧ (i 1).val < win0_30.index ⟨(i 1).val / 12800, ht⟩ (1 : Fin 2) * 12800 + 12800; simp only at e1; omega

theorem mem_blk_31 (t : Fin cfg0.N) (i : S4x51200.Idx) :
    i ∈ ((cfg0.win 31).blk t).view.set ↔ ∀ a : Fin 2, win0_31.index t a * S4x12800.size a ≤ (i a).val ∧ (i a).val < win0_31.index t a * S4x12800.size a + S4x12800.size a := by
  show i ∈ ((View.whole main_v99_4).slice (win0_31.rect t)).set ↔ _
  rw [View.set_slice_whole, Rect.mem_set_unit]
  exact Iff.rfl

theorem cover_31 (i : S4x51200.Idx) : ∃ t : Fin cfg0.N, (cfg0.win 31).flush t = true ∧ i ∈ ((cfg0.win 31).blk t).view.set := by
  have hi0 : (i 0).val < 4 := (i 0).isLt
  have hi1 : (i 1).val < 51200 := (i 1).isLt
  have ht : (i 1).val / 12800 < grid0.N := by rw [N_0]; omega
  obtain ⟨e0, e1⟩ := idx_31 ⟨(i 1).val / 12800, ht⟩
  refine ⟨⟨(i 1).val / 12800, ht⟩, flush0_31 _, ?_⟩
  rw [mem_blk_31]
  intro a
  match a with
  | ⟨0, _⟩ => show win0_31.index ⟨(i 1).val / 12800, ht⟩ (0 : Fin 2) * 4 ≤ (i 0).val ∧ (i 0).val < win0_31.index ⟨(i 1).val / 12800, ht⟩ (0 : Fin 2) * 4 + 4; omega
  | ⟨1, _⟩ => show win0_31.index ⟨(i 1).val / 12800, ht⟩ (1 : Fin 2) * 12800 ≤ (i 1).val ∧ (i 1).val < win0_31.index ⟨(i 1).val / 12800, ht⟩ (1 : Fin 2) * 12800 + 12800; simp only at e1; omega

theorem mem_blk_32 (t : Fin cfg0.N) (i : S4x204800.Idx) :
    i ∈ ((cfg0.win 32).blk t).view.set ↔ ∀ a : Fin 2, win0_32.index t a * S4x51200.size a ≤ (i a).val ∧ (i a).val < win0_32.index t a * S4x51200.size a + S4x51200.size a := by
  show i ∈ ((View.whole main_v99_5).slice (win0_32.rect t)).set ↔ _
  rw [View.set_slice_whole, Rect.mem_set_unit]
  exact Iff.rfl

theorem cover_32 (i : S4x204800.Idx) : ∃ t : Fin cfg0.N, (cfg0.win 32).flush t = true ∧ i ∈ ((cfg0.win 32).blk t).view.set := by
  have hi0 : (i 0).val < 4 := (i 0).isLt
  have hi1 : (i 1).val < 204800 := (i 1).isLt
  have ht : (i 1).val / 51200 < grid0.N := by rw [N_0]; omega
  obtain ⟨e0, e1⟩ := idx_32 ⟨(i 1).val / 51200, ht⟩
  refine ⟨⟨(i 1).val / 51200, ht⟩, flush0_32 _, ?_⟩
  rw [mem_blk_32]
  intro a
  match a with
  | ⟨0, _⟩ => show win0_32.index ⟨(i 1).val / 51200, ht⟩ (0 : Fin 2) * 4 ≤ (i 0).val ∧ (i 0).val < win0_32.index ⟨(i 1).val / 51200, ht⟩ (0 : Fin 2) * 4 + 4; omega
  | ⟨1, _⟩ => show win0_32.index ⟨(i 1).val / 51200, ht⟩ (1 : Fin 2) * 51200 ≤ (i 1).val ∧ (i 1).val < win0_32.index ⟨(i 1).val / 51200, ht⟩ (1 : Fin 2) * 51200 + 51200; simp only at e1; omega

theorem mem_blk_33 (t : Fin cfg0.N) (i : S4x204800.Idx) :
    i ∈ ((cfg0.win 33).blk t).view.set ↔ ∀ a : Fin 2, win0_33.index t a * S4x51200.size a ≤ (i a).val ∧ (i a).val < win0_33.index t a * S4x51200.size a + S4x51200.size a := by
  show i ∈ ((View.whole main_v99_6).slice (win0_33.rect t)).set ↔ _
  rw [View.set_slice_whole, Rect.mem_set_unit]
  exact Iff.rfl

theorem cover_33 (i : S4x204800.Idx) : ∃ t : Fin cfg0.N, (cfg0.win 33).flush t = true ∧ i ∈ ((cfg0.win 33).blk t).view.set := by
  have hi0 : (i 0).val < 4 := (i 0).isLt
  have hi1 : (i 1).val < 204800 := (i 1).isLt
  have ht : (i 1).val / 51200 < grid0.N := by rw [N_0]; omega
  obtain ⟨e0, e1⟩ := idx_33 ⟨(i 1).val / 51200, ht⟩
  refine ⟨⟨(i 1).val / 51200, ht⟩, flush0_33 _, ?_⟩
  rw [mem_blk_33]
  intro a
  match a with
  | ⟨0, _⟩ => show win0_33.index ⟨(i 1).val / 51200, ht⟩ (0 : Fin 2) * 4 ≤ (i 0).val ∧ (i 0).val < win0_33.index ⟨(i 1).val / 51200, ht⟩ (0 : Fin 2) * 4 + 4; omega
  | ⟨1, _⟩ => show win0_33.index ⟨(i 1).val / 51200, ht⟩ (1 : Fin 2) * 51200 ≤ (i 1).val ∧ (i 1).val < win0_33.index ⟨(i 1).val / 51200, ht⟩ (1 : Fin 2) * 51200 + 51200; simp only at e1; omega

theorem mem_blk_34 (t : Fin cfg0.N) (i : S4x51200.Idx) :
    i ∈ ((cfg0.win 34).blk t).view.set ↔ ∀ a : Fin 2, win0_34.index t a * S4x12800.size a ≤ (i a).val ∧ (i a).val < win0_34.index t a * S4x12800.size a + S4x12800.size a := by
  show i ∈ ((View.whole main_v99_7).slice (win0_34.rect t)).set ↔ _
  rw [View.set_slice_whole, Rect.mem_set_unit]
  exact Iff.rfl

theorem cover_34 (i : S4x51200.Idx) : ∃ t : Fin cfg0.N, (cfg0.win 34).flush t = true ∧ i ∈ ((cfg0.win 34).blk t).view.set := by
  have hi0 : (i 0).val < 4 := (i 0).isLt
  have hi1 : (i 1).val < 51200 := (i 1).isLt
  have ht : (i 1).val / 12800 < grid0.N := by rw [N_0]; omega
  obtain ⟨e0, e1⟩ := idx_34 ⟨(i 1).val / 12800, ht⟩
  refine ⟨⟨(i 1).val / 12800, ht⟩, flush0_34 _, ?_⟩
  rw [mem_blk_34]
  intro a
  match a with
  | ⟨0, _⟩ => show win0_34.index ⟨(i 1).val / 12800, ht⟩ (0 : Fin 2) * 4 ≤ (i 0).val ∧ (i 0).val < win0_34.index ⟨(i 1).val / 12800, ht⟩ (0 : Fin 2) * 4 + 4; omega
  | ⟨1, _⟩ => show win0_34.index ⟨(i 1).val / 12800, ht⟩ (1 : Fin 2) * 12800 ≤ (i 1).val ∧ (i 1).val < win0_34.index ⟨(i 1).val / 12800, ht⟩ (1 : Fin 2) * 12800 + 12800; simp only at e1; omega

theorem mem_blk_35 (t : Fin cfg0.N) (i : S4x51200.Idx) :
    i ∈ ((cfg0.win 35).blk t).view.set ↔ ∀ a : Fin 2, win0_35.index t a * S4x12800.size a ≤ (i a).val ∧ (i a).val < win0_35.index t a * S4x12800.size a + S4x12800.size a := by
  show i ∈ ((View.whole main_v99_8).slice (win0_35.rect t)).set ↔ _
  rw [View.set_slice_whole, Rect.mem_set_unit]
  exact Iff.rfl

theorem cover_35 (i : S4x51200.Idx) : ∃ t : Fin cfg0.N, (cfg0.win 35).flush t = true ∧ i ∈ ((cfg0.win 35).blk t).view.set := by
  have hi0 : (i 0).val < 4 := (i 0).isLt
  have hi1 : (i 1).val < 51200 := (i 1).isLt
  have ht : (i 1).val / 12800 < grid0.N := by rw [N_0]; omega
  obtain ⟨e0, e1⟩ := idx_35 ⟨(i 1).val / 12800, ht⟩
  refine ⟨⟨(i 1).val / 12800, ht⟩, flush0_35 _, ?_⟩
  rw [mem_blk_35]
  intro a
  match a with
  | ⟨0, _⟩ => show win0_35.index ⟨(i 1).val / 12800, ht⟩ (0 : Fin 2) * 4 ≤ (i 0).val ∧ (i 0).val < win0_35.index ⟨(i 1).val / 12800, ht⟩ (0 : Fin 2) * 4 + 4; omega
  | ⟨1, _⟩ => show win0_35.index ⟨(i 1).val / 12800, ht⟩ (1 : Fin 2) * 12800 ≤ (i 1).val ∧ (i 1).val < win0_35.index ⟨(i 1).val / 12800, ht⟩ (1 : Fin 2) * 12800 + 12800; simp only at e1; omega

theorem mem_blk_36 (t : Fin cfg0.N) (i : S4x51200.Idx) :
    i ∈ ((cfg0.win 36).blk t).view.set ↔ ∀ a : Fin 2, win0_36.index t a * S4x12800.size a ≤ (i a).val ∧ (i a).val < win0_36.index t a * S4x12800.size a + S4x12800.size a := by
  show i ∈ ((View.whole main_v99_9).slice (win0_36.rect t)).set ↔ _
  rw [View.set_slice_whole, Rect.mem_set_unit]
  exact Iff.rfl

theorem cover_36 (i : S4x51200.Idx) : ∃ t : Fin cfg0.N, (cfg0.win 36).flush t = true ∧ i ∈ ((cfg0.win 36).blk t).view.set := by
  have hi0 : (i 0).val < 4 := (i 0).isLt
  have hi1 : (i 1).val < 51200 := (i 1).isLt
  have ht : (i 1).val / 12800 < grid0.N := by rw [N_0]; omega
  obtain ⟨e0, e1⟩ := idx_36 ⟨(i 1).val / 12800, ht⟩
  refine ⟨⟨(i 1).val / 12800, ht⟩, flush0_36 _, ?_⟩
  rw [mem_blk_36]
  intro a
  match a with
  | ⟨0, _⟩ => show win0_36.index ⟨(i 1).val / 12800, ht⟩ (0 : Fin 2) * 4 ≤ (i 0).val ∧ (i 0).val < win0_36.index ⟨(i 1).val / 12800, ht⟩ (0 : Fin 2) * 4 + 4; omega
  | ⟨1, _⟩ => show win0_36.index ⟨(i 1).val / 12800, ht⟩ (1 : Fin 2) * 12800 ≤ (i 1).val ∧ (i 1).val < win0_36.index ⟨(i 1).val / 12800, ht⟩ (1 : Fin 2) * 12800 + 12800; simp only at e1; omega

theorem mem_blk_37 (t : Fin cfg0.N) (i : S4x51200.Idx) :
    i ∈ ((cfg0.win 37).blk t).view.set ↔ ∀ a : Fin 2, win0_37.index t a * S4x12800.size a ≤ (i a).val ∧ (i a).val < win0_37.index t a * S4x12800.size a + S4x12800.size a := by
  show i ∈ ((View.whole main_v99_10).slice (win0_37.rect t)).set ↔ _
  rw [View.set_slice_whole, Rect.mem_set_unit]
  exact Iff.rfl

theorem cover_37 (i : S4x51200.Idx) : ∃ t : Fin cfg0.N, (cfg0.win 37).flush t = true ∧ i ∈ ((cfg0.win 37).blk t).view.set := by
  have hi0 : (i 0).val < 4 := (i 0).isLt
  have hi1 : (i 1).val < 51200 := (i 1).isLt
  have ht : (i 1).val / 12800 < grid0.N := by rw [N_0]; omega
  obtain ⟨e0, e1⟩ := idx_37 ⟨(i 1).val / 12800, ht⟩
  refine ⟨⟨(i 1).val / 12800, ht⟩, flush0_37 _, ?_⟩
  rw [mem_blk_37]
  intro a
  match a with
  | ⟨0, _⟩ => show win0_37.index ⟨(i 1).val / 12800, ht⟩ (0 : Fin 2) * 4 ≤ (i 0).val ∧ (i 0).val < win0_37.index ⟨(i 1).val / 12800, ht⟩ (0 : Fin 2) * 4 + 4; omega
  | ⟨1, _⟩ => show win0_37.index ⟨(i 1).val / 12800, ht⟩ (1 : Fin 2) * 12800 ≤ (i 1).val ∧ (i 1).val < win0_37.index ⟨(i 1).val / 12800, ht⟩ (1 : Fin 2) * 12800 + 12800; simp only at e1; omega

theorem mem_blk_38 (t : Fin cfg0.N) (i : S4x51200.Idx) :
    i ∈ ((cfg0.win 38).blk t).view.set ↔ ∀ a : Fin 2, win0_38.index t a * S4x12800.size a ≤ (i a).val ∧ (i a).val < win0_38.index t a * S4x12800.size a + S4x12800.size a := by
  show i ∈ ((View.whole main_v99_11).slice (win0_38.rect t)).set ↔ _
  rw [View.set_slice_whole, Rect.mem_set_unit]
  exact Iff.rfl

theorem cover_38 (i : S4x51200.Idx) : ∃ t : Fin cfg0.N, (cfg0.win 38).flush t = true ∧ i ∈ ((cfg0.win 38).blk t).view.set := by
  have hi0 : (i 0).val < 4 := (i 0).isLt
  have hi1 : (i 1).val < 51200 := (i 1).isLt
  have ht : (i 1).val / 12800 < grid0.N := by rw [N_0]; omega
  obtain ⟨e0, e1⟩ := idx_38 ⟨(i 1).val / 12800, ht⟩
  refine ⟨⟨(i 1).val / 12800, ht⟩, flush0_38 _, ?_⟩
  rw [mem_blk_38]
  intro a
  match a with
  | ⟨0, _⟩ => show win0_38.index ⟨(i 1).val / 12800, ht⟩ (0 : Fin 2) * 4 ≤ (i 0).val ∧ (i 0).val < win0_38.index ⟨(i 1).val / 12800, ht⟩ (0 : Fin 2) * 4 + 4; omega
  | ⟨1, _⟩ => show win0_38.index ⟨(i 1).val / 12800, ht⟩ (1 : Fin 2) * 12800 ≤ (i 1).val ∧ (i 1).val < win0_38.index ⟨(i 1).val / 12800, ht⟩ (1 : Fin 2) * 12800 + 12800; simp only at e1; omega

end Cert.KernelIdeal.Index

end
-- ==== Proof.IdealArrays.lean ====
/-
  From blocks to arrays. The four points' blocks tile each output array, and what a point writes back is its
  block of one function of the input arrays. So each output array ends holding that function, entry by entry:
  the kernel's pointwise formula, with each per-neuron parameter read from the one row under the entry.
-/
import proofs.«135958_j89670327206508_1_alg».proof.Proof.IdealWhole
import proofs.«135958_j89670327206508_1_alg».proof.Proof.IdealPayloads
import proofs.«135958_j89670327206508_1_alg».proof.Proof.IdealIndex
import Idealize.ShloMosaic.Lib.Pipeline.Value

set_option maxRecDepth 16384

noncomputable section

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Around Cert.KernelIdeal.Body Cert.KernelIdeal.Whole Cert.KernelIdeal.Neuron Cert.KernelIdeal.Index

variable (m : (ℓ : Loc nD τ sig) → Buf (Elt Ideal) ℓ)

theorem hz : (![0, 0] : Fin 2 → Nat) = fun _ => 0 := funext fun a => by fin_cases a <;> rfl

/-- The row of per-neuron parameters under an entry of a narrow array, and of a wide one. -/
abbrev rowOf (i : S4x51200.Idx) : S1x51200.Idx := ix2 (0 : Fin 1) (⟨(i 1).val, idx2_lt1 i⟩ : Fin 51200)
abbrev rowOfW (i : S4x204800.Idx) : S1x204800.Idx := ix2 (0 : Fin 1) (⟨(i 1).val, idx2_lt1 i⟩ : Fin 204800)

/-! ## An input block's entry is its array's entry -/

theorem iblk_0 (c : Dev nD) (t : Fin cfg0.N) (b : Fin 4) (n : Fin 12800) :
    iblk m c 0 t (ix2 b n) = V m c (Pipeline.arrRef spec0 0) (posA t b n) := by
  unfold iblk; rw [View.read_apply, emb_0]; rfl
theorem iblk_1 (c : Dev nD) (t : Fin cfg0.N) (b : Fin 4) (n : Fin 12800) :
    iblk m c 1 t (ix2 b n) = V m c (Pipeline.arrRef spec0 1) (posA t b n) := by
  unfold iblk; rw [View.read_apply, emb_1]; rfl
theorem iblk_2 (c : Dev nD) (t : Fin cfg0.N) (b : Fin 4) (n : Fin 12800) :
    iblk m c 2 t (ix2 b n) = V m c (Pipeline.arrRef spec0 2) (posA t b n) := by
  unfold iblk; rw [View.read_apply, emb_2]; rfl
theorem iblk_3 (c : Dev nD) (t : Fin cfg0.N) (b : Fin 4) (n : Fin 12800) :
    iblk m c 3 t (ix2 b n) = V m c (Pipeline.arrRef spec0 3) (posA t b n) := by
  unfold iblk; rw [View.read_apply, emb_3]; rfl
theorem iblk_9 (c : Dev nD) (t : Fin cfg0.N) (b : Fin 4) (n : Fin 12800) :
    iblk m c 9 t (ix2 b n) = V m c (Pipeline.arrRef spec0 9) (posA t b n) := by
  unfold iblk; rw [View.read_apply, emb_9]; rfl
theorem iblk_10 (c : Dev nD) (t : Fin cfg0.N) (b : Fin 4) (n : Fin 12800) :
    iblk m c 10 t (ix2 b n) = V m c (Pipeline.arrRef spec0 10) (posA t b n) := by
  unfold iblk; rw [View.read_apply, emb_10]; rfl
theorem iblk_11 (c : Dev nD) (t : Fin cfg0.N) (b : Fin 4) (n : Fin 12800) :
    iblk m c 11 t (ix2 b n) = V m c (Pipeline.arrRef spec0 11) (posA t b n) := by
  unfold iblk; rw [View.read_apply, emb_11]; rfl
theorem iblk_12 (c : Dev nD) (t : Fin cfg0.N) (b : Fin 4) (n : Fin 12800) :
    iblk m c 12 t (ix2 b n) = V m c (Pipeline.arrRef spec0 12) (posA t b n) := by
  unfold iblk; rw [View.read_apply, emb_12]; rfl
theorem iblk_13 (c : Dev nD) (t : Fin cfg0.N) (b : Fin 4) (n : Fin 12800) :
    iblk m c 13 t (ix2 b n) = V m c (Pipeline.arrRef spec0 13) (posA t b n) := by
  unfold iblk; rw [View.read_apply, emb_13]; rfl
theorem iblk_14 (c : Dev nD) (t : Fin cfg0.N) (n : Fin 12800) :
    iblk m c 14 t (ix2 (0 : Fin 1) n) = V m c (Pipeline.arrRef spec0 14) (posD t n) := by
  unfold iblk; rw [View.read_apply, emb_14]; rfl
theorem iblk_15 (c : Dev nD) (t : Fin cfg0.N) (n : Fin 12800) :
    iblk m c 15 t (ix2 (0 : Fin 1) n) = V m c (Pipeline.arrRef spec0 15) (posD t n) := by
  unfold iblk; rw [View.read_apply, emb_15]; rfl
theorem iblk_16 (c : Dev nD) (t : Fin cfg0.N) (n : Fin 12800) :
    iblk m c 16 t (ix2 (0 : Fin 1) n) = V m c (Pipeline.arrRef spec0 16) (posD t n) := by
  unfold iblk; rw [View.read_apply, emb_16]; rfl
theorem iblk_17 (c : Dev nD) (t : Fin cfg0.N) (n : Fin 12800) :
    iblk m c 17 t (ix2 (0 : Fin 1) n) = V m c (Pipeline.arrRef spec0 17) (posD t n) := by
  unfold iblk; rw [View.read_apply, emb_17]; rfl
theorem iblk_18 (c : Dev nD) (t : Fin cfg0.N) (n : Fin 12800) :
    iblk m c 18 t (ix2 (0 : Fin 1) n) = V m c (Pipeline.arrRef spec0 18) (posD t n) := by
  unfold iblk; rw [View.read_apply, emb_18]; rfl
theorem iblk_19 (c : Dev nD) (t : Fin cfg0.N) (n : Fin 12800) :
    iblk m c 19 t (ix2 (0 : Fin 1) n) = V m c (Pipeline.arrRef spec0 19) (posD t n) := by
  unfold iblk; rw [View.read_apply, emb_19]; rfl
theorem iblk_20 (c : Dev nD) (t : Fin cfg0.N) (n : Fin 12800) :
    iblk m c 20 t (ix2 (0 : Fin 1) n) = V m c (Pipeline.arrRef spec0 20) (posD t n) := by
  unfold iblk; rw [View.read_apply, emb_20]; rfl
theorem iblk_21 (c : Dev nD) (t : Fin cfg0.N) (n : Fin 12800) :
    iblk m c 21 t (ix2 (0 : Fin 1) n) = V m c (Pipeline.arrRef spec0 21) (posD t n) := by
  unfold iblk; rw [View.read_apply, emb_21]; rfl
theorem iblk_22 (c : Dev nD) (t : Fin cfg0.N) (n : Fin 12800) :
    iblk m c 22 t (ix2 (0 : Fin 1) n) = V m c (Pipeline.arrRef spec0 22) (posD t n) := by
  unfold iblk; rw [View.read_apply, emb_22]; rfl
theorem iblk_23 (c : Dev nD) (t : Fin cfg0.N) (n : Fin 12800) :
    iblk m c 23 t (ix2 (0 : Fin 1) n) = V m c (Pipeline.arrRef spec0 23) (posD t n) := by
  unfold iblk; rw [View.read_apply, emb_23]; rfl
theorem iblk_24 (c : Dev nD) (t : Fin cfg0.N) (n : Fin 12800) :
    iblk m c 24 t (ix2 (0 : Fin 1) n) = V m c (Pipeline.arrRef spec0 24) (posD t n) := by
  unfold iblk; rw [View.read_apply, emb_24]; rfl
theorem iblk_25 (c : Dev nD) (t : Fin cfg0.N) (n : Fin 12800) :
    iblk m c 25 t (ix2 (0 : Fin 1) n) = V m c (Pipeline.arrRef spec0 25) (posD t n) := by
  unfold iblk; rw [View.read_apply, emb_25]; rfl
theorem iblk_26 (c : Dev nD) (t : Fin cfg0.N) (n : Fin 12800) :
    iblk m c 26 t (ix2 (0 : Fin 1) n) = V m c (Pipeline.arrRef spec0 26) (posD t n) := by
  unfold iblk; rw [View.read_apply, emb_26]; rfl
theorem iblk_4 (c : Dev nD) (t : Fin cfg0.N) (b : Fin 4) (n : Fin 51200) :
    iblk m c 4 t (ix2 b n) = V m c (Pipeline.arrRef spec0 4) (posB t b n) := by
  unfold iblk; rw [View.read_apply, emb_4]; rfl
theorem iblk_5 (c : Dev nD) (t : Fin cfg0.N) (b : Fin 4) (n : Fin 51200) :
    iblk m c 5 t (ix2 b n) = V m c (Pipeline.arrRef spec0 5) (posB t b n) := by
  unfold iblk; rw [View.read_apply, emb_5]; rfl
theorem iblk_6 (c : Dev nD) (t : Fin cfg0.N) (b : Fin 4) (n : Fin 51200) :
    iblk m c 6 t (ix2 b n) = V m c (Pipeline.arrRef spec0 6) (posB t b n) := by
  unfold iblk; rw [View.read_apply, emb_6]; rfl
theorem iblk_7 (c : Dev nD) (t : Fin cfg0.N) (n : Fin 51200) :
    iblk m c 7 t (ix2 (0 : Fin 1) n) = V m c (Pipeline.arrRef spec0 7) (posC t n) := by
  unfold iblk; rw [View.read_apply, emb_7]; rfl
theorem iblk_8 (c : Dev nD) (t : Fin cfg0.N) (n : Fin 51200) :
    iblk m c 8 t (ix2 (0 : Fin 1) n) = V m c (Pipeline.arrRef spec0 8) (posC t n) := by
  unfold iblk; rw [View.read_apply, emb_8]; rfl

/-! ## The output arrays as functions of the input arrays -/

def gRefr (a0 a10 : (S4x51200.Idx → Elt Ideal .f32)) (a14 : (S1x51200.Idx → Elt Ideal .f32)) (i : S4x51200.Idx) : EReal := refr (a0 i) (a10 i) (a14 (rowOf i))
def gVolt (a0 a9 a11 a12 a13 : (S4x51200.Idx → Elt Ideal .f32)) (a19 a20 a21 a22 a23 a24 : (S1x51200.Idx → Elt Ideal .f32)) (i : S4x51200.Idx) : EReal :=
  volt (a0 i) (a9 i) (a11 i) (a12 i) (a13 i) (a19 (rowOf i)) (a20 (rowOf i)) (a21 (rowOf i)) (a22 (rowOf i)) (a23 (rowOf i)) (a24 (rowOf i))
/-- The spike array. -/
def gSpike (a0 a9 a10 a11 a12 a13 : (S4x51200.Idx → Elt Ideal .f32)) (a14 a19 a20 a21 a22 a23 a24 : (S1x51200.Idx → Elt Ideal .f32)) : S4x51200.Idx → Elt Ideal .f32 := fun i =>
  spike (gRefr a0 a10 a14 i) (a19 (rowOf i)) (a20 (rowOf i)) (gVolt a0 a9 a11 a12 a13 a19 a20 a21 a22 a23 a24 i)
/-- The output voltage array. -/
def gOut (a0 a9 a11 a12 a13 : (S4x51200.Idx → Elt Ideal .f32)) (a19 a20 a21 a22 a23 a24 a25 a26 : (S1x51200.Idx → Elt Ideal .f32)) : S4x51200.Idx → Elt Ideal .f32 := fun i =>
  outv (gVolt a0 a9 a11 a12 a13 a19 a20 a21 a22 a23 a24 i) (a25 (rowOf i)) (a26 (rowOf i))
/-- The refractory counter array. -/
def gRefrArr (a0 a10 : (S4x51200.Idx → Elt Ideal .f32)) (a14 : (S1x51200.Idx → Elt Ideal .f32)) : S4x51200.Idx → Elt Ideal .f32 := fun i => gRefr a0 a10 a14 i
/-- An adaptation current array. -/
def gAdapt (a0 a : (S4x51200.Idx → Elt Ideal .f32)) (amp d : (S1x51200.Idx → Elt Ideal .f32)) : S4x51200.Idx → Elt Ideal .f32 := fun i => adapt (a0 i) (a i) (amp (rowOf i)) (d (rowOf i))
/-- The synapse rise array. -/
def gRise (a4 a5 : (S4x204800.Idx → Elt Ideal .f32)) (a7 a8 : (S1x204800.Idx → Elt Ideal .f32)) : S4x204800.Idx → Elt Ideal .f32 := fun i => rise (a7 (rowOfW i)) (a5 i) (a4 i) (a8 (rowOfW i))
/-- The synapse array. -/
def gSyn (a5 a6 : (S4x204800.Idx → Elt Ideal .f32)) (a7 : (S1x204800.Idx → Elt Ideal .f32)) : S4x204800.Idx → Elt Ideal .f32 := fun i => syn (a6 i) (a7 (rowOfW i)) (a5 i)

/-! ## What each point writes back, and the final arrays -/

/-- The spike array at the entry a block's (b, n) sits at. -/
theorem gSpike_at (a0 a9 a10 a11 a12 a13 : (S4x51200.Idx → Elt Ideal .f32)) (a14 a19 a20 a21 a22 a23 a24 : (S1x51200.Idx → Elt Ideal .f32)) (t : Fin cfg0.N) (b : Fin 4) (n : Fin 12800) :
    gSpike a0 a9 a10 a11 a12 a13 a14 a19 a20 a21 a22 a23 a24 (posA t b n)
      = spike (refr (a0 (posA t b n)) (a10 (posA t b n)) (a14 (posD t n))) (a19 (posD t n)) (a20 (posD t n))
          (volt (a0 (posA t b n)) (a9 (posA t b n)) (a11 (posA t b n)) (a12 (posA t b n)) (a13 (posA t b n)) (a19 (posD t n)) (a20 (posD t n)) (a21 (posD t n)) (a22 (posD t n)) (a23 (posD t n)) (a24 (posD t n))) := rfl
/-- The output voltage array there. -/
theorem gOut_at (a0 a9 a11 a12 a13 : (S4x51200.Idx → Elt Ideal .f32)) (a19 a20 a21 a22 a23 a24 a25 a26 : (S1x51200.Idx → Elt Ideal .f32)) (t : Fin cfg0.N) (b : Fin 4) (n : Fin 12800) :
    gOut a0 a9 a11 a12 a13 a19 a20 a21 a22 a23 a24 a25 a26 (posA t b n)
      = outv (volt (a0 (posA t b n)) (a9 (posA t b n)) (a11 (posA t b n)) (a12 (posA t b n)) (a13 (posA t b n)) (a19 (posD t n)) (a20 (posD t n)) (a21 (posD t n)) (a22 (posD t n)) (a23 (posD t n)) (a24 (posD t n))) (a25 (posD t n)) (a26 (posD t n)) := rfl

theorem cut_27 (t : Fin cfg0.N) (Y : Vec Ideal S4x12800 .f32) (j : S4x12800.Idx) :
    (cfg0.win 27).cut (grid0.coords t) Y j = Y j := rfl

set_option maxHeartbeats 1000000 in
/-- What point t writes back of window 27 is block t of its array's function. -/
theorem flushed_27 (c : Dev nD) (t : Fin cfg0.N) :
    (dats m 0 c).flushed 27 t = ((cfg0.win 27).blk t).view.read (Elt Ideal) (gSpike (V m c (Pipeline.arrRef spec0 0)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 19)) (V m c (Pipeline.arrRef spec0 20)) (V m c (Pipeline.arrRef spec0 21)) (V m c (Pipeline.arrRef spec0 22)) (V m c (Pipeline.arrRef spec0 23)) (V m c (Pipeline.arrRef spec0 24))) := by
  show (cfg0.win 27).cut (grid0.coords t) ((dats m 0 c).after 27 t) = _
  rw [after_27]
  funext j
  obtain ⟨b, n, rfl⟩ : ∃ (b : Fin 4) (n : Fin 12800), j = ix2 b n := ⟨j 0, j 1, eq_ix2 j⟩
  refine (cut_27 t _ (ix2 b n)).trans ?_
  unfold out27
  rw [View.canon_unit_zero (S := S4x12800) hz]
  simp only [View.ld_unit_zero (S := S4x12800) hz, View.ld_unit_zero (S := S1x12800) hz]
  refine (blkSpike_of (iblk m c 0 t) (iblk m c 9 t) (iblk m c 10 t) (iblk m c 11 t) (iblk m c 12 t) (iblk m c 13 t) (iblk m c 14 t) (iblk m c 19 t) (iblk m c 20 t) (iblk m c 21 t) (iblk m c 22 t) (iblk m c 23 t) (iblk m c 24 t) b n _ _ _ _ _ _ _ _ _ _ _ _ _
    (iblk_0 m c t b n) (iblk_9 m c t b n) (iblk_10 m c t b n) (iblk_11 m c t b n) (iblk_12 m c t b n) (iblk_13 m c t b n) (iblk_14 m c t n) (iblk_19 m c t n) (iblk_20 m c t n) (iblk_21 m c t n) (iblk_22 m c t n) (iblk_23 m c t n) (iblk_24 m c t n)).trans ?_
  rw [View.read_apply, emb_27 t b n, gSpike_at]
  exact (cast_eq _ _).symm

/-- Window 27's array after the run. -/
theorem final_27 (c : Dev nD) : (dats m 0 c).arrAt 27 cfg0.N = gSpike (V m c (Pipeline.arrRef spec0 0)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 19)) (V m c (Pipeline.arrRef spec0 20)) (V m c (Pipeline.arrRef spec0 21)) (V m c (Pipeline.arrRef spec0 22)) (V m c (Pipeline.arrRef spec0 23)) (V m c (Pipeline.arrRef spec0 24)) :=
  (dats m 0 c).arrAt_eq_of_cover 27 _ (fun t _ => flushed_27 m c t) (cover_27)

theorem cut_28 (t : Fin cfg0.N) (Y : Vec Ideal S4x12800 .f32) (j : S4x12800.Idx) :
    (cfg0.win 28).cut (grid0.coords t) Y j = Y j := rfl

set_option maxHeartbeats 1000000 in
/-- What point t writes back of window 28 is block t of its array's function. -/
theorem flushed_28 (c : Dev nD) (t : Fin cfg0.N) :
    (dats m 0 c).flushed 28 t = ((cfg0.win 28).blk t).view.read (Elt Ideal) (gOut (V m c (Pipeline.arrRef spec0 0)) (V m c (Pipeline.arrRef spec0 9)) (V m c (Pipeline.arrRef spec0 11)) (V m c (Pipeline.arrRef spec0 12)) (V m c (Pipeline.arrRef spec0 13)) (V m c (Pipeline.arrRef spec0 19)) (V m c (Pipeline.arrRef spec0 20)) (V m c (Pipeline.arrRef spec0 21)) (V m c (Pipeline.arrRef spec0 22)) (V m c (Pipeline.arrRef spec0 23)) (V m c (Pipeline.arrRef spec0 24)) (V m c (Pipeline.arrRef spec0 25)) (V m c (Pipeline.arrRef spec0 26))) := by
  show (cfg0.win 28).cut (grid0.coords t) ((dats m 0 c).after 28 t) = _
  rw [after_28]
  funext j
  obtain ⟨b, n, rfl⟩ : ∃ (b : Fin 4) (n : Fin 12800), j = ix2 b n := ⟨j 0, j 1, eq_ix2 j⟩
  refine (cut_28 t _ (ix2 b n)).trans ?_
  unfold out28
  rw [View.canon_unit_zero (S := S4x12800) hz]
  simp only [View.ld_unit_zero (S := S4x12800) hz, View.ld_unit_zero (S := S1x12800) hz]
  refine (blkOut_of (iblk m c 0 t) (iblk m c 9 t) (iblk m c 11 t) (iblk m c 12 t) (iblk m c 13 t) (iblk m c 19 t) (iblk m c 20 t) (iblk m c 21 t) (iblk m c 22 t) (iblk m c 23 t) (iblk m c 24 t) (iblk m c 25 t) (iblk m c 26 t) b n _ _ _ _ _ _ _ _ _ _ _ _ _
    (iblk_0 m c t b n) (iblk_9 m c t b n) (iblk_11 m c t b n) (iblk_12 m c t b n) (iblk_13 m c t b n) (iblk_19 m c t n) (iblk_20 m c t n) (iblk_21 m c t n) (iblk_22 m c t n) (iblk_23 m c t n) (iblk_24 m c t n) (iblk_25 m c t n) (iblk_26 m c t n)).trans ?_
  rw [View.read_apply, emb_28 t b n, gOut_at]
  exact (cast_eq _ _).symm

/-- Window 28's array after the run. -/
theorem final_28 (c : Dev nD) : (dats m 0 c).arrAt 28 cfg0.N = gOut (V m c (Pipeline.arrRef spec0 0)) (V m c (Pipeline.arrRef spec0 9)) (V m c (Pipeline.arrRef spec0 11)) (V m c (Pipeline.arrRef spec0 12)) (V m c (Pipeline.arrRef spec0 13)) (V m c (Pipeline.arrRef spec0 19)) (V m c (Pipeline.arrRef spec0 20)) (V m c (Pipeline.arrRef spec0 21)) (V m c (Pipeline.arrRef spec0 22)) (V m c (Pipeline.arrRef spec0 23)) (V m c (Pipeline.arrRef spec0 24)) (V m c (Pipeline.arrRef spec0 25)) (V m c (Pipeline.arrRef spec0 26)) :=
  (dats m 0 c).arrAt_eq_of_cover 28 _ (fun t _ => flushed_28 m c t) (cover_28)

set_option maxHeartbeats 1000000 in
/-- What point t writes back of window 29 is block t of its array's function. -/
theorem flushed_29 (c : Dev nD) (t : Fin cfg0.N) :
    (dats m 0 c).flushed 29 t = ((cfg0.win 29).blk t).view.read (Elt Ideal) (gRefrArr (V m c (Pipeline.arrRef spec0 0)) (V m c (Pipeline.arrRef spec0 10)) (V m c (Pipeline.arrRef spec0 14))) := by
  show (cfg0.win 29).cut (grid0.coords t) ((dats m 0 c).after 29 t) = _
  rw [after_29]
  unfold out29
  rw [View.canon_unit_zero (S := S4x12800) hz]
  simp only [View.ld_unit_zero (S := S4x12800) hz, View.ld_unit_zero (S := S1x12800) hz]
  funext j
  obtain ⟨b, n, rfl⟩ : ∃ (b : Fin 4) (n : Fin 12800), j = ix2 b n := ⟨j 0, j 1, eq_ix2 j⟩
  refine (blkRefr _ _ _ b n).trans ?_
  rw [View.read_apply, emb_29 t b n]
  rw [iblk_0 m c t b n, iblk_10 m c t b n, iblk_14 m c t n]
  generalize V m c (Pipeline.arrRef spec0 0) = A0
  generalize V m c (Pipeline.arrRef spec0 10) = A10
  generalize V m c (Pipeline.arrRef spec0 14) = A14
  rfl

/-- Window 29's array after the run. -/
theorem final_29 (c : Dev nD) : (dats m 0 c).arrAt 29 cfg0.N = gRefrArr (V m c (Pipeline.arrRef spec0 0)) (V m c (Pipeline.arrRef spec0 10)) (V m c (Pipeline.arrRef spec0 14)) :=
  (dats m 0 c).arrAt_eq_of_cover 29 _ (fun t _ => flushed_29 m c t) (cover_29)

set_option maxHeartbeats 1000000 in
/-- What point t writes back of window 30 is block t of its array's function. -/
theorem flushed_30 (c : Dev nD) (t : Fin cfg0.N) :
    (dats m 0 c).flushed 30 t = ((cfg0.win 30).blk t).view.read (Elt Ideal) (gAdapt (V m c (Pipeline.arrRef spec0 0)) (V m c (Pipeline.arrRef spec0 11)) (V m c (Pipeline.arrRef spec0 15)) (V m c (Pipeline.arrRef spec0 17))) := by
  show (cfg0.win 30).cut (grid0.coords t) ((dats m 0 c).after 30 t) = _
  rw [after_30]
  unfold out30
  rw [View.canon_unit_zero (S := S4x12800) hz]
  simp only [View.ld_unit_zero (S := S4x12800) hz, View.ld_unit_zero (S := S1x12800) hz]
  funext j
  obtain ⟨b, n, rfl⟩ : ∃ (b : Fin 4) (n : Fin 12800), j = ix2 b n := ⟨j 0, j 1, eq_ix2 j⟩
  refine (blkAdapt1 _ _ _ _ b n).trans ?_
  rw [View.read_apply, emb_30 t b n]
  rw [iblk_0 m c t b n, iblk_11 m c t b n, iblk_15 m c t n, iblk_17 m c t n]
  generalize V m c (Pipeline.arrRef spec0 0) = A0
  generalize V m c (Pipeline.arrRef spec0 11) = A11
  generalize V m c (Pipeline.arrRef spec0 15) = A15
  generalize V m c (Pipeline.arrRef spec0 17) = A17
  rfl

/-- Window 30's array after the run. -/
theorem final_30 (c : Dev nD) : (dats m 0 c).arrAt 30 cfg0.N = gAdapt (V m c (Pipeline.arrRef spec0 0)) (V m c (Pipeline.arrRef spec0 11)) (V m c (Pipeline.arrRef spec0 15)) (V m c (Pipeline.arrRef spec0 17)) :=
  (dats m 0 c).arrAt_eq_of_cover 30 _ (fun t _ => flushed_30 m c t) (cover_30)

set_option maxHeartbeats 1000000 in
/-- What point t writes back of window 31 is block t of its array's function. -/
theorem flushed_31 (c : Dev nD) (t : Fin cfg0.N) :
    (dats m 0 c).flushed 31 t = ((cfg0.win 31).blk t).view.read (Elt Ideal) (gAdapt (V m c (Pipeline.arrRef spec0 0)) (V m c (Pipeline.arrRef spec0 12)) (V m c (Pipeline.arrRef spec0 16)) (V m c (Pipeline.arrRef spec0 18))) := by
  show (cfg0.win 31).cut (grid0.coords t) ((dats m 0 c).after 31 t) = _
  rw [after_31]
  unfold out31
  rw [View.canon_unit_zero (S := S4x12800) hz]
  simp only [View.ld_unit_zero (S := S4x12800) hz, View.ld_unit_zero (S := S1x12800) hz]
  funext j
  obtain ⟨b, n, rfl⟩ : ∃ (b : Fin 4) (n : Fin 12800), j = ix2 b n := ⟨j 0, j 1, eq_ix2 j⟩
  refine (blkAdapt2 _ _ _ _ b n).trans ?_
  rw [View.read_apply, emb_31 t b n]
  rw [iblk_0 m c t b n, iblk_12 m c t b n, iblk_16 m c t n, iblk_18 m c t n]
  generalize V m c (Pipeline.arrRef spec0 0) = A0
  generalize V m c (Pipeline.arrRef spec0 12) = A12
  generalize V m c (Pipeline.arrRef spec0 16) = A16
  generalize V m c (Pipeline.arrRef spec0 18) = A18
  rfl

/-- Window 31's array after the run. -/
theorem final_31 (c : Dev nD) : (dats m 0 c).arrAt 31 cfg0.N = gAdapt (V m c (Pipeline.arrRef spec0 0)) (V m c (Pipeline.arrRef spec0 12)) (V m c (Pipeline.arrRef spec0 16)) (V m c (Pipeline.arrRef spec0 18)) :=
  (dats m 0 c).arrAt_eq_of_cover 31 _ (fun t _ => flushed_31 m c t) (cover_31)

set_option maxHeartbeats 1000000 in
/-- What point t writes back of window 32 is block t of its array's function. -/
theorem flushed_32 (c : Dev nD) (t : Fin cfg0.N) :
    (dats m 0 c).flushed 32 t = ((cfg0.win 32).blk t).view.read (Elt Ideal) (gRise (V m c (Pipeline.arrRef spec0 4)) (V m c (Pipeline.arrRef spec0 5)) (V m c (Pipeline.arrRef spec0 7)) (V m c (Pipeline.arrRef spec0 8))) := by
  show (cfg0.win 32).cut (grid0.coords t) ((dats m 0 c).after 32 t) = _
  rw [after_32]
  unfold out32
  rw [View.canon_unit_zero (S := S4x51200) hz]
  simp only [View.ld_unit_zero (S := S4x51200) hz, View.ld_unit_zero (S := S1x51200) hz]
  funext j
  obtain ⟨b, n, rfl⟩ : ∃ (b : Fin 4) (n : Fin 51200), j = ix2 b n := ⟨j 0, j 1, eq_ix2 j⟩
  refine (pay4_at _ _ _ _ b n).trans ?_
  rw [View.read_apply, emb_32 t b n]
  rw [iblk_4 m c t b n, iblk_5 m c t b n, iblk_7 m c t n, iblk_8 m c t n]
  generalize V m c (Pipeline.arrRef spec0 4) = A4
  generalize V m c (Pipeline.arrRef spec0 5) = A5
  generalize V m c (Pipeline.arrRef spec0 7) = A7
  generalize V m c (Pipeline.arrRef spec0 8) = A8
  rfl

/-- Window 32's array after the run. -/
theorem final_32 (c : Dev nD) : (dats m 0 c).arrAt 32 cfg0.N = gRise (V m c (Pipeline.arrRef spec0 4)) (V m c (Pipeline.arrRef spec0 5)) (V m c (Pipeline.arrRef spec0 7)) (V m c (Pipeline.arrRef spec0 8)) :=
  (dats m 0 c).arrAt_eq_of_cover 32 _ (fun t _ => flushed_32 m c t) (cover_32)

set_option maxHeartbeats 1000000 in
/-- What point t writes back of window 33 is block t of its array's function. -/
theorem flushed_33 (c : Dev nD) (t : Fin cfg0.N) :
    (dats m 0 c).flushed 33 t = ((cfg0.win 33).blk t).view.read (Elt Ideal) (gSyn (V m c (Pipeline.arrRef spec0 5)) (V m c (Pipeline.arrRef spec0 6)) (V m c (Pipeline.arrRef spec0 7))) := by
  show (cfg0.win 33).cut (grid0.coords t) ((dats m 0 c).after 33 t) = _
  rw [after_33]
  unfold out33
  rw [View.canon_unit_zero (S := S4x51200) hz]
  simp only [View.ld_unit_zero (S := S4x51200) hz, View.ld_unit_zero (S := S1x51200) hz]
  funext j
  obtain ⟨b, n, rfl⟩ : ∃ (b : Fin 4) (n : Fin 51200), j = ix2 b n := ⟨j 0, j 1, eq_ix2 j⟩
  refine (pay5_at _ _ _ b n).trans ?_
  rw [View.read_apply, emb_33 t b n]
  rw [iblk_5 m c t b n, iblk_6 m c t b n, iblk_7 m c t n]
  generalize V m c (Pipeline.arrRef spec0 5) = A5
  generalize V m c (Pipeline.arrRef spec0 6) = A6
  generalize V m c (Pipeline.arrRef spec0 7) = A7
  rfl

/-- Window 33's array after the run. -/
theorem final_33 (c : Dev nD) : (dats m 0 c).arrAt 33 cfg0.N = gSyn (V m c (Pipeline.arrRef spec0 5)) (V m c (Pipeline.arrRef spec0 6)) (V m c (Pipeline.arrRef spec0 7)) :=
  (dats m 0 c).arrAt_eq_of_cover 33 _ (fun t _ => flushed_33 m c t) (cover_33)

theorem cut_34 (t : Fin cfg0.N) (Y : Vec Ideal S4x12800 .f32) (j : S4x12800.Idx) :
    (cfg0.win 34).cut (grid0.coords t) Y j = Y j := rfl

set_option maxHeartbeats 1000000 in
/-- What point t writes back of window 34 is block t of its array's function. -/
theorem flushed_34 (c : Dev nD) (t : Fin cfg0.N) :
    (dats m 0 c).flushed 34 t = ((cfg0.win 34).blk t).view.read (Elt Ideal) (gSpike (V m c (Pipeline.arrRef spec0 0)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 19)) (V m c (Pipeline.arrRef spec0 20)) (V m c (Pipeline.arrRef spec0 21)) (V m c (Pipeline.arrRef spec0 22)) (V m c (Pipeline.arrRef spec0 23)) (V m c (Pipeline.arrRef spec0 24))) := by
  show (cfg0.win 34).cut (grid0.coords t) ((dats m 0 c).after 34 t) = _
  rw [after_34]
  funext j
  obtain ⟨b, n, rfl⟩ : ∃ (b : Fin 4) (n : Fin 12800), j = ix2 b n := ⟨j 0, j 1, eq_ix2 j⟩
  refine (cut_34 t _ (ix2 b n)).trans ?_
  unfold out34
  rw [View.canon_unit_zero (S := S4x12800) hz]
  simp only [View.ld_unit_zero (S := S4x12800) hz, View.ld_unit_zero (S := S1x12800) hz]
  refine (blkSpike_of (iblk m c 0 t) (iblk m c 9 t) (iblk m c 10 t) (iblk m c 11 t) (iblk m c 12 t) (iblk m c 13 t) (iblk m c 14 t) (iblk m c 19 t) (iblk m c 20 t) (iblk m c 21 t) (iblk m c 22 t) (iblk m c 23 t) (iblk m c 24 t) b n _ _ _ _ _ _ _ _ _ _ _ _ _
    (iblk_0 m c t b n) (iblk_9 m c t b n) (iblk_10 m c t b n) (iblk_11 m c t b n) (iblk_12 m c t b n) (iblk_13 m c t b n) (iblk_14 m c t n) (iblk_19 m c t n) (iblk_20 m c t n) (iblk_21 m c t n) (iblk_22 m c t n) (iblk_23 m c t n) (iblk_24 m c t n)).trans ?_
  rw [View.read_apply, emb_34 t b n, gSpike_at]
  exact (cast_eq _ _).symm

/-- Window 34's array after the run. -/
theorem final_34 (c : Dev nD) : (dats m 0 c).arrAt 34 cfg0.N = gSpike (V m c (Pipeline.arrRef spec0 0)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 19)) (V m c (Pipeline.arrRef spec0 20)) (V m c (Pipeline.arrRef spec0 21)) (V m c (Pipeline.arrRef spec0 22)) (V m c (Pipeline.arrRef spec0 23)) (V m c (Pipeline.arrRef spec0 24)) :=
  (dats m 0 c).arrAt_eq_of_cover 34 _ (fun t _ => flushed_34 m c t) (cover_34)

theorem cut_35 (t : Fin cfg0.N) (Y : Vec Ideal S4x12800 .f32) (j : S4x12800.Idx) :
    (cfg0.win 35).cut (grid0.coords t) Y j = Y j := rfl

set_option maxHeartbeats 400000 in
/-- What point t writes back of window 35 is block t of the delay row it copies. -/
theorem flushed_35 (c : Dev nD) (t : Fin cfg0.N) :
    (dats m 0 c).flushed 35 t = ((cfg0.win 35).blk t).view.read (Elt Ideal) (V m c (Pipeline.arrRef spec0 0)) := by
  show (cfg0.win 35).cut (grid0.coords t) ((dats m 0 c).after 35 t) = _
  rw [after_35]
  funext j
  obtain ⟨b, n, rfl⟩ : ∃ (b : Fin 4) (n : Fin 12800), j = ix2 b n := ⟨j 0, j 1, eq_ix2 j⟩
  refine (cut_35 t _ (ix2 b n)).trans ?_
  unfold out35
  rw [View.canon_unit_zero (S := S4x12800) hz]
  simp only [View.ld_unit_zero (S := S4x12800) hz]
  rw [pay20_eq]
  refine (iblk_0 m c t b n).trans ?_
  rw [View.read_apply, emb_35 t b n]
  rfl

/-- Window 35's array after the run. -/
theorem final_35 (c : Dev nD) : (dats m 0 c).arrAt 35 cfg0.N = (V m c (Pipeline.arrRef spec0 0)) :=
  (dats m 0 c).arrAt_eq_of_cover 35 _ (fun t _ => flushed_35 m c t) (cover_35)

theorem cut_36 (t : Fin cfg0.N) (Y : Vec Ideal S4x12800 .f32) (j : S4x12800.Idx) :
    (cfg0.win 36).cut (grid0.coords t) Y j = Y j := rfl

set_option maxHeartbeats 400000 in
/-- What point t writes back of window 36 is block t of the delay row it copies. -/
theorem flushed_36 (c : Dev nD) (t : Fin cfg0.N) :
    (dats m 0 c).flushed 36 t = ((cfg0.win 36).blk t).view.read (Elt Ideal) (V m c (Pipeline.arrRef spec0 1)) := by
  show (cfg0.win 36).cut (grid0.coords t) ((dats m 0 c).after 36 t) = _
  rw [after_36]
  funext j
  obtain ⟨b, n, rfl⟩ : ∃ (b : Fin 4) (n : Fin 12800), j = ix2 b n := ⟨j 0, j 1, eq_ix2 j⟩
  refine (cut_36 t _ (ix2 b n)).trans ?_
  unfold out36
  rw [View.canon_unit_zero (S := S4x12800) hz]
  simp only [View.ld_unit_zero (S := S4x12800) hz]
  rw [pay21_eq]
  refine (iblk_1 m c t b n).trans ?_
  rw [View.read_apply, emb_36 t b n]
  rfl

/-- Window 36's array after the run. -/
theorem final_36 (c : Dev nD) : (dats m 0 c).arrAt 36 cfg0.N = (V m c (Pipeline.arrRef spec0 1)) :=
  (dats m 0 c).arrAt_eq_of_cover 36 _ (fun t _ => flushed_36 m c t) (cover_36)

theorem cut_37 (t : Fin cfg0.N) (Y : Vec Ideal S4x12800 .f32) (j : S4x12800.Idx) :
    (cfg0.win 37).cut (grid0.coords t) Y j = Y j := rfl

set_option maxHeartbeats 400000 in
/-- What point t writes back of window 37 is block t of the delay row it copies. -/
theorem flushed_37 (c : Dev nD) (t : Fin cfg0.N) :
    (dats m 0 c).flushed 37 t = ((cfg0.win 37).blk t).view.read (Elt Ideal) (V m c (Pipeline.arrRef spec0 2)) := by
  show (cfg0.win 37).cut (grid0.coords t) ((dats m 0 c).after 37 t) = _
  rw [after_37]
  funext j
  obtain ⟨b, n, rfl⟩ : ∃ (b : Fin 4) (n : Fin 12800), j = ix2 b n := ⟨j 0, j 1, eq_ix2 j⟩
  refine (cut_37 t _ (ix2 b n)).trans ?_
  unfold out37
  rw [View.canon_unit_zero (S := S4x12800) hz]
  simp only [View.ld_unit_zero (S := S4x12800) hz]
  rw [pay22_eq]
  refine (iblk_2 m c t b n).trans ?_
  rw [View.read_apply, emb_37 t b n]
  rfl

/-- Window 37's array after the run. -/
theorem final_37 (c : Dev nD) : (dats m 0 c).arrAt 37 cfg0.N = (V m c (Pipeline.arrRef spec0 2)) :=
  (dats m 0 c).arrAt_eq_of_cover 37 _ (fun t _ => flushed_37 m c t) (cover_37)

theorem cut_38 (t : Fin cfg0.N) (Y : Vec Ideal S4x12800 .f32) (j : S4x12800.Idx) :
    (cfg0.win 38).cut (grid0.coords t) Y j = Y j := rfl

set_option maxHeartbeats 400000 in
/-- What point t writes back of window 38 is block t of the delay row it copies. -/
theorem flushed_38 (c : Dev nD) (t : Fin cfg0.N) :
    (dats m 0 c).flushed 38 t = ((cfg0.win 38).blk t).view.read (Elt Ideal) (V m c (Pipeline.arrRef spec0 3)) := by
  show (cfg0.win 38).cut (grid0.coords t) ((dats m 0 c).after 38 t) = _
  rw [after_38]
  funext j
  obtain ⟨b, n, rfl⟩ : ∃ (b : Fin 4) (n : Fin 12800), j = ix2 b n := ⟨j 0, j 1, eq_ix2 j⟩
  refine (cut_38 t _ (ix2 b n)).trans ?_
  unfold out38
  rw [View.canon_unit_zero (S := S4x12800) hz]
  simp only [View.ld_unit_zero (S := S4x12800) hz]
  rw [pay23_eq]
  refine (iblk_3 m c t b n).trans ?_
  rw [View.read_apply, emb_38 t b n]
  rfl

/-- Window 38's array after the run. -/
theorem final_38 (c : Dev nD) : (dats m 0 c).arrAt 38 cfg0.N = (V m c (Pipeline.arrRef spec0 3)) :=
  (dats m 0 c).arrAt_eq_of_cover 38 _ (fun t _ => flushed_38 m c t) (cover_38)

end Cert.KernelIdeal.Arrays

end
-- ==== Proof.IdealLayout.lean ====
/-
  The kernel's host side moves data without changing it: an array is padded on its neuron axis from 50000 to
  51200 (the wide ones from 200000 to 204800 columns through a three-axis form), a per-neuron vector becomes a
  padded one-row matrix, the delay buffer's rows are cut out of its [4, 5, 50000] form, and after the region
  the padding is sliced away again. Each of these, read at an entry inside the unpadded range, is the operand
  at the corresponding entry; the padding value is never read there.
-/
import proofs.«135958_j89670327206508_1_alg».proof.Proof.Gen.KernelIdeal
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Layout

open Idealize.ShloMosaic Idealize.ShloMosaic.ValueIdx
open Cert.KernelIdeal Cert.KernelIdeal.Gen

variable {α : Type}

/-- A [4, 50000] array padded to 51200 columns, at a column below 50000. -/
theorem padCols (x : S4x50000.Idx → α) (v : S_.Idx → α) (b : Fin 4) (n : Fin 51200) (hn : n.val < 50000) :
    pad S4x51200 ![0, 0] ![0, 1200] ![0, 0] x v pads_S4x50000_S4x51200_000_012000 h_S_ (ix2 b n) = x (ix2 b (⟨n.val, hn⟩ : Fin 50000)) :=
  pad_apply_of_inside _ _ _ x v _ _ (ix2 b n) (ix2 b (⟨n.val, hn⟩ : Fin 50000)) fun a => by
    match a with
    | ⟨0, _⟩ => show b.val = 0 + b.val * (0 + 1); omega
    | ⟨1, _⟩ => show n.val = 0 + n.val * (0 + 1); omega

/-- A per-neuron vector padded to 51200 and laid as one row, at a column below 50000. -/
theorem padRow (x : S50000.Idx → α) (v : S_.Idx → α) (n : Fin 51200) (hn : n.val < 50000) :
    shapeCast S1x51200 (pad S51200 ![0] ![1200] ![0] x v pads_S50000_S51200_012000 h_S_) shapeCasts_S51200_S1x51200 (ix2 (0 : Fin 1) n)
      = x (ix1 (⟨n.val, hn⟩ : Fin 50000)) := by
  refine (shapeCast_a_1a_apply _ shapeCasts_S51200_S1x51200 (0 : Fin 1) n).trans ?_
  exact pad_apply_of_inside _ _ _ x v _ _ (ix1 n) (ix1 (⟨n.val, hn⟩ : Fin 50000)) fun a => by
    match a with
    | ⟨0, _⟩ => show n.val = 0 + n.val * (0 + 1); omega

/-- A [4, 200000] array taken to [4, 50000, 4], padded on the neuron axis and flattened to [4, 204800], at a column
    below 200000. -/
theorem padWide (x : S4x200000.Idx → α) (v : S_.Idx → α) (b : Fin 4) (j : Fin 204800) (hj : j.val < 200000) :
    shapeCast S4x204800 (pad S4x51200x4 ![0, 0, 0] ![0, 1200, 0] ![0, 0, 0] (shapeCast S4x50000x4 x shapeCasts_S4x200000_S4x50000x4) v
        pads_S4x50000x4_S4x51200x4_000_012000_000 h_S_) shapeCasts_S4x51200x4_S4x204800 (ix2 b j)
      = x (ix2 b (⟨j.val, hj⟩ : Fin 200000)) := by
  have hb := b.isLt
  have hq : j.val / 4 < 50000 := by omega
  have hr : j.val % 4 < 4 := Nat.mod_lt _ (by norm_num)
  refine (shapeCast_apply _ _ (ix2 b j) (ix3 b (⟨j.val / 4, by omega⟩ : Fin 51200) (⟨j.val % 4, hr⟩ : Fin 4)) ?_).trans ?_
  · rw [Shape.rowMajor_val_three, Shape.rowMajor_val_two]
    show (b.val * 51200 + j.val / 4) * 4 + j.val % 4 = b.val * 204800 + j.val
    omega
  refine (pad_apply_of_inside _ _ _ _ v _ _ _ (ix3 b (⟨j.val / 4, hq⟩ : Fin 50000) (⟨j.val % 4, hr⟩ : Fin 4)) ?_).trans ?_
  · intro a
    match a with
    | ⟨0, _⟩ => show b.val = 0 + b.val * (0 + 1); omega
    | ⟨1, _⟩ => show j.val / 4 = 0 + j.val / 4 * (0 + 1); omega
    | ⟨2, _⟩ => show j.val % 4 = 0 + j.val % 4 * (0 + 1); omega
  refine shapeCast_apply _ _ _ _ ?_
  rw [Shape.rowMajor_val_two, Shape.rowMajor_val_three]
  show b.val * 200000 + j.val = (b.val * 50000 + j.val / 4) * 4 + j.val % 4
  omega

/-- A [50000, 4] parameter flattened and restored, padded on the neuron axis and laid as one row of 204800, at a
    column below 200000. -/
theorem padWideRow (x : S50000x4.Idx → α) (v : S_.Idx → α) (j : Fin 204800) (hj : j.val < 200000) :
    shapeCast S1x204800 (pad S51200x4 ![0, 0] ![1200, 0] ![0, 0]
        (shapeCast S50000x4 (shapeCast S200000 x shapeCasts_S50000x4_S200000) shapeCasts_S200000_S50000x4) v
        pads_S50000x4_S51200x4_012000_000 h_S_) shapeCasts_S51200x4_S1x204800 (ix2 (0 : Fin 1) j)
      = x (ix2 (⟨j.val / 4, by omega⟩ : Fin 50000) (⟨j.val % 4, Nat.mod_lt _ (by norm_num)⟩ : Fin 4)) := by
  have hq : j.val / 4 < 50000 := by omega
  have hr : j.val % 4 < 4 := Nat.mod_lt _ (by norm_num)
  rw [shapeCast_shapeCast]
  refine (shapeCast_apply _ _ (ix2 (0 : Fin 1) j) (ix2 (⟨j.val / 4, by omega⟩ : Fin 51200) (⟨j.val % 4, hr⟩ : Fin 4)) ?_).trans ?_
  · rw [Shape.rowMajor_val_two, Shape.rowMajor_val_two]
    show j.val / 4 * 4 + j.val % 4 = 0 * 204800 + j.val
    omega
  exact pad_apply_of_inside _ _ _ x v _ _ _ (ix2 (⟨j.val / 4, hq⟩ : Fin 50000) (⟨j.val % 4, hr⟩ : Fin 4)) fun a => by
    match a with
    | ⟨0, _⟩ => show j.val / 4 = 0 + j.val / 4 * (0 + 1); omega
    | ⟨1, _⟩ => show j.val % 4 = 0 + j.val % 4 * (0 + 1); omega

/-- Row 0 of the delay buffer read as a [4, 50000] matrix. -/
theorem zRow0 (z : S4x250000.Idx → α) (b : Fin 4) (n : Fin 50000) :
    shapeCast S4x50000 (extractStridedSlice S4x1x50000 ![0, 0, 0] (shapeCast S4x5x50000 z shapeCasts_S4x250000_S4x5x50000) slices_S4x5x50000_S4x1x50000_0_0_0) shapeCasts_S4x1x50000_S4x50000 (ix2 b n)
      = z (ix2 b (⟨0 * 50000 + n.val, by have := n.isLt; omega⟩ : Fin 250000)) := by
  have hn := n.isLt
  have hb := b.isLt
  refine (shapeCast_apply _ _ (ix2 b n) (ix3 b (0 : Fin 1) n) ?_).trans ?_
  · rw [Shape.rowMajor_val_three, Shape.rowMajor_val_two]
    show (b.val * 1 + 0) * 50000 + n.val = b.val * 50000 + n.val
    omega
  refine (extractStridedSlice_apply _ _ _ (ix3 b (0 : Fin 1) n) (ix3 b (0 : Fin 5) n) ?_).trans ?_
  · intro a
    match a with
    | ⟨0, _⟩ => show b.val = 0 + b.val; omega
    | ⟨1, _⟩ => show 0 = 0 + 0; rfl
    | ⟨2, _⟩ => show n.val = 0 + n.val; omega
  refine shapeCast_apply _ _ _ _ ?_
  rw [Shape.rowMajor_val_two, Shape.rowMajor_val_three]
  show b.val * 250000 + (0 * 50000 + n.val) = (b.val * 5 + 0) * 50000 + n.val
  omega

/-- Row 1 of the delay buffer read as a [4, 50000] matrix. -/
theorem zRow1 (z : S4x250000.Idx → α) (b : Fin 4) (n : Fin 50000) :
    shapeCast S4x50000 (extractStridedSlice S4x1x50000 ![0, 1, 0] (shapeCast S4x5x50000 z shapeCasts_S4x250000_S4x5x50000) slices_S4x5x50000_S4x1x50000_0_1_0) shapeCasts_S4x1x50000_S4x50000 (ix2 b n)
      = z (ix2 b (⟨1 * 50000 + n.val, by have := n.isLt; omega⟩ : Fin 250000)) := by
  have hn := n.isLt
  have hb := b.isLt
  refine (shapeCast_apply _ _ (ix2 b n) (ix3 b (0 : Fin 1) n) ?_).trans ?_
  · rw [Shape.rowMajor_val_three, Shape.rowMajor_val_two]
    show (b.val * 1 + 0) * 50000 + n.val = b.val * 50000 + n.val
    omega
  refine (extractStridedSlice_apply _ _ _ (ix3 b (0 : Fin 1) n) (ix3 b (1 : Fin 5) n) ?_).trans ?_
  · intro a
    match a with
    | ⟨0, _⟩ => show b.val = 0 + b.val; omega
    | ⟨1, _⟩ => show 1 = 1 + 0; rfl
    | ⟨2, _⟩ => show n.val = 0 + n.val; omega
  refine shapeCast_apply _ _ _ _ ?_
  rw [Shape.rowMajor_val_two, Shape.rowMajor_val_three]
  show b.val * 250000 + (1 * 50000 + n.val) = (b.val * 5 + 1) * 50000 + n.val
  omega

/-- Row 2 of the delay buffer read as a [4, 50000] matrix. -/
theorem zRow2 (z : S4x250000.Idx → α) (b : Fin 4) (n : Fin 50000) :
    shapeCast S4x50000 (extractStridedSlice S4x1x50000 ![0, 2, 0] (shapeCast S4x5x50000 z shapeCasts_S4x250000_S4x5x50000) slices_S4x5x50000_S4x1x50000_0_2_0) shapeCasts_S4x1x50000_S4x50000 (ix2 b n)
      = z (ix2 b (⟨2 * 50000 + n.val, by have := n.isLt; omega⟩ : Fin 250000)) := by
  have hn := n.isLt
  have hb := b.isLt
  refine (shapeCast_apply _ _ (ix2 b n) (ix3 b (0 : Fin 1) n) ?_).trans ?_
  · rw [Shape.rowMajor_val_three, Shape.rowMajor_val_two]
    show (b.val * 1 + 0) * 50000 + n.val = b.val * 50000 + n.val
    omega
  refine (extractStridedSlice_apply _ _ _ (ix3 b (0 : Fin 1) n) (ix3 b (2 : Fin 5) n) ?_).trans ?_
  · intro a
    match a with
    | ⟨0, _⟩ => show b.val = 0 + b.val; omega
    | ⟨1, _⟩ => show 2 = 2 + 0; rfl
    | ⟨2, _⟩ => show n.val = 0 + n.val; omega
  refine shapeCast_apply _ _ _ _ ?_
  rw [Shape.rowMajor_val_two, Shape.rowMajor_val_three]
  show b.val * 250000 + (2 * 50000 + n.val) = (b.val * 5 + 2) * 50000 + n.val
  omega

/-- Row 3 of the delay buffer read as a [4, 50000] matrix. -/
theorem zRow3 (z : S4x250000.Idx → α) (b : Fin 4) (n : Fin 50000) :
    shapeCast S4x50000 (extractStridedSlice S4x1x50000 ![0, 3, 0] (shapeCast S4x5x50000 z shapeCasts_S4x250000_S4x5x50000) slices_S4x5x50000_S4x1x50000_0_3_0) shapeCasts_S4x1x50000_S4x50000 (ix2 b n)
      = z (ix2 b (⟨3 * 50000 + n.val, by have := n.isLt; omega⟩ : Fin 250000)) := by
  have hn := n.isLt
  have hb := b.isLt
  refine (shapeCast_apply _ _ (ix2 b n) (ix3 b (0 : Fin 1) n) ?_).trans ?_
  · rw [Shape.rowMajor_val_three, Shape.rowMajor_val_two]
    show (b.val * 1 + 0) * 50000 + n.val = b.val * 50000 + n.val
    omega
  refine (extractStridedSlice_apply _ _ _ (ix3 b (0 : Fin 1) n) (ix3 b (3 : Fin 5) n) ?_).trans ?_
  · intro a
    match a with
    | ⟨0, _⟩ => show b.val = 0 + b.val; omega
    | ⟨1, _⟩ => show 3 = 3 + 0; rfl
    | ⟨2, _⟩ => show n.val = 0 + n.val; omega
  refine shapeCast_apply _ _ _ _ ?_
  rw [Shape.rowMajor_val_two, Shape.rowMajor_val_three]
  show b.val * 250000 + (3 * 50000 + n.val) = (b.val * 5 + 3) * 50000 + n.val
  omega

/-- The padding sliced away again: the first 50000 columns of a [4, 51200] array. -/
theorem unpadCols (X : S4x51200.Idx → α) (b : Fin 4) (n : Fin 50000) :
    extractStridedSlice S4x50000 ![0, 0] X slices_S4x51200_S4x50000_0_0 (ix2 b n) = X (ix2 b (⟨n.val, by have := n.isLt; omega⟩ : Fin 51200)) :=
  extractStridedSlice_apply _ X _ (ix2 b n) (ix2 b (⟨n.val, by have := n.isLt; omega⟩ : Fin 51200)) fun a => by
    match a with
    | ⟨0, _⟩ => show b.val = 0 + b.val; omega
    | ⟨1, _⟩ => show n.val = 0 + n.val; omega

/-- The same for a wide array: [4, 204800] through [4, 51200, 4], the first 50000 neurons, back to [4, 200000]. -/
theorem unpadWide (X : S4x204800.Idx → α) (b : Fin 4) (j : Fin 200000) :
    shapeCast S4x200000 (extractStridedSlice S4x50000x4 ![0, 0, 0] (shapeCast S4x51200x4 X shapeCasts_S4x204800_S4x51200x4)
        slices_S4x51200x4_S4x50000x4_0_0_0) shapeCasts_S4x50000x4_S4x200000 (ix2 b j)
      = X (ix2 b (⟨j.val, by have := j.isLt; omega⟩ : Fin 204800)) := by
  have hb := b.isLt
  have hj := j.isLt
  have hq : j.val / 4 < 50000 := by omega
  have hr : j.val % 4 < 4 := Nat.mod_lt _ (by norm_num)
  refine (shapeCast_apply _ _ (ix2 b j) (ix3 b (⟨j.val / 4, hq⟩ : Fin 50000) (⟨j.val % 4, hr⟩ : Fin 4)) ?_).trans ?_
  · rw [Shape.rowMajor_val_three, Shape.rowMajor_val_two]
    show (b.val * 50000 + j.val / 4) * 4 + j.val % 4 = b.val * 200000 + j.val
    omega
  refine (extractStridedSlice_apply _ _ _ _ (ix3 b (⟨j.val / 4, by omega⟩ : Fin 51200) (⟨j.val % 4, hr⟩ : Fin 4)) ?_).trans ?_
  · intro a
    match a with
    | ⟨0, _⟩ => show b.val = 0 + b.val; omega
    | ⟨1, _⟩ => show j.val / 4 = 0 + j.val / 4; omega
    | ⟨2, _⟩ => show j.val % 4 = 0 + j.val % 4; omega
  refine shapeCast_apply _ _ _ _ ?_
  rw [Shape.rowMajor_val_two, Shape.rowMajor_val_three]
  show b.val * 204800 + j.val = (b.val * 51200 + j.val / 4) * 4 + j.val % 4
  omega

/-- A [4, 50000] matrix given a unit middle axis. -/
theorem midUnit (Y : S4x50000.Idx → α) (b : Fin 4) (n : Fin 50000) :
    broadcastInDim S4x1x50000 ![0, 2] bcast_S4x50000_S4x1x50000_0_2 Y (ix3 b (0 : Fin 1) n) = Y (ix2 b n) :=
  broadcastInDim_apply _ _ Y (ix3 b (0 : Fin 1) n) (ix2 b n) fun a => by
    match a with
    | ⟨0, _⟩ => show b.val = if (4 : ℕ) = 1 then 0 else b.val; simp
    | ⟨1, _⟩ => show n.val = if (50000 : ℕ) = 1 then 0 else n.val; simp

/-- The [4, 5, 50000] delay buffer flattened to [4, 250000]: column q·50000 + r is row q, neuron r. -/
theorem flatDelay (W : S4x5x50000.Idx → α) (b : Fin 4) (q : Fin 5) (r : Fin 50000) :
    shapeCast S4x250000 W shapeCasts_S4x5x50000_S4x250000 (ix2 b (⟨q.val * 50000 + r.val, by have := q.isLt; have := r.isLt; omega⟩ : Fin 250000))
      = W (ix3 b q r) := by
  refine shapeCast_apply _ _ _ _ ?_
  rw [Shape.rowMajor_val_three, Shape.rowMajor_val_two]
  show (b.val * 5 + q.val) * 50000 + r.val = b.val * 250000 + (q.val * 50000 + r.val)
  have := b.isLt; have := q.isLt; have := r.isLt
  omega

end Cert.KernelIdeal.Layout

end
-- ==== Proof.IdealRecIn.lean ====
/-
  The recurrent input. Both programs compute it by the same host operations: each of the five million synapses
  reads one delayed spike (a gather of the delay buffer's transpose through the synapse's column index, a negative
  index wrapped by the buffer's length), weighs it, and adds it into its target row (a scatter-add through the
  row index into zeros); the sum is transposed to batch-major form and the external input added. The two printed
  programs spell the operations' dimension records separately; they are the same records.
-/
import proofs.«135958_j89670327206508_1_alg».proof.Proof.Gen.KernelIdeal
import proofs.«135958_j89670327206508_1_alg».proof.Proof.Gen.ReferenceIdeal.Read

noncomputable section

namespace Cert.KernelIdeal.RecIn

open Idealize.ShloMosaic Idealize.ShloMosaic.TcCoe
open Cert.KernelIdeal Cert.KernelIdeal.Gen

/-- The recurrent input: each synapse's weight times the delayed spike it reads (a gather through the column index, a
    negative index wrapped), summed into its target row (a scatter-add through the row index), transposed to batch-major
    form, plus the external input. -/
def recIn (a0 : S4x200000.Idx → Elt Ideal .f32) (a1 : S4x250000.Idx → Elt Ideal .f32) (a8 : S5000000.Idx → Elt Ideal .f32)
    (a9 a10 : S5000000.Idx → Elt Ideal .i32) : S4x200000.Idx → Elt Ideal .f32 :=
  addf (transpose S4x200000 [1, 0]
    (Host.scatterAdd scatter_S200000x4_S5000000x1_S5000000x4_1_0_0_1
      (broadcastInDim S200000x4 ![] bcast_S_S200000x4 (constant (F := Ideal) S_ .f32 0x00000000#32))
      (broadcastInDim S5000000x1 ![0] bcast_S5000000_S5000000x1_0 a9)
      (mulf (broadcastInDim S5000000x4 ![0, 1] bcast_S5000000x1_S5000000x4_0_1 (broadcastInDim S5000000x1 ![0] bcast_S5000000_S5000000x1_0 a8))
        (Host.gather gather_S250000x4_S5000000x1_S5000000x4_1_0_n_n_0_1_14 (transpose S250000x4 [1, 0] a1 transposes_S4x250000_S250000x4_1_0)
          (broadcastInDim S5000000x1 ![0] bcast_S5000000_S5000000x1_0
            (select (cmpi .slt a10 (broadcastInDim S5000000 ![] bcast_S_S5000000 (constantI S_ 32 0#32)))
              (addi a10 (broadcastInDim S5000000 ![] bcast_S_S5000000 (constantI S_ 32 250000#32))) a10)))))
    transposes_S200000x4_S4x200000_1_0) a0

/-- It is the reference's term of the same arguments. -/
theorem recIn_eq (a0 : S4x200000.Idx → Elt Ideal .f32) (a1 : S4x250000.Idx → Elt Ideal .f32) (a8 : S5000000.Idx → Elt Ideal .f32)
    (a9 a10 : S5000000.Idx → Elt Ideal .i32) :
    recIn a0 a1 a8 a9 a10 = Cert.ReferenceIdeal.Read.val_main_v20 (F := Ideal) a0 a1 a8 a9 a10 := by
  unfold recIn
  simp only [Cert.ReferenceIdeal.Read.val_main_v20, Cert.ReferenceIdeal.Read.val_main_v19, Cert.ReferenceIdeal.Read.val_main_v18, Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_c, Cert.ReferenceIdeal.Read.val_main_c_0, Cert.ReferenceIdeal.Read.val_main_cst]
  rfl

end Cert.KernelIdeal.RecIn

end
-- ==== Proof.LibAfterAppend.lean ====
/-
  The contents after a list of host operations that is two lists joined: run the first, then the second.
-/
import Idealize.ShloMosaic.Lib.StableHlo.Run

namespace Idealize.ShloMosaic.StableHlo

variable {nD : Nat} {τ : Topo} {sig : RefSig} {Val : EltTy → Type}

/-- The valuation after `ops₁ ++ ops₂` is the one after `ops₂` from the one after `ops₁`. -/
theorem after_append (ops₁ ops₂ : List (HloOp τ sig Val)) (V : Valuation τ sig Val) :
    after (ops₁ ++ ops₂) V = after ops₂ (after ops₁ V) := by
  induction ops₁ generalizing V with
  | nil => rfl
  | cons op ops ih => simp only [List.cons_append, after_cons, ih]

end Idealize.ShloMosaic.StableHlo
-- ==== Proof.IdealInputsA.lean ====
/-
  What the region finds in each input array, at an entry of the unpadded range. Before the region the host pads
  every array on the neuron axis (and lays per-neuron vectors as one row); inside the range the padded array is
  the array it was made from. The arrays the host computes first — the rows of the delay buffer, the input
  current (the synapse array summed over its four receptor columns), the two exponential decay vectors, the two
  amplitude columns, the recurrent input (the gathered and scatter-added synaptic sum plus the external input)
  — are the same terms the reference computes, and are named by the reference's.
-/
import proofs.«135958_j89670327206508_1_alg».proof.Proof.IdealWhole
import proofs.«135958_j89670327206508_1_alg».proof.Proof.IdealLayout
import proofs.«135958_j89670327206508_1_alg».proof.Proof.Gen.ReferenceIdeal.Read
import proofs.«135958_j89670327206508_1_alg».proof.Proof.IdealRecIn
import proofs.«135958_j89670327206508_1_alg».proof.Proof.LibAfterAppend
import Idealize.ShloMosaic.Lib.StableHlo.Run

set_option maxRecDepth 16384

noncomputable section

namespace Cert.KernelIdeal.Inputs

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Around

variable (m : (ℓ : Loc nD τ sig) → Buf (Elt Ideal) ℓ)

set_option maxHeartbeats 1000000 in
/-- Input window 0's array as the host made it. -/
theorem arr_0 (c : Dev nD) : V m c main_v41 = pad S4x51200 ![0, 0] ![0, 1200] ![0, 0] (shapeCast S4x50000 (extractStridedSlice S4x1x50000 ![0, 0, 0] (shapeCast S4x5x50000 (m ((c.tc : Thread nD τ).loc main_arg1)) shapeCasts_S4x250000_S4x5x50000) slices_S4x5x50000_S4x1x50000_0_0_0) shapeCasts_S4x1x50000_S4x50000) (sitofp (F := Ideal) .f32 (constantI S_ 32 0#32)) pads_S4x50000_S4x51200_000_012000 h_S_ := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_0 (c : Dev nD) (b : Fin 4) (n : Fin 51200) (hn : n.val < 50000) :
    V m c (Pipeline.arrRef spec0 0) (ix2 b n) = (m ((c.tc : Thread nD τ).loc main_arg1)) (ix2 b (⟨0 * 50000 + n.val, by omega⟩ : Fin 250000)) := by
  show V m c main_v41 (ix2 b n) = _
  rw [arr_0]
  exact (Layout.padCols _ _ b n hn).trans (Layout.zRow0 _ b (⟨n.val, hn⟩ : Fin 50000))

set_option maxHeartbeats 1000000 in
/-- Input window 1's array as the host made it. -/
theorem arr_1 (c : Dev nD) : V m c main_v44 = pad S4x51200 ![0, 0] ![0, 1200] ![0, 0] (shapeCast S4x50000 (extractStridedSlice S4x1x50000 ![0, 1, 0] (shapeCast S4x5x50000 (m ((c.tc : Thread nD τ).loc main_arg1)) shapeCasts_S4x250000_S4x5x50000) slices_S4x5x50000_S4x1x50000_0_1_0) shapeCasts_S4x1x50000_S4x50000) (sitofp (F := Ideal) .f32 (constantI S_ 32 0#32)) pads_S4x50000_S4x51200_000_012000 h_S_ := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_1 (c : Dev nD) (b : Fin 4) (n : Fin 51200) (hn : n.val < 50000) :
    V m c (Pipeline.arrRef spec0 1) (ix2 b n) = (m ((c.tc : Thread nD τ).loc main_arg1)) (ix2 b (⟨1 * 50000 + n.val, by omega⟩ : Fin 250000)) := by
  show V m c main_v44 (ix2 b n) = _
  rw [arr_1]
  exact (Layout.padCols _ _ b n hn).trans (Layout.zRow1 _ b (⟨n.val, hn⟩ : Fin 50000))

set_option maxHeartbeats 1000000 in
/-- Input window 2's array as the host made it. -/
theorem arr_2 (c : Dev nD) : V m c main_v47 = pad S4x51200 ![0, 0] ![0, 1200] ![0, 0] (shapeCast S4x50000 (extractStridedSlice S4x1x50000 ![0, 2, 0] (shapeCast S4x5x50000 (m ((c.tc : Thread nD τ).loc main_arg1)) shapeCasts_S4x250000_S4x5x50000) slices_S4x5x50000_S4x1x50000_0_2_0) shapeCasts_S4x1x50000_S4x50000) (sitofp (F := Ideal) .f32 (constantI S_ 32 0#32)) pads_S4x50000_S4x51200_000_012000 h_S_ := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_2 (c : Dev nD) (b : Fin 4) (n : Fin 51200) (hn : n.val < 50000) :
    V m c (Pipeline.arrRef spec0 2) (ix2 b n) = (m ((c.tc : Thread nD τ).loc main_arg1)) (ix2 b (⟨2 * 50000 + n.val, by omega⟩ : Fin 250000)) := by
  show V m c main_v47 (ix2 b n) = _
  rw [arr_2]
  exact (Layout.padCols _ _ b n hn).trans (Layout.zRow2 _ b (⟨n.val, hn⟩ : Fin 50000))

set_option maxHeartbeats 1000000 in
/-- Input window 3's array as the host made it. -/
theorem arr_3 (c : Dev nD) : V m c main_v50 = pad S4x51200 ![0, 0] ![0, 1200] ![0, 0] (shapeCast S4x50000 (extractStridedSlice S4x1x50000 ![0, 3, 0] (shapeCast S4x5x50000 (m ((c.tc : Thread nD τ).loc main_arg1)) shapeCasts_S4x250000_S4x5x50000) slices_S4x5x50000_S4x1x50000_0_3_0) shapeCasts_S4x1x50000_S4x50000) (sitofp (F := Ideal) .f32 (constantI S_ 32 0#32)) pads_S4x50000_S4x51200_000_012000 h_S_ := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_3 (c : Dev nD) (b : Fin 4) (n : Fin 51200) (hn : n.val < 50000) :
    V m c (Pipeline.arrRef spec0 3) (ix2 b n) = (m ((c.tc : Thread nD τ).loc main_arg1)) (ix2 b (⟨3 * 50000 + n.val, by omega⟩ : Fin 250000)) := by
  show V m c main_v50 (ix2 b n) = _
  rw [arr_3]
  exact (Layout.padCols _ _ b n hn).trans (Layout.zRow3 _ b (⟨n.val, hn⟩ : Fin 50000))

set_option maxHeartbeats 1000000 in
/-- Input window 9's array as the host made it. -/
theorem arr_9 (c : Dev nD) : V m c main_v68 = pad S4x51200 ![0, 0] ![0, 1200] ![0, 0] (m ((c.tc : Thread nD τ).loc main_arg2)) (sitofp (F := Ideal) .f32 (constantI S_ 32 0#32)) pads_S4x50000_S4x51200_000_012000 h_S_ := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_9 (c : Dev nD) (b : Fin 4) (n : Fin 51200) (hn : n.val < 50000) :
    V m c (Pipeline.arrRef spec0 9) (ix2 b n) = (m ((c.tc : Thread nD τ).loc main_arg2)) (ix2 b (⟨n.val, hn⟩ : Fin 50000)) := by
  show V m c main_v68 (ix2 b n) = _
  rw [arr_9]
  exact (Layout.padCols _ _ b n hn)

set_option maxHeartbeats 1000000 in
/-- Input window 10's array as the host made it. -/
theorem arr_10 (c : Dev nD) : V m c main_v69 = pad S4x51200 ![0, 0] ![0, 1200] ![0, 0] (m ((c.tc : Thread nD τ).loc main_arg3)) (sitofp (F := Ideal) .f32 (constantI S_ 32 0#32)) pads_S4x50000_S4x51200_000_012000 h_S_ := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_10 (c : Dev nD) (b : Fin 4) (n : Fin 51200) (hn : n.val < 50000) :
    V m c (Pipeline.arrRef spec0 10) (ix2 b n) = (m ((c.tc : Thread nD τ).loc main_arg3)) (ix2 b (⟨n.val, hn⟩ : Fin 50000)) := by
  show V m c main_v69 (ix2 b n) = _
  rw [arr_10]
  exact (Layout.padCols _ _ b n hn)

set_option maxHeartbeats 1000000 in
/-- Input window 11's array as the host made it. -/
theorem arr_11 (c : Dev nD) : V m c main_v70 = pad S4x51200 ![0, 0] ![0, 1200] ![0, 0] (m ((c.tc : Thread nD τ).loc main_arg4)) (sitofp (F := Ideal) .f32 (constantI S_ 32 0#32)) pads_S4x50000_S4x51200_000_012000 h_S_ := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_11 (c : Dev nD) (b : Fin 4) (n : Fin 51200) (hn : n.val < 50000) :
    V m c (Pipeline.arrRef spec0 11) (ix2 b n) = (m ((c.tc : Thread nD τ).loc main_arg4)) (ix2 b (⟨n.val, hn⟩ : Fin 50000)) := by
  show V m c main_v70 (ix2 b n) = _
  rw [arr_11]
  exact (Layout.padCols _ _ b n hn)

set_option maxHeartbeats 1000000 in
/-- Input window 12's array as the host made it. -/
theorem arr_12 (c : Dev nD) : V m c main_v71 = pad S4x51200 ![0, 0] ![0, 1200] ![0, 0] (m ((c.tc : Thread nD τ).loc main_arg5)) (sitofp (F := Ideal) .f32 (constantI S_ 32 0#32)) pads_S4x50000_S4x51200_000_012000 h_S_ := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_12 (c : Dev nD) (b : Fin 4) (n : Fin 51200) (hn : n.val < 50000) :
    V m c (Pipeline.arrRef spec0 12) (ix2 b n) = (m ((c.tc : Thread nD τ).loc main_arg5)) (ix2 b (⟨n.val, hn⟩ : Fin 50000)) := by
  show V m c main_v71 (ix2 b n) = _
  rw [arr_12]
  exact (Layout.padCols _ _ b n hn)

set_option maxHeartbeats 1000000 in
/-- Input window 13's array as the host made it. -/
theorem arr_13 (c : Dev nD) : V m c main_v72 = pad S4x51200 ![0, 0] ![0, 1200] ![0, 0] (Cert.ReferenceIdeal.Read.val_main_v83 (F := Ideal) (m ((c.tc : Thread nD τ).loc main_arg7))) (sitofp (F := Ideal) .f32 (constantI S_ 32 0#32)) pads_S4x50000_S4x51200_000_012000 h_S_ := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_13 (c : Dev nD) (b : Fin 4) (n : Fin 51200) (hn : n.val < 50000) :
    V m c (Pipeline.arrRef spec0 13) (ix2 b n) = (Cert.ReferenceIdeal.Read.val_main_v83 (F := Ideal) (m ((c.tc : Thread nD τ).loc main_arg7))) (ix2 b (⟨n.val, hn⟩ : Fin 50000)) := by
  show V m c main_v72 (ix2 b n) = _
  rw [arr_13]
  exact (Layout.padCols _ _ b n hn)

end Cert.KernelIdeal.Inputs

end
-- ==== Proof.IdealInputsB.lean ====
/-
  What the region finds in each input array, at an entry of the unpadded range. Before the region the host pads
  every array on the neuron axis (and lays per-neuron vectors as one row); inside the range the padded array is
  the array it was made from. The arrays the host computes first — the rows of the delay buffer, the input
  current (the synapse array summed over its four receptor columns), the two exponential decay vectors, the two
  amplitude columns, the recurrent input (the gathered and scatter-added synaptic sum plus the external input)
  — are the same terms the reference computes, and are named by the reference's.
-/
import proofs.«135958_j89670327206508_1_alg».proof.Proof.IdealWhole
import proofs.«135958_j89670327206508_1_alg».proof.Proof.IdealLayout
import proofs.«135958_j89670327206508_1_alg».proof.Proof.Gen.ReferenceIdeal.Read
import proofs.«135958_j89670327206508_1_alg».proof.Proof.IdealRecIn
import proofs.«135958_j89670327206508_1_alg».proof.Proof.LibAfterAppend
import Idealize.ShloMosaic.Lib.StableHlo.Run

set_option maxRecDepth 16384

noncomputable section

namespace Cert.KernelIdeal.Inputs

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Around

variable (m : (ℓ : Loc nD τ sig) → Buf (Elt Ideal) ℓ)

set_option maxHeartbeats 1000000 in
/-- Input window 14's array as the host made it. -/
theorem arr_14 (c : Dev nD) : V m c main_v74 = shapeCast S1x51200 (pad S51200 ![0] ![1200] ![0] (m ((c.tc : Thread nD τ).loc main_arg13)) (constant (F := Ideal) S_ .f32 0x00000000#32) pads_S50000_S51200_012000 h_S_) shapeCasts_S51200_S1x51200 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_14 (c : Dev nD) (n : Fin 51200) (hn : n.val < 50000) :
    V m c (Pipeline.arrRef spec0 14) (ix2 (0 : Fin 1) n) = (m ((c.tc : Thread nD τ).loc main_arg13)) (ix1 (⟨n.val, hn⟩ : Fin 50000)) := by
  show V m c main_v74 (ix2 (0 : Fin 1) n) = _
  rw [arr_14]
  exact Layout.padRow _ _ n hn

set_option maxHeartbeats 1000000 in
/-- Input window 15's array as the host made it. -/
theorem arr_15 (c : Dev nD) : V m c main_v76 = shapeCast S1x51200 (pad S51200 ![0] ![1200] ![0] (Cert.ReferenceIdeal.Read.val_main_v60 (F := Ideal) (m ((c.tc : Thread nD τ).loc main_arg14))) (constant (F := Ideal) S_ .f32 0x00000000#32) pads_S50000_S51200_012000 h_S_) shapeCasts_S51200_S1x51200 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_15 (c : Dev nD) (n : Fin 51200) (hn : n.val < 50000) :
    V m c (Pipeline.arrRef spec0 15) (ix2 (0 : Fin 1) n) = (Cert.ReferenceIdeal.Read.val_main_v60 (F := Ideal) (m ((c.tc : Thread nD τ).loc main_arg14))) (ix1 (⟨n.val, hn⟩ : Fin 50000)) := by
  show V m c main_v76 (ix2 (0 : Fin 1) n) = _
  rw [arr_15]
  exact Layout.padRow _ _ n hn

set_option maxHeartbeats 1000000 in
/-- Input window 16's array as the host made it. -/
theorem arr_16 (c : Dev nD) : V m c main_v78 = shapeCast S1x51200 (pad S51200 ![0] ![1200] ![0] (Cert.ReferenceIdeal.Read.val_main_v74 (F := Ideal) (m ((c.tc : Thread nD τ).loc main_arg14))) (constant (F := Ideal) S_ .f32 0x00000000#32) pads_S50000_S51200_012000 h_S_) shapeCasts_S51200_S1x51200 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_16 (c : Dev nD) (n : Fin 51200) (hn : n.val < 50000) :
    V m c (Pipeline.arrRef spec0 16) (ix2 (0 : Fin 1) n) = (Cert.ReferenceIdeal.Read.val_main_v74 (F := Ideal) (m ((c.tc : Thread nD τ).loc main_arg14))) (ix1 (⟨n.val, hn⟩ : Fin 50000)) := by
  show V m c main_v78 (ix2 (0 : Fin 1) n) = _
  rw [arr_16]
  exact Layout.padRow _ _ n hn

set_option maxHeartbeats 1000000 in
/-- Input window 17's array as the host made it. -/
theorem arr_17 (c : Dev nD) : V m c main_v80 = shapeCast S1x51200 (pad S51200 ![0] ![1200] ![0] (Cert.ReferenceIdeal.Read.val_main_v55 (F := Ideal) (m ((c.tc : Thread nD τ).loc main_arg15))) (constant (F := Ideal) S_ .f32 0x00000000#32) pads_S50000_S51200_012000 h_S_) shapeCasts_S51200_S1x51200 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_17 (c : Dev nD) (n : Fin 51200) (hn : n.val < 50000) :
    V m c (Pipeline.arrRef spec0 17) (ix2 (0 : Fin 1) n) = (Cert.ReferenceIdeal.Read.val_main_v55 (F := Ideal) (m ((c.tc : Thread nD τ).loc main_arg15))) (ix1 (⟨n.val, hn⟩ : Fin 50000)) := by
  show V m c main_v80 (ix2 (0 : Fin 1) n) = _
  rw [arr_17]
  exact Layout.padRow _ _ n hn

set_option maxHeartbeats 1000000 in
/-- Input window 18's array as the host made it. -/
theorem arr_18 (c : Dev nD) : V m c main_v82 = shapeCast S1x51200 (pad S51200 ![0] ![1200] ![0] (Cert.ReferenceIdeal.Read.val_main_v69 (F := Ideal) (m ((c.tc : Thread nD τ).loc main_arg15))) (constant (F := Ideal) S_ .f32 0x00000000#32) pads_S50000_S51200_012000 h_S_) shapeCasts_S51200_S1x51200 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_18 (c : Dev nD) (n : Fin 51200) (hn : n.val < 50000) :
    V m c (Pipeline.arrRef spec0 18) (ix2 (0 : Fin 1) n) = (Cert.ReferenceIdeal.Read.val_main_v69 (F := Ideal) (m ((c.tc : Thread nD τ).loc main_arg15))) (ix1 (⟨n.val, hn⟩ : Fin 50000)) := by
  show V m c main_v82 (ix2 (0 : Fin 1) n) = _
  rw [arr_18]
  exact Layout.padRow _ _ n hn

set_option maxHeartbeats 1000000 in
/-- Input window 19's array as the host made it. -/
theorem arr_19 (c : Dev nD) : V m c main_v84 = shapeCast S1x51200 (pad S51200 ![0] ![1200] ![0] (m ((c.tc : Thread nD τ).loc main_arg16)) (constant (F := Ideal) S_ .f32 0x3F800000#32) pads_S50000_S51200_012000 h_S_) shapeCasts_S51200_S1x51200 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_19 (c : Dev nD) (n : Fin 51200) (hn : n.val < 50000) :
    V m c (Pipeline.arrRef spec0 19) (ix2 (0 : Fin 1) n) = (m ((c.tc : Thread nD τ).loc main_arg16)) (ix1 (⟨n.val, hn⟩ : Fin 50000)) := by
  show V m c main_v84 (ix2 (0 : Fin 1) n) = _
  rw [arr_19]
  exact Layout.padRow _ _ n hn

set_option maxHeartbeats 1000000 in
/-- Input window 20's array as the host made it. -/
theorem arr_20 (c : Dev nD) : V m c main_v86 = shapeCast S1x51200 (pad S51200 ![0] ![1200] ![0] (m ((c.tc : Thread nD τ).loc main_arg17)) (constant (F := Ideal) S_ .f32 0x00000000#32) pads_S50000_S51200_012000 h_S_) shapeCasts_S51200_S1x51200 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_20 (c : Dev nD) (n : Fin 51200) (hn : n.val < 50000) :
    V m c (Pipeline.arrRef spec0 20) (ix2 (0 : Fin 1) n) = (m ((c.tc : Thread nD τ).loc main_arg17)) (ix1 (⟨n.val, hn⟩ : Fin 50000)) := by
  show V m c main_v86 (ix2 (0 : Fin 1) n) = _
  rw [arr_20]
  exact Layout.padRow _ _ n hn

set_option maxHeartbeats 1000000 in
/-- Input window 21's array as the host made it. -/
theorem arr_21 (c : Dev nD) : V m c main_v88 = shapeCast S1x51200 (pad S51200 ![0] ![1200] ![0] (m ((c.tc : Thread nD τ).loc main_arg18)) (constant (F := Ideal) S_ .f32 0x00000000#32) pads_S50000_S51200_012000 h_S_) shapeCasts_S51200_S1x51200 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_21 (c : Dev nD) (n : Fin 51200) (hn : n.val < 50000) :
    V m c (Pipeline.arrRef spec0 21) (ix2 (0 : Fin 1) n) = (m ((c.tc : Thread nD τ).loc main_arg18)) (ix1 (⟨n.val, hn⟩ : Fin 50000)) := by
  show V m c main_v88 (ix2 (0 : Fin 1) n) = _
  rw [arr_21]
  exact Layout.padRow _ _ n hn

set_option maxHeartbeats 1000000 in
/-- Input window 22's array as the host made it. -/
theorem arr_22 (c : Dev nD) : V m c main_v90 = shapeCast S1x51200 (pad S51200 ![0] ![1200] ![0] (m ((c.tc : Thread nD τ).loc main_arg19)) (constant (F := Ideal) S_ .f32 0x00000000#32) pads_S50000_S51200_012000 h_S_) shapeCasts_S51200_S1x51200 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_22 (c : Dev nD) (n : Fin 51200) (hn : n.val < 50000) :
    V m c (Pipeline.arrRef spec0 22) (ix2 (0 : Fin 1) n) = (m ((c.tc : Thread nD τ).loc main_arg19)) (ix1 (⟨n.val, hn⟩ : Fin 50000)) := by
  show V m c main_v90 (ix2 (0 : Fin 1) n) = _
  rw [arr_22]
  exact Layout.padRow _ _ n hn

set_option maxHeartbeats 1000000 in
/-- Input window 23's array as the host made it. -/
theorem arr_23 (c : Dev nD) : V m c main_v92 = shapeCast S1x51200 (pad S51200 ![0] ![1200] ![0] (m ((c.tc : Thread nD τ).loc main_arg20)) (constant (F := Ideal) S_ .f32 0x00000000#32) pads_S50000_S51200_012000 h_S_) shapeCasts_S51200_S1x51200 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_23 (c : Dev nD) (n : Fin 51200) (hn : n.val < 50000) :
    V m c (Pipeline.arrRef spec0 23) (ix2 (0 : Fin 1) n) = (m ((c.tc : Thread nD τ).loc main_arg20)) (ix1 (⟨n.val, hn⟩ : Fin 50000)) := by
  show V m c main_v92 (ix2 (0 : Fin 1) n) = _
  rw [arr_23]
  exact Layout.padRow _ _ n hn

set_option maxHeartbeats 1000000 in
/-- Input window 24's array as the host made it. -/
theorem arr_24 (c : Dev nD) : V m c main_v94 = shapeCast S1x51200 (pad S51200 ![0] ![1200] ![0] (m ((c.tc : Thread nD τ).loc main_arg21)) (constant (F := Ideal) S_ .f32 0x00000000#32) pads_S50000_S51200_012000 h_S_) shapeCasts_S51200_S1x51200 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_24 (c : Dev nD) (n : Fin 51200) (hn : n.val < 50000) :
    V m c (Pipeline.arrRef spec0 24) (ix2 (0 : Fin 1) n) = (m ((c.tc : Thread nD τ).loc main_arg21)) (ix1 (⟨n.val, hn⟩ : Fin 50000)) := by
  show V m c main_v94 (ix2 (0 : Fin 1) n) = _
  rw [arr_24]
  exact Layout.padRow _ _ n hn

set_option maxHeartbeats 1000000 in
/-- Input window 25's array as the host made it. -/
theorem arr_25 (c : Dev nD) : V m c main_v96 = shapeCast S1x51200 (pad S51200 ![0] ![1200] ![0] (m ((c.tc : Thread nD τ).loc main_arg22)) (constant (F := Ideal) S_ .f32 0x3F800000#32) pads_S50000_S51200_012000 h_S_) shapeCasts_S51200_S1x51200 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_25 (c : Dev nD) (n : Fin 51200) (hn : n.val < 50000) :
    V m c (Pipeline.arrRef spec0 25) (ix2 (0 : Fin 1) n) = (m ((c.tc : Thread nD τ).loc main_arg22)) (ix1 (⟨n.val, hn⟩ : Fin 50000)) := by
  show V m c main_v96 (ix2 (0 : Fin 1) n) = _
  rw [arr_25]
  exact Layout.padRow _ _ n hn

set_option maxHeartbeats 1000000 in
/-- Input window 26's array as the host made it. -/
theorem arr_26 (c : Dev nD) : V m c main_v98 = shapeCast S1x51200 (pad S51200 ![0] ![1200] ![0] (m ((c.tc : Thread nD τ).loc main_arg23)) (constant (F := Ideal) S_ .f32 0x00000000#32) pads_S50000_S51200_012000 h_S_) shapeCasts_S51200_S1x51200 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_26 (c : Dev nD) (n : Fin 51200) (hn : n.val < 50000) :
    V m c (Pipeline.arrRef spec0 26) (ix2 (0 : Fin 1) n) = (m ((c.tc : Thread nD τ).loc main_arg23)) (ix1 (⟨n.val, hn⟩ : Fin 50000)) := by
  show V m c main_v98 (ix2 (0 : Fin 1) n) = _
  rw [arr_26]
  exact Layout.padRow _ _ n hn

end Cert.KernelIdeal.Inputs

end
-- ==== Proof.IdealInputsC.lean ====
/-
  What the region finds in each input array, at an entry of the unpadded range. Before the region the host pads
  every array on the neuron axis (and lays per-neuron vectors as one row); inside the range the padded array is
  the array it was made from. The arrays the host computes first — the rows of the delay buffer, the input
  current (the synapse array summed over its four receptor columns), the two exponential decay vectors, the two
  amplitude columns, the recurrent input (the gathered and scatter-added synaptic sum plus the external input)
  — are the same terms the reference computes, and are named by the reference's.
-/
import proofs.«135958_j89670327206508_1_alg».proof.Proof.IdealWhole
import proofs.«135958_j89670327206508_1_alg».proof.Proof.IdealLayout
import proofs.«135958_j89670327206508_1_alg».proof.Proof.Gen.ReferenceIdeal.Read
import proofs.«135958_j89670327206508_1_alg».proof.Proof.IdealRecIn
import proofs.«135958_j89670327206508_1_alg».proof.Proof.LibAfterAppend
import Idealize.ShloMosaic.Lib.StableHlo.Run

set_option maxRecDepth 16384

noncomputable section

namespace Cert.KernelIdeal.Inputs

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Around

variable (m : (ℓ : Loc nD τ sig) → Buf (Elt Ideal) ℓ)

set_option maxHeartbeats 1000000 in
/-- The first stretch of host operations, from any contents of the buffers, leaves the recurrent input in its buffer. -/
theorem rec_generic (F : Valuation τ sig (Elt Ideal)) :
    StableHlo.after (hostOps0 (F := Ideal)) F (Proc.devRef .tc main_v15)
      = Cert.KernelIdeal.RecIn.recIn (F (Proc.devRef .tc main_arg0)) (F (Proc.devRef .tc main_arg1)) (F (Proc.devRef .tc main_arg8)) (F (Proc.devRef .tc main_arg9)) (F (Proc.devRef .tc main_arg10)) := by
  unfold Cert.KernelIdeal.RecIn.recIn
  simp only [hostOps0]
  after_results_simp <;> rfl

/-- The stretches of host operations after the first. -/
abbrev restOps : List (List (HloOp τ sig (Elt Ideal))) := [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54]

set_option maxHeartbeats 1000000 in
/-- They pad the recurrent input, whatever the buffers held. -/
theorem rest_v53 (F : Valuation τ sig (Elt Ideal)) :
    StableHlo.after (List.flatten restOps) F (Proc.devRef .tc main_v53)
      = shapeCast S4x204800 (pad S4x51200x4 ![0, 0, 0] ![0, 1200, 0] ![0, 0, 0] (shapeCast S4x50000x4 (F (Proc.devRef .tc main_v15)) shapeCasts_S4x200000_S4x50000x4) (sitofp (F := Ideal) .f32 (constantI S_ 32 0#32)) pads_S4x50000x4_S4x51200x4_000_012000_000 h_S_) shapeCasts_S4x51200x4_S4x204800 := by
  simp only [restOps, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem arr_4 (c : Dev nD) : V m c main_v53 = shapeCast S4x204800 (pad S4x51200x4 ![0, 0, 0] ![0, 1200, 0] ![0, 0, 0] (shapeCast S4x50000x4 (Cert.KernelIdeal.RecIn.recIn (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10))) shapeCasts_S4x200000_S4x50000x4) (sitofp (F := Ideal) .f32 (constantI S_ 32 0#32)) pads_S4x50000x4_S4x51200x4_000_012000_000 h_S_) shapeCasts_S4x51200x4_S4x204800 := by
  have h : V m c main_v53 = StableHlo.after (List.flatten restOps) (StableHlo.after (hostOps0 (F := Ideal)) (fun b => m (c, b))) (Proc.devRef .tc main_v53) := by
    show StableHlo.after (List.flatten (preOps (F := Ideal))) (fun b => m (c, b)) (Proc.devRef .tc main_v53) = _
    rw [show List.flatten (preOps (F := Ideal)) = hostOps0 ++ List.flatten restOps from rfl, StableHlo.after_append]
  rw [h, rest_v53, rec_generic]

theorem win_4 (c : Dev nD) (b : Fin 4) (j : Fin 204800) (hj : j.val < 200000) :
    V m c (Pipeline.arrRef spec0 4) (ix2 b j) = (Cert.KernelIdeal.RecIn.recIn (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10))) (ix2 b (⟨j.val, hj⟩ : Fin 200000)) := by
  show V m c main_v53 (ix2 b j) = _
  rw [arr_4]
  exact Layout.padWide _ _ b j hj

set_option maxHeartbeats 1000000 in
/-- Input window 5's array as the host made it. -/
theorem arr_5 (c : Dev nD) : V m c main_v56 = shapeCast S4x204800 (pad S4x51200x4 ![0, 0, 0] ![0, 1200, 0] ![0, 0, 0] (shapeCast S4x50000x4 (m ((c.tc : Thread nD τ).loc main_arg6)) shapeCasts_S4x200000_S4x50000x4) (sitofp (F := Ideal) .f32 (constantI S_ 32 0#32)) pads_S4x50000x4_S4x51200x4_000_012000_000 h_S_) shapeCasts_S4x51200x4_S4x204800 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_5 (c : Dev nD) (b : Fin 4) (j : Fin 204800) (hj : j.val < 200000) :
    V m c (Pipeline.arrRef spec0 5) (ix2 b j) = (m ((c.tc : Thread nD τ).loc main_arg6)) (ix2 b (⟨j.val, hj⟩ : Fin 200000)) := by
  show V m c main_v56 (ix2 b j) = _
  rw [arr_5]
  exact Layout.padWide _ _ b j hj

set_option maxHeartbeats 1000000 in
/-- Input window 6's array as the host made it. -/
theorem arr_6 (c : Dev nD) : V m c main_v59 = shapeCast S4x204800 (pad S4x51200x4 ![0, 0, 0] ![0, 1200, 0] ![0, 0, 0] (shapeCast S4x50000x4 (m ((c.tc : Thread nD τ).loc main_arg7)) shapeCasts_S4x200000_S4x50000x4) (sitofp (F := Ideal) .f32 (constantI S_ 32 0#32)) pads_S4x50000x4_S4x51200x4_000_012000_000 h_S_) shapeCasts_S4x51200x4_S4x204800 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_6 (c : Dev nD) (b : Fin 4) (j : Fin 204800) (hj : j.val < 200000) :
    V m c (Pipeline.arrRef spec0 6) (ix2 b j) = (m ((c.tc : Thread nD τ).loc main_arg7)) (ix2 b (⟨j.val, hj⟩ : Fin 200000)) := by
  show V m c main_v59 (ix2 b j) = _
  rw [arr_6]
  exact Layout.padWide _ _ b j hj

set_option maxHeartbeats 1000000 in
/-- Input window 7's array as the host made it. -/
theorem arr_7 (c : Dev nD) : V m c main_v63 = shapeCast S1x204800 (pad S51200x4 ![0, 0] ![1200, 0] ![0, 0] (shapeCast S50000x4 (shapeCast S200000 (m ((c.tc : Thread nD τ).loc main_arg11)) shapeCasts_S50000x4_S200000) shapeCasts_S200000_S50000x4) (sitofp (F := Ideal) .f32 (constantI S_ 32 0#32)) pads_S50000x4_S51200x4_012000_000 h_S_) shapeCasts_S51200x4_S1x204800 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_7 (c : Dev nD) (j : Fin 204800) (hj : j.val < 200000) :
    V m c (Pipeline.arrRef spec0 7) (ix2 (0 : Fin 1) j)
      = (m ((c.tc : Thread nD τ).loc main_arg11)) (ix2 (⟨j.val / 4, by omega⟩ : Fin 50000) (⟨j.val % 4, Nat.mod_lt _ (by norm_num)⟩ : Fin 4)) := by
  show V m c main_v63 (ix2 (0 : Fin 1) j) = _
  rw [arr_7]
  exact Layout.padWideRow _ _ j hj

set_option maxHeartbeats 1000000 in
/-- Input window 8's array as the host made it. -/
theorem arr_8 (c : Dev nD) : V m c main_v67 = shapeCast S1x204800 (pad S51200x4 ![0, 0] ![1200, 0] ![0, 0] (shapeCast S50000x4 (shapeCast S200000 (m ((c.tc : Thread nD τ).loc main_arg12)) shapeCasts_S50000x4_S200000) shapeCasts_S200000_S50000x4) (sitofp (F := Ideal) .f32 (constantI S_ 32 0#32)) pads_S50000x4_S51200x4_012000_000 h_S_) shapeCasts_S51200x4_S1x204800 := by
  dsimp only [V, V0]
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, List.flatten_cons, List.flatten_nil, List.append_nil, List.cons_append, List.nil_append]
  after_results_simp <;> rfl

theorem win_8 (c : Dev nD) (j : Fin 204800) (hj : j.val < 200000) :
    V m c (Pipeline.arrRef spec0 8) (ix2 (0 : Fin 1) j)
      = (m ((c.tc : Thread nD τ).loc main_arg12)) (ix2 (⟨j.val / 4, by omega⟩ : Fin 50000) (⟨j.val % 4, Nat.mod_lt _ (by norm_num)⟩ : Fin 4)) := by
  show V m c main_v67 (ix2 (0 : Fin 1) j) = _
  rw [arr_8]
  exact Layout.padWideRow _ _ j hj

end Cert.KernelIdeal.Inputs

end
-- ==== Proof.IdealTail.lean ====
/-
  After the region the padding is sliced off each output array and the pieces are laid side by side along the
  columns: spikes, output voltage, refractory counter, the two adaptation currents (50000 columns each), the two
  synapse arrays (200000 each), and the new delay buffer (250000: five rows of 50000, the new spikes first, then
  the four most recent old rows). Read here: which piece, and which entry of it, a column of the result is.
-/
import proofs.«135958_j89670327206508_1_alg».proof.Proof.Gen.KernelIdeal
import proofs.«135958_j89670327206508_1_alg».proof.Proof.IdealLayout
import Idealize.ShloMosaic.Lib.ValueIdx
import Idealize.ShloMosaic.Lib.Pipeline.Value

set_option maxRecDepth 100000

noncomputable section

namespace Cert.KernelIdeal.Tail

open Idealize.ShloMosaic Idealize.ShloMosaic.ValueIdx
open Cert.KernelIdeal Cert.KernelIdeal.Gen Cert.KernelIdeal.Layout

variable {α : Type}

/-- The new delay buffer from its five rows, still in [4, 5, 50000] form. -/
def delayOf (o7 o8 o9 o10 o11 : S4x51200.Idx → α) : S4x5x50000.Idx → α :=
  concatenate S4x5x50000 1 [⟨S4x1x50000, broadcastInDim S4x1x50000 ![0, 2] bcast_S4x50000_S4x1x50000_0_2 (extractStridedSlice S4x50000 ![0, 0] o7 slices_S4x51200_S4x50000_0_0)⟩, ⟨S4x1x50000, broadcastInDim S4x1x50000 ![0, 2] bcast_S4x50000_S4x1x50000_0_2 (extractStridedSlice S4x50000 ![0, 0] o8 slices_S4x51200_S4x50000_0_0)⟩, ⟨S4x1x50000, broadcastInDim S4x1x50000 ![0, 2] bcast_S4x50000_S4x1x50000_0_2 (extractStridedSlice S4x50000 ![0, 0] o9 slices_S4x51200_S4x50000_0_0)⟩,
    ⟨S4x1x50000, broadcastInDim S4x1x50000 ![0, 2] bcast_S4x50000_S4x1x50000_0_2 (extractStridedSlice S4x50000 ![0, 0] o10 slices_S4x51200_S4x50000_0_0)⟩, ⟨S4x1x50000, broadcastInDim S4x1x50000 ![0, 2] bcast_S4x50000_S4x1x50000_0_2 (extractStridedSlice S4x50000 ![0, 0] o11 slices_S4x51200_S4x50000_0_0)⟩]
    concatenates_S4x1x50000_S4x1x50000_S4x1x50000_S4x1x50000_S4x1x50000_S4x5x50000_d1

/-- The result of the program from the region's twelve output arrays. -/
def tailOf (o0 o1 o2 o3 o4 : S4x51200.Idx → α) (o5 o6 : S4x204800.Idx → α) (o7 o8 o9 o10 o11 : S4x51200.Idx → α) : S4x900000.Idx → α :=
  concatenate S4x900000 1 [⟨S4x50000, extractStridedSlice S4x50000 ![0, 0] o0 slices_S4x51200_S4x50000_0_0⟩, ⟨S4x50000, extractStridedSlice S4x50000 ![0, 0] o1 slices_S4x51200_S4x50000_0_0⟩, ⟨S4x50000, extractStridedSlice S4x50000 ![0, 0] o2 slices_S4x51200_S4x50000_0_0⟩,
    ⟨S4x50000, extractStridedSlice S4x50000 ![0, 0] o3 slices_S4x51200_S4x50000_0_0⟩, ⟨S4x50000, extractStridedSlice S4x50000 ![0, 0] o4 slices_S4x51200_S4x50000_0_0⟩,
    ⟨S4x200000, shapeCast S4x200000 (extractStridedSlice S4x50000x4 ![0, 0, 0] (shapeCast S4x51200x4 o5 shapeCasts_S4x204800_S4x51200x4) slices_S4x51200x4_S4x50000x4_0_0_0) shapeCasts_S4x50000x4_S4x200000⟩,
    ⟨S4x200000, shapeCast S4x200000 (extractStridedSlice S4x50000x4 ![0, 0, 0] (shapeCast S4x51200x4 o6 shapeCasts_S4x204800_S4x51200x4) slices_S4x51200x4_S4x50000x4_0_0_0) shapeCasts_S4x50000x4_S4x200000⟩,
    ⟨S4x250000, shapeCast S4x250000 (delayOf o7 o8 o9 o10 o11) shapeCasts_S4x5x50000_S4x250000⟩]
    concatenates_S4x50000_S4x50000_S4x50000_S4x50000_S4x50000_S4x200000_S4x200000_S4x250000_S4x900000_d1

variable (o0 o1 o2 o3 o4 : S4x51200.Idx → α) (o5 o6 : S4x204800.Idx → α) (o7 o8 o9 o10 o11 : S4x51200.Idx → α)

/-- Columns 0 … 49999 are output array 0. -/
theorem tail_0 (b : Fin 4) (n : Fin 50000) :
    tailOf o0 o1 o2 o3 o4 o5 o6 o7 o8 o9 o10 o11 (ix2 b (⟨0 + n.val, by have := n.isLt; omega⟩ : Fin 900000)) = o0 (ix2 b (⟨n.val, by have := n.isLt; omega⟩ : Fin 51200)) := by
  unfold tailOf
  refine (concatenate_apply_piece (t := S4x900000) (1 : Fin 2) _ _ _ 0 ?_ S4x50000 (extractStridedSlice S4x50000 ![0, 0] o0 slices_S4x51200_S4x50000_0_0) ?_ rfl 0 ?_ (ix2 b n) ?_ ?_).trans ?_
  · show (0 : ℕ) < 8; omega
  · rfl
  · first | simp | rfl
  · intro a ha
    match a with
    | ⟨0, _⟩ => rfl
    | ⟨1, _⟩ => exact absurd rfl ha
  · rfl
  exact unpadCols _ b n

/-- Columns 50000 … 99999 are output array 1. -/
theorem tail_1 (b : Fin 4) (n : Fin 50000) :
    tailOf o0 o1 o2 o3 o4 o5 o6 o7 o8 o9 o10 o11 (ix2 b (⟨50000 + n.val, by have := n.isLt; omega⟩ : Fin 900000)) = o1 (ix2 b (⟨n.val, by have := n.isLt; omega⟩ : Fin 51200)) := by
  unfold tailOf
  refine (concatenate_apply_piece (t := S4x900000) (1 : Fin 2) _ _ _ 1 ?_ S4x50000 (extractStridedSlice S4x50000 ![0, 0] o1 slices_S4x51200_S4x50000_0_0) ?_ rfl 50000 ?_ (ix2 b n) ?_ ?_).trans ?_
  · show (1 : ℕ) < 8; omega
  · rfl
  · first | simp | rfl
  · intro a ha
    match a with
    | ⟨0, _⟩ => rfl
    | ⟨1, _⟩ => exact absurd rfl ha
  · rfl
  exact unpadCols _ b n

/-- Columns 100000 … 149999 are output array 2. -/
theorem tail_2 (b : Fin 4) (n : Fin 50000) :
    tailOf o0 o1 o2 o3 o4 o5 o6 o7 o8 o9 o10 o11 (ix2 b (⟨100000 + n.val, by have := n.isLt; omega⟩ : Fin 900000)) = o2 (ix2 b (⟨n.val, by have := n.isLt; omega⟩ : Fin 51200)) := by
  unfold tailOf
  refine (concatenate_apply_piece (t := S4x900000) (1 : Fin 2) _ _ _ 2 ?_ S4x50000 (extractStridedSlice S4x50000 ![0, 0] o2 slices_S4x51200_S4x50000_0_0) ?_ rfl 100000 ?_ (ix2 b n) ?_ ?_).trans ?_
  · show (2 : ℕ) < 8; omega
  · rfl
  · first | simp | rfl
  · intro a ha
    match a with
    | ⟨0, _⟩ => rfl
    | ⟨1, _⟩ => exact absurd rfl ha
  · rfl
  exact unpadCols _ b n

/-- Columns 150000 … 199999 are output array 3. -/
theorem tail_3 (b : Fin 4) (n : Fin 50000) :
    tailOf o0 o1 o2 o3 o4 o5 o6 o7 o8 o9 o10 o11 (ix2 b (⟨150000 + n.val, by have := n.isLt; omega⟩ : Fin 900000)) = o3 (ix2 b (⟨n.val, by have := n.isLt; omega⟩ : Fin 51200)) := by
  unfold tailOf
  refine (concatenate_apply_piece (t := S4x900000) (1 : Fin 2) _ _ _ 3 ?_ S4x50000 (extractStridedSlice S4x50000 ![0, 0] o3 slices_S4x51200_S4x50000_0_0) ?_ rfl 150000 ?_ (ix2 b n) ?_ ?_).trans ?_
  · show (3 : ℕ) < 8; omega
  · rfl
  · first | simp | rfl
  · intro a ha
    match a with
    | ⟨0, _⟩ => rfl
    | ⟨1, _⟩ => exact absurd rfl ha
  · rfl
  exact unpadCols _ b n

/-- Columns 200000 … 249999 are output array 4. -/
theorem tail_4 (b : Fin 4) (n : Fin 50000) :
    tailOf o0 o1 o2 o3 o4 o5 o6 o7 o8 o9 o10 o11 (ix2 b (⟨200000 + n.val, by have := n.isLt; omega⟩ : Fin 900000)) = o4 (ix2 b (⟨n.val, by have := n.isLt; omega⟩ : Fin 51200)) := by
  unfold tailOf
  refine (concatenate_apply_piece (t := S4x900000) (1 : Fin 2) _ _ _ 4 ?_ S4x50000 (extractStridedSlice S4x50000 ![0, 0] o4 slices_S4x51200_S4x50000_0_0) ?_ rfl 200000 ?_ (ix2 b n) ?_ ?_).trans ?_
  · show (4 : ℕ) < 8; omega
  · rfl
  · first | simp | rfl
  · intro a ha
    match a with
    | ⟨0, _⟩ => rfl
    | ⟨1, _⟩ => exact absurd rfl ha
  · rfl
  exact unpadCols _ b n

/-- Columns 250000 … 449999 are output array 5. -/
theorem tail_5 (b : Fin 4) (j : Fin 200000) :
    tailOf o0 o1 o2 o3 o4 o5 o6 o7 o8 o9 o10 o11 (ix2 b (⟨250000 + j.val, by have := j.isLt; omega⟩ : Fin 900000)) = o5 (ix2 b (⟨j.val, by have := j.isLt; omega⟩ : Fin 204800)) := by
  unfold tailOf
  refine (concatenate_apply_piece (t := S4x900000) (1 : Fin 2) _ _ _ 5 ?_ S4x200000 (shapeCast S4x200000 (extractStridedSlice S4x50000x4 ![0, 0, 0] (shapeCast S4x51200x4 o5 shapeCasts_S4x204800_S4x51200x4) slices_S4x51200x4_S4x50000x4_0_0_0) shapeCasts_S4x50000x4_S4x200000) ?_ rfl 250000 ?_ (ix2 b j) ?_ ?_).trans ?_
  · show (5 : ℕ) < 8; omega
  · rfl
  · first | simp | rfl
  · intro a ha
    match a with
    | ⟨0, _⟩ => rfl
    | ⟨1, _⟩ => exact absurd rfl ha
  · rfl
  exact unpadWide _ b j

/-- Columns 450000 … 649999 are output array 6. -/
theorem tail_6 (b : Fin 4) (j : Fin 200000) :
    tailOf o0 o1 o2 o3 o4 o5 o6 o7 o8 o9 o10 o11 (ix2 b (⟨450000 + j.val, by have := j.isLt; omega⟩ : Fin 900000)) = o6 (ix2 b (⟨j.val, by have := j.isLt; omega⟩ : Fin 204800)) := by
  unfold tailOf
  refine (concatenate_apply_piece (t := S4x900000) (1 : Fin 2) _ _ _ 6 ?_ S4x200000 (shapeCast S4x200000 (extractStridedSlice S4x50000x4 ![0, 0, 0] (shapeCast S4x51200x4 o6 shapeCasts_S4x204800_S4x51200x4) slices_S4x51200x4_S4x50000x4_0_0_0) shapeCasts_S4x50000x4_S4x200000) ?_ rfl 450000 ?_ (ix2 b j) ?_ ?_).trans ?_
  · show (6 : ℕ) < 8; omega
  · rfl
  · first | simp | rfl
  · intro a ha
    match a with
    | ⟨0, _⟩ => rfl
    | ⟨1, _⟩ => exact absurd rfl ha
  · rfl
  exact unpadWide _ b j

/-- Row 0 of the new delay buffer is output array 7. -/
theorem delay_0 (b : Fin 4) (r : Fin 50000) :
    delayOf o7 o8 o9 o10 o11 (ix3 b (0 : Fin 5) r) = o7 (ix2 b (⟨r.val, by have := r.isLt; omega⟩ : Fin 51200)) := by
  unfold delayOf
  refine (concatenate_apply_piece (t := S4x5x50000) (1 : Fin 3) _ _ _ 0 ?_ S4x1x50000 (broadcastInDim S4x1x50000 ![0, 2] bcast_S4x50000_S4x1x50000_0_2 (extractStridedSlice S4x50000 ![0, 0] o7 slices_S4x51200_S4x50000_0_0)) ?_ rfl 0 ?_ (ix3 b (0 : Fin 1) r) ?_ ?_).trans ?_
  · show (0 : ℕ) < 5; omega
  · rfl
  · first | simp | rfl
  · intro a ha
    match a with
    | ⟨0, _⟩ => rfl
    | ⟨1, _⟩ => exact absurd rfl ha
    | ⟨2, _⟩ => rfl
  · rfl
  exact (midUnit _ b r).trans (unpadCols _ b r)

/-- Columns 650000 … 699999 are output array 7. -/
theorem tail_7 (b : Fin 4) (r : Fin 50000) :
    tailOf o0 o1 o2 o3 o4 o5 o6 o7 o8 o9 o10 o11 (ix2 b (⟨650000 + r.val, by have := r.isLt; omega⟩ : Fin 900000)) = o7 (ix2 b (⟨r.val, by have := r.isLt; omega⟩ : Fin 51200)) := by
  unfold tailOf
  refine (concatenate_apply_piece (t := S4x900000) (1 : Fin 2) _ _ _ 7 ?_ S4x250000 (shapeCast S4x250000 (delayOf o7 o8 o9 o10 o11) shapeCasts_S4x5x50000_S4x250000) ?_ rfl 650000 ?_
    (ix2 b (⟨(0 : Fin 5).val * 50000 + r.val, by have := r.isLt; show 0 * 50000 + r.val < 250000; omega⟩ : Fin 250000)) ?_ ?_).trans ?_
  · show (7 : ℕ) < 8; omega
  · rfl
  · first | simp | rfl
  · intro a ha
    match a with
    | ⟨0, _⟩ => rfl
    | ⟨1, _⟩ => exact absurd rfl ha
  · show 650000 + (0 * 50000 + r.val) = 650000 + r.val; omega
  exact (flatDelay _ b (0 : Fin 5) r).trans (delay_0 o7 o8 o9 o10 o11 b r)

/-- Row 1 of the new delay buffer is output array 8. -/
theorem delay_1 (b : Fin 4) (r : Fin 50000) :
    delayOf o7 o8 o9 o10 o11 (ix3 b (1 : Fin 5) r) = o8 (ix2 b (⟨r.val, by have := r.isLt; omega⟩ : Fin 51200)) := by
  unfold delayOf
  refine (concatenate_apply_piece (t := S4x5x50000) (1 : Fin 3) _ _ _ 1 ?_ S4x1x50000 (broadcastInDim S4x1x50000 ![0, 2] bcast_S4x50000_S4x1x50000_0_2 (extractStridedSlice S4x50000 ![0, 0] o8 slices_S4x51200_S4x50000_0_0)) ?_ rfl 1 ?_ (ix3 b (0 : Fin 1) r) ?_ ?_).trans ?_
  · show (1 : ℕ) < 5; omega
  · rfl
  · first | simp | rfl
  · intro a ha
    match a with
    | ⟨0, _⟩ => rfl
    | ⟨1, _⟩ => exact absurd rfl ha
    | ⟨2, _⟩ => rfl
  · rfl
  exact (midUnit _ b r).trans (unpadCols _ b r)

/-- Columns 700000 … 749999 are output array 8. -/
theorem tail_8 (b : Fin 4) (r : Fin 50000) :
    tailOf o0 o1 o2 o3 o4 o5 o6 o7 o8 o9 o10 o11 (ix2 b (⟨700000 + r.val, by have := r.isLt; omega⟩ : Fin 900000)) = o8 (ix2 b (⟨r.val, by have := r.isLt; omega⟩ : Fin 51200)) := by
  unfold tailOf
  refine (concatenate_apply_piece (t := S4x900000) (1 : Fin 2) _ _ _ 7 ?_ S4x250000 (shapeCast S4x250000 (delayOf o7 o8 o9 o10 o11) shapeCasts_S4x5x50000_S4x250000) ?_ rfl 650000 ?_
    (ix2 b (⟨(1 : Fin 5).val * 50000 + r.val, by have := r.isLt; show 1 * 50000 + r.val < 250000; omega⟩ : Fin 250000)) ?_ ?_).trans ?_
  · show (7 : ℕ) < 8; omega
  · rfl
  · first | simp | rfl
  · intro a ha
    match a with
    | ⟨0, _⟩ => rfl
    | ⟨1, _⟩ => exact absurd rfl ha
  · show 650000 + (1 * 50000 + r.val) = 700000 + r.val; omega
  exact (flatDelay _ b (1 : Fin 5) r).trans (delay_1 o7 o8 o9 o10 o11 b r)

/-- Row 2 of the new delay buffer is output array 9. -/
theorem delay_2 (b : Fin 4) (r : Fin 50000) :
    delayOf o7 o8 o9 o10 o11 (ix3 b (2 : Fin 5) r) = o9 (ix2 b (⟨r.val, by have := r.isLt; omega⟩ : Fin 51200)) := by
  unfold delayOf
  refine (concatenate_apply_piece (t := S4x5x50000) (1 : Fin 3) _ _ _ 2 ?_ S4x1x50000 (broadcastInDim S4x1x50000 ![0, 2] bcast_S4x50000_S4x1x50000_0_2 (extractStridedSlice S4x50000 ![0, 0] o9 slices_S4x51200_S4x50000_0_0)) ?_ rfl 2 ?_ (ix3 b (0 : Fin 1) r) ?_ ?_).trans ?_
  · show (2 : ℕ) < 5; omega
  · rfl
  · first | simp | rfl
  · intro a ha
    match a with
    | ⟨0, _⟩ => rfl
    | ⟨1, _⟩ => exact absurd rfl ha
    | ⟨2, _⟩ => rfl
  · rfl
  exact (midUnit _ b r).trans (unpadCols _ b r)

/-- Columns 750000 … 799999 are output array 9. -/
theorem tail_9 (b : Fin 4) (r : Fin 50000) :
    tailOf o0 o1 o2 o3 o4 o5 o6 o7 o8 o9 o10 o11 (ix2 b (⟨750000 + r.val, by have := r.isLt; omega⟩ : Fin 900000)) = o9 (ix2 b (⟨r.val, by have := r.isLt; omega⟩ : Fin 51200)) := by
  unfold tailOf
  refine (concatenate_apply_piece (t := S4x900000) (1 : Fin 2) _ _ _ 7 ?_ S4x250000 (shapeCast S4x250000 (delayOf o7 o8 o9 o10 o11) shapeCasts_S4x5x50000_S4x250000) ?_ rfl 650000 ?_
    (ix2 b (⟨(2 : Fin 5).val * 50000 + r.val, by have := r.isLt; show 2 * 50000 + r.val < 250000; omega⟩ : Fin 250000)) ?_ ?_).trans ?_
  · show (7 : ℕ) < 8; omega
  · rfl
  · first | simp | rfl
  · intro a ha
    match a with
    | ⟨0, _⟩ => rfl
    | ⟨1, _⟩ => exact absurd rfl ha
  · show 650000 + (2 * 50000 + r.val) = 750000 + r.val; omega
  exact (flatDelay _ b (2 : Fin 5) r).trans (delay_2 o7 o8 o9 o10 o11 b r)

/-- Row 3 of the new delay buffer is output array 10. -/
theorem delay_3 (b : Fin 4) (r : Fin 50000) :
    delayOf o7 o8 o9 o10 o11 (ix3 b (3 : Fin 5) r) = o10 (ix2 b (⟨r.val, by have := r.isLt; omega⟩ : Fin 51200)) := by
  unfold delayOf
  refine (concatenate_apply_piece (t := S4x5x50000) (1 : Fin 3) _ _ _ 3 ?_ S4x1x50000 (broadcastInDim S4x1x50000 ![0, 2] bcast_S4x50000_S4x1x50000_0_2 (extractStridedSlice S4x50000 ![0, 0] o10 slices_S4x51200_S4x50000_0_0)) ?_ rfl 3 ?_ (ix3 b (0 : Fin 1) r) ?_ ?_).trans ?_
  · show (3 : ℕ) < 5; omega
  · rfl
  · first | simp | rfl
  · intro a ha
    match a with
    | ⟨0, _⟩ => rfl
    | ⟨1, _⟩ => exact absurd rfl ha
    | ⟨2, _⟩ => rfl
  · rfl
  exact (midUnit _ b r).trans (unpadCols _ b r)

/-- Columns 800000 … 849999 are output array 10. -/
theorem tail_10 (b : Fin 4) (r : Fin 50000) :
    tailOf o0 o1 o2 o3 o4 o5 o6 o7 o8 o9 o10 o11 (ix2 b (⟨800000 + r.val, by have := r.isLt; omega⟩ : Fin 900000)) = o10 (ix2 b (⟨r.val, by have := r.isLt; omega⟩ : Fin 51200)) := by
  unfold tailOf
  refine (concatenate_apply_piece (t := S4x900000) (1 : Fin 2) _ _ _ 7 ?_ S4x250000 (shapeCast S4x250000 (delayOf o7 o8 o9 o10 o11) shapeCasts_S4x5x50000_S4x250000) ?_ rfl 650000 ?_
    (ix2 b (⟨(3 : Fin 5).val * 50000 + r.val, by have := r.isLt; show 3 * 50000 + r.val < 250000; omega⟩ : Fin 250000)) ?_ ?_).trans ?_
  · show (7 : ℕ) < 8; omega
  · rfl
  · first | simp | rfl
  · intro a ha
    match a with
    | ⟨0, _⟩ => rfl
    | ⟨1, _⟩ => exact absurd rfl ha
  · show 650000 + (3 * 50000 + r.val) = 800000 + r.val; omega
  exact (flatDelay _ b (3 : Fin 5) r).trans (delay_3 o7 o8 o9 o10 o11 b r)

/-- Row 4 of the new delay buffer is output array 11. -/
theorem delay_4 (b : Fin 4) (r : Fin 50000) :
    delayOf o7 o8 o9 o10 o11 (ix3 b (4 : Fin 5) r) = o11 (ix2 b (⟨r.val, by have := r.isLt; omega⟩ : Fin 51200)) := by
  unfold delayOf
  refine (concatenate_apply_piece (t := S4x5x50000) (1 : Fin 3) _ _ _ 4 ?_ S4x1x50000 (broadcastInDim S4x1x50000 ![0, 2] bcast_S4x50000_S4x1x50000_0_2 (extractStridedSlice S4x50000 ![0, 0] o11 slices_S4x51200_S4x50000_0_0)) ?_ rfl 4 ?_ (ix3 b (0 : Fin 1) r) ?_ ?_).trans ?_
  · show (4 : ℕ) < 5; omega
  · rfl
  · first | simp | rfl
  · intro a ha
    match a with
    | ⟨0, _⟩ => rfl
    | ⟨1, _⟩ => exact absurd rfl ha
    | ⟨2, _⟩ => rfl
  · rfl
  exact (midUnit _ b r).trans (unpadCols _ b r)

/-- Columns 850000 … 899999 are output array 11. -/
theorem tail_11 (b : Fin 4) (r : Fin 50000) :
    tailOf o0 o1 o2 o3 o4 o5 o6 o7 o8 o9 o10 o11 (ix2 b (⟨850000 + r.val, by have := r.isLt; omega⟩ : Fin 900000)) = o11 (ix2 b (⟨r.val, by have := r.isLt; omega⟩ : Fin 51200)) := by
  unfold tailOf
  refine (concatenate_apply_piece (t := S4x900000) (1 : Fin 2) _ _ _ 7 ?_ S4x250000 (shapeCast S4x250000 (delayOf o7 o8 o9 o10 o11) shapeCasts_S4x5x50000_S4x250000) ?_ rfl 650000 ?_
    (ix2 b (⟨(4 : Fin 5).val * 50000 + r.val, by have := r.isLt; show 4 * 50000 + r.val < 250000; omega⟩ : Fin 250000)) ?_ ?_).trans ?_
  · show (7 : ℕ) < 8; omega
  · rfl
  · first | simp | rfl
  · intro a ha
    match a with
    | ⟨0, _⟩ => rfl
    | ⟨1, _⟩ => exact absurd rfl ha
  · show 650000 + (4 * 50000 + r.val) = 850000 + r.val; omega
  exact (flatDelay _ b (4 : Fin 5) r).trans (delay_4 o7 o8 o9 o10 o11 b r)

end Cert.KernelIdeal.Tail

end
-- ==== Proof.IdealResult.lean ====
/-
  The kernel program's result, entry by entry. After the region the host reads the twelve output arrays (each now
  its function of the input arrays), slices the padding off and joins the pieces. An entry of the result in the
  spike, voltage, refractory, adaptation or synapse range is that quantity's formula over the launch arguments at
  its batch row and neuron; an entry in the delay range is the new spike for the first row and the old delay
  buffer's rows 0…3 for the others.
-/
import proofs.«135958_j89670327206508_1_alg».proof.Proof.IdealArrays
import proofs.«135958_j89670327206508_1_alg».proof.Proof.IdealInputsA
import proofs.«135958_j89670327206508_1_alg».proof.Proof.IdealInputsB
import proofs.«135958_j89670327206508_1_alg».proof.Proof.IdealInputsC
import proofs.«135958_j89670327206508_1_alg».proof.Proof.IdealTail
import Idealize.ShloMosaic.Lib.StableHlo.Run

set_option maxRecDepth 16384

noncomputable section

namespace Cert.KernelIdeal.Result

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelIdeal.Around Cert.KernelIdeal.Whole Cert.KernelIdeal.Neuron Cert.KernelIdeal.Arrays

variable (m : (ℓ : Loc nD τ sig) → Buf (Elt Ideal) ℓ)

/-- The program's result on core c, as the run's post states it. -/
def kOut (c : Dev nD) : Buf (Elt Ideal) ((c.tc : Thread nD τ).loc main_v123) :=
  Pipeline.afterTail₀ cfgs (dats m) 0 (V0 m) [hostOps1] c main_v123

set_option maxHeartbeats 4000000 in
/-- The host operations after the region, from any contents of the buffers: the result is the joined pieces of the
    twelve output arrays. -/
theorem tail_generic (F : Valuation τ sig (Elt Ideal)) :
    StableHlo.after (hostOps1 (F := Ideal)) F (Proc.devRef .tc main_v123)
      = Tail.tailOf (F (Proc.devRef .tc main_v99_0)) (F (Proc.devRef .tc main_v99_1)) (F (Proc.devRef .tc main_v99_2)) (F (Proc.devRef .tc main_v99_3)) (F (Proc.devRef .tc main_v99_4)) (F (Proc.devRef .tc main_v99_5)) (F (Proc.devRef .tc main_v99_6)) (F (Proc.devRef .tc main_v99_7)) (F (Proc.devRef .tc main_v99_8)) (F (Proc.devRef .tc main_v99_9)) (F (Proc.devRef .tc main_v99_10)) (F (Proc.devRef .tc main_v99_11)) := by
  simp only [hostOps1]
  after_results_simp <;> rfl

/-- The tail's term respects equality of the twelve arrays. -/
theorem tailOf_congr {o0 o1 o2 o3 o4 p0 p1 p2 p3 p4 : S4x51200.Idx → Elt Ideal .f32} {o5 o6 p5 p6 : S4x204800.Idx → Elt Ideal .f32}
    {o7 o8 o9 o10 o11 p7 p8 p9 p10 p11 : S4x51200.Idx → Elt Ideal .f32}
    (h0 : o0 = p0) (h1 : o1 = p1) (h2 : o2 = p2) (h3 : o3 = p3) (h4 : o4 = p4) (h5 : o5 = p5) (h6 : o6 = p6) (h7 : o7 = p7) (h8 : o8 = p8) (h9 : o9 = p9) (h10 : o10 = p10) (h11 : o11 = p11) :
    Tail.tailOf o0 o1 o2 o3 o4 o5 o6 o7 o8 o9 o10 o11 = Tail.tailOf p0 p1 p2 p3 p4 p5 p6 p7 p8 p9 p10 p11 := by
  subst h0 h1 h2 h3 h4 h5 h6 h7 h8 h9 h10 h11
  rfl

set_option maxHeartbeats 2000000 in
/-- The result from the final output arrays' functions. -/
theorem kOut_eq (c : Dev nD) : kOut m c = Tail.tailOf (gSpike (V m c (Pipeline.arrRef spec0 0)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 19)) (V m c (Pipeline.arrRef spec0 20)) (V m c (Pipeline.arrRef spec0 21)) (V m c (Pipeline.arrRef spec0 22)) (V m c (Pipeline.arrRef spec0 23)) (V m c (Pipeline.arrRef spec0 24)))
      (gOut (V m c (Pipeline.arrRef spec0 0)) (V m c (Pipeline.arrRef spec0 9)) (V m c (Pipeline.arrRef spec0 11)) (V m c (Pipeline.arrRef spec0 12)) (V m c (Pipeline.arrRef spec0 13)) (V m c (Pipeline.arrRef spec0 19)) (V m c (Pipeline.arrRef spec0 20)) (V m c (Pipeline.arrRef spec0 21)) (V m c (Pipeline.arrRef spec0 22)) (V m c (Pipeline.arrRef spec0 23)) (V m c (Pipeline.arrRef spec0 24)) (V m c (Pipeline.arrRef spec0 25)) (V m c (Pipeline.arrRef spec0 26)))
      (gRefrArr (V m c (Pipeline.arrRef spec0 0)) (V m c (Pipeline.arrRef spec0 10)) (V m c (Pipeline.arrRef spec0 14)))
      (gAdapt (V m c (Pipeline.arrRef spec0 0)) (V m c (Pipeline.arrRef spec0 11)) (V m c (Pipeline.arrRef spec0 15)) (V m c (Pipeline.arrRef spec0 17)))
      (gAdapt (V m c (Pipeline.arrRef spec0 0)) (V m c (Pipeline.arrRef spec0 12)) (V m c (Pipeline.arrRef spec0 16)) (V m c (Pipeline.arrRef spec0 18)))
      (gRise (V m c (Pipeline.arrRef spec0 4)) (V m c (Pipeline.arrRef spec0 5)) (V m c (Pipeline.arrRef spec0 7)) (V m c (Pipeline.arrRef spec0 8)))
      (gSyn (V m c (Pipeline.arrRef spec0 5)) (V m c (Pipeline.arrRef spec0 6)) (V m c (Pipeline.arrRef spec0 7)))
      (gSpike (V m c (Pipeline.arrRef spec0 0)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 19)) (V m c (Pipeline.arrRef spec0 20)) (V m c (Pipeline.arrRef spec0 21)) (V m c (Pipeline.arrRef spec0 22)) (V m c (Pipeline.arrRef spec0 23)) (V m c (Pipeline.arrRef spec0 24)))
      ((V m c (Pipeline.arrRef spec0 0)))
      ((V m c (Pipeline.arrRef spec0 1)))
      ((V m c (Pipeline.arrRef spec0 2)))
      ((V m c (Pipeline.arrRef spec0 3))) := by
  have hw : ∀ w, Pipeline.withArrays (cfgs 0).spec c (V0 m c) (fun w => (dats m 0 c).arrAt w (cfgs 0).N) (Proc.devRef .tc (Pipeline.arrRef (cfgs 0).spec w))
      = (dats m 0 c).arrAt w (cfgs 0).N := Pipeline.withArrays_arr (cfgs 0).spec launch0.win.arr_inj c _ _
  have h27 : Pipeline.withArrays (cfgs 0).spec c (V0 m c) (fun w => (dats m 0 c).arrAt w (cfgs 0).N) (Proc.devRef .tc main_v99_0) = gSpike (V m c (Pipeline.arrRef spec0 0)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 19)) (V m c (Pipeline.arrRef spec0 20)) (V m c (Pipeline.arrRef spec0 21)) (V m c (Pipeline.arrRef spec0 22)) (V m c (Pipeline.arrRef spec0 23)) (V m c (Pipeline.arrRef spec0 24)) :=
    (hw 27).trans (final_27 m c)
  have h28 : Pipeline.withArrays (cfgs 0).spec c (V0 m c) (fun w => (dats m 0 c).arrAt w (cfgs 0).N) (Proc.devRef .tc main_v99_1) = gOut (V m c (Pipeline.arrRef spec0 0)) (V m c (Pipeline.arrRef spec0 9)) (V m c (Pipeline.arrRef spec0 11)) (V m c (Pipeline.arrRef spec0 12)) (V m c (Pipeline.arrRef spec0 13)) (V m c (Pipeline.arrRef spec0 19)) (V m c (Pipeline.arrRef spec0 20)) (V m c (Pipeline.arrRef spec0 21)) (V m c (Pipeline.arrRef spec0 22)) (V m c (Pipeline.arrRef spec0 23)) (V m c (Pipeline.arrRef spec0 24)) (V m c (Pipeline.arrRef spec0 25)) (V m c (Pipeline.arrRef spec0 26)) :=
    (hw 28).trans (final_28 m c)
  have h29 : Pipeline.withArrays (cfgs 0).spec c (V0 m c) (fun w => (dats m 0 c).arrAt w (cfgs 0).N) (Proc.devRef .tc main_v99_2) = gRefrArr (V m c (Pipeline.arrRef spec0 0)) (V m c (Pipeline.arrRef spec0 10)) (V m c (Pipeline.arrRef spec0 14)) :=
    (hw 29).trans (final_29 m c)
  have h30 : Pipeline.withArrays (cfgs 0).spec c (V0 m c) (fun w => (dats m 0 c).arrAt w (cfgs 0).N) (Proc.devRef .tc main_v99_3) = gAdapt (V m c (Pipeline.arrRef spec0 0)) (V m c (Pipeline.arrRef spec0 11)) (V m c (Pipeline.arrRef spec0 15)) (V m c (Pipeline.arrRef spec0 17)) :=
    (hw 30).trans (final_30 m c)
  have h31 : Pipeline.withArrays (cfgs 0).spec c (V0 m c) (fun w => (dats m 0 c).arrAt w (cfgs 0).N) (Proc.devRef .tc main_v99_4) = gAdapt (V m c (Pipeline.arrRef spec0 0)) (V m c (Pipeline.arrRef spec0 12)) (V m c (Pipeline.arrRef spec0 16)) (V m c (Pipeline.arrRef spec0 18)) :=
    (hw 31).trans (final_31 m c)
  have h32 : Pipeline.withArrays (cfgs 0).spec c (V0 m c) (fun w => (dats m 0 c).arrAt w (cfgs 0).N) (Proc.devRef .tc main_v99_5) = gRise (V m c (Pipeline.arrRef spec0 4)) (V m c (Pipeline.arrRef spec0 5)) (V m c (Pipeline.arrRef spec0 7)) (V m c (Pipeline.arrRef spec0 8)) :=
    (hw 32).trans (final_32 m c)
  have h33 : Pipeline.withArrays (cfgs 0).spec c (V0 m c) (fun w => (dats m 0 c).arrAt w (cfgs 0).N) (Proc.devRef .tc main_v99_6) = gSyn (V m c (Pipeline.arrRef spec0 5)) (V m c (Pipeline.arrRef spec0 6)) (V m c (Pipeline.arrRef spec0 7)) :=
    (hw 33).trans (final_33 m c)
  have h34 : Pipeline.withArrays (cfgs 0).spec c (V0 m c) (fun w => (dats m 0 c).arrAt w (cfgs 0).N) (Proc.devRef .tc main_v99_7) = gSpike (V m c (Pipeline.arrRef spec0 0)) (V m c (Pipeline.arrRef spec0 9)) (V m c (Pipeline.arrRef spec0 10)) (V m c (Pipeline.arrRef spec0 11)) (V m c (Pipeline.arrRef spec0 12)) (V m c (Pipeline.arrRef spec0 13)) (V m c (Pipeline.arrRef spec0 14)) (V m c (Pipeline.arrRef spec0 19)) (V m c (Pipeline.arrRef spec0 20)) (V m c (Pipeline.arrRef spec0 21)) (V m c (Pipeline.arrRef spec0 22)) (V m c (Pipeline.arrRef spec0 23)) (V m c (Pipeline.arrRef spec0 24)) :=
    (hw 34).trans (final_34 m c)
  have h35 : Pipeline.withArrays (cfgs 0).spec c (V0 m c) (fun w => (dats m 0 c).arrAt w (cfgs 0).N) (Proc.devRef .tc main_v99_8) = (V m c (Pipeline.arrRef spec0 0)) :=
    (hw 35).trans (final_35 m c)
  have h36 : Pipeline.withArrays (cfgs 0).spec c (V0 m c) (fun w => (dats m 0 c).arrAt w (cfgs 0).N) (Proc.devRef .tc main_v99_9) = (V m c (Pipeline.arrRef spec0 1)) :=
    (hw 36).trans (final_36 m c)
  have h37 : Pipeline.withArrays (cfgs 0).spec c (V0 m c) (fun w => (dats m 0 c).arrAt w (cfgs 0).N) (Proc.devRef .tc main_v99_10) = (V m c (Pipeline.arrRef spec0 2)) :=
    (hw 37).trans (final_37 m c)
  have h38 : Pipeline.withArrays (cfgs 0).spec c (V0 m c) (fun w => (dats m 0 c).arrAt w (cfgs 0).N) (Proc.devRef .tc main_v99_11) = (V m c (Pipeline.arrRef spec0 3)) :=
    (hw 38).trans (final_38 m c)
  unfold kOut Pipeline.afterTail₀
  simp only [List.flatten_cons, List.flatten_nil, List.append_nil]
  refine (tail_generic _).trans ?_
  exact tailOf_congr h27 h28 h29 h30 h31 h32 h33 h34 h35 h36 h37 h38

/-! ## The result's formulas over the launch arguments, at batch row b and neuron n -/

/-- The refractory counter. -/
def eRefr (c : Dev nD) (b : Fin 4) (n : Fin 50000) : EReal := refr ((m ((c.tc : Thread nD τ).loc main_arg1)) (ix2 b (⟨0 * 50000 + n.val, by have := n.isLt; omega⟩ : Fin 250000))) ((m ((c.tc : Thread nD τ).loc main_arg3)) (ix2 b n)) ((m ((c.tc : Thread nD τ).loc main_arg13)) (ix1 n))
/-- The voltage. -/
def eVolt (c : Dev nD) (b : Fin 4) (n : Fin 50000) : EReal :=
  volt ((m ((c.tc : Thread nD τ).loc main_arg1)) (ix2 b (⟨0 * 50000 + n.val, by have := n.isLt; omega⟩ : Fin 250000))) ((m ((c.tc : Thread nD τ).loc main_arg2)) (ix2 b n)) ((m ((c.tc : Thread nD τ).loc main_arg4)) (ix2 b n)) ((m ((c.tc : Thread nD τ).loc main_arg5)) (ix2 b n)) ((Cert.ReferenceIdeal.Read.val_main_v83 (F := Ideal) (m ((c.tc : Thread nD τ).loc main_arg7))) (ix2 b n)) ((m ((c.tc : Thread nD τ).loc main_arg16)) (ix1 n)) ((m ((c.tc : Thread nD τ).loc main_arg17)) (ix1 n)) ((m ((c.tc : Thread nD τ).loc main_arg18)) (ix1 n)) ((m ((c.tc : Thread nD τ).loc main_arg19)) (ix1 n)) ((m ((c.tc : Thread nD τ).loc main_arg20)) (ix1 n)) ((m ((c.tc : Thread nD τ).loc main_arg21)) (ix1 n))
/-- The spike. -/
def eSpike (c : Dev nD) (b : Fin 4) (n : Fin 50000) : EReal := spike (eRefr m c b n) ((m ((c.tc : Thread nD τ).loc main_arg16)) (ix1 n)) ((m ((c.tc : Thread nD τ).loc main_arg17)) (ix1 n)) (eVolt m c b n)
/-- The output voltage. -/
def eOut (c : Dev nD) (b : Fin 4) (n : Fin 50000) : EReal := outv (eVolt m c b n) ((m ((c.tc : Thread nD τ).loc main_arg22)) (ix1 n)) ((m ((c.tc : Thread nD τ).loc main_arg23)) (ix1 n))
/-- The two adaptation currents. -/
def eAd1 (c : Dev nD) (b : Fin 4) (n : Fin 50000) : EReal :=
  adapt ((m ((c.tc : Thread nD τ).loc main_arg1)) (ix2 b (⟨0 * 50000 + n.val, by have := n.isLt; omega⟩ : Fin 250000))) ((m ((c.tc : Thread nD τ).loc main_arg4)) (ix2 b n)) ((Cert.ReferenceIdeal.Read.val_main_v60 (F := Ideal) (m ((c.tc : Thread nD τ).loc main_arg14))) (ix1 n)) ((Cert.ReferenceIdeal.Read.val_main_v55 (F := Ideal) (m ((c.tc : Thread nD τ).loc main_arg15))) (ix1 n))
def eAd2 (c : Dev nD) (b : Fin 4) (n : Fin 50000) : EReal :=
  adapt ((m ((c.tc : Thread nD τ).loc main_arg1)) (ix2 b (⟨0 * 50000 + n.val, by have := n.isLt; omega⟩ : Fin 250000))) ((m ((c.tc : Thread nD τ).loc main_arg5)) (ix2 b n)) ((Cert.ReferenceIdeal.Read.val_main_v74 (F := Ideal) (m ((c.tc : Thread nD τ).loc main_arg14))) (ix1 n)) ((Cert.ReferenceIdeal.Read.val_main_v69 (F := Ideal) (m ((c.tc : Thread nD τ).loc main_arg15))) (ix1 n))
/-- The synapse rise and the synapse, at flat column j = 4·neuron + receptor. -/
def eRise (c : Dev nD) (b : Fin 4) (j : Fin 200000) : EReal :=
  rise ((m ((c.tc : Thread nD τ).loc main_arg11)) (ix2 (⟨j.val / 4, by have := j.isLt; omega⟩ : Fin 50000) (⟨j.val % 4, Nat.mod_lt _ (by norm_num)⟩ : Fin 4))) ((m ((c.tc : Thread nD τ).loc main_arg6)) (ix2 b j))
    ((Cert.ReferenceIdeal.Read.val_main_v20 (F := Ideal) (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10))) (ix2 b j))
    ((m ((c.tc : Thread nD τ).loc main_arg12)) (ix2 (⟨j.val / 4, by have := j.isLt; omega⟩ : Fin 50000) (⟨j.val % 4, Nat.mod_lt _ (by norm_num)⟩ : Fin 4)))
def eSyn (c : Dev nD) (b : Fin 4) (j : Fin 200000) : EReal :=
  syn ((m ((c.tc : Thread nD τ).loc main_arg7)) (ix2 b j)) ((m ((c.tc : Thread nD τ).loc main_arg11)) (ix2 (⟨j.val / 4, by have := j.isLt; omega⟩ : Fin 50000) (⟨j.val % 4, Nat.mod_lt _ (by norm_num)⟩ : Fin 4))) ((m ((c.tc : Thread nD τ).loc main_arg6)) (ix2 b j))

/-! ## The whole-array formulas at an entry, from the arrays' entries given by name -/

theorem gSpike_of (a0 a9 a10 a11 a12 a13 : (S4x51200.Idx → Elt Ideal .f32)) (a14 a19 a20 a21 a22 a23 a24 : (S1x51200.Idx → Elt Ideal .f32)) (b : Fin 4) (n : Fin 51200)
    (v0 v9 v10 v11 v12 v13 v14 v19 v20 v21 v22 v23 v24 : EReal)
    (h0 : a0 (ix2 b n) = v0) (h9 : a9 (ix2 b n) = v9) (h10 : a10 (ix2 b n) = v10) (h11 : a11 (ix2 b n) = v11) (h12 : a12 (ix2 b n) = v12) (h13 : a13 (ix2 b n) = v13)
    (h14 : a14 (ix2 (0 : Fin 1) n) = v14) (h19 : a19 (ix2 (0 : Fin 1) n) = v19) (h20 : a20 (ix2 (0 : Fin 1) n) = v20) (h21 : a21 (ix2 (0 : Fin 1) n) = v21) (h22 : a22 (ix2 (0 : Fin 1) n) = v22) (h23 : a23 (ix2 (0 : Fin 1) n) = v23) (h24 : a24 (ix2 (0 : Fin 1) n) = v24) :
    gSpike a0 a9 a10 a11 a12 a13 a14 a19 a20 a21 a22 a23 a24 (ix2 b n)
      = spike (refr v0 v10 v14) v19 v20 (volt v0 v9 v11 v12 v13 v19 v20 v21 v22 v23 v24) := by
  show spike (refr (a0 (ix2 b n)) (a10 (ix2 b n)) (a14 (ix2 (0 : Fin 1) n))) (a19 (ix2 (0 : Fin 1) n)) (a20 (ix2 (0 : Fin 1) n))
    (volt (a0 (ix2 b n)) (a9 (ix2 b n)) (a11 (ix2 b n)) (a12 (ix2 b n)) (a13 (ix2 b n)) (a19 (ix2 (0 : Fin 1) n)) (a20 (ix2 (0 : Fin 1) n)) (a21 (ix2 (0 : Fin 1) n)) (a22 (ix2 (0 : Fin 1) n)) (a23 (ix2 (0 : Fin 1) n)) (a24 (ix2 (0 : Fin 1) n))) = _
  rw [h0, h9, h10, h11, h12, h13, h14, h19, h20, h21, h22, h23, h24]

theorem gOut_of (a0 a9 a11 a12 a13 : (S4x51200.Idx → Elt Ideal .f32)) (a19 a20 a21 a22 a23 a24 a25 a26 : (S1x51200.Idx → Elt Ideal .f32)) (b : Fin 4) (n : Fin 51200)
    (v0 v9 v11 v12 v13 v19 v20 v21 v22 v23 v24 v25 v26 : EReal)
    (h0 : a0 (ix2 b n) = v0) (h9 : a9 (ix2 b n) = v9) (h11 : a11 (ix2 b n) = v11) (h12 : a12 (ix2 b n) = v12) (h13 : a13 (ix2 b n) = v13)
    (h19 : a19 (ix2 (0 : Fin 1) n) = v19) (h20 : a20 (ix2 (0 : Fin 1) n) = v20) (h21 : a21 (ix2 (0 : Fin 1) n) = v21) (h22 : a22 (ix2 (0 : Fin 1) n) = v22) (h23 : a23 (ix2 (0 : Fin 1) n) = v23) (h24 : a24 (ix2 (0 : Fin 1) n) = v24)
    (h25 : a25 (ix2 (0 : Fin 1) n) = v25) (h26 : a26 (ix2 (0 : Fin 1) n) = v26) :
    gOut a0 a9 a11 a12 a13 a19 a20 a21 a22 a23 a24 a25 a26 (ix2 b n)
      = outv (volt v0 v9 v11 v12 v13 v19 v20 v21 v22 v23 v24) v25 v26 := by
  show outv (volt (a0 (ix2 b n)) (a9 (ix2 b n)) (a11 (ix2 b n)) (a12 (ix2 b n)) (a13 (ix2 b n)) (a19 (ix2 (0 : Fin 1) n)) (a20 (ix2 (0 : Fin 1) n)) (a21 (ix2 (0 : Fin 1) n)) (a22 (ix2 (0 : Fin 1) n)) (a23 (ix2 (0 : Fin 1) n)) (a24 (ix2 (0 : Fin 1) n)))
    (a25 (ix2 (0 : Fin 1) n)) (a26 (ix2 (0 : Fin 1) n)) = _
  rw [h0, h9, h11, h12, h13, h19, h20, h21, h22, h23, h24, h25, h26]

theorem gRefrArr_of (a0 a10 : (S4x51200.Idx → Elt Ideal .f32)) (a14 : (S1x51200.Idx → Elt Ideal .f32)) (b : Fin 4) (n : Fin 51200) (v0 v10 v14 : EReal)
    (h0 : a0 (ix2 b n) = v0) (h10 : a10 (ix2 b n) = v10) (h14 : a14 (ix2 (0 : Fin 1) n) = v14) :
    gRefrArr a0 a10 a14 (ix2 b n) = refr v0 v10 v14 := by
  show refr (a0 (ix2 b n)) (a10 (ix2 b n)) (a14 (ix2 (0 : Fin 1) n)) = _
  rw [h0, h10, h14]

theorem gAdapt_of (a0 a : (S4x51200.Idx → Elt Ideal .f32)) (amp d : (S1x51200.Idx → Elt Ideal .f32)) (b : Fin 4) (n : Fin 51200) (v0 va vamp vd : EReal)
    (h0 : a0 (ix2 b n) = v0) (ha : a (ix2 b n) = va) (hamp : amp (ix2 (0 : Fin 1) n) = vamp) (hd : d (ix2 (0 : Fin 1) n) = vd) :
    gAdapt a0 a amp d (ix2 b n) = adapt v0 va vamp vd := by
  show adapt (a0 (ix2 b n)) (a (ix2 b n)) (amp (ix2 (0 : Fin 1) n)) (d (ix2 (0 : Fin 1) n)) = _
  rw [h0, ha, hamp, hd]

theorem gRise_of (a4 a5 : (S4x204800.Idx → Elt Ideal .f32)) (a7 a8 : (S1x204800.Idx → Elt Ideal .f32)) (b : Fin 4) (n : Fin 204800) (v4 v5 v7 v8 : EReal)
    (h4 : a4 (ix2 b n) = v4) (h5 : a5 (ix2 b n) = v5) (h7 : a7 (ix2 (0 : Fin 1) n) = v7) (h8 : a8 (ix2 (0 : Fin 1) n) = v8) :
    gRise a4 a5 a7 a8 (ix2 b n) = rise v7 v5 v4 v8 := by
  show rise (a7 (ix2 (0 : Fin 1) n)) (a5 (ix2 b n)) (a4 (ix2 b n)) (a8 (ix2 (0 : Fin 1) n)) = _
  rw [h4, h5, h7, h8]

theorem gSyn_of (a5 a6 : (S4x204800.Idx → Elt Ideal .f32)) (a7 : (S1x204800.Idx → Elt Ideal .f32)) (b : Fin 4) (n : Fin 204800) (v5 v6 v7 : EReal)
    (h5 : a5 (ix2 b n) = v5) (h6 : a6 (ix2 b n) = v6) (h7 : a7 (ix2 (0 : Fin 1) n) = v7) :
    gSyn a5 a6 a7 (ix2 b n) = syn v6 v7 v5 := by
  show syn (a6 (ix2 b n)) (a7 (ix2 (0 : Fin 1) n)) (a5 (ix2 b n)) = _
  rw [h5, h6, h7]

/-! ## The result, piece by piece -/

theorem kpiece_spike (c : Dev nD) (b : Fin 4) (n : Fin 50000) :
    kOut m c (ix2 b (⟨0 + n.val, by have := n.isLt; omega⟩ : Fin 900000)) = eSpike m c b n := by
  rw [kOut_eq]
  refine (Tail.tail_0 _ _ _ _ _ _ _ _ _ _ _ _ b n).trans ?_
  exact gSpike_of _ _ _ _ _ _ _ _ _ _ _ _ _ b (⟨n.val, by have := n.isLt; omega⟩ : Fin 51200) _ _ _ _ _ _ _ _ _ _ _ _ _
    (Inputs.win_0 m c b (⟨n.val, by have := n.isLt; omega⟩ : Fin 51200) n.isLt) (Inputs.win_9 m c b (⟨n.val, by have := n.isLt; omega⟩ : Fin 51200) n.isLt) (Inputs.win_10 m c b (⟨n.val, by have := n.isLt; omega⟩ : Fin 51200) n.isLt) (Inputs.win_11 m c b (⟨n.val, by have := n.isLt; omega⟩ : Fin 51200) n.isLt) (Inputs.win_12 m c b (⟨n.val, by have := n.isLt; omega⟩ : Fin 51200) n.isLt) (Inputs.win_13 m c b (⟨n.val, by have := n.isLt; omega⟩ : Fin 51200) n.isLt) (Inputs.win_14 m c (⟨n.val, by have := n.isLt; omega⟩ : Fin 51200) n.isLt) (Inputs.win_19 m c (⟨n.val, by have := n.isLt; omega⟩ : Fin 51200) n.isLt) (Inputs.win_20 m c (⟨n.val, by have := n.isLt; omega⟩ : Fin 51200) n.isLt) (Inputs.win_21 m c (⟨n.val, by have := n.isLt; omega⟩ : Fin 51200) n.isLt) (Inputs.win_22 m c (⟨n.val, by have := n.isLt; omega⟩ : Fin 51200) n.isLt) (Inputs.win_23 m c (⟨n.val, by have := n.isLt; omega⟩ : Fin 51200) n.isLt) (Inputs.win_24 m c (⟨n.val, by have := n.isLt; omega⟩ : Fin 51200) n.isLt)

theorem kpiece_out (c : Dev nD) (b : Fin 4) (n : Fin 50000) :
    kOut m c (ix2 b (⟨50000 + n.val, by have := n.isLt; omega⟩ : Fin 900000)) = eOut m c b n := by
  rw [kOut_eq]
  refine (Tail.tail_1 _ _ _ _ _ _ _ _ _ _ _ _ b n).trans ?_
  exact gOut_of _ _ _ _ _ _ _ _ _ _ _ _ _ b (⟨n.val, by have := n.isLt; omega⟩ : Fin 51200) _ _ _ _ _ _ _ _ _ _ _ _ _
    (Inputs.win_0 m c b (⟨n.val, by have := n.isLt; omega⟩ : Fin 51200) n.isLt) (Inputs.win_9 m c b (⟨n.val, by have := n.isLt; omega⟩ : Fin 51200) n.isLt) (Inputs.win_11 m c b (⟨n.val, by have := n.isLt; omega⟩ : Fin 51200) n.isLt) (Inputs.win_12 m c b (⟨n.val, by have := n.isLt; omega⟩ : Fin 51200) n.isLt) (Inputs.win_13 m c b (⟨n.val, by have := n.isLt; omega⟩ : Fin 51200) n.isLt) (Inputs.win_19 m c (⟨n.val, by have := n.isLt; omega⟩ : Fin 51200) n.isLt) (Inputs.win_20 m c (⟨n.val, by have := n.isLt; omega⟩ : Fin 51200) n.isLt) (Inputs.win_21 m c (⟨n.val, by have := n.isLt; omega⟩ : Fin 51200) n.isLt) (Inputs.win_22 m c (⟨n.val, by have := n.isLt; omega⟩ : Fin 51200) n.isLt) (Inputs.win_23 m c (⟨n.val, by have := n.isLt; omega⟩ : Fin 51200) n.isLt) (Inputs.win_24 m c (⟨n.val, by have := n.isLt; omega⟩ : Fin 51200) n.isLt) (Inputs.win_25 m c (⟨n.val, by have := n.isLt; omega⟩ : Fin 51200) n.isLt) (Inputs.win_26 m c (⟨n.val, by have := n.isLt; omega⟩ : Fin 51200) n.isLt)

theorem kpiece_refr (c : Dev nD) (b : Fin 4) (n : Fin 50000) :
    kOut m c (ix2 b (⟨100000 + n.val, by have := n.isLt; omega⟩ : Fin 900000)) = eRefr m c b n := by
  rw [kOut_eq]
  refine (Tail.tail_2 _ _ _ _ _ _ _ _ _ _ _ _ b n).trans ?_
  exact gRefrArr_of _ _ _ b (⟨n.val, by have := n.isLt; omega⟩ : Fin 51200) _ _ _ (Inputs.win_0 m c b (⟨n.val, by have := n.isLt; omega⟩ : Fin 51200) n.isLt) (Inputs.win_10 m c b (⟨n.val, by have := n.isLt; omega⟩ : Fin 51200) n.isLt) (Inputs.win_14 m c (⟨n.val, by have := n.isLt; omega⟩ : Fin 51200) n.isLt)

theorem kpiece_ad1 (c : Dev nD) (b : Fin 4) (n : Fin 50000) :
    kOut m c (ix2 b (⟨150000 + n.val, by have := n.isLt; omega⟩ : Fin 900000)) = eAd1 m c b n := by
  rw [kOut_eq]
  refine (Tail.tail_3 _ _ _ _ _ _ _ _ _ _ _ _ b n).trans ?_
  exact gAdapt_of _ _ _ _ b (⟨n.val, by have := n.isLt; omega⟩ : Fin 51200) _ _ _ _ (Inputs.win_0 m c b (⟨n.val, by have := n.isLt; omega⟩ : Fin 51200) n.isLt) (Inputs.win_11 m c b (⟨n.val, by have := n.isLt; omega⟩ : Fin 51200) n.isLt) (Inputs.win_15 m c (⟨n.val, by have := n.isLt; omega⟩ : Fin 51200) n.isLt) (Inputs.win_17 m c (⟨n.val, by have := n.isLt; omega⟩ : Fin 51200) n.isLt)

theorem kpiece_ad2 (c : Dev nD) (b : Fin 4) (n : Fin 50000) :
    kOut m c (ix2 b (⟨200000 + n.val, by have := n.isLt; omega⟩ : Fin 900000)) = eAd2 m c b n := by
  rw [kOut_eq]
  refine (Tail.tail_4 _ _ _ _ _ _ _ _ _ _ _ _ b n).trans ?_
  exact gAdapt_of _ _ _ _ b (⟨n.val, by have := n.isLt; omega⟩ : Fin 51200) _ _ _ _ (Inputs.win_0 m c b (⟨n.val, by have := n.isLt; omega⟩ : Fin 51200) n.isLt) (Inputs.win_12 m c b (⟨n.val, by have := n.isLt; omega⟩ : Fin 51200) n.isLt) (Inputs.win_16 m c (⟨n.val, by have := n.isLt; omega⟩ : Fin 51200) n.isLt) (Inputs.win_18 m c (⟨n.val, by have := n.isLt; omega⟩ : Fin 51200) n.isLt)

theorem kpiece_rise (c : Dev nD) (b : Fin 4) (j : Fin 200000) :
    kOut m c (ix2 b (⟨250000 + j.val, by have := j.isLt; omega⟩ : Fin 900000)) = eRise m c b j := by
  rw [kOut_eq]
  refine (Tail.tail_5 _ _ _ _ _ _ _ _ _ _ _ _ b j).trans ?_
  exact gRise_of _ _ _ _ b (⟨j.val, by have := j.isLt; omega⟩ : Fin 204800) _ _ _ _ ((Inputs.win_4 m c b (⟨j.val, by have := j.isLt; omega⟩ : Fin 204800) j.isLt).trans (congrFun (Cert.KernelIdeal.RecIn.recIn_eq _ _ _ _ _) _)) (Inputs.win_5 m c b (⟨j.val, by have := j.isLt; omega⟩ : Fin 204800) j.isLt) (Inputs.win_7 m c (⟨j.val, by have := j.isLt; omega⟩ : Fin 204800) j.isLt) (Inputs.win_8 m c (⟨j.val, by have := j.isLt; omega⟩ : Fin 204800) j.isLt)

theorem kpiece_syn (c : Dev nD) (b : Fin 4) (j : Fin 200000) :
    kOut m c (ix2 b (⟨450000 + j.val, by have := j.isLt; omega⟩ : Fin 900000)) = eSyn m c b j := by
  rw [kOut_eq]
  refine (Tail.tail_6 _ _ _ _ _ _ _ _ _ _ _ _ b j).trans ?_
  exact gSyn_of _ _ _ b (⟨j.val, by have := j.isLt; omega⟩ : Fin 204800) _ _ _ (Inputs.win_5 m c b (⟨j.val, by have := j.isLt; omega⟩ : Fin 204800) j.isLt) (Inputs.win_6 m c b (⟨j.val, by have := j.isLt; omega⟩ : Fin 204800) j.isLt) (Inputs.win_7 m c (⟨j.val, by have := j.isLt; omega⟩ : Fin 204800) j.isLt)

/-- Row 0 of the new delay buffer is the new spike. -/
theorem kpiece_delay0 (c : Dev nD) (b : Fin 4) (n : Fin 50000) :
    kOut m c (ix2 b (⟨650000 + n.val, by have := n.isLt; omega⟩ : Fin 900000)) = eSpike m c b n := by
  rw [kOut_eq]
  refine (Tail.tail_7 _ _ _ _ _ _ _ _ _ _ _ _ b n).trans ?_
  exact gSpike_of _ _ _ _ _ _ _ _ _ _ _ _ _ b (⟨n.val, by have := n.isLt; omega⟩ : Fin 51200) _ _ _ _ _ _ _ _ _ _ _ _ _
    (Inputs.win_0 m c b (⟨n.val, by have := n.isLt; omega⟩ : Fin 51200) n.isLt) (Inputs.win_9 m c b (⟨n.val, by have := n.isLt; omega⟩ : Fin 51200) n.isLt) (Inputs.win_10 m c b (⟨n.val, by have := n.isLt; omega⟩ : Fin 51200) n.isLt) (Inputs.win_11 m c b (⟨n.val, by have := n.isLt; omega⟩ : Fin 51200) n.isLt) (Inputs.win_12 m c b (⟨n.val, by have := n.isLt; omega⟩ : Fin 51200) n.isLt) (Inputs.win_13 m c b (⟨n.val, by have := n.isLt; omega⟩ : Fin 51200) n.isLt) (Inputs.win_14 m c (⟨n.val, by have := n.isLt; omega⟩ : Fin 51200) n.isLt) (Inputs.win_19 m c (⟨n.val, by have := n.isLt; omega⟩ : Fin 51200) n.isLt) (Inputs.win_20 m c (⟨n.val, by have := n.isLt; omega⟩ : Fin 51200) n.isLt) (Inputs.win_21 m c (⟨n.val, by have := n.isLt; omega⟩ : Fin 51200) n.isLt) (Inputs.win_22 m c (⟨n.val, by have := n.isLt; omega⟩ : Fin 51200) n.isLt) (Inputs.win_23 m c (⟨n.val, by have := n.isLt; omega⟩ : Fin 51200) n.isLt) (Inputs.win_24 m c (⟨n.val, by have := n.isLt; omega⟩ : Fin 51200) n.isLt)

/-- Row 1 of the new delay buffer is row 0 of the old one. -/
theorem kpiece_delay1 (c : Dev nD) (b : Fin 4) (n : Fin 50000) :
    kOut m c (ix2 b (⟨700000 + n.val, by have := n.isLt; omega⟩ : Fin 900000)) = ((m ((c.tc : Thread nD τ).loc main_arg1)) (ix2 b (⟨0 * 50000 + n.val, by have := n.isLt; omega⟩ : Fin 250000))) := by
  rw [kOut_eq]
  refine (Tail.tail_8 _ _ _ _ _ _ _ _ _ _ _ _ b n).trans ?_
  exact (Inputs.win_0 m c b (⟨n.val, by have := n.isLt; omega⟩ : Fin 51200) n.isLt)

/-- Row 2 of the new delay buffer is row 1 of the old one. -/
theorem kpiece_delay2 (c : Dev nD) (b : Fin 4) (n : Fin 50000) :
    kOut m c (ix2 b (⟨750000 + n.val, by have := n.isLt; omega⟩ : Fin 900000)) = ((m ((c.tc : Thread nD τ).loc main_arg1)) (ix2 b (⟨1 * 50000 + n.val, by have := n.isLt; omega⟩ : Fin 250000))) := by
  rw [kOut_eq]
  refine (Tail.tail_9 _ _ _ _ _ _ _ _ _ _ _ _ b n).trans ?_
  exact (Inputs.win_1 m c b (⟨n.val, by have := n.isLt; omega⟩ : Fin 51200) n.isLt)

/-- Row 3 of the new delay buffer is row 2 of the old one. -/
theorem kpiece_delay3 (c : Dev nD) (b : Fin 4) (n : Fin 50000) :
    kOut m c (ix2 b (⟨800000 + n.val, by have := n.isLt; omega⟩ : Fin 900000)) = ((m ((c.tc : Thread nD τ).loc main_arg1)) (ix2 b (⟨2 * 50000 + n.val, by have := n.isLt; omega⟩ : Fin 250000))) := by
  rw [kOut_eq]
  refine (Tail.tail_10 _ _ _ _ _ _ _ _ _ _ _ _ b n).trans ?_
  exact (Inputs.win_2 m c b (⟨n.val, by have := n.isLt; omega⟩ : Fin 51200) n.isLt)

/-- Row 4 of the new delay buffer is row 3 of the old one. -/
theorem kpiece_delay4 (c : Dev nD) (b : Fin 4) (n : Fin 50000) :
    kOut m c (ix2 b (⟨850000 + n.val, by have := n.isLt; omega⟩ : Fin 900000)) = ((m ((c.tc : Thread nD τ).loc main_arg1)) (ix2 b (⟨3 * 50000 + n.val, by have := n.isLt; omega⟩ : Fin 250000))) := by
  rw [kOut_eq]
  refine (Tail.tail_11 _ _ _ _ _ _ _ _ _ _ _ _ b n).trans ?_
  exact (Inputs.win_3 m c b (⟨n.val, by have := n.isLt; omega⟩ : Fin 51200) n.isLt)

end Cert.KernelIdeal.Result

end
-- ==== Proof.RefPieces.lean ====
/-
  The reference's result, entry by entry, in the same formulas as the kernel program's. The reference repeats each
  per-neuron parameter over the four batch rows by two broadcasts and works on [4, 50000] arrays; its synapse
  arrays it handles in [4, 50000, 4] form and flattens at the end; its new delay buffer is the new spikes laid
  before rows 0…3 of the old one. The spike indicator is the unsigned conversion of a comparison bit, which is the
  signed conversion of its 32-bit zero extension.
-/
import proofs.«135958_j89670327206508_1_alg».proof.Proof.Gen.ReferenceIdeal.Read
import proofs.«135958_j89670327206508_1_alg».proof.Proof.IdealPayloads
import proofs.«135958_j89670327206508_1_alg».proof.Proof.IdealLayout
import Idealize.ShloMosaic.Lib.ValueIdx
import Idealize.ShloMosaic.Lib.ValueLayout
import Idealize.ShloMosaic.Lib.Pipeline.Value

set_option maxRecDepth 100000

noncomputable section

namespace Cert.ReferenceIdeal.Pieces

open Idealize.ShloMosaic Idealize.ShloMosaic.TcCoe Idealize.ShloMosaic.ValueIdx
open Cert.ReferenceIdeal Cert.ReferenceIdeal.Gen Cert.ReferenceIdeal.Read Cert.KernelIdeal.Neuron

/-! ## The reference's broadcasts at an entry -/

/-- A per-neuron vector repeated over the batch rows. -/
theorem rowB (x : (⟨S50000, .f32⟩ : BufTy).Contents (Elt Ideal)) (b : Fin 4) (n : Fin 50000) :
    broadcastInDim S4x50000 ![0, 1] bcast_S1x50000_S4x50000_0_1 (broadcastInDim S1x50000 ![1] bcast_S50000_S1x50000_1 x) (ix2 b n) = x (ix1 n) := by
  refine (broadcastInDim_apply _ _ _ (ix2 b n) (ix2 (0 : Fin 1) n) ?_).trans ?_
  · intro a
    match a with
    | ⟨0, _⟩ => show 0 = if (1 : ℕ) = 1 then 0 else b.val; simp
    | ⟨1, _⟩ => show n.val = if (50000 : ℕ) = 1 then 0 else n.val; simp
  refine broadcastInDim_apply _ _ x (ix2 (0 : Fin 1) n) (ix1 n) ?_
  intro a
  match a with
  | ⟨0, _⟩ => show n.val = if (50000 : ℕ) = 1 then 0 else n.val; simp

/-- A scalar literal repeated over a [4, 50000] array. -/
theorem cstB (w : BitVec 32) (i : S4x50000.Idx) :
    broadcastInDim S4x50000 ![] bcast_S_S4x50000 (constant (F := Ideal) S_ .f32 w) i = Ideal.ofBits .f32 w :=
  broadcastInDim_apply _ _ _ i ix0 (fun a => a.elim0)

/-- A [50000, 4] parameter repeated over the batch rows of a [4, 50000, 4] array. -/
theorem wideB (x : (⟨S50000x4, .f32⟩ : BufTy).Contents (Elt Ideal)) (b : Fin 4) (q : Fin 50000) (r : Fin 4) :
    broadcastInDim S4x50000x4 ![0, 1, 2] bcast_S1x50000x4_S4x50000x4_0_1_2 (broadcastInDim S1x50000x4 ![1, 2] bcast_S50000x4_S1x50000x4_1_2 x) (ix3 b q r) = x (ix2 q r) := by
  refine (broadcastInDim_apply _ _ _ (ix3 b q r) (ix3 (0 : Fin 1) q r) ?_).trans ?_
  · intro a
    match a with
    | ⟨0, _⟩ => show 0 = if (1 : ℕ) = 1 then 0 else b.val; simp
    | ⟨1, _⟩ => show q.val = if (50000 : ℕ) = 1 then 0 else q.val; simp
    | ⟨2, _⟩ => show r.val = if (4 : ℕ) = 1 then 0 else r.val; simp
  refine broadcastInDim_apply _ _ x (ix3 (0 : Fin 1) q r) (ix2 q r) ?_
  intro a
  match a with
  | ⟨0, _⟩ => show q.val = if (50000 : ℕ) = 1 then 0 else q.val; simp
  | ⟨1, _⟩ => show r.val = if (4 : ℕ) = 1 then 0 else r.val; simp

/-- A [4, 200000] array in [4, 50000, 4] form. -/
theorem wideIn (x : (⟨S4x200000, .f32⟩ : BufTy).Contents (Elt Ideal)) (b : Fin 4) (j : Fin 200000) :
    shapeCast S4x50000x4 x shapeCasts_S4x200000_S4x50000x4 (ix3 b (⟨j.val / 4, by have := j.isLt; omega⟩ : Fin 50000) (⟨j.val % 4, Nat.mod_lt _ (by norm_num)⟩ : Fin 4)) = x (ix2 b j) := by
  refine shapeCast_apply _ _ _ _ ?_
  rw [Shape.rowMajor_val_two, Shape.rowMajor_val_three]
  show b.val * 200000 + j.val = (b.val * 50000 + j.val / 4) * 4 + j.val % 4
  have := j.isLt; omega

/-- And flattened back. -/
theorem wideOut (Y : (⟨S4x50000x4, .f32⟩ : BufTy).Contents (Elt Ideal)) (b : Fin 4) (j : Fin 200000) :
    shapeCast S4x200000 Y shapeCasts_S4x50000x4_S4x200000 (ix2 b j) = Y (ix3 b (⟨j.val / 4, by have := j.isLt; omega⟩ : Fin 50000) (⟨j.val % 4, Nat.mod_lt _ (by norm_num)⟩ : Fin 4)) := by
  refine shapeCast_apply _ _ _ _ ?_
  rw [Shape.rowMajor_val_three, Shape.rowMajor_val_two]
  show (b.val * 50000 + j.val / 4) * 4 + j.val % 4 = b.val * 200000 + j.val
  have := j.isLt; omega

/-- The newest delay row. -/
theorem zNew (x1 : (⟨S4x250000, .f32⟩ : BufTy).Contents (Elt Ideal)) (b : Fin 4) (n : Fin 50000) :
    val_main_v2 (F := Ideal) x1 (ix2 b n) = (x1 (ix2 b (⟨0 * 50000 + n.val, by have := n.isLt; omega⟩ : Fin 250000))) :=
  Cert.KernelIdeal.Layout.zRow0 x1 b n

/-! ## The stored quantities at an entry -/

theorem r_refr (x1 : (⟨S4x250000, .f32⟩ : BufTy).Contents (Elt Ideal)) (x3 : (⟨S4x50000, .f32⟩ : BufTy).Contents (Elt Ideal)) (x13 : (⟨S50000, .f32⟩ : BufTy).Contents (Elt Ideal)) (b : Fin 4) (n : Fin 50000) :
    val_main_v44 (F := Ideal) x1 x3 x13 (ix2 b n) = refr (x1 (ix2 b (⟨0 * 50000 + n.val, by have := n.isLt; omega⟩ : Fin 250000))) (x3 (ix2 b n)) (x13 (ix1 n)) := by
  show max (x3 (ix2 b n) + val_main_v2 (F := Ideal) x1 (ix2 b n) * val_main_v39 (F := Ideal) x13 (ix2 b n) - val_main_v42 (F := Ideal) (ix2 b n)) (val_main_call0_v0 (F := Ideal) (ix2 b n)) = _
  rw [zNew, show val_main_v39 (F := Ideal) x13 (ix2 b n) = x13 (ix1 n) from rowB x13 b n,
    show val_main_v42 (F := Ideal) (ix2 b n) = Ideal.ofBits .f32 0x3F800000#32 from cstB _ _,
    show val_main_call0_v0 (F := Ideal) (ix2 b n) = Ideal.ofBits .f32 0x00000000#32 from cstB _ _]
  rfl

theorem r_volt (x1 : (⟨S4x250000, .f32⟩ : BufTy).Contents (Elt Ideal)) (x2 x4 x5 : (⟨S4x50000, .f32⟩ : BufTy).Contents (Elt Ideal)) (x7 : (⟨S4x200000, .f32⟩ : BufTy).Contents (Elt Ideal)) (x16 x17 x18 x19 x20 x21 : (⟨S50000, .f32⟩ : BufTy).Contents (Elt Ideal)) (b : Fin 4) (n : Fin 50000) :
    val_main_v97 (F := Ideal) x1 x2 x4 x5 x7 x16 x17 x18 x19 x20 x21 (ix2 b n) = volt (x1 (ix2 b (⟨0 * 50000 + n.val, by have := n.isLt; omega⟩ : Fin 250000))) (x2 (ix2 b n)) (x4 (ix2 b n)) (x5 (ix2 b n)) (val_main_v83 (F := Ideal) x7 (ix2 b n)) (x16 (ix1 n)) (x17 (ix1 n)) (x18 (ix1 n)) (x19 (ix1 n)) (x20 (ix1 n)) (x21 (ix1 n)) := by
  show val_main_v91 (F := Ideal) x20 (ix2 b n) * x2 (ix2 b n)
      + val_main_v94 (F := Ideal) x21 (ix2 b n) * (val_main_v83 (F := Ideal) x7 (ix2 b n) + x4 (ix2 b n) + x5 (ix2 b n) + val_main_v88 (F := Ideal) x17 x19 (ix2 b n))
      + val_main_v2 (F := Ideal) x1 (ix2 b n) * val_main_v81 (F := Ideal) x16 x18 (ix2 b n) = _
  rw [zNew, show val_main_v91 (F := Ideal) x20 (ix2 b n) = x20 (ix1 n) from rowB x20 b n,
    show val_main_v94 (F := Ideal) x21 (ix2 b n) = x21 (ix1 n) from rowB x21 b n,
    show val_main_v88 (F := Ideal) x17 x19 (ix2 b n) = x19 (ix1 n) * x17 (ix1 n) from rowB (val_main_v86 (F := Ideal) x17 x19) b n,
    show val_main_v81 (F := Ideal) x16 x18 (ix2 b n) = x18 (ix1 n) - x16 (ix1 n) from rowB (val_main_v79 (F := Ideal) x16 x18) b n]
  rfl

/-- The unsigned conversion of a bit is the formula's indicator. -/
theorem uitofp_bit (c : BitVec 1) : FloatOps.uitofp (F := Ideal) .f32 c = bitS c := (bitS_eq_bitU c).symm

theorem r_spike (x1 : (⟨S4x250000, .f32⟩ : BufTy).Contents (Elt Ideal)) (x2 x3 x4 x5 : (⟨S4x50000, .f32⟩ : BufTy).Contents (Elt Ideal)) (x7 : (⟨S4x200000, .f32⟩ : BufTy).Contents (Elt Ideal)) (x13 x16 x17 x18 x19 x20 x21 : (⟨S50000, .f32⟩ : BufTy).Contents (Elt Ideal)) (b : Fin 4) (n : Fin 50000) :
    val_main_v111 (F := Ideal) x1 x2 x3 x4 x5 x7 x13 x16 x17 x18 x19 x20 x21 (ix2 b n) = spike (refr (x1 (ix2 b (⟨0 * 50000 + n.val, by have := n.isLt; omega⟩ : Fin 250000))) (x3 (ix2 b n)) (x13 (ix1 n))) (x16 (ix1 n)) (x17 (ix1 n)) (volt (x1 (ix2 b (⟨0 * 50000 + n.val, by have := n.isLt; omega⟩ : Fin 250000))) (x2 (ix2 b n)) (x4 (ix2 b n)) (x5 (ix2 b n)) (val_main_v83 (F := Ideal) x7 (ix2 b n)) (x16 (ix1 n)) (x17 (ix1 n)) (x18 (ix1 n)) (x19 (ix1 n)) (x20 (ix1 n)) (x21 (ix1 n))) := by
  show Scalar.select (Ideal.cmp .ogt (val_main_v44 (F := Ideal) x1 x3 x13 (ix2 b n)) (val_main_v108 (F := Ideal) (ix2 b n))) (val_main_v110 (F := Ideal) (ix2 b n))
      (FloatOps.uitofp (F := Ideal) .f32 (Ideal.cmp .ogt (Ideal.div (val_main_v97 (F := Ideal) x1 x2 x4 x5 x7 x16 x17 x18 x19 x20 x21 (ix2 b n) - val_main_v99 (F := Ideal) x16 (ix2 b n)) (val_main_v103 (F := Ideal) x16 x17 (ix2 b n))) (val_main_v105 (F := Ideal) (ix2 b n)))) = _
  rw [r_refr, r_volt, uitofp_bit,
    show val_main_v108 (F := Ideal) (ix2 b n) = Ideal.ofBits .f32 0x00000000#32 from cstB _ _,
    show val_main_v110 (F := Ideal) (ix2 b n) = Ideal.ofBits .f32 0x00000000#32 from cstB _ _,
    show val_main_v105 (F := Ideal) (ix2 b n) = Ideal.ofBits .f32 0x00000000#32 from cstB _ _,
    show val_main_v99 (F := Ideal) x16 (ix2 b n) = x16 (ix1 n) from rowB x16 b n,
    show val_main_v103 (F := Ideal) x16 x17 (ix2 b n) = x16 (ix1 n) - x17 (ix1 n) from rowB (val_main_v101 (F := Ideal) x16 x17) b n]
  rfl

theorem r_out (x1 : (⟨S4x250000, .f32⟩ : BufTy).Contents (Elt Ideal)) (x2 x4 x5 : (⟨S4x50000, .f32⟩ : BufTy).Contents (Elt Ideal)) (x7 : (⟨S4x200000, .f32⟩ : BufTy).Contents (Elt Ideal)) (x16 x17 x18 x19 x20 x21 x22 x23 : (⟨S50000, .f32⟩ : BufTy).Contents (Elt Ideal)) (b : Fin 4) (n : Fin 50000) :
    val_main_v120 (F := Ideal) x1 x2 x4 x5 x7 x16 x17 x18 x19 x20 x21 x22 x23 (ix2 b n) = outv (volt (x1 (ix2 b (⟨0 * 50000 + n.val, by have := n.isLt; omega⟩ : Fin 250000))) (x2 (ix2 b n)) (x4 (ix2 b n)) (x5 (ix2 b n)) (val_main_v83 (F := Ideal) x7 (ix2 b n)) (x16 (ix1 n)) (x17 (ix1 n)) (x18 (ix1 n)) (x19 (ix1 n)) (x20 (ix1 n)) (x21 (ix1 n))) (x22 (ix1 n)) (x23 (ix1 n)) := by
  show val_main_v97 (F := Ideal) x1 x2 x4 x5 x7 x16 x17 x18 x19 x20 x21 (ix2 b n) * val_main_v116 (F := Ideal) x22 (ix2 b n) + val_main_v119 (F := Ideal) x23 (ix2 b n) = _
  rw [r_volt, show val_main_v116 (F := Ideal) x22 (ix2 b n) = x22 (ix1 n) from rowB x22 b n,
    show val_main_v119 (F := Ideal) x23 (ix2 b n) = x23 (ix1 n) from rowB x23 b n]
  rfl

theorem r_ad1 (x1 : (⟨S4x250000, .f32⟩ : BufTy).Contents (Elt Ideal)) (x4 : (⟨S4x50000, .f32⟩ : BufTy).Contents (Elt Ideal)) (x14 x15 : (⟨S50000x2, .f32⟩ : BufTy).Contents (Elt Ideal)) (b : Fin 4) (n : Fin 50000) :
    val_main_v64 (F := Ideal) x1 x4 x14 x15 (ix2 b n) = adapt (x1 (ix2 b (⟨0 * 50000 + n.val, by have := n.isLt; omega⟩ : Fin 250000))) (x4 (ix2 b n)) (val_main_v60 (F := Ideal) x14 (ix1 n)) (val_main_v55 (F := Ideal) x15 (ix1 n)) := by
  show val_main_v57 (F := Ideal) x15 (ix2 b n) * x4 (ix2 b n) + val_main_v2 (F := Ideal) x1 (ix2 b n) * val_main_v62 (F := Ideal) x14 (ix2 b n) = _
  rw [zNew, show val_main_v57 (F := Ideal) x15 (ix2 b n) = val_main_v55 (F := Ideal) x15 (ix1 n) from rowB _ b n,
    show val_main_v62 (F := Ideal) x14 (ix2 b n) = val_main_v60 (F := Ideal) x14 (ix1 n) from rowB _ b n]
  rfl

theorem r_ad2 (x1 : (⟨S4x250000, .f32⟩ : BufTy).Contents (Elt Ideal)) (x5 : (⟨S4x50000, .f32⟩ : BufTy).Contents (Elt Ideal)) (x14 x15 : (⟨S50000x2, .f32⟩ : BufTy).Contents (Elt Ideal)) (b : Fin 4) (n : Fin 50000) :
    val_main_v78 (F := Ideal) x1 x5 x14 x15 (ix2 b n) = adapt (x1 (ix2 b (⟨0 * 50000 + n.val, by have := n.isLt; omega⟩ : Fin 250000))) (x5 (ix2 b n)) (val_main_v74 (F := Ideal) x14 (ix1 n)) (val_main_v69 (F := Ideal) x15 (ix1 n)) := by
  show val_main_v71 (F := Ideal) x15 (ix2 b n) * x5 (ix2 b n) + val_main_v2 (F := Ideal) x1 (ix2 b n) * val_main_v76 (F := Ideal) x14 (ix2 b n) = _
  rw [zNew, show val_main_v71 (F := Ideal) x15 (ix2 b n) = val_main_v69 (F := Ideal) x15 (ix1 n) from rowB _ b n,
    show val_main_v76 (F := Ideal) x14 (ix2 b n) = val_main_v74 (F := Ideal) x14 (ix1 n) from rowB _ b n]
  rfl

/-- The synapse rise for any recurrent input Y: in [4, 50000, 4] form the decay times the old rise plus Y times the
    initial amplitude, flattened. -/
theorem r_rise_gen (Y x6 : (⟨S4x200000, .f32⟩ : BufTy).Contents (Elt Ideal)) (x11 x12 : (⟨S50000x4, .f32⟩ : BufTy).Contents (Elt Ideal)) (b : Fin 4) (j : Fin 200000) :
    shapeCast S4x200000 ((addf ((mulf (broadcastInDim S4x50000x4 ![0, 1, 2] bcast_S1x50000x4_S4x50000x4_0_1_2 (broadcastInDim S1x50000x4 ![1, 2] bcast_S50000x4_S1x50000x4_1_2 x11)) (shapeCast S4x50000x4 x6 shapeCasts_S4x200000_S4x50000x4) : FVec Ideal S4x50000x4 .f32)) ((mulf (shapeCast S4x50000x4 Y shapeCasts_S4x200000_S4x50000x4) (broadcastInDim S4x50000x4 ![0, 1, 2] bcast_S1x50000x4_S4x50000x4_0_1_2 (broadcastInDim S1x50000x4 ![1, 2] bcast_S50000x4_S1x50000x4_1_2 x12)) : FVec Ideal S4x50000x4 .f32)) : FVec Ideal S4x50000x4 .f32)) shapeCasts_S4x50000x4_S4x200000 (ix2 b j)
      = rise (x11 (ix2 (⟨j.val / 4, by have := j.isLt; omega⟩ : Fin 50000) (⟨j.val % 4, Nat.mod_lt _ (by norm_num)⟩ : Fin 4))) (x6 (ix2 b j)) (Y (ix2 b j)) (x12 (ix2 (⟨j.val / 4, by have := j.isLt; omega⟩ : Fin 50000) (⟨j.val % 4, Nat.mod_lt _ (by norm_num)⟩ : Fin 4))) := by
  refine (wideOut _ b j).trans ?_
  show (broadcastInDim S4x50000x4 ![0, 1, 2] bcast_S1x50000x4_S4x50000x4_0_1_2 (broadcastInDim S1x50000x4 ![1, 2] bcast_S50000x4_S1x50000x4_1_2 x11)) (ix3 b (⟨j.val / 4, by have := j.isLt; omega⟩ : Fin 50000) (⟨j.val % 4, Nat.mod_lt _ (by norm_num)⟩ : Fin 4)) * (shapeCast S4x50000x4 x6 shapeCasts_S4x200000_S4x50000x4) (ix3 b (⟨j.val / 4, by have := j.isLt; omega⟩ : Fin 50000) (⟨j.val % 4, Nat.mod_lt _ (by norm_num)⟩ : Fin 4)) + (shapeCast S4x50000x4 Y shapeCasts_S4x200000_S4x50000x4) (ix3 b (⟨j.val / 4, by have := j.isLt; omega⟩ : Fin 50000) (⟨j.val % 4, Nat.mod_lt _ (by norm_num)⟩ : Fin 4)) * (broadcastInDim S4x50000x4 ![0, 1, 2] bcast_S1x50000x4_S4x50000x4_0_1_2 (broadcastInDim S1x50000x4 ![1, 2] bcast_S50000x4_S1x50000x4_1_2 x12)) (ix3 b (⟨j.val / 4, by have := j.isLt; omega⟩ : Fin 50000) (⟨j.val % 4, Nat.mod_lt _ (by norm_num)⟩ : Fin 4)) = _
  rw [wideB x11 b _ _, wideB x12 b _ _, wideIn x6 b j, wideIn Y b j]
  rfl

theorem r_rise (x0 : (⟨S4x200000, .f32⟩ : BufTy).Contents (Elt Ideal)) (x1 : (⟨S4x250000, .f32⟩ : BufTy).Contents (Elt Ideal)) (x6 : (⟨S4x200000, .f32⟩ : BufTy).Contents (Elt Ideal)) (x8 : (⟨S5000000, .f32⟩ : BufTy).Contents (Elt Ideal)) (x9 x10 : (⟨S5000000, .i32⟩ : BufTy).Contents (Elt Ideal)) (x11 x12 : (⟨S50000x4, .f32⟩ : BufTy).Contents (Elt Ideal)) (b : Fin 4) (j : Fin 200000) :
    val_main_v121 (F := Ideal) x0 x1 x6 x8 x9 x10 x11 x12 (ix2 b j)
      = rise (x11 (ix2 (⟨j.val / 4, by have := j.isLt; omega⟩ : Fin 50000) (⟨j.val % 4, Nat.mod_lt _ (by norm_num)⟩ : Fin 4))) (x6 (ix2 b j)) (val_main_v20 (F := Ideal) x0 x1 x8 x9 x10 (ix2 b j)) (x12 (ix2 (⟨j.val / 4, by have := j.isLt; omega⟩ : Fin 50000) (⟨j.val % 4, Nat.mod_lt _ (by norm_num)⟩ : Fin 4))) :=
  r_rise_gen (val_main_v20 (F := Ideal) x0 x1 x8 x9 x10) x6 x11 x12 b j

theorem r_syn (x6 x7 : (⟨S4x200000, .f32⟩ : BufTy).Contents (Elt Ideal)) (x11 : (⟨S50000x4, .f32⟩ : BufTy).Contents (Elt Ideal)) (b : Fin 4) (j : Fin 200000) :
    val_main_v122 (F := Ideal) x6 x7 x11 (ix2 b j) = syn (x7 (ix2 b j)) (x11 (ix2 (⟨j.val / 4, by have := j.isLt; omega⟩ : Fin 50000) (⟨j.val % 4, Nat.mod_lt _ (by norm_num)⟩ : Fin 4))) (x6 (ix2 b j)) := by
  refine (wideOut _ b j).trans ?_
  show val_main_v4 (F := Ideal) x7 _ * val_main_v30 (F := Ideal) x11 _ + val_main_v35 (F := Ideal) x11 _ * val_main_v3 (F := Ideal) x6 _ = _
  rw [show val_main_v30 (F := Ideal) x11 (ix3 b (⟨j.val / 4, by have := j.isLt; omega⟩ : Fin 50000) (⟨j.val % 4, Nat.mod_lt _ (by norm_num)⟩ : Fin 4)) = x11 (ix2 (⟨j.val / 4, by have := j.isLt; omega⟩ : Fin 50000) (⟨j.val % 4, Nat.mod_lt _ (by norm_num)⟩ : Fin 4)) from wideB x11 b _ _,
    show val_main_v35 (F := Ideal) x11 (ix3 b (⟨j.val / 4, by have := j.isLt; omega⟩ : Fin 50000) (⟨j.val % 4, Nat.mod_lt _ (by norm_num)⟩ : Fin 4)) = Ideal.ofBits .f32 0x3F800000#32 * x11 (ix2 (⟨j.val / 4, by have := j.isLt; omega⟩ : Fin 50000) (⟨j.val % 4, Nat.mod_lt _ (by norm_num)⟩ : Fin 4)) from wideB (val_main_v33 (F := Ideal) x11) b _ _,
    show val_main_v3 (F := Ideal) x6 (ix3 b (⟨j.val / 4, by have := j.isLt; omega⟩ : Fin 50000) (⟨j.val % 4, Nat.mod_lt _ (by norm_num)⟩ : Fin 4)) = x6 (ix2 b j) from wideIn x6 b j,
    show val_main_v4 (F := Ideal) x7 (ix3 b (⟨j.val / 4, by have := j.isLt; omega⟩ : Fin 50000) (⟨j.val % 4, Nat.mod_lt _ (by norm_num)⟩ : Fin 4)) = x7 (ix2 b j) from wideIn x7 b j]
  rfl

/-! ## The result, piece by piece -/

variable (x0 : (⟨S4x200000, .f32⟩ : BufTy).Contents (Elt Ideal)) (x1 : (⟨S4x250000, .f32⟩ : BufTy).Contents (Elt Ideal)) (x2 x3 x4 x5 : (⟨S4x50000, .f32⟩ : BufTy).Contents (Elt Ideal)) (x6 x7 : (⟨S4x200000, .f32⟩ : BufTy).Contents (Elt Ideal)) (x8 : (⟨S5000000, .f32⟩ : BufTy).Contents (Elt Ideal)) (x9 x10 : (⟨S5000000, .i32⟩ : BufTy).Contents (Elt Ideal)) (x11 x12 : (⟨S50000x4, .f32⟩ : BufTy).Contents (Elt Ideal)) (x13 : (⟨S50000, .f32⟩ : BufTy).Contents (Elt Ideal)) (x14 x15 : (⟨S50000x2, .f32⟩ : BufTy).Contents (Elt Ideal)) (x16 x17 x18 x19 x20 x21 x22 x23 : (⟨S50000, .f32⟩ : BufTy).Contents (Elt Ideal))

theorem rpiece_spike (b : Fin 4) (n : Fin 50000) :
    val_main_v124 (F := Ideal) x0 x1 x2 x3 x4 x5 x6 x7 x8 x9 x10 x11 x12 x13 x14 x15 x16 x17 x18 x19 x20 x21 x22 x23 (ix2 b (⟨0 + n.val, by have := n.isLt; omega⟩ : Fin 900000)) = spike (refr (x1 (ix2 b (⟨0 * 50000 + n.val, by have := n.isLt; omega⟩ : Fin 250000))) (x3 (ix2 b n)) (x13 (ix1 n))) (x16 (ix1 n)) (x17 (ix1 n)) (volt (x1 (ix2 b (⟨0 * 50000 + n.val, by have := n.isLt; omega⟩ : Fin 250000))) (x2 (ix2 b n)) (x4 (ix2 b n)) (x5 (ix2 b n)) (val_main_v83 (F := Ideal) x7 (ix2 b n)) (x16 (ix1 n)) (x17 (ix1 n)) (x18 (ix1 n)) (x19 (ix1 n)) (x20 (ix1 n)) (x21 (ix1 n))) := by
  unfold val_main_v124
  refine (concatenate_apply_piece (t := S4x900000) (1 : Fin 2) _ _ _ 0 ?_ S4x50000 (val_main_v111 (F := Ideal) x1 x2 x3 x4 x5 x7 x13 x16 x17 x18 x19 x20 x21) ?_ rfl 0 ?_ (ix2 b n) ?_ ?_).trans ?_
  · show (0 : ℕ) < 8; omega
  · rfl
  · first | simp | rfl
  · intro a ha
    match a with
    | ⟨0, _⟩ => rfl
    | ⟨1, _⟩ => exact absurd rfl ha
  · rfl
  exact r_spike x1 x2 x3 x4 x5 x7 x13 x16 x17 x18 x19 x20 x21 b n

theorem rpiece_out (b : Fin 4) (n : Fin 50000) :
    val_main_v124 (F := Ideal) x0 x1 x2 x3 x4 x5 x6 x7 x8 x9 x10 x11 x12 x13 x14 x15 x16 x17 x18 x19 x20 x21 x22 x23 (ix2 b (⟨50000 + n.val, by have := n.isLt; omega⟩ : Fin 900000)) = outv (volt (x1 (ix2 b (⟨0 * 50000 + n.val, by have := n.isLt; omega⟩ : Fin 250000))) (x2 (ix2 b n)) (x4 (ix2 b n)) (x5 (ix2 b n)) (val_main_v83 (F := Ideal) x7 (ix2 b n)) (x16 (ix1 n)) (x17 (ix1 n)) (x18 (ix1 n)) (x19 (ix1 n)) (x20 (ix1 n)) (x21 (ix1 n))) (x22 (ix1 n)) (x23 (ix1 n)) := by
  unfold val_main_v124
  refine (concatenate_apply_piece (t := S4x900000) (1 : Fin 2) _ _ _ 1 ?_ S4x50000 (val_main_v120 (F := Ideal) x1 x2 x4 x5 x7 x16 x17 x18 x19 x20 x21 x22 x23) ?_ rfl 50000 ?_ (ix2 b n) ?_ ?_).trans ?_
  · show (1 : ℕ) < 8; omega
  · rfl
  · first | simp | rfl
  · intro a ha
    match a with
    | ⟨0, _⟩ => rfl
    | ⟨1, _⟩ => exact absurd rfl ha
  · rfl
  exact r_out x1 x2 x4 x5 x7 x16 x17 x18 x19 x20 x21 x22 x23 b n

theorem rpiece_refr (b : Fin 4) (n : Fin 50000) :
    val_main_v124 (F := Ideal) x0 x1 x2 x3 x4 x5 x6 x7 x8 x9 x10 x11 x12 x13 x14 x15 x16 x17 x18 x19 x20 x21 x22 x23 (ix2 b (⟨100000 + n.val, by have := n.isLt; omega⟩ : Fin 900000)) = refr (x1 (ix2 b (⟨0 * 50000 + n.val, by have := n.isLt; omega⟩ : Fin 250000))) (x3 (ix2 b n)) (x13 (ix1 n)) := by
  unfold val_main_v124
  refine (concatenate_apply_piece (t := S4x900000) (1 : Fin 2) _ _ _ 2 ?_ S4x50000 (val_main_v44 (F := Ideal) x1 x3 x13) ?_ rfl 100000 ?_ (ix2 b n) ?_ ?_).trans ?_
  · show (2 : ℕ) < 8; omega
  · rfl
  · first | simp | rfl
  · intro a ha
    match a with
    | ⟨0, _⟩ => rfl
    | ⟨1, _⟩ => exact absurd rfl ha
  · rfl
  exact r_refr x1 x3 x13 b n

theorem rpiece_ad1 (b : Fin 4) (n : Fin 50000) :
    val_main_v124 (F := Ideal) x0 x1 x2 x3 x4 x5 x6 x7 x8 x9 x10 x11 x12 x13 x14 x15 x16 x17 x18 x19 x20 x21 x22 x23 (ix2 b (⟨150000 + n.val, by have := n.isLt; omega⟩ : Fin 900000))
      = adapt (x1 (ix2 b (⟨0 * 50000 + n.val, by have := n.isLt; omega⟩ : Fin 250000))) (x4 (ix2 b n)) (val_main_v60 (F := Ideal) x14 (ix1 n)) (val_main_v55 (F := Ideal) x15 (ix1 n)) := by
  unfold val_main_v124
  refine (concatenate_apply_piece (t := S4x900000) (1 : Fin 2) _ _ _ 3 ?_ S4x50000 (val_main_v64 (F := Ideal) x1 x4 x14 x15) ?_ rfl 150000 ?_ (ix2 b n) ?_ ?_).trans ?_
  · show (3 : ℕ) < 8; omega
  · rfl
  · first | simp | rfl
  · intro a ha
    match a with
    | ⟨0, _⟩ => rfl
    | ⟨1, _⟩ => exact absurd rfl ha
  · rfl
  exact r_ad1 x1 x4 x14 x15 b n

theorem rpiece_ad2 (b : Fin 4) (n : Fin 50000) :
    val_main_v124 (F := Ideal) x0 x1 x2 x3 x4 x5 x6 x7 x8 x9 x10 x11 x12 x13 x14 x15 x16 x17 x18 x19 x20 x21 x22 x23 (ix2 b (⟨200000 + n.val, by have := n.isLt; omega⟩ : Fin 900000))
      = adapt (x1 (ix2 b (⟨0 * 50000 + n.val, by have := n.isLt; omega⟩ : Fin 250000))) (x5 (ix2 b n)) (val_main_v74 (F := Ideal) x14 (ix1 n)) (val_main_v69 (F := Ideal) x15 (ix1 n)) := by
  unfold val_main_v124
  refine (concatenate_apply_piece (t := S4x900000) (1 : Fin 2) _ _ _ 4 ?_ S4x50000 (val_main_v78 (F := Ideal) x1 x5 x14 x15) ?_ rfl 200000 ?_ (ix2 b n) ?_ ?_).trans ?_
  · show (4 : ℕ) < 8; omega
  · rfl
  · first | simp | rfl
  · intro a ha
    match a with
    | ⟨0, _⟩ => rfl
    | ⟨1, _⟩ => exact absurd rfl ha
  · rfl
  exact r_ad2 x1 x5 x14 x15 b n

theorem rpiece_rise (b : Fin 4) (j : Fin 200000) :
    val_main_v124 (F := Ideal) x0 x1 x2 x3 x4 x5 x6 x7 x8 x9 x10 x11 x12 x13 x14 x15 x16 x17 x18 x19 x20 x21 x22 x23 (ix2 b (⟨250000 + j.val, by have := j.isLt; omega⟩ : Fin 900000))
      = rise (x11 (ix2 (⟨j.val / 4, by have := j.isLt; omega⟩ : Fin 50000) (⟨j.val % 4, Nat.mod_lt _ (by norm_num)⟩ : Fin 4))) (x6 (ix2 b j)) (val_main_v20 (F := Ideal) x0 x1 x8 x9 x10 (ix2 b j)) (x12 (ix2 (⟨j.val / 4, by have := j.isLt; omega⟩ : Fin 50000) (⟨j.val % 4, Nat.mod_lt _ (by norm_num)⟩ : Fin 4))) := by
  unfold val_main_v124
  refine (concatenate_apply_piece (t := S4x900000) (1 : Fin 2) _ _ _ 5 ?_ S4x200000 (val_main_v121 (F := Ideal) x0 x1 x6 x8 x9 x10 x11 x12) ?_ rfl 250000 ?_ (ix2 b j) ?_ ?_).trans ?_
  · show (5 : ℕ) < 8; omega
  · rfl
  · first | simp | rfl
  · intro a ha
    match a with
    | ⟨0, _⟩ => rfl
    | ⟨1, _⟩ => exact absurd rfl ha
  · rfl
  exact r_rise x0 x1 x6 x8 x9 x10 x11 x12 b j

theorem rpiece_syn (b : Fin 4) (j : Fin 200000) :
    val_main_v124 (F := Ideal) x0 x1 x2 x3 x4 x5 x6 x7 x8 x9 x10 x11 x12 x13 x14 x15 x16 x17 x18 x19 x20 x21 x22 x23 (ix2 b (⟨450000 + j.val, by have := j.isLt; omega⟩ : Fin 900000))
      = syn (x7 (ix2 b j)) (x11 (ix2 (⟨j.val / 4, by have := j.isLt; omega⟩ : Fin 50000) (⟨j.val % 4, Nat.mod_lt _ (by norm_num)⟩ : Fin 4))) (x6 (ix2 b j)) := by
  unfold val_main_v124
  refine (concatenate_apply_piece (t := S4x900000) (1 : Fin 2) _ _ _ 6 ?_ S4x200000 (val_main_v122 (F := Ideal) x6 x7 x11) ?_ rfl 450000 ?_ (ix2 b j) ?_ ?_).trans ?_
  · show (6 : ℕ) < 8; omega
  · rfl
  · first | simp | rfl
  · intro a ha
    match a with
    | ⟨0, _⟩ => rfl
    | ⟨1, _⟩ => exact absurd rfl ha
  · rfl
  exact r_syn x6 x7 x11 b j

/-- The new delay buffer's [4, 5, 50000] form at row q. -/
theorem delayFlat (b : Fin 4) (q : Fin 5) (r : Fin 50000) :
    val_main_v123 (F := Ideal) x1 x2 x3 x4 x5 x7 x13 x16 x17 x18 x19 x20 x21 (ix2 b (⟨q.val * 50000 + r.val, by have := q.isLt; have := r.isLt; omega⟩ : Fin 250000))
      = val_main_v114 (F := Ideal) x1 x2 x3 x4 x5 x7 x13 x16 x17 x18 x19 x20 x21 (ix3 b q r) :=
  Cert.KernelIdeal.Layout.flatDelay _ b q r

theorem rpiece_delay0 (b : Fin 4) (n : Fin 50000) :
    val_main_v124 (F := Ideal) x0 x1 x2 x3 x4 x5 x6 x7 x8 x9 x10 x11 x12 x13 x14 x15 x16 x17 x18 x19 x20 x21 x22 x23 (ix2 b (⟨650000 + n.val, by have := n.isLt; omega⟩ : Fin 900000)) = spike (refr (x1 (ix2 b (⟨0 * 50000 + n.val, by have := n.isLt; omega⟩ : Fin 250000))) (x3 (ix2 b n)) (x13 (ix1 n))) (x16 (ix1 n)) (x17 (ix1 n)) (volt (x1 (ix2 b (⟨0 * 50000 + n.val, by have := n.isLt; omega⟩ : Fin 250000))) (x2 (ix2 b n)) (x4 (ix2 b n)) (x5 (ix2 b n)) (val_main_v83 (F := Ideal) x7 (ix2 b n)) (x16 (ix1 n)) (x17 (ix1 n)) (x18 (ix1 n)) (x19 (ix1 n)) (x20 (ix1 n)) (x21 (ix1 n))) := by
  unfold val_main_v124
  refine (concatenate_apply_piece (t := S4x900000) (1 : Fin 2) _ _ _ 7 ?_ S4x250000 (val_main_v123 (F := Ideal) x1 x2 x3 x4 x5 x7 x13 x16 x17 x18 x19 x20 x21) ?_ rfl 650000 ?_ (ix2 b (⟨(0 : Fin 5).val * 50000 + n.val, by have := n.isLt; show 0 * 50000 + n.val < 250000; omega⟩ : Fin 250000)) ?_ ?_).trans ?_
  · show (7 : ℕ) < 8; omega
  · rfl
  · first | simp | rfl
  · intro a ha
    match a with
    | ⟨0, _⟩ => rfl
    | ⟨1, _⟩ => exact absurd rfl ha
  · show 650000 + (0 * 50000 + n.val) = 650000 + n.val; omega
  refine (delayFlat x1 x2 x3 x4 x5 x7 x13 x16 x17 x18 x19 x20 x21 b (0 : Fin 5) n).trans ?_
  unfold val_main_v114
  refine (concatenate_apply_piece (t := S4x5x50000) (1 : Fin 3) _ _ _ 0 ?_ S4x1x50000 (val_main_v112 (F := Ideal) x1 x2 x3 x4 x5 x7 x13 x16 x17 x18 x19 x20 x21) ?_ rfl 0 ?_ (ix3 b (0 : Fin 1) n) ?_ ?_).trans ?_
  · show (0 : ℕ) < 2; omega
  · rfl
  · first | simp | rfl
  · intro a ha
    match a with
    | ⟨0, _⟩ => rfl
    | ⟨1, _⟩ => exact absurd rfl ha
    | ⟨2, _⟩ => rfl
  · rfl
  refine (Cert.KernelIdeal.Layout.midUnit _ b n).trans ?_
  exact r_spike x1 x2 x3 x4 x5 x7 x13 x16 x17 x18 x19 x20 x21 b n

theorem rpiece_delay1 (b : Fin 4) (n : Fin 50000) :
    val_main_v124 (F := Ideal) x0 x1 x2 x3 x4 x5 x6 x7 x8 x9 x10 x11 x12 x13 x14 x15 x16 x17 x18 x19 x20 x21 x22 x23 (ix2 b (⟨700000 + n.val, by have := n.isLt; omega⟩ : Fin 900000))
      = x1 (ix2 b (⟨0 * 50000 + n.val, by have := n.isLt; omega⟩ : Fin 250000)) := by
  unfold val_main_v124
  refine (concatenate_apply_piece (t := S4x900000) (1 : Fin 2) _ _ _ 7 ?_ S4x250000 (val_main_v123 (F := Ideal) x1 x2 x3 x4 x5 x7 x13 x16 x17 x18 x19 x20 x21) ?_ rfl 650000 ?_ (ix2 b (⟨(1 : Fin 5).val * 50000 + n.val, by have := n.isLt; show 1 * 50000 + n.val < 250000; omega⟩ : Fin 250000)) ?_ ?_).trans ?_
  · show (7 : ℕ) < 8; omega
  · rfl
  · first | simp | rfl
  · intro a ha
    match a with
    | ⟨0, _⟩ => rfl
    | ⟨1, _⟩ => exact absurd rfl ha
  · show 650000 + (1 * 50000 + n.val) = 700000 + n.val; omega
  refine (delayFlat x1 x2 x3 x4 x5 x7 x13 x16 x17 x18 x19 x20 x21 b (1 : Fin 5) n).trans ?_
  unfold val_main_v114
  refine (concatenate_apply_piece (t := S4x5x50000) (1 : Fin 3) _ _ _ 1 ?_ S4x4x50000 (val_main_v113 (F := Ideal) x1) ?_ rfl 1 ?_ (ix3 b (0 : Fin 4) n) ?_ ?_).trans ?_
  · show (1 : ℕ) < 2; omega
  · rfl
  · first | simp | rfl
  · intro a ha
    match a with
    | ⟨0, _⟩ => rfl
    | ⟨1, _⟩ => exact absurd rfl ha
    | ⟨2, _⟩ => rfl
  · rfl
  unfold val_main_v113 val_main_v0
  refine (extractStridedSlice_apply _ _ _ (ix3 b (0 : Fin 4) n) (ix3 b (0 : Fin 5) n) ?_).trans ?_
  · intro a
    match a with
    | ⟨0, _⟩ => show b.val = 0 + b.val; omega
    | ⟨1, _⟩ => show 0 = 0 + 0; rfl
    | ⟨2, _⟩ => show n.val = 0 + n.val; omega
  refine shapeCast_apply _ _ _ _ ?_
  rw [Shape.rowMajor_val_two, Shape.rowMajor_val_three]
  show b.val * 250000 + (0 * 50000 + n.val) = (b.val * 5 + 0) * 50000 + n.val
  have := b.isLt; have := n.isLt; omega

theorem rpiece_delay2 (b : Fin 4) (n : Fin 50000) :
    val_main_v124 (F := Ideal) x0 x1 x2 x3 x4 x5 x6 x7 x8 x9 x10 x11 x12 x13 x14 x15 x16 x17 x18 x19 x20 x21 x22 x23 (ix2 b (⟨750000 + n.val, by have := n.isLt; omega⟩ : Fin 900000))
      = x1 (ix2 b (⟨1 * 50000 + n.val, by have := n.isLt; omega⟩ : Fin 250000)) := by
  unfold val_main_v124
  refine (concatenate_apply_piece (t := S4x900000) (1 : Fin 2) _ _ _ 7 ?_ S4x250000 (val_main_v123 (F := Ideal) x1 x2 x3 x4 x5 x7 x13 x16 x17 x18 x19 x20 x21) ?_ rfl 650000 ?_ (ix2 b (⟨(2 : Fin 5).val * 50000 + n.val, by have := n.isLt; show 2 * 50000 + n.val < 250000; omega⟩ : Fin 250000)) ?_ ?_).trans ?_
  · show (7 : ℕ) < 8; omega
  · rfl
  · first | simp | rfl
  · intro a ha
    match a with
    | ⟨0, _⟩ => rfl
    | ⟨1, _⟩ => exact absurd rfl ha
  · show 650000 + (2 * 50000 + n.val) = 750000 + n.val; omega
  refine (delayFlat x1 x2 x3 x4 x5 x7 x13 x16 x17 x18 x19 x20 x21 b (2 : Fin 5) n).trans ?_
  unfold val_main_v114
  refine (concatenate_apply_piece (t := S4x5x50000) (1 : Fin 3) _ _ _ 1 ?_ S4x4x50000 (val_main_v113 (F := Ideal) x1) ?_ rfl 1 ?_ (ix3 b (1 : Fin 4) n) ?_ ?_).trans ?_
  · show (1 : ℕ) < 2; omega
  · rfl
  · first | simp | rfl
  · intro a ha
    match a with
    | ⟨0, _⟩ => rfl
    | ⟨1, _⟩ => exact absurd rfl ha
    | ⟨2, _⟩ => rfl
  · rfl
  unfold val_main_v113 val_main_v0
  refine (extractStridedSlice_apply _ _ _ (ix3 b (1 : Fin 4) n) (ix3 b (1 : Fin 5) n) ?_).trans ?_
  · intro a
    match a with
    | ⟨0, _⟩ => show b.val = 0 + b.val; omega
    | ⟨1, _⟩ => show 1 = 0 + 1; rfl
    | ⟨2, _⟩ => show n.val = 0 + n.val; omega
  refine shapeCast_apply _ _ _ _ ?_
  rw [Shape.rowMajor_val_two, Shape.rowMajor_val_three]
  show b.val * 250000 + (1 * 50000 + n.val) = (b.val * 5 + 1) * 50000 + n.val
  have := b.isLt; have := n.isLt; omega

theorem rpiece_delay3 (b : Fin 4) (n : Fin 50000) :
    val_main_v124 (F := Ideal) x0 x1 x2 x3 x4 x5 x6 x7 x8 x9 x10 x11 x12 x13 x14 x15 x16 x17 x18 x19 x20 x21 x22 x23 (ix2 b (⟨800000 + n.val, by have := n.isLt; omega⟩ : Fin 900000))
      = x1 (ix2 b (⟨2 * 50000 + n.val, by have := n.isLt; omega⟩ : Fin 250000)) := by
  unfold val_main_v124
  refine (concatenate_apply_piece (t := S4x900000) (1 : Fin 2) _ _ _ 7 ?_ S4x250000 (val_main_v123 (F := Ideal) x1 x2 x3 x4 x5 x7 x13 x16 x17 x18 x19 x20 x21) ?_ rfl 650000 ?_ (ix2 b (⟨(3 : Fin 5).val * 50000 + n.val, by have := n.isLt; show 3 * 50000 + n.val < 250000; omega⟩ : Fin 250000)) ?_ ?_).trans ?_
  · show (7 : ℕ) < 8; omega
  · rfl
  · first | simp | rfl
  · intro a ha
    match a with
    | ⟨0, _⟩ => rfl
    | ⟨1, _⟩ => exact absurd rfl ha
  · show 650000 + (3 * 50000 + n.val) = 800000 + n.val; omega
  refine (delayFlat x1 x2 x3 x4 x5 x7 x13 x16 x17 x18 x19 x20 x21 b (3 : Fin 5) n).trans ?_
  unfold val_main_v114
  refine (concatenate_apply_piece (t := S4x5x50000) (1 : Fin 3) _ _ _ 1 ?_ S4x4x50000 (val_main_v113 (F := Ideal) x1) ?_ rfl 1 ?_ (ix3 b (2 : Fin 4) n) ?_ ?_).trans ?_
  · show (1 : ℕ) < 2; omega
  · rfl
  · first | simp | rfl
  · intro a ha
    match a with
    | ⟨0, _⟩ => rfl
    | ⟨1, _⟩ => exact absurd rfl ha
    | ⟨2, _⟩ => rfl
  · rfl
  unfold val_main_v113 val_main_v0
  refine (extractStridedSlice_apply _ _ _ (ix3 b (2 : Fin 4) n) (ix3 b (2 : Fin 5) n) ?_).trans ?_
  · intro a
    match a with
    | ⟨0, _⟩ => show b.val = 0 + b.val; omega
    | ⟨1, _⟩ => show 2 = 0 + 2; rfl
    | ⟨2, _⟩ => show n.val = 0 + n.val; omega
  refine shapeCast_apply _ _ _ _ ?_
  rw [Shape.rowMajor_val_two, Shape.rowMajor_val_three]
  show b.val * 250000 + (2 * 50000 + n.val) = (b.val * 5 + 2) * 50000 + n.val
  have := b.isLt; have := n.isLt; omega

theorem rpiece_delay4 (b : Fin 4) (n : Fin 50000) :
    val_main_v124 (F := Ideal) x0 x1 x2 x3 x4 x5 x6 x7 x8 x9 x10 x11 x12 x13 x14 x15 x16 x17 x18 x19 x20 x21 x22 x23 (ix2 b (⟨850000 + n.val, by have := n.isLt; omega⟩ : Fin 900000))
      = x1 (ix2 b (⟨3 * 50000 + n.val, by have := n.isLt; omega⟩ : Fin 250000)) := by
  unfold val_main_v124
  refine (concatenate_apply_piece (t := S4x900000) (1 : Fin 2) _ _ _ 7 ?_ S4x250000 (val_main_v123 (F := Ideal) x1 x2 x3 x4 x5 x7 x13 x16 x17 x18 x19 x20 x21) ?_ rfl 650000 ?_ (ix2 b (⟨(4 : Fin 5).val * 50000 + n.val, by have := n.isLt; show 4 * 50000 + n.val < 250000; omega⟩ : Fin 250000)) ?_ ?_).trans ?_
  · show (7 : ℕ) < 8; omega
  · rfl
  · first | simp | rfl
  · intro a ha
    match a with
    | ⟨0, _⟩ => rfl
    | ⟨1, _⟩ => exact absurd rfl ha
  · show 650000 + (4 * 50000 + n.val) = 850000 + n.val; omega
  refine (delayFlat x1 x2 x3 x4 x5 x7 x13 x16 x17 x18 x19 x20 x21 b (4 : Fin 5) n).trans ?_
  unfold val_main_v114
  refine (concatenate_apply_piece (t := S4x5x50000) (1 : Fin 3) _ _ _ 1 ?_ S4x4x50000 (val_main_v113 (F := Ideal) x1) ?_ rfl 1 ?_ (ix3 b (3 : Fin 4) n) ?_ ?_).trans ?_
  · show (1 : ℕ) < 2; omega
  · rfl
  · first | simp | rfl
  · intro a ha
    match a with
    | ⟨0, _⟩ => rfl
    | ⟨1, _⟩ => exact absurd rfl ha
    | ⟨2, _⟩ => rfl
  · rfl
  unfold val_main_v113 val_main_v0
  refine (extractStridedSlice_apply _ _ _ (ix3 b (3 : Fin 4) n) (ix3 b (3 : Fin 5) n) ?_).trans ?_
  · intro a
    match a with
    | ⟨0, _⟩ => show b.val = 0 + b.val; omega
    | ⟨1, _⟩ => show 3 = 0 + 3; rfl
    | ⟨2, _⟩ => show n.val = 0 + n.val; omega
  refine shapeCast_apply _ _ _ _ ?_
  rw [Shape.rowMajor_val_two, Shape.rowMajor_val_three]
  show b.val * 250000 + (3 * 50000 + n.val) = (b.val * 5 + 3) * 50000 + n.val
  have := b.isLt; have := n.isLt; omega

end Cert.ReferenceIdeal.Pieces

end
-- ==== Proof.Bridge.lean ====
/-
  The two idealized programs compute one function. The kernel program's result, read off its run, is entry by entry
  the formulas of the result module; the reference's result term is the same formulas entry by entry. The columns of
  the [4, 900000] result fall in eight ranges (spike, output voltage, refractory counter, two adaptation currents,
  two synapse arrays, the delay buffer of five rows), and in each range both sides are one formula of the launch
  arguments at the entry's batch row and neuron.
-/
import proofs.«135958_j89670327206508_1_alg».proof.Defs
import proofs.«135958_j89670327206508_1_alg».proof.Proof.IdealResult
import proofs.«135958_j89670327206508_1_alg».proof.Proof.RefPieces
import proofs.«135958_j89670327206508_1_alg».proof.Proof.RefFrame

set_option maxRecDepth 16384

noncomputable section

namespace Cert.Proof.Bridge

open Idealize.ShloMosaic Idealize.ShloMosaic.TcCoe Idealize.ShloMosaic.ValueIdx
open Idealize.SL Idealize.SL.Sem
open Cert.KernelIdeal.Result

/-- The kernel program's run, re-posted: the result at the tail's term, the argument arrays unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v123) = kOut m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)) :=
  (θ_run (Cert.KernelIdeal.defs (F := Ideal)) _ _).mono (fun _ h c => ⟨(h c).2 Cert.KernelIdeal.main_v123 (Pipeline.mem_restRefs_of Cert.KernelIdeal.main_v123 (by decide) (by decide)),
    (((h c).2 Cert.KernelIdeal.main_arg0 (Pipeline.mem_restRefs_of Cert.KernelIdeal.main_arg0 (by decide) (by decide))).trans (Cert.KernelIdeal.Around.W_main_arg0 m (Cert.KernelIdeal.Whole.dats m) c)),
    (((h c).2 Cert.KernelIdeal.main_arg1 (Pipeline.mem_restRefs_of Cert.KernelIdeal.main_arg1 (by decide) (by decide))).trans (Cert.KernelIdeal.Around.W_main_arg1 m (Cert.KernelIdeal.Whole.dats m) c)),
    (((h c).2 Cert.KernelIdeal.main_arg2 (Pipeline.mem_restRefs_of Cert.KernelIdeal.main_arg2 (by decide) (by decide))).trans (Cert.KernelIdeal.Around.W_main_arg2 m (Cert.KernelIdeal.Whole.dats m) c)),
    (((h c).2 Cert.KernelIdeal.main_arg3 (Pipeline.mem_restRefs_of Cert.KernelIdeal.main_arg3 (by decide) (by decide))).trans (Cert.KernelIdeal.Around.W_main_arg3 m (Cert.KernelIdeal.Whole.dats m) c)),
    (((h c).2 Cert.KernelIdeal.main_arg4 (Pipeline.mem_restRefs_of Cert.KernelIdeal.main_arg4 (by decide) (by decide))).trans (Cert.KernelIdeal.Around.W_main_arg4 m (Cert.KernelIdeal.Whole.dats m) c)),
    (((h c).2 Cert.KernelIdeal.main_arg5 (Pipeline.mem_restRefs_of Cert.KernelIdeal.main_arg5 (by decide) (by decide))).trans (Cert.KernelIdeal.Around.W_main_arg5 m (Cert.KernelIdeal.Whole.dats m) c)),
    (((h c).2 Cert.KernelIdeal.main_arg6 (Pipeline.mem_restRefs_of Cert.KernelIdeal.main_arg6 (by decide) (by decide))).trans (Cert.KernelIdeal.Around.W_main_arg6 m (Cert.KernelIdeal.Whole.dats m) c)),
    (((h c).2 Cert.KernelIdeal.main_arg7 (Pipeline.mem_restRefs_of Cert.KernelIdeal.main_arg7 (by decide) (by decide))).trans (Cert.KernelIdeal.Around.W_main_arg7 m (Cert.KernelIdeal.Whole.dats m) c)),
    (((h c).2 Cert.KernelIdeal.main_arg8 (Pipeline.mem_restRefs_of Cert.KernelIdeal.main_arg8 (by decide) (by decide))).trans (Cert.KernelIdeal.Around.W_main_arg8 m (Cert.KernelIdeal.Whole.dats m) c)),
    (((h c).2 Cert.KernelIdeal.main_arg9 (Pipeline.mem_restRefs_of Cert.KernelIdeal.main_arg9 (by decide) (by decide))).trans (Cert.KernelIdeal.Around.W_main_arg9 m (Cert.KernelIdeal.Whole.dats m) c)),
    (((h c).2 Cert.KernelIdeal.main_arg10 (Pipeline.mem_restRefs_of Cert.KernelIdeal.main_arg10 (by decide) (by decide))).trans (Cert.KernelIdeal.Around.W_main_arg10 m (Cert.KernelIdeal.Whole.dats m) c)),
    (((h c).2 Cert.KernelIdeal.main_arg11 (Pipeline.mem_restRefs_of Cert.KernelIdeal.main_arg11 (by decide) (by decide))).trans (Cert.KernelIdeal.Around.W_main_arg11 m (Cert.KernelIdeal.Whole.dats m) c)),
    (((h c).2 Cert.KernelIdeal.main_arg12 (Pipeline.mem_restRefs_of Cert.KernelIdeal.main_arg12 (by decide) (by decide))).trans (Cert.KernelIdeal.Around.W_main_arg12 m (Cert.KernelIdeal.Whole.dats m) c)),
    (((h c).2 Cert.KernelIdeal.main_arg13 (Pipeline.mem_restRefs_of Cert.KernelIdeal.main_arg13 (by decide) (by decide))).trans (Cert.KernelIdeal.Around.W_main_arg13 m (Cert.KernelIdeal.Whole.dats m) c)),
    (((h c).2 Cert.KernelIdeal.main_arg14 (Pipeline.mem_restRefs_of Cert.KernelIdeal.main_arg14 (by decide) (by decide))).trans (Cert.KernelIdeal.Around.W_main_arg14 m (Cert.KernelIdeal.Whole.dats m) c)),
    (((h c).2 Cert.KernelIdeal.main_arg15 (Pipeline.mem_restRefs_of Cert.KernelIdeal.main_arg15 (by decide) (by decide))).trans (Cert.KernelIdeal.Around.W_main_arg15 m (Cert.KernelIdeal.Whole.dats m) c)),
    (((h c).2 Cert.KernelIdeal.main_arg16 (Pipeline.mem_restRefs_of Cert.KernelIdeal.main_arg16 (by decide) (by decide))).trans (Cert.KernelIdeal.Around.W_main_arg16 m (Cert.KernelIdeal.Whole.dats m) c)),
    (((h c).2 Cert.KernelIdeal.main_arg17 (Pipeline.mem_restRefs_of Cert.KernelIdeal.main_arg17 (by decide) (by decide))).trans (Cert.KernelIdeal.Around.W_main_arg17 m (Cert.KernelIdeal.Whole.dats m) c)),
    (((h c).2 Cert.KernelIdeal.main_arg18 (Pipeline.mem_restRefs_of Cert.KernelIdeal.main_arg18 (by decide) (by decide))).trans (Cert.KernelIdeal.Around.W_main_arg18 m (Cert.KernelIdeal.Whole.dats m) c)),
    (((h c).2 Cert.KernelIdeal.main_arg19 (Pipeline.mem_restRefs_of Cert.KernelIdeal.main_arg19 (by decide) (by decide))).trans (Cert.KernelIdeal.Around.W_main_arg19 m (Cert.KernelIdeal.Whole.dats m) c)),
    (((h c).2 Cert.KernelIdeal.main_arg20 (Pipeline.mem_restRefs_of Cert.KernelIdeal.main_arg20 (by decide) (by decide))).trans (Cert.KernelIdeal.Around.W_main_arg20 m (Cert.KernelIdeal.Whole.dats m) c)),
    (((h c).2 Cert.KernelIdeal.main_arg21 (Pipeline.mem_restRefs_of Cert.KernelIdeal.main_arg21 (by decide) (by decide))).trans (Cert.KernelIdeal.Around.W_main_arg21 m (Cert.KernelIdeal.Whole.dats m) c)),
    (((h c).2 Cert.KernelIdeal.main_arg22 (Pipeline.mem_restRefs_of Cert.KernelIdeal.main_arg22 (by decide) (by decide))).trans (Cert.KernelIdeal.Around.W_main_arg22 m (Cert.KernelIdeal.Whole.dats m) c)),
    (((h c).2 Cert.KernelIdeal.main_arg23 (Pipeline.mem_restRefs_of Cert.KernelIdeal.main_arg23 (by decide) (by decide))).trans (Cert.KernelIdeal.Around.W_main_arg23 m (Cert.KernelIdeal.Whole.dats m) c))⟩)
    (Cert.KernelIdeal.Whole.run_main (F := Ideal) m ρ)

/-- Every column of the result is in one of the twelve ranges. -/
theorem col_cases (col : Fin 900000) :
    (∃ n : Fin 50000, col.val = 0 + n.val) ∨ (∃ n : Fin 50000, col.val = 50000 + n.val) ∨ (∃ n : Fin 50000, col.val = 100000 + n.val)
    ∨ (∃ n : Fin 50000, col.val = 150000 + n.val) ∨ (∃ n : Fin 50000, col.val = 200000 + n.val)
    ∨ (∃ j : Fin 200000, col.val = 250000 + j.val) ∨ (∃ j : Fin 200000, col.val = 450000 + j.val)
    ∨ (∃ n : Fin 50000, col.val = 650000 + n.val) ∨ (∃ n : Fin 50000, col.val = 700000 + n.val) ∨ (∃ n : Fin 50000, col.val = 750000 + n.val)
    ∨ (∃ n : Fin 50000, col.val = 800000 + n.val) ∨ (∃ n : Fin 50000, col.val = 850000 + n.val) := by
  have h := col.isLt
  by_cases h1 : col.val < 50000
  · exact Or.inl ⟨⟨col.val, h1⟩, by show col.val = 0 + col.val; omega⟩
  by_cases h2 : col.val < 100000
  · exact Or.inr (Or.inl ⟨⟨col.val - 50000, by omega⟩, by show col.val = 50000 + (col.val - 50000); omega⟩)
  by_cases h3 : col.val < 150000
  · exact Or.inr (Or.inr (Or.inl ⟨⟨col.val - 100000, by omega⟩, by show col.val = 100000 + (col.val - 100000); omega⟩))
  by_cases h4 : col.val < 200000
  · exact Or.inr (Or.inr (Or.inr (Or.inl ⟨⟨col.val - 150000, by omega⟩, by show col.val = 150000 + (col.val - 150000); omega⟩)))
  by_cases h5 : col.val < 250000
  · exact Or.inr (Or.inr (Or.inr (Or.inr (Or.inl ⟨⟨col.val - 200000, by omega⟩, by show col.val = 200000 + (col.val - 200000); omega⟩))))
  by_cases h6 : col.val < 450000
  · exact Or.inr (Or.inr (Or.inr (Or.inr (Or.inr (Or.inl ⟨⟨col.val - 250000, by omega⟩, by show col.val = 250000 + (col.val - 250000); omega⟩)))))
  by_cases h7 : col.val < 650000
  · exact Or.inr (Or.inr (Or.inr (Or.inr (Or.inr (Or.inr (Or.inl ⟨⟨col.val - 450000, by omega⟩, by show col.val = 450000 + (col.val - 450000); omega⟩))))))
  by_cases h8 : col.val < 700000
  · exact Or.inr (Or.inr (Or.inr (Or.inr (Or.inr (Or.inr (Or.inr (Or.inl ⟨⟨col.val - 650000, by omega⟩, by show col.val = 650000 + (col.val - 650000); omega⟩)))))))
  by_cases h9 : col.val < 750000
  · exact Or.inr (Or.inr (Or.inr (Or.inr (Or.inr (Or.inr (Or.inr (Or.inr (Or.inl ⟨⟨col.val - 700000, by omega⟩, by show col.val = 700000 + (col.val - 700000); omega⟩))))))))
  by_cases h10 : col.val < 800000
  · exact Or.inr (Or.inr (Or.inr (Or.inr (Or.inr (Or.inr (Or.inr (Or.inr (Or.inr (Or.inl ⟨⟨col.val - 750000, by omega⟩, by show col.val = 750000 + (col.val - 750000); omega⟩)))))))))
  by_cases h11 : col.val < 850000
  · exact Or.inr (Or.inr (Or.inr (Or.inr (Or.inr (Or.inr (Or.inr (Or.inr (Or.inr (Or.inr (Or.inl ⟨⟨col.val - 800000, by omega⟩, by show col.val = 800000 + (col.val - 800000); omega⟩))))))))))
  · exact Or.inr (Or.inr (Or.inr (Or.inr (Or.inr (Or.inr (Or.inr (Or.inr (Or.inr (Or.inr (Or.inr ⟨⟨col.val - 850000, by omega⟩, by show col.val = 850000 + (col.val - 850000); omega⟩))))))))))

set_option maxHeartbeats 2000000 in
/-- The kernel program's result is the reference's term of the same arguments. -/
theorem same (m : (ℓ : Loc Cert.KernelIdeal.nD Cert.KernelIdeal.τ Cert.KernelIdeal.sig) → Buf (Elt Ideal) ℓ) (c : Dev Cert.KernelIdeal.nD) :
    kOut m c = Cert.ReferenceIdeal.Read.val_main_v124 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) := by
  funext i
  obtain ⟨b, col, rfl⟩ : ∃ (b : Fin 4) (col : Fin 900000), i = ix2 b col := ⟨i 0, i 1, eq_ix2 i⟩
  rcases col_cases col with ⟨n, hn⟩ | ⟨n, hn⟩ | ⟨n, hn⟩ | ⟨n, hn⟩ | ⟨n, hn⟩ | ⟨j, hj⟩ | ⟨j, hj⟩ | ⟨n, hn⟩ | ⟨n, hn⟩ | ⟨n, hn⟩ | ⟨n, hn⟩ | ⟨n, hn⟩
  · have e : col = ⟨0 + n.val, by have := n.isLt; omega⟩ := Fin.ext hn
    rw [e]
    exact (kpiece_spike m c b n).trans (Cert.ReferenceIdeal.Pieces.rpiece_spike (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) b n).symm
  · have e : col = ⟨50000 + n.val, by have := n.isLt; omega⟩ := Fin.ext hn
    rw [e]
    exact (kpiece_out m c b n).trans (Cert.ReferenceIdeal.Pieces.rpiece_out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) b n).symm
  · have e : col = ⟨100000 + n.val, by have := n.isLt; omega⟩ := Fin.ext hn
    rw [e]
    exact (kpiece_refr m c b n).trans (Cert.ReferenceIdeal.Pieces.rpiece_refr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) b n).symm
  · have e : col = ⟨150000 + n.val, by have := n.isLt; omega⟩ := Fin.ext hn
    rw [e]
    exact (kpiece_ad1 m c b n).trans (Cert.ReferenceIdeal.Pieces.rpiece_ad1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) b n).symm
  · have e : col = ⟨200000 + n.val, by have := n.isLt; omega⟩ := Fin.ext hn
    rw [e]
    exact (kpiece_ad2 m c b n).trans (Cert.ReferenceIdeal.Pieces.rpiece_ad2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) b n).symm
  · have e : col = ⟨250000 + j.val, by have := j.isLt; omega⟩ := Fin.ext hj
    rw [e]
    exact (kpiece_rise m c b j).trans (Cert.ReferenceIdeal.Pieces.rpiece_rise (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) b j).symm
  · have e : col = ⟨450000 + j.val, by have := j.isLt; omega⟩ := Fin.ext hj
    rw [e]
    exact (kpiece_syn m c b j).trans (Cert.ReferenceIdeal.Pieces.rpiece_syn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) b j).symm
  · have e : col = ⟨650000 + n.val, by have := n.isLt; omega⟩ := Fin.ext hn
    rw [e]
    exact (kpiece_delay0 m c b n).trans (Cert.ReferenceIdeal.Pieces.rpiece_delay0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) b n).symm
  · have e : col = ⟨700000 + n.val, by have := n.isLt; omega⟩ := Fin.ext hn
    rw [e]
    exact (kpiece_delay1 m c b n).trans (Cert.ReferenceIdeal.Pieces.rpiece_delay1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) b n).symm
  · have e : col = ⟨750000 + n.val, by have := n.isLt; omega⟩ := Fin.ext hn
    rw [e]
    exact (kpiece_delay2 m c b n).trans (Cert.ReferenceIdeal.Pieces.rpiece_delay2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) b n).symm
  · have e : col = ⟨800000 + n.val, by have := n.isLt; omega⟩ := Fin.ext hn
    rw [e]
    exact (kpiece_delay3 m c b n).trans (Cert.ReferenceIdeal.Pieces.rpiece_delay3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) b n).symm
  · have e : col = ⟨850000 + n.val, by have := n.isLt; omega⟩ := Fin.ext hn
    rw [e]
    exact (kpiece_delay4 m c b n).trans (Cert.ReferenceIdeal.Pieces.rpiece_delay4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) b n).symm

/-- From memories agreeing on the arguments both programs run to the end with equal results, the arguments unchanged. -/
theorem algebraic : Cert.algebraic_KernelIdeal_ReferenceIdeal := by
  intro m ρ m' ρ' _ hagree
  refine ⟨fun c => kOut m c, kernel_run m ρ, ?_⟩
  refine (θ_run (Cert.ReferenceIdeal.defs (F := Ideal)) _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23⟩ := hagree c
  rw [Cert.ReferenceIdeal.Read.val_main_v124_eq, h0, h1, h2, h3, h4, h5, h6, h7, h8, h9, h10, h11, h12, h13, h14, h15, h16, h17, h18, h19, h20, h21, h22, h23]
  exact (same m c).symm

end Cert.Proof.Bridge

end
-- ==== Proof.lean ====
/-
  The certificate's claim. The word-level kernel and its idealization run to the end without a fault and leave
  their argument arrays as launched (one region of four grid points over thirty-nine windows, between host
  operations); so does the reference; the idealization rewrote nothing; and the two idealized programs, run
  from memories that agree on the arguments, end with equal results.
-/
import proofs.«135958_j89670327206508_1_alg».proof.Defs
import proofs.«135958_j89670327206508_1_alg».proof.Proof.BitsWhole
import proofs.«135958_j89670327206508_1_alg».proof.Proof.IdealWhole
import proofs.«135958_j89670327206508_1_alg».proof.Proof.RefFrame
import proofs.«135958_j89670327206508_1_alg».proof.Proof.Bridge
import proofs.«135958_j89670327206508_1_alg».proof.Proof.Gen.Kernel
import proofs.«135958_j89670327206508_1_alg».proof.Proof.Gen.KernelIdeal
import proofs.«135958_j89670327206508_1_alg».proof.Proof.Gen.ReferenceIdeal
import proofs.«135958_j89670327206508_1_alg».proof.Proof.Gen.Pre_finite_inputs
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Whole.frame m ρ, fun m ρ _ => Cert.KernelIdeal.Whole.frame m ρ, RefClaims.frame_ri, trivial, Bridge.algebraic⟩

end Cert.Proof

end
